-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)) (v10 : (c : Dev Cert.KernelIdeal.nD) → Buf (Elt Ideal) ((c.tc : Thread Cert.KernelIdeal.nD Cert.KernelIdeal.τ).loc Cert.KernelIdeal.main_v0_10)) (v11 : (c : Dev Cert.KernelIdeal.nD) → Buf (Elt Ideal) ((c.tc : Thread Cert.KernelIdeal.nD Cert.KernelIdeal.τ).loc Cert.KernelIdeal.main_v0_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_v0_10) = v10 c
          ∧ r.2.mem ((c.tc : Thread Cert.KernelIdeal.nD Cert.KernelIdeal.τ).loc Cert.KernelIdeal.main_v0_11) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_v4) = v4 c
          ∧ r.2.mem ((c.tc : Thread Cert.ReferenceIdeal.nD Cert.ReferenceIdeal.τ).loc Cert.ReferenceIdeal.main_v5) = v5 c
          ∧ r.2.mem ((c.tc : Thread Cert.ReferenceIdeal.nD Cert.ReferenceIdeal.τ).loc Cert.ReferenceIdeal.main_v6) = v6 c
          ∧ r.2.mem ((c.tc : Thread Cert.ReferenceIdeal.nD Cert.ReferenceIdeal.τ).loc Cert.ReferenceIdeal.main_v7) = v7 c
          ∧ r.2.mem ((c.tc : Thread Cert.ReferenceIdeal.nD Cert.ReferenceIdeal.τ).loc Cert.ReferenceIdeal.main_v8) = v8 c
          ∧ r.2.mem ((c.tc : Thread Cert.ReferenceIdeal.nD Cert.ReferenceIdeal.τ).loc Cert.ReferenceIdeal.main_v9) = v9 c
          ∧ r.2.mem ((c.tc : Thread Cert.ReferenceIdeal.nD Cert.ReferenceIdeal.τ).loc Cert.ReferenceIdeal.main_v10) = v10 c
          ∧ r.2.mem ((c.tc : Thread Cert.ReferenceIdeal.nD Cert.ReferenceIdeal.τ).loc Cert.ReferenceIdeal.main_v11) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000x1x128 : Shape := ⟨3, ![8000, 1, 128]⟩
abbrev S8000x3x256 : Shape := ⟨3, ![8000, 3, 256]⟩
abbrev S8000x5x512 : Shape := ⟨3, ![8000, 5, 512]⟩
abbrev S8000x7x1024 : Shape := ⟨3, ![8000, 7, 1024]⟩
abbrev S1x128 : Shape := ⟨2, ![1, 128]⟩
abbrev S1x256 : Shape := ⟨2, ![1, 256]⟩
abbrev S1x512 : Shape := ⟨2, ![1, 512]⟩
abbrev S1x1024 : Shape := ⟨2, ![1, 1024]⟩
abbrev S_ : Shape := ⟨0, ![]⟩

class Facts : Prop where
  bcast_S_S8000x1x128 : S_.BroadcastsInDim S8000x1x128 (![] : Fin 0 → Fin S8000x1x128.rank)
  reducesTo_S8000x1x128_S_d0_1_2 : S8000x1x128.ReducesTo [0, 1, 2] S_
  h_S_ : 0 < S_.numel
  bcast_S_S8000x3x256 : S_.BroadcastsInDim S8000x3x256 (![] : Fin 0 → Fin S8000x3x256.rank)
  reducesTo_S8000x3x256_S_d0_1_2 : S8000x3x256.ReducesTo [0, 1, 2] S_
  bcast_S_S8000x5x512 : S_.BroadcastsInDim S8000x5x512 (![] : Fin 0 → Fin S8000x5x512.rank)
  reducesTo_S8000x5x512_S_d0_1_2 : S8000x5x512.ReducesTo [0, 1, 2] S_
  bcast_S_S8000x7x1024 : S_.BroadcastsInDim S8000x7x1024 (![] : Fin 0 → Fin S8000x7x1024.rank)
  reducesTo_S8000x7x1024_S_d0_1_2 : S8000x7x1024.ReducesTo [0, 1, 2] S_
  bcast_S_S1x128 : S_.BroadcastsInDim S1x128 (![] : Fin 0 → Fin S1x128.rank)
  reducesTo_S1x128_S_d0_1 : S1x128.ReducesTo [0, 1] S_
  bcast_S_S1x256 : S_.BroadcastsInDim S1x256 (![] : Fin 0 → Fin S1x256.rank)
  reducesTo_S1x256_S_d0_1 : S1x256.ReducesTo [0, 1] S_
  bcast_S_S1x512 : S_.BroadcastsInDim S1x512 (![] : Fin 0 → Fin S1x512.rank)
  reducesTo_S1x512_S_d0_1 : S1x512.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part6 {F : FTy → Type} [FloatOps F] (main_arg21 : FVec F S1x256 .f32) (main_arg22 : FVec F S1x512 .f32) (main_arg23 : FVec F S1x1024 .f32) (main_v98 : IVec S_ 1) (main_v101 : IVec S1x128 1) (main_c_39 : IVec S_ 1) : IVec S_ 1 :=
  let main_v102 : IVec S_ 1 := (fun x v => Host.reduce IntOp.andi x v reducesTo_S1x128_S_d0_1 h_S_) main_v101 main_c_39
  let main_v103 : IVec S_ 1 := andi main_v98 main_v102
  let main_v104 : FVec F S1x256 .f32 := Host.absf main_arg21
  let main_cst_40 : FVec F S_ .f32 := constant S_ .f32 0x7F800000#32
  let main_v105 : FVec F S1x256 .f32 := broadcastInDim S1x256 ![] bcast_S_S1x256 main_cst_40
  let main_v106 : IVec S1x256 1 := cmpf .olt main_v104 main_v105
  let main_c_41 : IVec S_ 1 := constantI S_ 1 1#1
  let main_v107 : IVec S_ 1 := (fun x v => Host.reduce IntOp.andi x v reducesTo_S1x256_S_d0_1 h_S_) main_v106 main_c_41
  let main_v108 : IVec S_ 1 := andi main_v103 main_v107
  let main_v109 : FVec F S1x512 .f32 := Host.absf main_arg22
  let main_cst_42 : FVec F S_ .f32 := constant S_ .f32 0x7F800000#32
  let main_v110 : FVec F S1x512 .f32 := broadcastInDim S1x512 ![] bcast_S_S1x512 main_cst_42
  let main_v111 : IVec S1x512 1 := cmpf .olt main_v109 main_v110
  let main_c_43 : IVec S_ 1 := constantI S_ 1 1#1
  let main_v112 : IVec S_ 1 := (fun x v => Host.reduce IntOp.andi x v reducesTo_S1x512_S_d0_1 h_S_) main_v111 main_c_43
  let main_v113 : IVec S_ 1 := andi main_v108 main_v112
  let main_v114 : FVec F S1x1024 .f32 := Host.absf main_arg23
  let main_cst_44 : FVec F S_ .f32 := constant S_ .f32 0x7F800000#32
  let main_v115 : FVec F S1x1024 .f32 := broadcastInDim S1x1024 ![] bcast_S_S1x1024 main_cst_44
  let main_v116 : IVec S1x1024 1 := cmpf .olt main_v114 main_v115
  let main_c_45 : IVec S_ 1 := constantI S_ 1 1#1
  let main_v117 : IVec S_ 1 := (fun x v => Host.reduce IntOp.andi x v reducesTo_S1x1024_S_d0_1 h_S_) main_v116 main_c_45
  let main_v118 : IVec S_ 1 := andi main_v113 main_v117
  main_v118

def fn_part5 {F : FTy → Type} [FloatOps F] (main_arg18 : FVec F S1x512 .f32) (main_arg19 : FVec F S1x1024 .f32) (main_arg20 : FVec F S1x128 .f32) (main_arg21 : FVec F S1x256 .f32) (main_arg22 : FVec F S1x512 .f32) (main_arg23 : FVec F S1x1024 .f32) (main_v83 : IVec S_ 1) (main_v84 : FVec F S1x256 .f32) (main_cst_32 : FVec F S_ .f32) : IVec S_ 1 :=
  let main_v85 : FVec F S1x256 .f32 := broadcastInDim S1x256 ![] bcast_S_S1x256 main_cst_32
  let main_v86 : IVec S1x256 1 := cmpf .olt main_v84 main_v85
  let main_c_33 : IVec S_ 1 := constantI S_ 1 1#1
  let main_v87 : IVec S_ 1 := (fun x v => Host.reduce IntOp.andi x v reducesTo_S1x256_S_d0_1 h_S_) main_v86 main_c_33
  let main_v88 : IVec S_ 1 := andi main_v83 main_v87
  let main_v89 : FVec F S1x512 .f32 := Host.absf main_arg18
  let main_cst_34 : FVec F S_ .f32 := constant S_ .f32 0x7F800000#32
  let main_v90 : FVec F S1x512 .f32 := broadcastInDim S1x512 ![] bcast_S_S1x512 main_cst_34
  let main_v91 : IVec S1x512 1 := cmpf .olt main_v89 main_v90
  let main_c_35 : IVec S_ 1 := constantI S_ 1 1#1
  let main_v92 : IVec S_ 1 := (fun x v => Host.reduce IntOp.andi x v reducesTo_S1x512_S_d0_1 h_S_) main_v91 main_c_35
  let main_v93 : IVec S_ 1 := andi main_v88 main_v92
  let main_v94 : FVec F S1x1024 .f32 := Host.absf main_arg19
  let main_cst_36 : FVec F S_ .f32 := constant S_ .f32 0x7F800000#32
  let main_v95 : FVec F S1x1024 .f32 := broadcastInDim S1x1024 ![] bcast_S_S1x1024 main_cst_36
  let main_v96 : IVec S1x1024 1 := cmpf .olt main_v94 main_v95
  let main_c_37 : IVec S_ 1 := constantI S_ 1 1#1
  let main_v97 : IVec S_ 1 := (fun x v => Host.reduce IntOp.andi x v reducesTo_S1x1024_S_d0_1 h_S_) main_v96 main_c_37
  let main_v98 : IVec S_ 1 := andi main_v93 main_v97
  let main_v99 : FVec F S1x128 .f32 := Host.absf main_arg20
  let main_cst_38 : FVec F S_ .f32 := constant S_ .f32 0x7F800000#32
  let main_v100 : FVec F S1x128 .f32 := broadcastInDim S1x128 ![] bcast_S_S1x128 main_cst_38
  let main_v101 : IVec S1x128 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S1x512 .f32) (main_arg15 : FVec F S1x1024 .f32) (main_arg16 : FVec F S1x128 .f32) (main_arg17 : FVec F S1x256 .f32) (main_arg18 : FVec F S1x512 .f32) (main_arg19 : FVec F S1x1024 .f32) (main_arg20 : FVec F S1x128 .f32) (main_arg21 : FVec F S1x256 .f32) (main_arg22 : FVec F S1x512 .f32) (main_arg23 : FVec F S1x1024 .f32) (main_v63 : IVec S_ 1) (main_v67 : IVec S_ 1) : IVec S_ 1 :=
  let main_v68 : IVec S_ 1 := andi main_v63 main_v67
  let main_v69 : FVec F S1x512 .f32 := Host.absf main_arg14
  let main_cst_26 : FVec F S_ .f32 := constant S_ .f32 0x7F800000#32
  let main_v70 : FVec F S1x512 .f32 := broadcastInDim S1x512 ![] bcast_S_S1x512 main_cst_26
  let main_v71 : IVec S1x512 1 := cmpf .olt main_v69 main_v70
  let main_c_27 : IVec S_ 1 := constantI S_ 1 1#1
  let main_v72 : IVec S_ 1 := (fun x v => Host.reduce IntOp.andi x v reducesTo_S1x512_S_d0_1 h_S_) main_v71 main_c_27
  let main_v73 : IVec S_ 1 := andi main_v68 main_v72
  let main_v74 : FVec F S1x1024 .f32 := Host.absf main_arg15
  let main_cst_28 : FVec F S_ .f32 := constant S_ .f32 0x7F800000#32
  let main_v75 : FVec F S1x1024 .f32 := broadcastInDim S1x1024 ![] bcast_S_S1x1024 main_cst_28
  let main_v76 : IVec S1x1024 1 := cmpf .olt main_v74 main_v75
  let main_c_29 : IVec S_ 1 := constantI S_ 1 1#1
  let main_v77 : IVec S_ 1 := (fun x v => Host.reduce IntOp.andi x v reducesTo_S1x1024_S_d0_1 h_S_) main_v76 main_c_29
  let main_v78 : IVec S_ 1 := andi main_v73 main_v77
  let main_v79 : FVec F S1x128 .f32 := Host.absf main_arg16
  let main_cst_30 : FVec F S_ .f32 := constant S_ .f32 0x7F800000#32
  let main_v80 : FVec F S1x128 .f32 := broadcastInDim S1x128 ![] bcast_S_S1x128 main_cst_30
  let main_v81 : IVec S1x128 1 := cmpf .olt main_v79 main_v80
  let main_c_31 : IVec S_ 1 := constantI S_ 1 1#1
  let main_v82 : IVec S_ 1 := (fun x v => Host.reduce IntOp.andi x v reducesTo_S1x128_S_d0_1 h_S_) main_v81 main_c_31
  let main_v83 : IVec S_ 1 := andi main_v78 main_v82
  let main_v84 : FVec F S1x256 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S8000x7x1024 .f32) (main_arg12 : FVec F S1x128 .f32) (main_arg13 : FVec F S1x256 .f32) (main_arg14 : FVec F S1x512 .f32) (main_arg15 : FVec F S1x1024 .f32) (main_arg16 : FVec F S1x128 .f32) (main_arg17 : FVec F S1x256 .f32) (main_arg18 : FVec F S1x512 .f32) (main_arg19 : FVec F S1x1024 .f32) (main_arg20 : FVec F S1x128 .f32) (main_arg21 : FVec F S1x256 .f32) (main_arg22 : FVec F S1x512 .f32) (main_arg23 : FVec F S1x1024 .f32) (main_v48 : IVec S_ 1) (main_v49 : FVec F S8000x5x512 .f32) (main_v50 : FVec F S8000x5x512 .f32) : IVec S_ 1 :=
  let main_v51 : IVec S8000x5x512 1 := cmpf .olt main_v49 main_v50
  let main_c_19 : IVec S_ 1 := constantI S_ 1 1#1
  let main_v52 : IVec S_ 1 := (fun x v => Host.reduce IntOp.andi x v reducesTo_S8000x5x512_S_d0_1_2 h_S_) main_v51 main_c_19
  let main_v53 : IVec S_ 1 := andi main_v48 main_v52
  let main_v54 : FVec F S8000x7x1024 .f32 := Host.absf main_arg11
  let main_cst_20 : FVec F S_ .f32 := constant S_ .f32 0x7F800000#32
  let main_v55 : FVec F S8000x7x1024 .f32 := broadcastInDim S8000x7x1024 ![] bcast_S_S8000x7x1024 main_cst_20
  let main_v56 : IVec S8000x7x1024 1 := cmpf .olt main_v54 main_v55
  let main_c_21 : IVec S_ 1 := constantI S_ 1 1#1
  let main_v57 : IVec S_ 1 := (fun x v => Host.reduce IntOp.andi x v reducesTo_S8000x7x1024_S_d0_1_2 h_S_) main_v56 main_c_21
  let main_v58 : IVec S_ 1 := andi main_v53 main_v57
  let main_v59 : FVec F S1x128 .f32 := Host.absf main_arg12
  let main_cst_22 : FVec F S_ .f32 := constant S_ .f32 0x7F800000#32
  let main_v60 : FVec F S1x128 .f32 := broadcastInDim S1x128 ![] bcast_S_S1x128 main_cst_22
  let main_v61 : IVec S1x128 1 := cmpf .olt main_v59 main_v60
  let main_c_23 : IVec S_ 1 := constantI S_ 1 1#1
  let main_v62 : IVec S_ 1 := (fun x v => Host.reduce IntOp.andi x v reducesTo_S1x128_S_d0_1 h_S_) main_v61 main_c_23
  let main_v63 : IVec S_ 1 := andi main_v58 main_v62
  let main_v64 : FVec F S1x256 .f32 := Host.absf main_arg13
  let main_cst_24 : FVec F S_ .f32 := constant S_ .f32 0x7F800000#32
  let main_v65 : FVec F S1x256 .f32 := broadcastInDim S1x256 ![] bcast_S_S1x256 main_cst_24
  let main_v66 : IVec S1x256 1 := cmpf .olt main_v64 main_v65
  let main_c_25 : IVec S_ 1 := constantI S_ 1 1#1
  let main_v67 : IVec S_ 1 := (fun x v => Host.reduce IntOp.andi x v reducesTo_S1x256_S_d0_1 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S8000x7x1024 .f32) (main_arg8 : FVec F S8000x1x128 .f32) (main_arg9 : FVec F S8000x3x256 .f32) (main_arg10 : FVec F S8000x5x512 .f32) (main_arg11 : FVec F S8000x7x1024 .f32) (main_arg12 : FVec F S1x128 .f32) (main_arg13 : FVec F S1x256 .f32) (main_arg14 : FVec F S1x512 .f32) (main_arg15 : FVec F S1x1024 .f32) (main_arg16 : FVec F S1x128 .f32) (main_arg17 : FVec F S1x256 .f32) (main_arg18 : FVec F S1x512 .f32) (main_arg19 : FVec F S1x1024 .f32) (main_arg20 : FVec F S1x128 .f32) (main_arg21 : FVec F S1x256 .f32) (main_arg22 : FVec F S1x512 .f32) (main_arg23 : FVec F S1x1024 .f32) (main_v33 : IVec S_ 1) : IVec S_ 1 :=
  let main_v34 : FVec F S8000x7x1024 .f32 := Host.absf main_arg7
  let main_cst_12 : FVec F S_ .f32 := constant S_ .f32 0x7F800000#32
  let main_v35 : FVec F S8000x7x1024 .f32 := broadcastInDim S8000x7x1024 ![] bcast_S_S8000x7x1024 main_cst_12
  let main_v36 : IVec S8000x7x1024 1 := cmpf .olt main_v34 main_v35
  let main_c_13 : IVec S_ 1 := constantI S_ 1 1#1
  let main_v37 : IVec S_ 1 := (fun x v => Host.reduce IntOp.andi x v reducesTo_S8000x7x1024_S_d0_1_2 h_S_) main_v36 main_c_13
  let main_v38 : IVec S_ 1 := andi main_v33 main_v37
  let main_v39 : FVec F S8000x1x128 .f32 := Host.absf main_arg8
  let main_cst_14 : FVec F S_ .f32 := constant S_ .f32 0x7F800000#32
  let main_v40 : FVec F S8000x1x128 .f32 := broadcastInDim S8000x1x128 ![] bcast_S_S8000x1x128 main_cst_14
  let main_v41 : IVec S8000x1x128 1 := cmpf .olt main_v39 main_v40
  let main_c_15 : IVec S_ 1 := constantI S_ 1 1#1
  let main_v42 : IVec S_ 1 := (fun x v => Host.reduce IntOp.andi x v reducesTo_S8000x1x128_S_d0_1_2 h_S_) main_v41 main_c_15
  let main_v43 : IVec S_ 1 := andi main_v38 main_v42
  let main_v44 : FVec F S8000x3x256 .f32 := Host.absf main_arg9
  let main_cst_16 : FVec F S_ .f32 := constant S_ .f32 0x7F800000#32
  let main_v45 : FVec F S8000x3x256 .f32 := broadcastInDim S8000x3x256 ![] bcast_S_S8000x3x256 main_cst_16
  let main_v46 : IVec S8000x3x256 1 := cmpf .olt main_v44 main_v45
  let main_c_17 : IVec S_ 1 := constantI S_ 1 1#1
  let main_v47 : IVec S_ 1 := (fun x v => Host.reduce IntOp.andi x v reducesTo_S8000x3x256_S_d0_1_2 h_S_) main_v46 main_c_17
  let main_v48 : IVec S_ 1 := andi main_v43 main_v47
  let main_v49 : FVec F S8000x5x512 .f32 := Host.absf main_arg10
  let main_cst_18 : FVec F S_ .f32 := constant S_ .f32 0x7F800000#32
  let main_v50 : FVec F S8000x5x512 .f32 := broadcastInDim S8000x5x512 ![] bcast_S_S8000x5x512 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S8000x1x128 .f32) (main_arg5 : FVec F S8000x3x256 .f32) (main_arg6 : FVec F S8000x5x512 .f32) (main_arg7 : FVec F S8000x7x1024 .f32) (main_arg8 : FVec F S8000x1x128 .f32) (main_arg9 : FVec F S8000x3x256 .f32) (main_arg10 : FVec F S8000x5x512 .f32) (main_arg11 : FVec F S8000x7x1024 .f32) (main_arg12 : FVec F S1x128 .f32) (main_arg13 : FVec F S1x256 .f32) (main_arg14 : FVec F S1x512 .f32) (main_arg15 : FVec F S1x1024 .f32) (main_arg16 : FVec F S1x128 .f32) (main_arg17 : FVec F S1x256 .f32) (main_arg18 : FVec F S1x512 .f32) (main_arg19 : FVec F S1x1024 .f32) (main_arg20 : FVec F S1x128 .f32) (main_arg21 : FVec F S1x256 .f32) (main_arg22 : FVec F S1x512 .f32) (main_arg23 : FVec F S1x1024 .f32) (main_v13 : IVec S_ 1) (main_v16 : IVec S8000x7x1024 1) : IVec S_ 1 :=
  let main_c_5 : IVec S_ 1 := constantI S_ 1 1#1
  let main_v17 : IVec S_ 1 := (fun x v => Host.reduce IntOp.andi x v reducesTo_S8000x7x1024_S_d0_1_2 h_S_) main_v16 main_c_5
  let main_v18 : IVec S_ 1 := andi main_v13 main_v17
  let main_v19 : FVec F S8000x1x128 .f32 := Host.absf main_arg4
  let main_cst_6 : FVec F S_ .f32 := constant S_ .f32 0x7F800000#32
  let main_v20 : FVec F S8000x1x128 .f32 := broadcastInDim S8000x1x128 ![] bcast_S_S8000x1x128 main_cst_6
  let main_v21 : IVec S8000x1x128 1 := cmpf .olt main_v19 main_v20
  let main_c_7 : IVec S_ 1 := constantI S_ 1 1#1
  let main_v22 : IVec S_ 1 := (fun x v => Host.reduce IntOp.andi x v reducesTo_S8000x1x128_S_d0_1_2 h_S_) main_v21 main_c_7
  let main_v23 : IVec S_ 1 := andi main_v18 main_v22
  let main_v24 : FVec F S8000x3x256 .f32 := Host.absf main_arg5
  let main_cst_8 : FVec F S_ .f32 := constant S_ .f32 0x7F800000#32
  let main_v25 : FVec F S8000x3x256 .f32 := broadcastInDim S8000x3x256 ![] bcast_S_S8000x3x256 main_cst_8
  let main_v26 : IVec S8000x3x256 1 := cmpf .olt main_v24 main_v25
  let main_c_9 : IVec S_ 1 := constantI S_ 1 1#1
  let main_v27 : IVec S_ 1 := (fun x v => Host.reduce IntOp.andi x v reducesTo_S8000x3x256_S_d0_1_2 h_S_) main_v26 main_c_9
  let main_v28 : IVec S_ 1 := andi main_v23 main_v27
  let main_v29 : FVec F S8000x5x512 .f32 := Host.absf main_arg6
  let main_cst_10 : FVec F S_ .f32 := constant S_ .f32 0x7F800000#32
  let main_v30 : FVec F S8000x5x512 .f32 := broadcastInDim S8000x5x512 ![] bcast_S_S8000x5x512 main_cst_10
  let main_v31 : IVec S8000x5x512 1 := cmpf .olt main_v29 main_v30
  let main_c_11 : IVec S_ 1 := constantI S_ 1 1#1
  let main_v32 : IVec S_ 1 := (fun x v => Host.reduce IntOp.andi x v reducesTo_S8000x5x512_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S8000x1x128 .f32) (main_arg1 : FVec F S8000x3x256 .f32) (main_arg2 : FVec F S8000x5x512 .f32) (main_arg3 : FVec F S8000x7x1024 .f32) (main_arg4 : FVec F S8000x1x128 .f32) (main_arg5 : FVec F S8000x3x256 .f32) (main_arg6 : FVec F S8000x5x512 .f32) (main_arg7 : FVec F S8000x7x1024 .f32) (main_arg8 : FVec F S8000x1x128 .f32) (main_arg9 : FVec F S8000x3x256 .f32) (main_arg10 : FVec F S8000x5x512 .f32) (main_arg11 : FVec F S8000x7x1024 .f32) (main_arg12 : FVec F S1x128 .f32) (main_arg13 : FVec F S1x256 .f32) (main_arg14 : FVec F S1x512 .f32) (main_arg15 : FVec F S1x1024 .f32) (main_arg16 : FVec F S1x128 .f32) (main_arg17 : FVec F S1x256 .f32) (main_arg18 : FVec F S1x512 .f32) (main_arg19 : FVec F S1x1024 .f32) (main_arg20 : FVec F S1x128 .f32) (main_arg21 : FVec F S1x256 .f32) (main_arg22 : FVec F S1x512 .f32) (main_arg23 : FVec F S1x1024 .f32) : IVec S_ 1 :=
  let main_v0 : FVec F S8000x1x128 .f32 := Host.absf main_arg0
  let main_cst : FVec F S_ .f32 := constant S_ .f32 0x7F800000#32
  let main_v1 : FVec F S8000x1x128 .f32 := broadcastInDim S8000x1x128 ![] bcast_S_S8000x1x128 main_cst
  let main_v2 : IVec S8000x1x128 1 := cmpf .olt main_v0 main_v1
  let main_c : IVec S_ 1 := constantI S_ 1 1#1
  let main_v3 : IVec S_ 1 := (fun x v => Host.reduce IntOp.andi x v reducesTo_S8000x1x128_S_d0_1_2 h_S_) main_v2 main_c
  let main_v4 : FVec F S8000x3x256 .f32 := Host.absf main_arg1
  let main_cst_0 : FVec F S_ .f32 := constant S_ .f32 0x7F800000#32
  let main_v5 : FVec F S8000x3x256 .f32 := broadcastInDim S8000x3x256 ![] bcast_S_S8000x3x256 main_cst_0
  let main_v6 : IVec S8000x3x256 1 := cmpf .olt main_v4 main_v5
  let main_c_1 : IVec S_ 1 := constantI S_ 1 1#1
  let main_v7 : IVec S_ 1 := (fun x v => Host.reduce IntOp.andi x v reducesTo_S8000x3x256_S_d0_1_2 h_S_) main_v6 main_c_1
  let main_v8 : IVec S_ 1 := andi main_v3 main_v7
  let main_v9 : FVec F S8000x5x512 .f32 := Host.absf main_arg2
  let main_cst_2 : FVec F S_ .f32 := constant S_ .f32 0x7F800000#32
  let main_v10 : FVec F S8000x5x512 .f32 := broadcastInDim S8000x5x512 ![] bcast_S_S8000x5x512 main_cst_2
  let main_v11 : IVec S8000x5x512 1 := cmpf .olt main_v9 main_v10
  let main_c_3 : IVec S_ 1 := constantI S_ 1 1#1
  let main_v12 : IVec S_ 1 := (fun x v => Host.reduce IntOp.andi x v reducesTo_S8000x5x512_S_d0_1_2 h_S_) main_v11 main_c_3
  let main_v13 : IVec S_ 1 := andi main_v8 main_v12
  let main_v14 : FVec F S8000x7x1024 .f32 := Host.absf main_arg3
  let main_cst_4 : FVec F S_ .f32 := constant S_ .f32 0x7F800000#32
  let main_v15 : FVec F S8000x7x1024 .f32 := broadcastInDim S8000x7x1024 ![] bcast_S_S8000x7x1024 main_cst_4
  let main_v16 : IVec S8000x7x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S8000x1x128 : Shape := ⟨3, ![8000, 1, 128]⟩
abbrev S8000x3x256 : Shape := ⟨3, ![8000, 3, 256]⟩
abbrev S8000x5x512 : Shape := ⟨3, ![8000, 5, 512]⟩
abbrev S8000x7x1024 : Shape := ⟨3, ![8000, 7, 1024]⟩
abbrev S1x128 : Shape := ⟨2, ![1, 128]⟩
abbrev S1x256 : Shape := ⟨2, ![1, 256]⟩
abbrev S1x512 : Shape := ⟨2, ![1, 512]⟩
abbrev S1x1024 : Shape := ⟨2, ![1, 1024]⟩
abbrev S1x8000 : Shape := ⟨2, ![1, 8000]⟩
abbrev S8000x1 : Shape := ⟨2, ![8000, 1]⟩
abbrev S8000x1x1 : Shape := ⟨3, ![8000, 1, 1]⟩
abbrev S3x8000 : Shape := ⟨2, ![3, 8000]⟩
abbrev S8000x3 : Shape := ⟨2, ![8000, 3]⟩
abbrev S8000x3x1 : Shape := ⟨3, ![8000, 3, 1]⟩
abbrev S5x8000 : Shape := ⟨2, ![5, 8000]⟩
abbrev S8000x5 : Shape := ⟨2, ![8000, 5]⟩
abbrev S8000x5x1 : Shape := ⟨3, ![8000, 5, 1]⟩
abbrev S7x8000 : Shape := ⟨2, ![7, 8000]⟩
abbrev S8000x7 : Shape := ⟨2, ![8000, 7]⟩
abbrev S8000x7x1 : Shape := ⟨3, ![8000, 7, 1]⟩
abbrev S1024x1x128 : Shape := ⟨3, ![1024, 1, 128]⟩
abbrev S1x1x128 : Shape := ⟨3, ![1, 1, 128]⟩
abbrev S1024x1 : Shape := ⟨2, ![1024, 1]⟩
abbrev S1024x3x256 : Shape := ⟨3, ![1024, 3, 256]⟩
abbrev S3x1024 : Shape := ⟨2, ![3, 1024]⟩
abbrev S1x1x256 : Shape := ⟨3, ![1, 1, 256]⟩
abbrev S1024x3 : Shape := ⟨2, ![1024, 3]⟩
abbrev S512x5x512 : Shape := ⟨3, ![512, 5, 512]⟩
abbrev S5x512 : Shape := ⟨2, ![5, 512]⟩
abbrev S1x1x512 : Shape := ⟨3, ![1, 1, 512]⟩
abbrev S512x5 : Shape := ⟨2, ![512, 5]⟩
abbrev S256x7x1024 : Shape := ⟨3, ![256, 7, 1024]⟩
abbrev S7x256 : Shape := ⟨2, ![7, 256]⟩
abbrev S1x1x1024 : Shape := ⟨3, ![1, 1, 1024]⟩
abbrev S256x7 : Shape := ⟨2, ![256, 7]⟩

abbrev nBuf : Space → Nat
  | .hbm => 60
  | .vmem => 60
  | .smem => 0
  | _ => 0

abbrev bufTy : (tb : Table) → Fin (tcTables nBuf tb) → BufTy
  | .hbm, ⟨0, _⟩ => ⟨S8000x1x128, .f32⟩
  | .hbm, ⟨1, _⟩ => ⟨S8000x3x256, .f32⟩
  | .hbm, ⟨2, _⟩ => ⟨S8000x5x512, .f32⟩
  | .hbm, ⟨3, _⟩ => ⟨S8000x7x1024, .f32⟩
  | .hbm, ⟨4, _⟩ => ⟨S8000x1x128, .f32⟩
  | .hbm, ⟨5, _⟩ => ⟨S8000x3x256, .f32⟩
  | .hbm, ⟨6, _⟩ => ⟨S8000x5x512, .f32⟩
  | .hbm, ⟨7, _⟩ => ⟨S8000x7x1024, .f32⟩
  | .hbm, ⟨8, _⟩ => ⟨S8000x1x128, .f32⟩
  | .hbm, ⟨9, _⟩ => ⟨S8000x3x256, .f32⟩
  | .hbm, ⟨10, _⟩ => ⟨S8000x5x512, .f32⟩
  | .hbm, ⟨11, _⟩ => ⟨S8000x7x1024, .f32⟩
  | .hbm, ⟨12, _⟩ => ⟨S1x128, .f32⟩
  | .hbm, ⟨13, _⟩ => ⟨S1x256, .f32⟩
  | .hbm, ⟨14, _⟩ => ⟨S1x512, .f32⟩
  | .hbm, ⟨15, _⟩ => ⟨S1x1024, .f32⟩
  | .hbm, ⟨16, _⟩ => ⟨S1x128, .f32⟩
  | .hbm, ⟨17, _⟩ => ⟨S1x256, .f32⟩
  | .hbm, ⟨18, _⟩ => ⟨S1x512, .f32⟩
  | .hbm, ⟨19, _⟩ => ⟨S1x1024, .f32⟩
  | .hbm, ⟨20, _⟩ => ⟨S1x128, .f32⟩
  | .hbm, ⟨21, _⟩ => ⟨S1x256, .f32⟩
  | .hbm, ⟨22, _⟩ => ⟨S1x512, .f32⟩
  | .hbm, ⟨23, _⟩ => ⟨S1x1024, .f32⟩
  | .hbm, ⟨24, _⟩ => ⟨S1x8000, .f32⟩
  | .hbm, ⟨25, _⟩ => ⟨S1x8000, .f32⟩
  | .hbm, ⟨26, _⟩ => ⟨S1x8000, .f32⟩
  | .hbm, ⟨27, _⟩ => ⟨S8000x1, .f32⟩
  | .hbm, ⟨28, _⟩ => ⟨S8000x1x1, .f32⟩
  | .hbm, ⟨29, _⟩ => ⟨S8000x1, .f32⟩
  | .hbm, ⟨30, _⟩ => ⟨S8000x1x1, .f32⟩
  | .hbm, ⟨31, _⟩ => ⟨S8000x1, .f32⟩
  | .hbm, ⟨32, _⟩ => ⟨S8000x1x1, .f32⟩
  | .hbm, ⟨33, _⟩ => ⟨S3x8000, .f32⟩
  | .hbm, ⟨34, _⟩ => ⟨S3x8000, .f32⟩
  | .hbm, ⟨35, _⟩ => ⟨S3x8000, .f32⟩
  | .hbm, ⟨36, _⟩ => ⟨S8000x3, .f32⟩
  | .hbm, ⟨37, _⟩ => ⟨S8000x3x1, .f32⟩
  | .hbm, ⟨38, _⟩ => ⟨S8000x3, .f32⟩
  | .hbm, ⟨39, _⟩ => ⟨S8000x3x1, .f32⟩
  | .hbm, ⟨40, _⟩ => ⟨S8000x3, .f32⟩
  | .hbm, ⟨41, _⟩ => ⟨S8000x3x1, .f32⟩
  | .hbm, ⟨42, _⟩ => ⟨S5x8000, .f32⟩
  | .hbm, ⟨43, _⟩ => ⟨S5x8000, .f32⟩
  | .hbm, ⟨44, _⟩ => ⟨S5x8000, .f32⟩
  | .hbm, ⟨45, _⟩ => ⟨S8000x5, .f32⟩
  | .hbm, ⟨46, _⟩ => ⟨S8000x5x1, .f32⟩
  | .hbm, ⟨47, _⟩ => ⟨S8000x5, .f32⟩
  | .hbm, ⟨48, _⟩ => ⟨S8000x5x1, .f32⟩
  | .hbm, ⟨49, _⟩ => ⟨S8000x5, .f32⟩
  | .hbm, ⟨50, _⟩ => ⟨S8000x5x1, .f32⟩
  | .hbm, ⟨51, _⟩ => ⟨S7x8000, .f32⟩
  | .hbm, ⟨52, _⟩ => ⟨S7x8000, .f32⟩
  | .hbm, ⟨53, _⟩ => ⟨S7x8000, .f32⟩
  | .hbm, ⟨54, _⟩ => ⟨S8000x7, .f32⟩
  | .hbm, ⟨55, _⟩ => ⟨S8000x7x1, .f32⟩
  | .hbm, ⟨56, _⟩ => ⟨S8000x7, .f32⟩
  | .hbm, ⟨57, _⟩ => ⟨S8000x7x1, .f32⟩
  | .hbm, ⟨58, _⟩ => ⟨S8000x7, .f32⟩
  | .hbm, ⟨59, _⟩ => ⟨S8000x7x1, .f32⟩
  | .local _ .vmem, ⟨0, _⟩ => ⟨S1024x1x128, .f32⟩
  | .local _ .vmem, ⟨1, _⟩ => ⟨S1024x1x128, .f32⟩
  | .local _ .vmem, ⟨2, _⟩ => ⟨S1024x1x128, .f32⟩
  | .local _ .vmem, ⟨3, _⟩ => ⟨S1024x1x128, .f32⟩
  | .local _ .vmem, ⟨4, _⟩ => ⟨S1024x1x128, .f32⟩
  | .local _ .vmem, ⟨5, _⟩ => ⟨S1024x1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x3x256, .f32⟩
  | .local _ .vmem, ⟨16, _⟩ => ⟨S1024x3x256, .f32⟩
  | .local _ .vmem, ⟨17, _⟩ => ⟨S1024x3x256, .f32⟩
  | .local _ .vmem, ⟨18, _⟩ => ⟨S1024x3x256, .f32⟩
  | .local _ .vmem, ⟨19, _⟩ => ⟨S1024x3x256, .f32⟩
  | .local _ .vmem, ⟨20, _⟩ => ⟨S1024x3x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S3x1024, .f32⟩
  | .local _ .vmem, ⟨25, _⟩ => ⟨S3x1024, .f32⟩
  | .local _ .vmem, ⟨26, _⟩ => ⟨S3x1024, .f32⟩
  | .local _ .vmem, ⟨27, _⟩ => ⟨S3x1024, .f32⟩
  | .local _ .vmem, ⟨28, _⟩ => ⟨S3x1024, .f32⟩
  | .local _ .vmem, ⟨29, _⟩ => ⟨S3x1024, .f32⟩
  | .local _ .vmem, ⟨30, _⟩ => ⟨S512x5x512, .f32⟩
  | .local _ .vmem, ⟨31, _⟩ => ⟨S512x5x512, .f32⟩
  | .local _ .vmem, ⟨32, _⟩ => ⟨S512x5x512, .f32⟩
  | .local _ .vmem, ⟨33, _⟩ => ⟨S512x5x512, .f32⟩
  | .local _ .vmem, ⟨34, _⟩ => ⟨S512x5x512, .f32⟩
  | .local _ .vmem, ⟨35, _⟩ => ⟨S512x5x512, .f32⟩
  | .local _ .vmem, ⟨36, _⟩ => ⟨S1x512, .f32⟩
  | .local _ .vmem, ⟨37, _⟩ => ⟨S1x512, .f32⟩
  | .local _ .vmem, ⟨38, _⟩ => ⟨S1x512, .f32⟩
  | .local _ .vmem, ⟨39, _⟩ => ⟨S5x512, .f32⟩
  | .local _ .vmem, ⟨40, _⟩ => ⟨S5x512, .f32⟩
  | .local _ .vmem, ⟨41, _⟩ => ⟨S5x512, .f32⟩
  | .local _ .vmem, ⟨42, _⟩ => ⟨S5x512, .f32⟩
  | .local _ .vmem, ⟨43, _⟩ => ⟨S5x512, .f32⟩
  | .local _ .vmem, ⟨44, _⟩ => ⟨S5x512, .f32⟩
  | .local _ .vmem, ⟨45, _⟩ => ⟨S256x7x1024, .f32⟩
  | .local _ .vmem, ⟨46, _⟩ => ⟨S256x7x1024, .f32⟩
  | .local _ .vmem, ⟨47, _⟩ => ⟨S256x7x1024, .f32⟩
  | .local _ .vmem, ⟨48, _⟩ => ⟨S256x7x1024, .f32⟩
  | .local _ .vmem, ⟨49, _⟩ => ⟨S256x7x1024, .f32⟩
  | .local _ .vmem, ⟨50, _⟩ => ⟨S256x7x1024, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S7x256, .f32⟩
  | .local _ .vmem, ⟨55, _⟩ => ⟨S7x256, .f32⟩
  | .local _ .vmem, ⟨56, _⟩ => ⟨S7x256, .f32⟩
  | .local _ .vmem, ⟨57, _⟩ => ⟨S7x256, .f32⟩
  | .local _ .vmem, ⟨58, _⟩ => ⟨S7x256, .f32⟩
  | .local _ .vmem, ⟨59, _⟩ => ⟨S7x256, .f32⟩
  | _, _ => ⟨S8000x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_call0_v0_0 : Ref sig .tc := ⟨.hbm, 24, rfl⟩
abbrev main_call0_v0_1 : Ref sig .tc := ⟨.hbm, 25, rfl⟩
abbrev main_call0_v0_2 : Ref sig .tc := ⟨.hbm, 26, rfl⟩
abbrev main_call0_v1 : Ref sig .tc := ⟨.hbm, 27, rfl⟩
abbrev main_v0_0 : Ref sig .tc := ⟨.hbm, 28, rfl⟩
abbrev main_call0_v3 : Ref sig .tc := ⟨.hbm, 29, rfl⟩
abbrev main_v0_4 : Ref sig .tc := ⟨.hbm, 30, rfl⟩
abbrev main_call0_v5 : Ref sig .tc := ⟨.hbm, 31, rfl⟩
abbrev main_v0_8 : Ref sig .tc := ⟨.hbm, 32, rfl⟩
abbrev main_call0_v7_0 : Ref sig .tc := ⟨.hbm, 33, rfl⟩
abbrev main_call0_v7_1 : Ref sig .tc := ⟨.hbm, 34, rfl⟩
abbrev main_call0_v7_2 : Ref sig .tc := ⟨.hbm, 35, rfl⟩
abbrev main_call0_v8 : Ref sig .tc := ⟨.hbm, 36, rfl⟩
abbrev main_v0_1 : Ref sig .tc := ⟨.hbm, 37, rfl⟩
abbrev main_call0_v10 : Ref sig .tc := ⟨.hbm, 38, rfl⟩
abbrev main_v0_5 : Ref sig .tc := ⟨.hbm, 39, rfl⟩
abbrev main_call0_v12 : Ref sig .tc := ⟨.hbm, 40, rfl⟩
abbrev main_v0_9 : Ref sig .tc := ⟨.hbm, 41, rfl⟩
abbrev main_call0_v14_0 : Ref sig .tc := ⟨.hbm, 42, rfl⟩
abbrev main_call0_v14_1 : Ref sig .tc := ⟨.hbm, 43, rfl⟩
abbrev main_call0_v14_2 : Ref sig .tc := ⟨.hbm, 44, rfl⟩
abbrev main_call0_v15 : Ref sig .tc := ⟨.hbm, 45, rfl⟩
abbrev main_v0_2 : Ref sig .tc := ⟨.hbm, 46, rfl⟩
abbrev main_call0_v17 : Ref sig .tc := ⟨.hbm, 47, rfl⟩
abbrev main_v0_6 : Ref sig .tc := ⟨.hbm, 48, rfl⟩
abbrev main_call0_v19 : Ref sig .tc := ⟨.hbm, 49, rfl⟩
abbrev main_v0_10 : Ref sig .tc := ⟨.hbm, 50, rfl⟩
abbrev main_call0_v21_0 : Ref sig .tc := ⟨.hbm, 51, rfl⟩
abbrev main_call0_v21_1 : Ref sig .tc := ⟨.hbm, 52, rfl⟩
abbrev main_call0_v21_2 : Ref sig .tc := ⟨.hbm, 53, rfl⟩
abbrev main_call0_v22 : Ref sig .tc := ⟨.hbm, 54, rfl⟩
abbrev main_v0_3 : Ref sig .tc := ⟨.hbm, 55, rfl⟩
abbrev main_call0_v24 : Ref sig .tc := ⟨.hbm, 56, rfl⟩
abbrev main_v0_7 : Ref sig .tc := ⟨.hbm, 57, rfl⟩
abbrev main_call0_v26 : Ref sig .tc := ⟨.hbm, 58, rfl⟩
abbrev main_v0_11 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg6_1 : Ref sig .tc := ⟨.vmem, 40, rfl⟩
abbrev cc2_stg7_0 : Ref sig .tc := ⟨.vmem, 41, rfl⟩
abbrev cc2_stg7_1 : Ref sig .tc := ⟨.vmem, 42, rfl⟩
abbrev cc2_stg8_0 : Ref sig .tc := ⟨.vmem, 43, rfl⟩
abbrev cc2_stg8_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg6_1 : Ref sig .tc := ⟨.vmem, 55, rfl⟩
abbrev cc3_stg7_0 : Ref sig .tc := ⟨.vmem, 56, rfl⟩
abbrev cc3_stg7_1 : Ref sig .tc := ⟨.vmem, 57, rfl⟩
abbrev cc3_stg8_0 : Ref sig .tc := ⟨.vmem, 58, rfl⟩
abbrev cc3_stg8_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem6_1 : DmaSem sig := 40
abbrev cc2_sem7_0 : DmaSem sig := 41
abbrev cc2_sem7_1 : DmaSem sig := 42
abbrev cc2_sem8_0 : DmaSem sig := 43
abbrev cc2_sem8_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem2_1 : DmaSem sig := 50
abbrev cc3_sem3_0 : DmaSem sig := 51
abbrev cc3_sem4_0 : DmaSem sig := 52
abbrev cc3_sem5_0 : DmaSem sig := 53
abbrev cc3_sem6_0 : DmaSem sig := 54
abbrev cc3_sem6_1 : DmaSem sig := 55
abbrev cc3_sem7_0 : DmaSem sig := 56
abbrev cc3_sem7_1 : DmaSem sig := 57
abbrev cc3_sem8_0 : DmaSem sig := 58
abbrev cc3_sem8_1 : DmaSem sig := 59

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x3x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x3x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x3x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S3x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S3x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S512x5x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x5x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x5x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S256x7x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x7x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x7x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S7x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S7x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S7x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  transposes_S1x8000_S8000x1_1_0 : S1x8000.Transposes [1, 0] S8000x1
  shapeCasts_S8000x1_S8000x1x1 : S8000x1.ShapeCasts S8000x1x1
  transposes_S3x8000_S8000x3_1_0 : S3x8000.Transposes [1, 0] S8000x3
  shapeCasts_S8000x3_S8000x3x1 : S8000x3.ShapeCasts S8000x3x1
  transposes_S5x8000_S8000x5_1_0 : S5x8000.Transposes [1, 0] S8000x5
  shapeCasts_S8000x5_S8000x5x1 : S8000x5.ShapeCasts S8000x5x1
  transposes_S7x8000_S8000x7_1_0 : S7x8000.Transposes [1, 0] S8000x7
  shapeCasts_S8000x7_S8000x7x1 : S8000x7.ShapeCasts S8000x7x1
  inb_S1024x1x128_S1024x1x128_0_0_0 : ∀ a, (![0, 0, 0] : Fin 3 → Nat) a + S1024x1x128.size a ≤ S1024x1x128.size a
  h_S1024x1x128 : 0 < S1024x1x128.numel
  inb_S1x128_S1x128_0_0 : ∀ a, (![0, 0] : Fin 2 → Nat) a + S1x128.size a ≤ S1x128.size a
  h_S1x128 : 0 < S1x128.numel
  shapeCasts_S1x128_S1x1x128 : S1x128.ShapeCasts S1x1x128
  broadcasts_S1x1x128_S1024x1x128 : S1x1x128.Broadcasts S1024x1x128
  reduces_S1024x1x128_S1024x1 : S1024x1x128.Reduces [2] S1024x1
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  inb_S1024x3x256_S1024x3x256_0_0_0 : ∀ a, (![0, 0, 0] : Fin 3 → Nat) a + S1024x3x256.size a ≤ S1024x3x256.size a
  h_S1024x3x256 : 0 < S1024x3x256.numel
  inb_S1x256_S1x256_0_0 : ∀ a, (![0, 0] : Fin 2 → Nat) a + S1x256.size a ≤ S1x256.size a
  h_S1x256 : 0 < S1x256.numel
  shapeCasts_S1x256_S1x1x256 : S1x256.ShapeCasts S1x1x256
  broadcasts_S1x1x256_S1024x3x256 : S1x1x256.Broadcasts S1024x3x256
  reduces_S1024x3x256_S1024x3 : S1024x3x256.Reduces [2] S1024x3
  transposes_S1024x3_p1_0_S3x1024 : S1024x3.Transposes [1, 0] S3x1024
  inb_S3x1024_S3x1024_0_0 : ∀ a, (![0, 0] : Fin 2 → Nat) a + S3x1024.size a ≤ S3x1024.size a
  h_S3x1024 : 0 < S3x1024.numel
  inb_S512x5x512_S512x5x512_0_0_0 : ∀ a, (![0, 0, 0] : Fin 3 → Nat) a + S512x5x512.size a ≤ S512x5x512.size a
  h_S512x5x512 : 0 < S512x5x512.numel
  inb_S1x512_S1x512_0_0 : ∀ a, (![0, 0] : Fin 2 → Nat) a + S1x512.size a ≤ S1x512.size a
  h_S1x512 : 0 < S1x512.numel
  shapeCasts_S1x512_S1x1x512 : S1x512.ShapeCasts S1x1x512
  broadcasts_S1x1x512_S512x5x512 : S1x1x512.Broadcasts S512x5x512
  reduces_S512x5x512_S512x5 : S512x5x512.Reduces [2] S512x5
  transposes_S512x5_p1_0_S5x512 : S512x5.Transposes [1, 0] S5x512
  inb_S5x512_S5x512_0_0 : ∀ a, (![0, 0] : Fin 2 → Nat) a + S5x512.size a ≤ S5x512.size a
  h_S5x512 : 0 < S5x512.numel
  inb_S256x7x1024_S256x7x1024_0_0_0 : ∀ a, (![0, 0, 0] : Fin 3 → Nat) a + S256x7x1024.size a ≤ S256x7x1024.size a
  h_S256x7x1024 : 0 < S256x7x1024.numel
  shapeCasts_S1x1024_S1x1x1024 : S1x1024.ShapeCasts S1x1x1024
  broadcasts_S1x1x1024_S256x7x1024 : S1x1x1024.Broadcasts S256x7x1024
  reduces_S256x7x1024_S256x7 : S256x7x1024.Reduces [2] S256x7
  transposes_S256x7_p1_0_S7x256 : S256x7.Transposes [1, 0] S7x256
  inb_S7x256_S7x256_0_0 : ∀ a, (![0, 0] : Fin 2 → Nat) a + S7x256.size a ≤ S7x256.size a
  h_S7x256 : 0 < S7x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x1x128.size a < S8000x1x128.size a
  hwx0_0 : ∀ i : grid0.Coords, EltTy.bits .f32 = 32 ∨ (Rect.unit (s := S8000x1x128) (fun a => cc0_transform_0 i a * S1024x1x128.size a) (fun a => (Pipeline.Clip.of (cc0_transform_0 i a) (S1024x1x128.size a) (S8000x1x128.size a)).extent (S1024x1x128.size a)) fun a => Pipeline.Clip.inb (Pipeline.Clip.ok_of (hstart0_0 i a))).WholeWords (EltTy.packing .f32)
  hwxs0_0 : ∀ i : grid0.Coords, EltTy.bits .f32 = 32 ∨ (Rect.unit (s := S1024x1x128) (fun _ => 0) (fun a => (Pipeline.Clip.of (cc0_transform_0 i a) (S1024x1x128.size a) (S8000x1x128.size a)).extent (S1024x1x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x1x128.size a < S8000x1x128.size a
  hwx0_1 : ∀ i : grid0.Coords, EltTy.bits .f32 = 32 ∨ (Rect.unit (s := S8000x1x128) (fun a => cc0_transform_1 i a * S1024x1x128.size a) (fun a => (Pipeline.Clip.of (cc0_transform_1 i a) (S1024x1x128.size a) (S8000x1x128.size a)).extent (S1024x1x128.size a)) fun a => Pipeline.Clip.inb (Pipeline.Clip.ok_of (hstart0_1 i a))).WholeWords (EltTy.packing .f32)
  hwxs0_1 : ∀ i : grid0.Coords, EltTy.bits .f32 = 32 ∨ (Rect.unit (s := S1024x1x128) (fun _ => 0) (fun a => (Pipeline.Clip.of (cc0_transform_1 i a) (S1024x1x128.size a) (S8000x1x128.size a)).extent (S1024x1x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x1x128.size a < S8000x1x128.size a
  hwx0_2 : ∀ i : grid0.Coords, EltTy.bits .f32 = 32 ∨ (Rect.unit (s := S8000x1x128) (fun a => cc0_transform_2 i a * S1024x1x128.size a) (fun a => (Pipeline.Clip.of (cc0_transform_2 i a) (S1024x1x128.size a) (S8000x1x128.size a)).extent (S1024x1x128.size a)) fun a => Pipeline.Clip.inb (Pipeline.Clip.ok_of (hstart0_2 i a))).WholeWords (EltTy.packing .f32)
  hwxs0_2 : ∀ i : grid0.Coords, EltTy.bits .f32 = 32 ∨ (Rect.unit (s := S1024x1x128) (fun _ => 0) (fun a => (Pipeline.Clip.of (cc0_transform_2 i a) (S1024x1x128.size a) (S8000x1x128.size a)).extent (S1024x1x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1x1024.size a < S1x8000.size a
  hwx0_6 : ∀ i : grid0.Coords, EltTy.bits .f32 = 32 ∨ (Rect.unit (s := S1x8000) (fun a => cc0_transform_6 i a * S1x1024.size a) (fun a => (Pipeline.Clip.of (cc0_transform_6 i a) (S1x1024.size a) (S1x8000.size a)).extent (S1x1024.size a)) fun a => Pipeline.Clip.inb (Pipeline.Clip.ok_of (hstart0_6 i a))).WholeWords (EltTy.packing .f32)
  hwxs0_6 : ∀ i : grid0.Coords, EltTy.bits .f32 = 32 ∨ (Rect.unit (s := S1x1024) (fun _ => 0) (fun a => (Pipeline.Clip.of (cc0_transform_6 i a) (S1x1024.size a) (S1x8000.size a)).extent (S1x1024.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S1x1024.size a < S1x8000.size a
  hwx0_7 : ∀ i : grid0.Coords, EltTy.bits .f32 = 32 ∨ (Rect.unit (s := S1x8000) (fun a => cc0_transform_7 i a * S1x1024.size a) (fun a => (Pipeline.Clip.of (cc0_transform_7 i a) (S1x1024.size a) (S1x8000.size a)).extent (S1x1024.size a)) fun a => Pipeline.Clip.inb (Pipeline.Clip.ok_of (hstart0_7 i a))).WholeWords (EltTy.packing .f32)
  hwxs0_7 : ∀ i : grid0.Coords, EltTy.bits .f32 = 32 ∨ (Rect.unit (s := S1x1024) (fun _ => 0) (fun a => (Pipeline.Clip.of (cc0_transform_7 i a) (S1x1024.size a) (S1x8000.size a)).extent (S1x1024.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S1x1024.size a < S1x8000.size a
  hwx0_8 : ∀ i : grid0.Coords, EltTy.bits .f32 = 32 ∨ (Rect.unit (s := S1x8000) (fun a => cc0_transform_8 i a * S1x1024.size a) (fun a => (Pipeline.Clip.of (cc0_transform_8 i a) (S1x1024.size a) (S1x8000.size a)).extent (S1x1024.size a)) fun a => Pipeline.Clip.inb (Pipeline.Clip.ok_of (hstart0_8 i a))).WholeWords (EltTy.packing .f32)
  hwxs0_8 : ∀ i : grid0.Coords, EltTy.bits .f32 = 32 ∨ (Rect.unit (s := S1x1024) (fun _ => 0) (fun a => (Pipeline.Clip.of (cc0_transform_8 i a) (S1x1024.size a) (S1x8000.size a)).extent (S1x1024.size a)) fun a => (Nat.zero_add _).trans_le (Pipeline.Clip.extent_le (Pipeline.Clip.ok_of (hstart0_8 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1024x3x256.size a < S8000x3x256.size a
  hwx1_0 : ∀ i : grid1.Coords, EltTy.bits .f32 = 32 ∨ (Rect.unit (s := S8000x3x256) (fun a => cc1_transform_0 i a * S1024x3x256.size a) (fun a => (Pipeline.Clip.of (cc1_transform_0 i a) (S1024x3x256.size a) (S8000x3x256.size a)).extent (S1024x3x256.size a)) fun a => Pipeline.Clip.inb (Pipeline.Clip.ok_of (hstart1_0 i a))).WholeWords (EltTy.packing .f32)
  hwxs1_0 : ∀ i : grid1.Coords, EltTy.bits .f32 = 32 ∨ (Rect.unit (s := S1024x3x256) (fun _ => 0) (fun a => (Pipeline.Clip.of (cc1_transform_0 i a) (S1024x3x256.size a) (S8000x3x256.size a)).extent (S1024x3x256.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1024x3x256.size a < S8000x3x256.size a
  hwx1_1 : ∀ i : grid1.Coords, EltTy.bits .f32 = 32 ∨ (Rect.unit (s := S8000x3x256) (fun a => cc1_transform_1 i a * S1024x3x256.size a) (fun a => (Pipeline.Clip.of (cc1_transform_1 i a) (S1024x3x256.size a) (S8000x3x256.size a)).extent (S1024x3x256.size a)) fun a => Pipeline.Clip.inb (Pipeline.Clip.ok_of (hstart1_1 i a))).WholeWords (EltTy.packing .f32)
  hwxs1_1 : ∀ i : grid1.Coords, EltTy.bits .f32 = 32 ∨ (Rect.unit (s := S1024x3x256) (fun _ => 0) (fun a => (Pipeline.Clip.of (cc1_transform_1 i a) (S1024x3x256.size a) (S8000x3x256.size a)).extent (S1024x3x256.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1024x3x256.size a < S8000x3x256.size a
  hwx1_2 : ∀ i : grid1.Coords, EltTy.bits .f32 = 32 ∨ (Rect.unit (s := S8000x3x256) (fun a => cc1_transform_2 i a * S1024x3x256.size a) (fun a => (Pipeline.Clip.of (cc1_transform_2 i a) (S1024x3x256.size a) (S8000x3x256.size a)).extent (S1024x3x256.size a)) fun a => Pipeline.Clip.inb (Pipeline.Clip.ok_of (hstart1_2 i a))).WholeWords (EltTy.packing .f32)
  hwxs1_2 : ∀ i : grid1.Coords, EltTy.bits .f32 = 32 ∨ (Rect.unit (s := S1024x3x256) (fun _ => 0) (fun a => (Pipeline.Clip.of (cc1_transform_2 i a) (S1024x3x256.size a) (S8000x3x256.size a)).extent (S1024x3x256.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hstart1_6 : ∀ (i : grid1.Coords) a, cc1_transform_6 i a * S3x1024.size a < S3x8000.size a
  hwx1_6 : ∀ i : grid1.Coords, EltTy.bits .f32 = 32 ∨ (Rect.unit (s := S3x8000) (fun a => cc1_transform_6 i a * S3x1024.size a) (fun a => (Pipeline.Clip.of (cc1_transform_6 i a) (S3x1024.size a) (S3x8000.size a)).extent (S3x1024.size a)) fun a => Pipeline.Clip.inb (Pipeline.Clip.ok_of (hstart1_6 i a))).WholeWords (EltTy.packing .f32)
  hwxs1_6 : ∀ i : grid1.Coords, EltTy.bits .f32 = 32 ∨ (Rect.unit (s := S3x1024) (fun _ => 0) (fun a => (Pipeline.Clip.of (cc1_transform_6 i a) (S3x1024.size a) (S3x8000.size a)).extent (S3x1024.size a)) fun a => (Nat.zero_add _).trans_le (Pipeline.Clip.extent_le (Pipeline.Clip.ok_of (hstart1_6 i a)))).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hstart1_7 : ∀ (i : grid1.Coords) a, cc1_transform_7 i a * S3x1024.size a < S3x8000.size a
  hwx1_7 : ∀ i : grid1.Coords, EltTy.bits .f32 = 32 ∨ (Rect.unit (s := S3x8000) (fun a => cc1_transform_7 i a * S3x1024.size a) (fun a => (Pipeline.Clip.of (cc1_transform_7 i a) (S3x1024.size a) (S3x8000.size a)).extent (S3x1024.size a)) fun a => Pipeline.Clip.inb (Pipeline.Clip.ok_of (hstart1_7 i a))).WholeWords (EltTy.packing .f32)
  hwxs1_7 : ∀ i : grid1.Coords, EltTy.bits .f32 = 32 ∨ (Rect.unit (s := S3x1024) (fun _ => 0) (fun a => (Pipeline.Clip.of (cc1_transform_7 i a) (S3x1024.size a) (S3x8000.size a)).extent (S3x1024.size a)) fun a => (Nat.zero_add _).trans_le (Pipeline.Clip.extent_le (Pipeline.Clip.ok_of (hstart1_7 i a)))).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hstart1_8 : ∀ (i : grid1.Coords) a, cc1_transform_8 i a * S3x1024.size a < S3x8000.size a
  hwx1_8 : ∀ i : grid1.Coords, EltTy.bits .f32 = 32 ∨ (Rect.unit (s := S3x8000) (fun a => cc1_transform_8 i a * S3x1024.size a) (fun a => (Pipeline.Clip.of (cc1_transform_8 i a) (S3x1024.size a) (S3x8000.size a)).extent (S3x1024.size a)) fun a => Pipeline.Clip.inb (Pipeline.Clip.ok_of (hstart1_8 i a))).WholeWords (EltTy.packing .f32)
  hwxs1_8 : ∀ i : grid1.Coords, EltTy.bits .f32 = 32 ∨ (Rect.unit (s := S3x1024) (fun _ => 0) (fun a => (Pipeline.Clip.of (cc1_transform_8 i a) (S3x1024.size a) (S3x8000.size a)).extent (S3x1024.size a)) fun a => (Nat.zero_add _).trans_le (Pipeline.Clip.extent_le (Pipeline.Clip.ok_of (hstart1_8 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S512x5x512.size a < S8000x5x512.size a
  hwx2_0 : ∀ i : grid2.Coords, EltTy.bits .f32 = 32 ∨ (Rect.unit (s := S8000x5x512) (fun a => cc2_transform_0 i a * S512x5x512.size a) (fun a => (Pipeline.Clip.of (cc2_transform_0 i a) (S512x5x512.size a) (S8000x5x512.size a)).extent (S512x5x512.size a)) fun a => Pipeline.Clip.inb (Pipeline.Clip.ok_of (hstart2_0 i a))).WholeWords (EltTy.packing .f32)
  hwxs2_0 : ∀ i : grid2.Coords, EltTy.bits .f32 = 32 ∨ (Rect.unit (s := S512x5x512) (fun _ => 0) (fun a => (Pipeline.Clip.of (cc2_transform_0 i a) (S512x5x512.size a) (S8000x5x512.size a)).extent (S512x5x512.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S512x5x512.size a < S8000x5x512.size a
  hwx2_1 : ∀ i : grid2.Coords, EltTy.bits .f32 = 32 ∨ (Rect.unit (s := S8000x5x512) (fun a => cc2_transform_1 i a * S512x5x512.size a) (fun a => (Pipeline.Clip.of (cc2_transform_1 i a) (S512x5x512.size a) (S8000x5x512.size a)).extent (S512x5x512.size a)) fun a => Pipeline.Clip.inb (Pipeline.Clip.ok_of (hstart2_1 i a))).WholeWords (EltTy.packing .f32)
  hwxs2_1 : ∀ i : grid2.Coords, EltTy.bits .f32 = 32 ∨ (Rect.unit (s := S512x5x512) (fun _ => 0) (fun a => (Pipeline.Clip.of (cc2_transform_1 i a) (S512x5x512.size a) (S8000x5x512.size a)).extent (S512x5x512.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S512x5x512.size a < S8000x5x512.size a
  hwx2_2 : ∀ i : grid2.Coords, EltTy.bits .f32 = 32 ∨ (Rect.unit (s := S8000x5x512) (fun a => cc2_transform_2 i a * S512x5x512.size a) (fun a => (Pipeline.Clip.of (cc2_transform_2 i a) (S512x5x512.size a) (S8000x5x512.size a)).extent (S512x5x512.size a)) fun a => Pipeline.Clip.inb (Pipeline.Clip.ok_of (hstart2_2 i a))).WholeWords (EltTy.packing .f32)
  hwxs2_2 : ∀ i : grid2.Coords, EltTy.bits .f32 = 32 ∨ (Rect.unit (s := S512x5x512) (fun _ => 0) (fun a => (Pipeline.Clip.of (cc2_transform_2 i a) (S512x5x512.size a) (S8000x5x512.size a)).extent (S512x5x512.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hstart2_6 : ∀ (i : grid2.Coords) a, cc2_transform_6 i a * S5x512.size a < S5x8000.size a
  hwx2_6 : ∀ i : grid2.Coords, EltTy.bits .f32 = 32 ∨ (Rect.unit (s := S5x8000) (fun a => cc2_transform_6 i a * S5x512.size a) (fun a => (Pipeline.Clip.of (cc2_transform_6 i a) (S5x512.size a) (S5x8000.size a)).extent (S5x512.size a)) fun a => Pipeline.Clip.inb (Pipeline.Clip.ok_of (hstart2_6 i a))).WholeWords (EltTy.packing .f32)
  hwxs2_6 : ∀ i : grid2.Coords, EltTy.bits .f32 = 32 ∨ (Rect.unit (s := S5x512) (fun _ => 0) (fun a => (Pipeline.Clip.of (cc2_transform_6 i a) (S5x512.size a) (S5x8000.size a)).extent (S5x512.size a)) fun a => (Nat.zero_add _).trans_le (Pipeline.Clip.extent_le (Pipeline.Clip.ok_of (hstart2_6 i a)))).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hstart2_7 : ∀ (i : grid2.Coords) a, cc2_transform_7 i a * S5x512.size a < S5x8000.size a
  hwx2_7 : ∀ i : grid2.Coords, EltTy.bits .f32 = 32 ∨ (Rect.unit (s := S5x8000) (fun a => cc2_transform_7 i a * S5x512.size a) (fun a => (Pipeline.Clip.of (cc2_transform_7 i a) (S5x512.size a) (S5x8000.size a)).extent (S5x512.size a)) fun a => Pipeline.Clip.inb (Pipeline.Clip.ok_of (hstart2_7 i a))).WholeWords (EltTy.packing .f32)
  hwxs2_7 : ∀ i : grid2.Coords, EltTy.bits .f32 = 32 ∨ (Rect.unit (s := S5x512) (fun _ => 0) (fun a => (Pipeline.Clip.of (cc2_transform_7 i a) (S5x512.size a) (S5x8000.size a)).extent (S5x512.size a)) fun a => (Nat.zero_add _).trans_le (Pipeline.Clip.extent_le (Pipeline.Clip.ok_of (hstart2_7 i a)))).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hstart2_8 : ∀ (i : grid2.Coords) a, cc2_transform_8 i a * S5x512.size a < S5x8000.size a
  hwx2_8 : ∀ i : grid2.Coords, EltTy.bits .f32 = 32 ∨ (Rect.unit (s := S5x8000) (fun a => cc2_transform_8 i a * S5x512.size a) (fun a => (Pipeline.Clip.of (cc2_transform_8 i a) (S5x512.size a) (S5x8000.size a)).extent (S5x512.size a)) fun a => Pipeline.Clip.inb (Pipeline.Clip.ok_of (hstart2_8 i a))).WholeWords (EltTy.packing .f32)
  hwxs2_8 : ∀ i : grid2.Coords, EltTy.bits .f32 = 32 ∨ (Rect.unit (s := S5x512) (fun _ => 0) (fun a => (Pipeline.Clip.of (cc2_transform_8 i a) (S5x512.size a) (S5x8000.size a)).extent (S5x512.size a)) fun a => (Nat.zero_add _).trans_le (Pipeline.Clip.extent_le (Pipeline.Clip.ok_of (hstart2_8 i a)))).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S256x7x1024.size a < S8000x7x1024.size a
  hwx3_0 : ∀ i : grid3.Coords, EltTy.bits .f32 = 32 ∨ (Rect.unit (s := S8000x7x1024) (fun a => cc3_transform_0 i a * S256x7x1024.size a) (fun a => (Pipeline.Clip.of (cc3_transform_0 i a) (S256x7x1024.size a) (S8000x7x1024.size a)).extent (S256x7x1024.size a)) fun a => Pipeline.Clip.inb (Pipeline.Clip.ok_of (hstart3_0 i a))).WholeWords (EltTy.packing .f32)
  hwxs3_0 : ∀ i : grid3.Coords, EltTy.bits .f32 = 32 ∨ (Rect.unit (s := S256x7x1024) (fun _ => 0) (fun a => (Pipeline.Clip.of (cc3_transform_0 i a) (S256x7x1024.size a) (S8000x7x1024.size a)).extent (S256x7x1024.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S256x7x1024.size a < S8000x7x1024.size a
  hwx3_1 : ∀ i : grid3.Coords, EltTy.bits .f32 = 32 ∨ (Rect.unit (s := S8000x7x1024) (fun a => cc3_transform_1 i a * S256x7x1024.size a) (fun a => (Pipeline.Clip.of (cc3_transform_1 i a) (S256x7x1024.size a) (S8000x7x1024.size a)).extent (S256x7x1024.size a)) fun a => Pipeline.Clip.inb (Pipeline.Clip.ok_of (hstart3_1 i a))).WholeWords (EltTy.packing .f32)
  hwxs3_1 : ∀ i : grid3.Coords, EltTy.bits .f32 = 32 ∨ (Rect.unit (s := S256x7x1024) (fun _ => 0) (fun a => (Pipeline.Clip.of (cc3_transform_1 i a) (S256x7x1024.size a) (S8000x7x1024.size a)).extent (S256x7x1024.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S256x7x1024.size a < S8000x7x1024.size a
  hwx3_2 : ∀ i : grid3.Coords, EltTy.bits .f32 = 32 ∨ (Rect.unit (s := S8000x7x1024) (fun a => cc3_transform_2 i a * S256x7x1024.size a) (fun a => (Pipeline.Clip.of (cc3_transform_2 i a) (S256x7x1024.size a) (S8000x7x1024.size a)).extent (S256x7x1024.size a)) fun a => Pipeline.Clip.inb (Pipeline.Clip.ok_of (hstart3_2 i a))).WholeWords (EltTy.packing .f32)
  hwxs3_2 : ∀ i : grid3.Coords, EltTy.bits .f32 = 32 ∨ (Rect.unit (s := S256x7x1024) (fun _ => 0) (fun a => (Pipeline.Clip.of (cc3_transform_2 i a) (S256x7x1024.size a) (S8000x7x1024.size a)).extent (S256x7x1024.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1024.size a ≤ S1x1024.size a
  hwx3_5 : ∀ i : grid3.Coords, EltTy.bits .f32 = 32 ∨ (Rect.block (s := S1x1024) S1x1024.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hstart3_6 : ∀ (i : grid3.Coords) a, cc3_transform_6 i a * S7x256.size a < S7x8000.size a
  hwx3_6 : ∀ i : grid3.Coords, EltTy.bits .f32 = 32 ∨ (Rect.unit (s := S7x8000) (fun a => cc3_transform_6 i a * S7x256.size a) (fun a => (Pipeline.Clip.of (cc3_transform_6 i a) (S7x256.size a) (S7x8000.size a)).extent (S7x256.size a)) fun a => Pipeline.Clip.inb (Pipeline.Clip.ok_of (hstart3_6 i a))).WholeWords (EltTy.packing .f32)
  hwxs3_6 : ∀ i : grid3.Coords, EltTy.bits .f32 = 32 ∨ (Rect.unit (s := S7x256) (fun _ => 0) (fun a => (Pipeline.Clip.of (cc3_transform_6 i a) (S7x256.size a) (S7x8000.size a)).extent (S7x256.size a)) fun a => (Nat.zero_add _).trans_le (Pipeline.Clip.extent_le (Pipeline.Clip.ok_of (hstart3_6 i a)))).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hstart3_7 : ∀ (i : grid3.Coords) a, cc3_transform_7 i a * S7x256.size a < S7x8000.size a
  hwx3_7 : ∀ i : grid3.Coords, EltTy.bits .f32 = 32 ∨ (Rect.unit (s := S7x8000) (fun a => cc3_transform_7 i a * S7x256.size a) (fun a => (Pipeline.Clip.of (cc3_transform_7 i a) (S7x256.size a) (S7x8000.size a)).extent (S7x256.size a)) fun a => Pipeline.Clip.inb (Pipeline.Clip.ok_of (hstart3_7 i a))).WholeWords (EltTy.packing .f32)
  hwxs3_7 : ∀ i : grid3.Coords, EltTy.bits .f32 = 32 ∨ (Rect.unit (s := S7x256) (fun _ => 0) (fun a => (Pipeline.Clip.of (cc3_transform_7 i a) (S7x256.size a) (S7x8000.size a)).extent (S7x256.size a)) fun a => (Nat.zero_add _).trans_le (Pipeline.Clip.extent_le (Pipeline.Clip.ok_of (hstart3_7 i a)))).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hstart3_8 : ∀ (i : grid3.Coords) a, cc3_transform_8 i a * S7x256.size a < S7x8000.size a
  hwx3_8 : ∀ i : grid3.Coords, EltTy.bits .f32 = 32 ∨ (Rect.unit (s := S7x8000) (fun a => cc3_transform_8 i a * S7x256.size a) (fun a => (Pipeline.Clip.of (cc3_transform_8 i a) (S7x256.size a) (S7x8000.size a)).extent (S7x256.size a)) fun a => Pipeline.Clip.inb (Pipeline.Clip.ok_of (hstart3_8 i a))).WholeWords (EltTy.packing .f32)
  hwxs3_8 : ∀ i : grid3.Coords, EltTy.bits .f32 = 32 ∨ (Rect.unit (s := S7x256) (fun _ => 0) (fun a => (Pipeline.Clip.of (cc3_transform_8 i a) (S7x256.size a) (S7x8000.size a)).extent (S7x256.size a)) fun a => (Nat.zero_add _).trans_le (Pipeline.Clip.extent_le (Pipeline.Clip.ok_of (hstart3_8 i a)))).WholeWords (EltTy.packing .f32)

variable [Facts₀]

abbrev win0_0 : Pipeline.Window sig grid0 :=
  Pipeline.Window.ofSpecClip (Memref.whole main_arg0) S1024x1x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg4) S1024x1x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg8) S1024x1x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_arg12) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_call0_v0_0) S1x1024.size cc0_transform_6 reads0_6 true false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_call0_v0_1) S1x1024.size cc0_transform_7 reads0_7 true false 2 stage0_7 sem0_7
    hrank0 hreads0_7 hstart0_7 nbuf0_7 (Memref.isWhole_whole _) hwx0_7 hwxs0_7 hstage0_7

abbrev win0_8 : Pipeline.Window sig grid0 :=
  Pipeline.Window.ofSpecClip (Memref.whole main_call0_v0_2) S1x1024.size cc0_transform_8 reads0_8 true false 2 stage0_8 sem0_8
    hrank0 hreads0_8 hstart0_8 nbuf0_8 (Memref.isWhole_whole _) hwx0_8 hwxs0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpecClip (Memref.whole main_arg1) S1024x3x256.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_arg5) S1024x3x256.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_arg9) S1024x3x256.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_arg13) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg17) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg21) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpecClip (Memref.whole main_call0_v7_0) S3x1024.size cc1_transform_6 reads1_6 true false 2 stage1_6 sem1_6
    hrank1 hreads1_6 hstart1_6 nbuf1_6 (Memref.isWhole_whole _) hwx1_6 hwxs1_6 hstage1_6

abbrev win1_7 : Pipeline.Window sig grid1 :=
  Pipeline.Window.ofSpecClip (Memref.whole main_call0_v7_1) S3x1024.size cc1_transform_7 reads1_7 true false 2 stage1_7 sem1_7
    hrank1 hreads1_7 hstart1_7 nbuf1_7 (Memref.isWhole_whole _) hwx1_7 hwxs1_7 hstage1_7

abbrev win1_8 : Pipeline.Window sig grid1 :=
  Pipeline.Window.ofSpecClip (Memref.whole main_call0_v7_2) S3x1024.size cc1_transform_8 reads1_8 true false 2 stage1_8 sem1_8
    hrank1 hreads1_8 hstart1_8 nbuf1_8 (Memref.isWhole_whole _) hwx1_8 hwxs1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpecClip (Memref.whole main_arg2) S512x5x512.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_arg6) S512x5x512.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_arg10) S512x5x512.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpec (Memref.whole main_arg14) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg22) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpecClip (Memref.whole main_call0_v14_0) S5x512.size cc2_transform_6 reads2_6 true false 2 stage2_6 sem2_6
    hrank2 hreads2_6 hstart2_6 nbuf2_6 (Memref.isWhole_whole _) hwx2_6 hwxs2_6 hstage2_6

abbrev win2_7 : Pipeline.Window sig grid2 :=
  Pipeline.Window.ofSpecClip (Memref.whole main_call0_v14_1) S5x512.size cc2_transform_7 reads2_7 true false 2 stage2_7 sem2_7
    hrank2 hreads2_7 hstart2_7 nbuf2_7 (Memref.isWhole_whole _) hwx2_7 hwxs2_7 hstage2_7

abbrev win2_8 : Pipeline.Window sig grid2 :=
  Pipeline.Window.ofSpecClip (Memref.whole main_call0_v14_2) S5x512.size cc2_transform_8 reads2_8 true false 2 stage2_8 sem2_8
    hrank2 hreads2_8 hstart2_8 nbuf2_8 (Memref.isWhole_whole _) hwx2_8 hwxs2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpecClip (Memref.whole main_arg3) S256x7x1024.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_arg7) S256x7x1024.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_arg11) S256x7x1024.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpec (Memref.whole main_arg15) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg19) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg23) S1x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpecClip (Memref.whole main_call0_v21_0) S7x256.size cc3_transform_6 reads3_6 true false 2 stage3_6 sem3_6
    hrank3 hreads3_6 hstart3_6 nbuf3_6 (Memref.isWhole_whole _) hwx3_6 hwxs3_6 hstage3_6

abbrev win3_7 : Pipeline.Window sig grid3 :=
  Pipeline.Window.ofSpecClip (Memref.whole main_call0_v21_1) S7x256.size cc3_transform_7 reads3_7 true false 2 stage3_7 sem3_7
    hrank3 hreads3_7 hstart3_7 nbuf3_7 (Memref.isWhole_whole _) hwx3_7 hwxs3_7 hstage3_7

abbrev win3_8 : Pipeline.Window sig grid3 :=
  Pipeline.Window.ofSpecClip (Memref.whole main_call0_v21_2) S7x256.size cc3_transform_8 reads3_8 true false 2 stage3_8 sem3_8
    hrank3 hreads3_8 hstart3_8 nbuf3_8 (Memref.isWhole_whole _) hwx3_8 hwxs3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S8000x1x128 : Shape := ⟨3, ![8000, 1, 128]⟩
abbrev S8000x3x256 : Shape := ⟨3, ![8000, 3, 256]⟩
abbrev S8000x5x512 : Shape := ⟨3, ![8000, 5, 512]⟩
abbrev S8000x7x1024 : Shape := ⟨3, ![8000, 7, 1024]⟩
abbrev S1x128 : Shape := ⟨2, ![1, 128]⟩
abbrev S1x256 : Shape := ⟨2, ![1, 256]⟩
abbrev S1x512 : Shape := ⟨2, ![1, 512]⟩
abbrev S1x1024 : Shape := ⟨2, ![1, 1024]⟩
abbrev S8000x1x1 : Shape := ⟨3, ![8000, 1, 1]⟩
abbrev S8000x3x1 : Shape := ⟨3, ![8000, 3, 1]⟩
abbrev S8000x5x1 : Shape := ⟨3, ![8000, 5, 1]⟩
abbrev S8000x7x1 : Shape := ⟨3, ![8000, 7, 1]⟩

abbrev nBuf : Space → Nat
  | .hbm => 36
  | .vmem => 0
  | .smem => 0
  | _ => 0

abbrev bufTy : (tb : Table) → Fin (tcTables nBuf tb) → BufTy
  | .hbm, ⟨0, _⟩ => ⟨S8000x1x128, .f32⟩
  | .hbm, ⟨1, _⟩ => ⟨S8000x3x256, .f32⟩
  | .hbm, ⟨2, _⟩ => ⟨S8000x5x512, .f32⟩
  | .hbm, ⟨3, _⟩ => ⟨S8000x7x1024, .f32⟩
  | .hbm, ⟨4, _⟩ => ⟨S8000x1x128, .f32⟩
  | .hbm, ⟨5, _⟩ => ⟨S8000x3x256, .f32⟩
  | .hbm, ⟨6, _⟩ => ⟨S8000x5x512, .f32⟩
  | .hbm, ⟨7, _⟩ => ⟨S8000x7x1024, .f32⟩
  | .hbm, ⟨8, _⟩ => ⟨S8000x1x128, .f32⟩
  | .hbm, ⟨9, _⟩ => ⟨S8000x3x256, .f32⟩
  | .hbm, ⟨10, _⟩ => ⟨S8000x5x512, .f32⟩
  | .hbm, ⟨11, _⟩ => ⟨S8000x7x1024, .f32⟩
  | .hbm, ⟨12, _⟩ => ⟨S1x128, .f32⟩
  | .hbm, ⟨13, _⟩ => ⟨S1x256, .f32⟩
  | .hbm, ⟨14, _⟩ => ⟨S1x512, .f32⟩
  | .hbm, ⟨15, _⟩ => ⟨S1x1024, .f32⟩
  | .hbm, ⟨16, _⟩ => ⟨S1x128, .f32⟩
  | .hbm, ⟨17, _⟩ => ⟨S1x256, .f32⟩
  | .hbm, ⟨18, _⟩ => ⟨S1x512, .f32⟩
  | .hbm, ⟨19, _⟩ => ⟨S1x1024, .f32⟩
  | .hbm, ⟨20, _⟩ => ⟨S1x128, .f32⟩
  | .hbm, ⟨21, _⟩ => ⟨S1x256, .f32⟩
  | .hbm, ⟨22, _⟩ => ⟨S1x512, .f32⟩
  | .hbm, ⟨23, _⟩ => ⟨S1x1024, .f32⟩
  | .hbm, ⟨24, _⟩ => ⟨S8000x1x1, .f32⟩
  | .hbm, ⟨25, _⟩ => ⟨S8000x3x1, .f32⟩
  | .hbm, ⟨26, _⟩ => ⟨S8000x5x1, .f32⟩
  | .hbm, ⟨27, _⟩ => ⟨S8000x7x1, .f32⟩
  | .hbm, ⟨28, _⟩ => ⟨S8000x1x1, .f32⟩
  | .hbm, ⟨29, _⟩ => ⟨S8000x3x1, .f32⟩
  | .hbm, ⟨30, _⟩ => ⟨S8000x5x1, .f32⟩
  | .hbm, ⟨31, _⟩ => ⟨S8000x7x1, .f32⟩
  | .hbm, ⟨32, _⟩ => ⟨S8000x1x1, .f32⟩
  | .hbm, ⟨33, _⟩ => ⟨S8000x3x1, .f32⟩
  | .hbm, ⟨34, _⟩ => ⟨S8000x5x1, .f32⟩
  | .hbm, ⟨35, _⟩ => ⟨S8000x7x1, .f32⟩
  | _, _ => ⟨S8000x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩

abbrev nD : Nat := 1
abbrev τ : Topo := Topo.v7x

variable {F : FTy → Type} [FloatOps F]

class Facts₀ : Prop where
  dot_S8000x1x128_S1x128_S8000x1x1_2_1_01_0_n_n_wf : DotDims.WF S8000x1x128 S1x128 S8000x1x1 [2] [1] [0, 1] [0] [] []
  dot_S8000x3x256_S1x256_S8000x3x1_2_1_01_0_n_n_wf : DotDims.WF S8000x3x256 S1x256 S8000x3x1 [2] [1] [0, 1] [0] [] []
  dot_S8000x5x512_S1x512_S8000x5x1_2_1_01_0_n_n_wf : DotDims.WF S8000x5x512 S1x512 S8000x5x1 [2] [1] [0, 1] [0] [] []
  dot_S8000x7x1024_S1x1024_S8000x7x1_2_1_01_0_n_n_wf : DotDims.WF S8000x7x1024 S1x1024 S8000x7x1 [2] [1] [0, 1] [0] [] []

variable [Facts₀]

def dot_S8000x1x128_S1x128_S8000x1x1_2_1_01_0_n_n : DotDims S8000x1x128 S1x128 S8000x1x1 where
  lhsContracting := [2]
  rhsContracting := [1]
  lhsNonContracting := [0, 1]
  rhsNonContracting := [0]
  lhsBatch := []
  rhsBatch := []
  wf := dot_S8000x1x128_S1x128_S8000x1x1_2_1_01_0_n_n_wf
def dot_S8000x3x256_S1x256_S8000x3x1_2_1_01_0_n_n : DotDims S8000x3x256 S1x256 S8000x3x1 where
  lhsContracting := [2]
  rhsContracting := [1]
  lhsNonContracting := [0, 1]
  rhsNonContracting := [0]
  lhsBatch := []
  rhsBatch := []
  wf := dot_S8000x3x256_S1x256_S8000x3x1_2_1_01_0_n_n_wf
def dot_S8000x5x512_S1x512_S8000x5x1_2_1_01_0_n_n : DotDims S8000x5x512 S1x512 S8000x5x1 where
  lhsContracting := [2]
  rhsContracting := [1]
  lhsNonContracting := [0, 1]
  rhsNonContracting := [0]
  lhsBatch := []
  rhsBatch := []
  wf := dot_S8000x5x512_S1x512_S8000x5x1_2_1_01_0_n_n_wf
def dot_S8000x7x1024_S1x1024_S8000x7x1_2_1_01_0_n_n : DotDims S8000x7x1024 S1x1024 S8000x7x1 where
  lhsContracting := [2]
  rhsContracting := [1]
  lhsNonContracting := [0, 1]
  rhsNonContracting := [0]
  lhsBatch := []
  rhsBatch := []
  wf := dot_S8000x7x1024_S1x1024_S8000x7x1_2_1_01_0_n_n_wf

class Facts : Prop extends Facts₀ where

variable [Facts]
-- ==== Proof.LibKeptWindow.lean ====
/-
  Over the library only, for relational proof data: a window that the pipeline fetches at the first grid point only,
  never writes back, and whose relation says the body leaves its staging buffer as it found it, is found at EVERY
  point holding what the fetch at the first point put there (the block of the array inside the array, any filler
  elsewhere). What a body needs of an operand whose block index does not move with the grid: a weight row, a bias.
-/
import Idealize.ShloMosaic.Lib.Pipeline.Dat

noncomputable section

namespace KeptWindow

open Idealize.ShloMosaic Idealize.ShloMosaic.Pipeline
open Idealize.SL Idealize.SL.RA

variable {nD : Nat} {τ : Topo} {sig : RefSig} {Val : EltTy → Type} {Λ₀ : Idealize.SL.Sem.Labels}
variable {Ix : Type} [DecidableEq Ix] {Name : Type} [DecidableEq Name] {U : Type} [URA U] {Lvl : Type}
variable {cfg : Cfg sig Λ₀} {c : Dev nD}

/-- A window fetched at the first point only (`hfetch`), never written back (`hflush`) and left as found (`hkeep`) is
    found at every point at the contents the first point's fetch left: by induction on the point, each later point
    finding what the one before it left. -/
theorem finds_first (rd : RDat τ Val Ix Name U Lvl cfg c) (w : Fin cfg.W) (t₀ : Fin cfg.N) (h₀ : t₀.val = 0)
    (hfetch : ∀ t : Fin cfg.N, (cfg.win w).fetch t = true ↔ t.val = 0)
    (hflush : ∀ t : Fin cfg.N, (cfg.win w).flush t = false)
    (hkeep : ∀ (t : Fin cfg.N) (Y X : (cfg.win w).block.Idx → Val (cfg.win w).elt), rd.after w t Y X → X = Y) :
    ∀ (n : Nat) (t : Fin cfg.N), t.val = n → ∀ Y, rd.Finds w t Y → ∃ d, Y = rd.fetched w t₀ d := by
  intro n
  induction n with
  | zero =>
    intro t ht Y hY
    have e : t = t₀ := Fin.ext (by omega)
    subst e
    exact (rd.finds_of_fetch ((hfetch t).2 ht) Y).1 hY
  | succ n ih =>
    intro t ht Y hY
    have hf : (cfg.win w).fetch t = false := by
      cases h : (cfg.win w).fetch t with
      | false => rfl
      | true => exact absurd ((hfetch t).1 h) (by omega)
    rcases (rd.finds_of_pos hf (by omega) Y).1 hY with h | ⟨Y', hY', hrel⟩
    · rw [hflush] at h; exact absurd h Bool.false_ne_true
    · have e : Y = Y' := hkeep _ _ _ hrel
      subst e
      exact ih ⟨t.val - 1, Nat.lt_of_le_of_lt (Nat.sub_le _ _) t.isLt⟩ (by show t.val - 1 = n; omega) _ hY'

end KeptWindow

end
-- ==== Proof.BitsData0.lean ====
/-
  The relational proof data of kernel region 0: what the pipeline's windows hold when the body runs at a grid
  point, and what the body may leave in them.
-/
import proofs.«177139_j56324201120475_2_alg».proof.Proof.Gen.Kernel.Launch
import proofs.«177139_j56324201120475_2_alg».proof.Proof.Gen.Kernel.Skeleton
import proofs.«177139_j56324201120475_2_alg».proof.Proof.Gen.Kernel.Points
import proofs.«177139_j56324201120475_2_alg».proof.Proof.LibKeptWindow
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-! ## Region 0 -/

/-- The first grid point of region 0. -/
def tz0 : Fin cfg0.N := ⟨0, by have := N_0; show 0 < grid0.N; omega⟩

/-- Region 0's arrays when the region is entered: as launched (no earlier item of the program writes them). -/
abbrev A0 (c : Dev nD) (w : Fin cfg0.W) : Buf (Elt F) ((cfg0.win w).arr.view.loc (c.tc : Thread nD τ)) :=
  m ((c : Thread nD τ).loc (Pipeline.arrRef spec0 w))

/-- What window `w`'s staging buffer holds once the fetch at point `t` has landed, if it held `d`: the launch array's
    block at `t` on the part inside the array, `d` elsewhere. -/
def fetched0 (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (((cfg0.win w).blk t).view.read (Elt F) (A0 m c w))

/-- The relational proof data of region 0 on core `c`. The arrays enter at their launch contents. Of a data
    window's buffer (fetched anew at every point) nothing is kept; a weight window's buffer is left as found; a result
    window's buffer is left at the payload of the point's data block and the weight row as the fetches left them in
    their buffers — whatever filled those buffers past the arrays' ends. -/
def rdat0 (c : Dev nD) : RDat τ (Elt F) Unit ℕ (UR sig nD τ) ℕ cfg0 c where
  A := A0 m c
  after w t Y X := match w with
    | ⟨0, _⟩ => True
    | ⟨1, _⟩ => True
    | ⟨2, _⟩ => True
    | ⟨3, _⟩ => X = Y
    | ⟨4, _⟩ => X = Y
    | ⟨5, _⟩ => X = Y
    | ⟨6, _⟩ => ∃ d d', X = k0_pay1 (fetched0 m c 0 t d) (fetched0 m c 3 tz0 d')
    | ⟨7, _⟩ => ∃ d d', X = k0_pay2 (fetched0 m c 1 t d) (fetched0 m c 4 tz0 d')
    | ⟨8, _⟩ => ∃ d d', X = k0_pay3 (fetched0 m c 2 t d) (fetched0 m c 5 tz0 d')
  Φ _ := Pipeline.ΦA spec0 c
  q _ := fullShare
  owed _ := 0

theorem rdat0_fetched (c : Dev nD) (w : Fin cfg0.W) (t : Fin cfg0.N) (d) :
    (rdat0 m c).fetched w t d = fetched0 m c w t d := rfl

/-- The weight windows are never written back. -/
theorem noflush0_3 : ∀ t : Fin cfg0.N, (cfg0.win 3).flush t = false :=
  (by decide +kernel : ∀ t : Fin grid0.N, win0_3.flush t = false)
theorem noflush0_4 : ∀ t : Fin cfg0.N, (cfg0.win 4).flush t = false :=
  (by decide +kernel : ∀ t : Fin grid0.N, win0_4.flush t = false)
theorem noflush0_5 : ∀ t : Fin cfg0.N, (cfg0.win 5).flush t = false :=
  (by decide +kernel : ∀ t : Fin grid0.N, win0_5.flush t = false)

/-- A point of the grid with index a multiple of the grid's size is the first. -/
theorem mod0 (t : Fin cfg0.N) : t.val % 8 = 0 ↔ t.val = 0 := by
  have h : t.val < 8 := lt_of_lt_of_eq t.isLt N_0
  omega

/-- At every point a weight window's buffer is found as the first point's fetch left it. -/
theorem finds0_3 (c : Dev nD) (t : Fin cfg0.N) (Y) (h : (rdat0 m c).Finds 3 t Y) : ∃ d, Y = fetched0 m c 3 tz0 d :=
  KeptWindow.finds_first (rdat0 m c) 3 tz0 rfl (fun t => (fetch0_3 t).trans (mod0 t)) noflush0_3 (fun _ _ _ h => h) t.val t rfl Y h
theorem finds0_4 (c : Dev nD) (t : Fin cfg0.N) (Y) (h : (rdat0 m c).Finds 4 t Y) : ∃ d, Y = fetched0 m c 4 tz0 d :=
  KeptWindow.finds_first (rdat0 m c) 4 tz0 rfl (fun t => (fetch0_4 t).trans (mod0 t)) noflush0_4 (fun _ _ _ h => h) t.val t rfl Y h
theorem finds0_5 (c : Dev nD) (t : Fin cfg0.N) (Y) (h : (rdat0 m c).Finds 5 t Y) : ∃ d, Y = fetched0 m c 5 tz0 d :=
  KeptWindow.finds_first (rdat0 m c) 5 tz0 rfl (fun t => (fetch0_5 t).trans (mod0 t)) noflush0_5 (fun _ _ _ h => h) t.val t rfl Y h

/-- At every point a data window's buffer is found just fetched. -/
theorem finds0_0 (c : Dev nD) (t : Fin cfg0.N) (Y) (h : (rdat0 m c).Finds 0 t Y) : ∃ d, Y = fetched0 m c 0 t d :=
  ((rdat0 m c).finds_of_fetch (fetch0_0 t) Y).1 h
theorem finds0_1 (c : Dev nD) (t : Fin cfg0.N) (Y) (h : (rdat0 m c).Finds 1 t Y) : ∃ d, Y = fetched0 m c 1 t d :=
  ((rdat0 m c).finds_of_fetch (fetch0_1 t) Y).1 h
theorem finds0_2 (c : Dev nD) (t : Fin cfg0.N) (Y) (h : (rdat0 m c).Finds 2 t Y) : ∃ d, Y = fetched0 m c 2 t d :=
  ((rdat0 m c).finds_of_fetch (fetch0_2 t) Y).1 h

end Cert.Kernel.Hand

end
-- ==== Proof.BitsData1.lean ====
/-
  The relational proof data of kernel region 1: what the pipeline's windows hold when the body runs at a grid
  point, and what the body may leave in them.
-/
import proofs.«177139_j56324201120475_2_alg».proof.Proof.Gen.Kernel.Launch
import proofs.«177139_j56324201120475_2_alg».proof.Proof.Gen.Kernel.Skeleton
import proofs.«177139_j56324201120475_2_alg».proof.Proof.Gen.Kernel.Points
import proofs.«177139_j56324201120475_2_alg».proof.Proof.LibKeptWindow
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-! ## Region 1 -/

/-- The first grid point of region 1. -/
def tz1 : Fin cfg1.N := ⟨0, by have := N_1; show 0 < grid1.N; omega⟩

/-- Region 1's arrays when the region is entered: as launched (no earlier item of the program writes them). -/
abbrev A1 (c : Dev nD) (w : Fin cfg1.W) : Buf (Elt F) ((cfg1.win w).arr.view.loc (c.tc : Thread nD τ)) :=
  m ((c : Thread nD τ).loc (Pipeline.arrRef spec1 w))

/-- What window `w`'s staging buffer holds once the fetch at point `t` has landed, if it held `d`: the launch array's
    block at `t` on the part inside the array, `d` elsewhere. -/
def fetched1 (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (((cfg1.win w).blk t).view.read (Elt F) (A1 m c w))

/-- The relational proof data of region 1 on core `c`. The arrays enter at their launch contents. Of a data
    window's buffer (fetched anew at every point) nothing is kept; a weight window's buffer is left as found; a result
    window's buffer is left at the payload of the point's data block and the weight row as the fetches left them in
    their buffers — whatever filled those buffers past the arrays' ends. -/
def rdat1 (c : Dev nD) : RDat τ (Elt F) Unit ℕ (UR sig nD τ) ℕ cfg1 c where
  A := A1 m c
  after w t Y X := match w with
    | ⟨0, _⟩ => True
    | ⟨1, _⟩ => True
    | ⟨2, _⟩ => True
    | ⟨3, _⟩ => X = Y
    | ⟨4, _⟩ => X = Y
    | ⟨5, _⟩ => X = Y
    | ⟨6, _⟩ => ∃ d d', X = k1_pay1 (fetched1 m c 0 t d) (fetched1 m c 3 tz1 d')
    | ⟨7, _⟩ => ∃ d d', X = k1_pay2 (fetched1 m c 1 t d) (fetched1 m c 4 tz1 d')
    | ⟨8, _⟩ => ∃ d d', X = k1_pay3 (fetched1 m c 2 t d) (fetched1 m c 5 tz1 d')
  Φ _ := Pipeline.ΦA spec1 c
  q _ := fullShare
  owed _ := 0

theorem rdat1_fetched (c : Dev nD) (w : Fin cfg1.W) (t : Fin cfg1.N) (d) :
    (rdat1 m c).fetched w t d = fetched1 m c w t d := rfl

/-- The weight windows are never written back. -/
theorem noflush1_3 : ∀ t : Fin cfg1.N, (cfg1.win 3).flush t = false :=
  (by decide +kernel : ∀ t : Fin grid1.N, win1_3.flush t = false)
theorem noflush1_4 : ∀ t : Fin cfg1.N, (cfg1.win 4).flush t = false :=
  (by decide +kernel : ∀ t : Fin grid1.N, win1_4.flush t = false)
theorem noflush1_5 : ∀ t : Fin cfg1.N, (cfg1.win 5).flush t = false :=
  (by decide +kernel : ∀ t : Fin grid1.N, win1_5.flush t = false)

/-- A point of the grid with index a multiple of the grid's size is the first. -/
theorem mod1 (t : Fin cfg1.N) : t.val % 8 = 0 ↔ t.val = 0 := by
  have h : t.val < 8 := lt_of_lt_of_eq t.isLt N_1
  omega

/-- At every point a weight window's buffer is found as the first point's fetch left it. -/
theorem finds1_3 (c : Dev nD) (t : Fin cfg1.N) (Y) (h : (rdat1 m c).Finds 3 t Y) : ∃ d, Y = fetched1 m c 3 tz1 d :=
  KeptWindow.finds_first (rdat1 m c) 3 tz1 rfl (fun t => (fetch1_3 t).trans (mod1 t)) noflush1_3 (fun _ _ _ h => h) t.val t rfl Y h
theorem finds1_4 (c : Dev nD) (t : Fin cfg1.N) (Y) (h : (rdat1 m c).Finds 4 t Y) : ∃ d, Y = fetched1 m c 4 tz1 d :=
  KeptWindow.finds_first (rdat1 m c) 4 tz1 rfl (fun t => (fetch1_4 t).trans (mod1 t)) noflush1_4 (fun _ _ _ h => h) t.val t rfl Y h
theorem finds1_5 (c : Dev nD) (t : Fin cfg1.N) (Y) (h : (rdat1 m c).Finds 5 t Y) : ∃ d, Y = fetched1 m c 5 tz1 d :=
  KeptWindow.finds_first (rdat1 m c) 5 tz1 rfl (fun t => (fetch1_5 t).trans (mod1 t)) noflush1_5 (fun _ _ _ h => h) t.val t rfl Y h

/-- At every point a data window's buffer is found just fetched. -/
theorem finds1_0 (c : Dev nD) (t : Fin cfg1.N) (Y) (h : (rdat1 m c).Finds 0 t Y) : ∃ d, Y = fetched1 m c 0 t d :=
  ((rdat1 m c).finds_of_fetch (fetch1_0 t) Y).1 h
theorem finds1_1 (c : Dev nD) (t : Fin cfg1.N) (Y) (h : (rdat1 m c).Finds 1 t Y) : ∃ d, Y = fetched1 m c 1 t d :=
  ((rdat1 m c).finds_of_fetch (fetch1_1 t) Y).1 h
theorem finds1_2 (c : Dev nD) (t : Fin cfg1.N) (Y) (h : (rdat1 m c).Finds 2 t Y) : ∃ d, Y = fetched1 m c 2 t d :=
  ((rdat1 m c).finds_of_fetch (fetch1_2 t) Y).1 h

end Cert.Kernel.Hand

end
-- ==== Proof.BitsData2.lean ====
/-
  The relational proof data of kernel region 2: what the pipeline's windows hold when the body runs at a grid
  point, and what the body may leave in them.
-/
import proofs.«177139_j56324201120475_2_alg».proof.Proof.Gen.Kernel.Launch
import proofs.«177139_j56324201120475_2_alg».proof.Proof.Gen.Kernel.Skeleton
import proofs.«177139_j56324201120475_2_alg».proof.Proof.Gen.Kernel.Points
import proofs.«177139_j56324201120475_2_alg».proof.Proof.LibKeptWindow
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-! ## Region 2 -/

/-- The first grid point of region 2. -/
def tz2 : Fin cfg2.N := ⟨0, by have := N_2; show 0 < grid2.N; omega⟩

/-- Region 2's arrays when the region is entered: as launched (no earlier item of the program writes them). -/
abbrev A2 (c : Dev nD) (w : Fin cfg2.W) : Buf (Elt F) ((cfg2.win w).arr.view.loc (c.tc : Thread nD τ)) :=
  m ((c : Thread nD τ).loc (Pipeline.arrRef spec2 w))

/-- What window `w`'s staging buffer holds once the fetch at point `t` has landed, if it held `d`: the launch array's
    block at `t` on the part inside the array, `d` elsewhere. -/
def fetched2 (c : Dev nD) (w : Fin cfg2.W) (t : Fin cfg2.N) (d : (cfg2.win w).block.Idx → Elt F (cfg2.win w).elt) :
    (cfg2.win w).block.Idx → Elt F (cfg2.win w).elt :=
  (cfg2.win w).fill (cfg2.grid.coords t) d (((cfg2.win w).blk t).view.read (Elt F) (A2 m c w))

/-- The relational proof data of region 2 on core `c`. The arrays enter at their launch contents. Of a data
    window's buffer (fetched anew at every point) nothing is kept; a weight window's buffer is left as found; a result
    window's buffer is left at the payload of the point's data block and the weight row as the fetches left them in
    their buffers — whatever filled those buffers past the arrays' ends. -/
def rdat2 (c : Dev nD) : RDat τ (Elt F) Unit ℕ (UR sig nD τ) ℕ cfg2 c where
  A := A2 m c
  after w t Y X := match w with
    | ⟨0, _⟩ => True
    | ⟨1, _⟩ => True
    | ⟨2, _⟩ => True
    | ⟨3, _⟩ => X = Y
    | ⟨4, _⟩ => X = Y
    | ⟨5, _⟩ => X = Y
    | ⟨6, _⟩ => ∃ d d', X = k2_pay1 (fetched2 m c 0 t d) (fetched2 m c 3 tz2 d')
    | ⟨7, _⟩ => ∃ d d', X = k2_pay2 (fetched2 m c 1 t d) (fetched2 m c 4 tz2 d')
    | ⟨8, _⟩ => ∃ d d', X = k2_pay3 (fetched2 m c 2 t d) (fetched2 m c 5 tz2 d')
  Φ _ := Pipeline.ΦA spec2 c
  q _ := fullShare
  owed _ := 0

theorem rdat2_fetched (c : Dev nD) (w : Fin cfg2.W) (t : Fin cfg2.N) (d) :
    (rdat2 m c).fetched w t d = fetched2 m c w t d := rfl

/-- The weight windows are never written back. -/
theorem noflush2_3 : ∀ t : Fin cfg2.N, (cfg2.win 3).flush t = false :=
  (by decide +kernel : ∀ t : Fin grid2.N, win2_3.flush t = false)
theorem noflush2_4 : ∀ t : Fin cfg2.N, (cfg2.win 4).flush t = false :=
  (by decide +kernel : ∀ t : Fin grid2.N, win2_4.flush t = false)
theorem noflush2_5 : ∀ t : Fin cfg2.N, (cfg2.win 5).flush t = false :=
  (by decide +kernel : ∀ t : Fin grid2.N, win2_5.flush t = false)

/-- A point of the grid with index a multiple of the grid's size is the first. -/
theorem mod2 (t : Fin cfg2.N) : t.val % 16 = 0 ↔ t.val = 0 := by
  have h : t.val < 16 := lt_of_lt_of_eq t.isLt N_2
  omega

/-- At every point a weight window's buffer is found as the first point's fetch left it. -/
theorem finds2_3 (c : Dev nD) (t : Fin cfg2.N) (Y) (h : (rdat2 m c).Finds 3 t Y) : ∃ d, Y = fetched2 m c 3 tz2 d :=
  KeptWindow.finds_first (rdat2 m c) 3 tz2 rfl (fun t => (fetch2_3 t).trans (mod2 t)) noflush2_3 (fun _ _ _ h => h) t.val t rfl Y h
theorem finds2_4 (c : Dev nD) (t : Fin cfg2.N) (Y) (h : (rdat2 m c).Finds 4 t Y) : ∃ d, Y = fetched2 m c 4 tz2 d :=
  KeptWindow.finds_first (rdat2 m c) 4 tz2 rfl (fun t => (fetch2_4 t).trans (mod2 t)) noflush2_4 (fun _ _ _ h => h) t.val t rfl Y h
theorem finds2_5 (c : Dev nD) (t : Fin cfg2.N) (Y) (h : (rdat2 m c).Finds 5 t Y) : ∃ d, Y = fetched2 m c 5 tz2 d :=
  KeptWindow.finds_first (rdat2 m c) 5 tz2 rfl (fun t => (fetch2_5 t).trans (mod2 t)) noflush2_5 (fun _ _ _ h => h) t.val t rfl Y h

/-- At every point a data window's buffer is found just fetched. -/
theorem finds2_0 (c : Dev nD) (t : Fin cfg2.N) (Y) (h : (rdat2 m c).Finds 0 t Y) : ∃ d, Y = fetched2 m c 0 t d :=
  ((rdat2 m c).finds_of_fetch (fetch2_0 t) Y).1 h
theorem finds2_1 (c : Dev nD) (t : Fin cfg2.N) (Y) (h : (rdat2 m c).Finds 1 t Y) : ∃ d, Y = fetched2 m c 1 t d :=
  ((rdat2 m c).finds_of_fetch (fetch2_1 t) Y).1 h
theorem finds2_2 (c : Dev nD) (t : Fin cfg2.N) (Y) (h : (rdat2 m c).Finds 2 t Y) : ∃ d, Y = fetched2 m c 2 t d :=
  ((rdat2 m c).finds_of_fetch (fetch2_2 t) Y).1 h

end Cert.Kernel.Hand

end
-- ==== Proof.BitsData3.lean ====
/-
  The relational proof data of kernel region 3: what the pipeline's windows hold when the body runs at a grid
  point, and what the body may leave in them.
-/
import proofs.«177139_j56324201120475_2_alg».proof.Proof.Gen.Kernel.Launch
import proofs.«177139_j56324201120475_2_alg».proof.Proof.Gen.Kernel.Skeleton
import proofs.«177139_j56324201120475_2_alg».proof.Proof.Gen.Kernel.Points
import proofs.«177139_j56324201120475_2_alg».proof.Proof.LibKeptWindow
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-! ## Region 3 -/

/-- The first grid point of region 3. -/
def tz3 : Fin cfg3.N := ⟨0, by have := N_3; show 0 < grid3.N; omega⟩

/-- Region 3's arrays when the region is entered: as launched (no earlier item of the program writes them). -/
abbrev A3 (c : Dev nD) (w : Fin cfg3.W) : Buf (Elt F) ((cfg3.win w).arr.view.loc (c.tc : Thread nD τ)) :=
  m ((c : Thread nD τ).loc (Pipeline.arrRef spec3 w))

/-- What window `w`'s staging buffer holds once the fetch at point `t` has landed, if it held `d`: the launch array's
    block at `t` on the part inside the array, `d` elsewhere. -/
def fetched3 (c : Dev nD) (w : Fin cfg3.W) (t : Fin cfg3.N) (d : (cfg3.win w).block.Idx → Elt F (cfg3.win w).elt) :
    (cfg3.win w).block.Idx → Elt F (cfg3.win w).elt :=
  (cfg3.win w).fill (cfg3.grid.coords t) d (((cfg3.win w).blk t).view.read (Elt F) (A3 m c w))

/-- The relational proof data of region 3 on core `c`. The arrays enter at their launch contents. Of a data
    window's buffer (fetched anew at every point) nothing is kept; a weight window's buffer is left as found; a result
    window's buffer is left at the payload of the point's data block and the weight row as the fetches left them in
    their buffers — whatever filled those buffers past the arrays' ends. -/
def rdat3 (c : Dev nD) : RDat τ (Elt F) Unit ℕ (UR sig nD τ) ℕ cfg3 c where
  A := A3 m c
  after w t Y X := match w with
    | ⟨0, _⟩ => True
    | ⟨1, _⟩ => True
    | ⟨2, _⟩ => True
    | ⟨3, _⟩ => X = Y
    | ⟨4, _⟩ => X = Y
    | ⟨5, _⟩ => X = Y
    | ⟨6, _⟩ => ∃ d d', X = k3_pay1 (fetched3 m c 0 t d) (fetched3 m c 3 tz3 d')
    | ⟨7, _⟩ => ∃ d d', X = k3_pay2 (fetched3 m c 1 t d) (fetched3 m c 4 tz3 d')
    | ⟨8, _⟩ => ∃ d d', X = k3_pay3 (fetched3 m c 2 t d) (fetched3 m c 5 tz3 d')
  Φ _ := Pipeline.ΦA spec3 c
  q _ := fullShare
  owed _ := 0

theorem rdat3_fetched (c : Dev nD) (w : Fin cfg3.W) (t : Fin cfg3.N) (d) :
    (rdat3 m c).fetched w t d = fetched3 m c w t d := rfl

/-- The weight windows are never written back. -/
theorem noflush3_3 : ∀ t : Fin cfg3.N, (cfg3.win 3).flush t = false :=
  (by decide +kernel : ∀ t : Fin grid3.N, win3_3.flush t = false)
theorem noflush3_4 : ∀ t : Fin cfg3.N, (cfg3.win 4).flush t = false :=
  (by decide +kernel : ∀ t : Fin grid3.N, win3_4.flush t = false)
theorem noflush3_5 : ∀ t : Fin cfg3.N, (cfg3.win 5).flush t = false :=
  (by decide +kernel : ∀ t : Fin grid3.N, win3_5.flush t = false)

/-- A point of the grid with index a multiple of the grid's size is the first. -/
theorem mod3 (t : Fin cfg3.N) : t.val % 32 = 0 ↔ t.val = 0 := by
  have h : t.val < 32 := lt_of_lt_of_eq t.isLt N_3
  omega

/-- At every point a weight window's buffer is found as the first point's fetch left it. -/
theorem finds3_3 (c : Dev nD) (t : Fin cfg3.N) (Y) (h : (rdat3 m c).Finds 3 t Y) : ∃ d, Y = fetched3 m c 3 tz3 d :=
  KeptWindow.finds_first (rdat3 m c) 3 tz3 rfl (fun t => (fetch3_3 t).trans (mod3 t)) noflush3_3 (fun _ _ _ h => h) t.val t rfl Y h
theorem finds3_4 (c : Dev nD) (t : Fin cfg3.N) (Y) (h : (rdat3 m c).Finds 4 t Y) : ∃ d, Y = fetched3 m c 4 tz3 d :=
  KeptWindow.finds_first (rdat3 m c) 4 tz3 rfl (fun t => (fetch3_4 t).trans (mod3 t)) noflush3_4 (fun _ _ _ h => h) t.val t rfl Y h
theorem finds3_5 (c : Dev nD) (t : Fin cfg3.N) (Y) (h : (rdat3 m c).Finds 5 t Y) : ∃ d, Y = fetched3 m c 5 tz3 d :=
  KeptWindow.finds_first (rdat3 m c) 5 tz3 rfl (fun t => (fetch3_5 t).trans (mod3 t)) noflush3_5 (fun _ _ _ h => h) t.val t rfl Y h

/-- At every point a data window's buffer is found just fetched. -/
theorem finds3_0 (c : Dev nD) (t : Fin cfg3.N) (Y) (h : (rdat3 m c).Finds 0 t Y) : ∃ d, Y = fetched3 m c 0 t d :=
  ((rdat3 m c).finds_of_fetch (fetch3_0 t) Y).1 h
theorem finds3_1 (c : Dev nD) (t : Fin cfg3.N) (Y) (h : (rdat3 m c).Finds 1 t Y) : ∃ d, Y = fetched3 m c 1 t d :=
  ((rdat3 m c).finds_of_fetch (fetch3_1 t) Y).1 h
theorem finds3_2 (c : Dev nD) (t : Fin cfg3.N) (Y) (h : (rdat3 m c).Finds 2 t Y) : ∃ d, Y = fetched3 m c 2 t d :=
  ((rdat3 m c).finds_of_fetch (fetch3_2 t) Y).1 h

end Cert.Kernel.Hand

end
-- ==== Proof.BitsInv.lean ====
/-
  What the thread state between two items of the host program knows of the contents `V` the unscoped buffers are held
  at: every reference no earlier item writes holds its launch contents; each array of a finished kernel region holds
  contents it may hold after every write-back of that region; and each result a finished host stretch wrote is the
  transposed, reshaped contents of such an array. With the lemmas that carry this knowledge across a region (the
  buffers change at that region's arrays only) and across a host stretch (at the references it writes only).
-/
import proofs.«177139_j56324201120475_2_alg».proof.Proof.Gen.Kernel.Launch
import proofs.«177139_j56324201120475_2_alg».proof.Proof.Gen.Kernel.Skeleton
import proofs.«177139_j56324201120475_2_alg».proof.Proof.Gen.Kernel.Points
import proofs.«177139_j56324201120475_2_alg».proof.Proof.Gen.Kernel.Regions
import proofs.«177139_j56324201120475_2_alg».proof.Proof.BitsData0
import proofs.«177139_j56324201120475_2_alg».proof.Proof.BitsData1
import proofs.«177139_j56324201120475_2_alg».proof.Proof.BitsData2
import proofs.«177139_j56324201120475_2_alg».proof.Proof.BitsData3
import Idealize.ShloMosaic.Lib.Pipeline.FrameSuffix
import Idealize.ShloMosaic.Lib.StableHlo.Run
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.Pipeline (withArrays withArrays_arr withArrays_of_ne arrRef)

variable (m : (ℓ : Loc nD τ sig) → Buf (Elt F) ℓ)

/-- `V` holds the launch contents at every reference outside `S`. -/
def Untouched (S : List (Ref sig .tc)) (c : Dev nD) (V : Valuation τ sig (Elt F)) : Prop :=
  ∀ r : Ref sig .tc, r ∉ S → V r = m ((c : Thread nD τ).loc r)

theorem Untouched.mono {S S' : List (Ref sig .tc)} {c : Dev nD} {V : Valuation τ sig (Elt F)} (h : Untouched m S c V)
    (hS : ∀ r, r ∈ S → r ∈ S') : Untouched m S' c V := fun r hr => h r fun hm => hr (hS r hm)

/-! ## Region 0 -/

/-- The result arrays of region 0. -/
abbrev O0 : List (Ref sig .tc) := [main_call0_v0_0, main_call0_v0_1, main_call0_v0_2]

/-- A [1, 8000] array transposed and given a trailing unit axis: what the host stretch after region 0 makes of a result array. -/
def tail0 (B : S1x8000.Idx → Elt F .f32) : S8000x1x1.Idx → Elt F .f32 :=
  shapeCast S8000x1x1 (transpose S8000x1 [1, 0] B transposes_S1x8000_S8000x1_1_0) shapeCasts_S8000x1_S8000x1x1

/-- Every array of region 0 holds contents it may hold after every write-back of the region. -/
def RegOut0 (c : Dev nD) (V : Valuation τ sig (Elt F)) : Prop :=
  ∀ w : Fin cfg0.W, (rdat0 m c).ArrAt w cfg0.N (V (arrRef spec0 w))

/-- Each of the three results the host stretch after region 0 writes is the transposed, reshaped contents of some
    contents the matching result array may hold after every write-back. -/
def HostOut0 (c : Dev nD) (V : Valuation τ sig (Elt F)) : Prop :=
  (∃ B, (rdat0 m c).ArrAt 6 cfg0.N B ∧ V main_v0_0 = tail0 B)
  ∧ (∃ B, (rdat0 m c).ArrAt 7 cfg0.N B ∧ V main_v0_4 = tail0 B)
  ∧ (∃ B, (rdat0 m c).ArrAt 8 cfg0.N B ∧ V main_v0_8 = tail0 B)

theorem HostOut0.congr {c : Dev nD} {V V' : Valuation τ sig (Elt F)} (h : HostOut0 m c V)
    (h0 : V' main_v0_0 = V main_v0_0) (h1 : V' main_v0_4 = V main_v0_4) (h2 : V' main_v0_8 = V main_v0_8) : HostOut0 m c V' := by
  obtain ⟨⟨B0, a0, e0⟩, ⟨B1, a1, e1⟩, ⟨B2, a2, e2⟩⟩ := h
  exact ⟨⟨B0, a0, h0.trans e0⟩, ⟨B1, a1, h1.trans e1⟩, ⟨B2, a2, h2.trans e2⟩⟩

/-- A result-window array is one of the region's result arrays. -/
theorem out_mem0 : ∀ w : Fin cfg0.W, (cfg0.win w).isOut = true → arrRef spec0 w ∈ (O0 : List (Ref sig .tc)) := by decide

/-- Across region 0: off the region's result arrays the buffers hold what they held (an operand array is never
    written). -/
theorem untouched_reg0 {S : List (Ref sig .tc)} {c : Dev nD} {V : Valuation τ sig (Elt F)} (hU : Untouched m S c V)
    (hS : ∀ w : Fin cfg0.W, arrRef spec0 w ∉ S)
    (Fs : (w : Fin cfg0.W) → Buf (Elt F) ((cfg0.win w).arr.view.loc (c.tc : Thread nD τ)))
    (hF : ∀ w, (rdat0 m c).ArrAt w cfg0.N (Fs w)) : Untouched m (S ++ O0) c (withArrays spec0 c V Fs) := by
  intro r hr
  by_cases h : ∃ w, arrRef spec0 w = r
  · obtain ⟨w, rfl⟩ := h
    rw [withArrays_arr spec0 launch0.win.arr_inj c V Fs w]
    have hin : (cfg0.win w).isOut = false := by
      cases hw : (cfg0.win w).isOut with
      | false => rfl
      | true => exact absurd (List.mem_append_right _ (out_mem0 w hw)) hr
    have h1 := hF w
    rw [(rdat0 m c).ArrAt_in w hin cfg0.N] at h1
    exact h1
  · rw [withArrays_of_ne spec0 c V Fs r (fun w hw => h ⟨w, hw⟩)]
    exact hU r fun hm => hr (List.mem_append_left _ hm)

theorem regout0 {c : Dev nD} (V : Valuation τ sig (Elt F))
    (Fs : (w : Fin cfg0.W) → Buf (Elt F) ((cfg0.win w).arr.view.loc (c.tc : Thread nD τ)))
    (hF : ∀ w, (rdat0 m c).ArrAt w cfg0.N (Fs w)) : RegOut0 m c (withArrays spec0 c V Fs) := by
  intro w
  rw [withArrays_arr spec0 launch0.win.arr_inj c V Fs w]
  exact hF w

/-- Across the host stretch after region 0: off the references it writes the buffers hold what they held. -/
theorem untouched_host1 {S : List (Ref sig .tc)} {c : Dev nD} {V : Valuation τ sig (Elt F)} (hU : Untouched m S c V) :
    Untouched m (S ++ hostOps1_W) c (StableHlo.after hostOps1 V) := by
  intro r hr
  rw [StableHlo.after_of_writes_sub hostOps1 V hostOps1_writes (fun hm => hr (List.mem_append_right _ hm))]
  exact hU r fun hm => hr (List.mem_append_left _ hm)

/-- The host stretch after region 0 writes each result as the transposed, reshaped result array. -/
theorem hostout0 {c : Dev nD} {V : Valuation τ sig (Elt F)} (hR : RegOut0 m c V) : HostOut0 m c (StableHlo.after hostOps1 V) := by
  refine ⟨⟨V main_call0_v0_0, hR 6, ?_⟩, ⟨V main_call0_v0_1, hR 7, ?_⟩, ⟨V main_call0_v0_2, hR 8, ?_⟩⟩
  · unfold tail0; after_results; rfl
  · unfold tail0; after_results; rfl
  · unfold tail0; after_results; rfl

/-! ## Region 1 -/

/-- The result arrays of region 1. -/
abbrev O1 : List (Ref sig .tc) := [main_call0_v7_0, main_call0_v7_1, main_call0_v7_2]

/-- A [3, 8000] array transposed and given a trailing unit axis: what the host stretch after region 1 makes of a result array. -/
def tail1 (B : S3x8000.Idx → Elt F .f32) : S8000x3x1.Idx → Elt F .f32 :=
  shapeCast S8000x3x1 (transpose S8000x3 [1, 0] B transposes_S3x8000_S8000x3_1_0) shapeCasts_S8000x3_S8000x3x1

/-- Every array of region 1 holds contents it may hold after every write-back of the region. -/
def RegOut1 (c : Dev nD) (V : Valuation τ sig (Elt F)) : Prop :=
  ∀ w : Fin cfg1.W, (rdat1 m c).ArrAt w cfg1.N (V (arrRef spec1 w))

/-- Each of the three results the host stretch after region 1 writes is the transposed, reshaped contents of some
    contents the matching result array may hold after every write-back. -/
def HostOut1 (c : Dev nD) (V : Valuation τ sig (Elt F)) : Prop :=
  (∃ B, (rdat1 m c).ArrAt 6 cfg1.N B ∧ V main_v0_1 = tail1 B)
  ∧ (∃ B, (rdat1 m c).ArrAt 7 cfg1.N B ∧ V main_v0_5 = tail1 B)
  ∧ (∃ B, (rdat1 m c).ArrAt 8 cfg1.N B ∧ V main_v0_9 = tail1 B)

theorem HostOut1.congr {c : Dev nD} {V V' : Valuation τ sig (Elt F)} (h : HostOut1 m c V)
    (h0 : V' main_v0_1 = V main_v0_1) (h1 : V' main_v0_5 = V main_v0_5) (h2 : V' main_v0_9 = V main_v0_9) : HostOut1 m c V' := by
  obtain ⟨⟨B0, a0, e0⟩, ⟨B1, a1, e1⟩, ⟨B2, a2, e2⟩⟩ := h
  exact ⟨⟨B0, a0, h0.trans e0⟩, ⟨B1, a1, h1.trans e1⟩, ⟨B2, a2, h2.trans e2⟩⟩

/-- A result-window array is one of the region's result arrays. -/
theorem out_mem1 : ∀ w : Fin cfg1.W, (cfg1.win w).isOut = true → arrRef spec1 w ∈ (O1 : List (Ref sig .tc)) := by decide

/-- Across region 1: off the region's result arrays the buffers hold what they held (an operand array is never
    written). -/
theorem untouched_reg1 {S : List (Ref sig .tc)} {c : Dev nD} {V : Valuation τ sig (Elt F)} (hU : Untouched m S c V)
    (hS : ∀ w : Fin cfg1.W, arrRef spec1 w ∉ S)
    (Fs : (w : Fin cfg1.W) → Buf (Elt F) ((cfg1.win w).arr.view.loc (c.tc : Thread nD τ)))
    (hF : ∀ w, (rdat1 m c).ArrAt w cfg1.N (Fs w)) : Untouched m (S ++ O1) c (withArrays spec1 c V Fs) := by
  intro r hr
  by_cases h : ∃ w, arrRef spec1 w = r
  · obtain ⟨w, rfl⟩ := h
    rw [withArrays_arr spec1 launch1.win.arr_inj c V Fs w]
    have hin : (cfg1.win w).isOut = false := by
      cases hw : (cfg1.win w).isOut with
      | false => rfl
      | true => exact absurd (List.mem_append_right _ (out_mem1 w hw)) hr
    have h1 := hF w
    rw [(rdat1 m c).ArrAt_in w hin cfg1.N] at h1
    exact h1
  · rw [withArrays_of_ne spec1 c V Fs r (fun w hw => h ⟨w, hw⟩)]
    exact hU r fun hm => hr (List.mem_append_left _ hm)

theorem regout1 {c : Dev nD} (V : Valuation τ sig (Elt F))
    (Fs : (w : Fin cfg1.W) → Buf (Elt F) ((cfg1.win w).arr.view.loc (c.tc : Thread nD τ)))
    (hF : ∀ w, (rdat1 m c).ArrAt w cfg1.N (Fs w)) : RegOut1 m c (withArrays spec1 c V Fs) := by
  intro w
  rw [withArrays_arr spec1 launch1.win.arr_inj c V Fs w]
  exact hF w

/-- Across the host stretch after region 1: off the references it writes the buffers hold what they held. -/
theorem untouched_host2 {S : List (Ref sig .tc)} {c : Dev nD} {V : Valuation τ sig (Elt F)} (hU : Untouched m S c V) :
    Untouched m (S ++ hostOps2_W) c (StableHlo.after hostOps2 V) := by
  intro r hr
  rw [StableHlo.after_of_writes_sub hostOps2 V hostOps2_writes (fun hm => hr (List.mem_append_right _ hm))]
  exact hU r fun hm => hr (List.mem_append_left _ hm)

/-- The host stretch after region 1 writes each result as the transposed, reshaped result array. -/
theorem hostout1 {c : Dev nD} {V : Valuation τ sig (Elt F)} (hR : RegOut1 m c V) : HostOut1 m c (StableHlo.after hostOps2 V) := by
  refine ⟨⟨V main_call0_v7_0, hR 6, ?_⟩, ⟨V main_call0_v7_1, hR 7, ?_⟩, ⟨V main_call0_v7_2, hR 8, ?_⟩⟩
  · unfold tail1; after_results; rfl
  · unfold tail1; after_results; rfl
  · unfold tail1; after_results; rfl

/-! ## Region 2 -/

/-- The result arrays of region 2. -/
abbrev O2 : List (Ref sig .tc) := [main_call0_v14_0, main_call0_v14_1, main_call0_v14_2]

/-- A [5, 8000] array transposed and given a trailing unit axis: what the host stretch after region 2 makes of a result array. -/
def tail2 (B : S5x8000.Idx → Elt F .f32) : S8000x5x1.Idx → Elt F .f32 :=
  shapeCast S8000x5x1 (transpose S8000x5 [1, 0] B transposes_S5x8000_S8000x5_1_0) shapeCasts_S8000x5_S8000x5x1

/-- Every array of region 2 holds contents it may hold after every write-back of the region. -/
def RegOut2 (c : Dev nD) (V : Valuation τ sig (Elt F)) : Prop :=
  ∀ w : Fin cfg2.W, (rdat2 m c).ArrAt w cfg2.N (V (arrRef spec2 w))

/-- Each of the three results the host stretch after region 2 writes is the transposed, reshaped contents of some
    contents the matching result array may hold after every write-back. -/
def HostOut2 (c : Dev nD) (V : Valuation τ sig (Elt F)) : Prop :=
  (∃ B, (rdat2 m c).ArrAt 6 cfg2.N B ∧ V main_v0_2 = tail2 B)
  ∧ (∃ B, (rdat2 m c).ArrAt 7 cfg2.N B ∧ V main_v0_6 = tail2 B)
  ∧ (∃ B, (rdat2 m c).ArrAt 8 cfg2.N B ∧ V main_v0_10 = tail2 B)

theorem HostOut2.congr {c : Dev nD} {V V' : Valuation τ sig (Elt F)} (h : HostOut2 m c V)
    (h0 : V' main_v0_2 = V main_v0_2) (h1 : V' main_v0_6 = V main_v0_6) (h2 : V' main_v0_10 = V main_v0_10) : HostOut2 m c V' := by
  obtain ⟨⟨B0, a0, e0⟩, ⟨B1, a1, e1⟩, ⟨B2, a2, e2⟩⟩ := h
  exact ⟨⟨B0, a0, h0.trans e0⟩, ⟨B1, a1, h1.trans e1⟩, ⟨B2, a2, h2.trans e2⟩⟩

/-- A result-window array is one of the region's result arrays. -/
theorem out_mem2 : ∀ w : Fin cfg2.W, (cfg2.win w).isOut = true → arrRef spec2 w ∈ (O2 : List (Ref sig .tc)) := by decide

/-- Across region 2: off the region's result arrays the buffers hold what they held (an operand array is never
    written). -/
theorem untouched_reg2 {S : List (Ref sig .tc)} {c : Dev nD} {V : Valuation τ sig (Elt F)} (hU : Untouched m S c V)
    (hS : ∀ w : Fin cfg2.W, arrRef spec2 w ∉ S)
    (Fs : (w : Fin cfg2.W) → Buf (Elt F) ((cfg2.win w).arr.view.loc (c.tc : Thread nD τ)))
    (hF : ∀ w, (rdat2 m c).ArrAt w cfg2.N (Fs w)) : Untouched m (S ++ O2) c (withArrays spec2 c V Fs) := by
  intro r hr
  by_cases h : ∃ w, arrRef spec2 w = r
  · obtain ⟨w, rfl⟩ := h
    rw [withArrays_arr spec2 launch2.win.arr_inj c V Fs w]
    have hin : (cfg2.win w).isOut = false := by
      cases hw : (cfg2.win w).isOut with
      | false => rfl
      | true => exact absurd (List.mem_append_right _ (out_mem2 w hw)) hr
    have h1 := hF w
    rw [(rdat2 m c).ArrAt_in w hin cfg2.N] at h1
    exact h1
  · rw [withArrays_of_ne spec2 c V Fs r (fun w hw => h ⟨w, hw⟩)]
    exact hU r fun hm => hr (List.mem_append_left _ hm)

theorem regout2 {c : Dev nD} (V : Valuation τ sig (Elt F))
    (Fs : (w : Fin cfg2.W) → Buf (Elt F) ((cfg2.win w).arr.view.loc (c.tc : Thread nD τ)))
    (hF : ∀ w, (rdat2 m c).ArrAt w cfg2.N (Fs w)) : RegOut2 m c (withArrays spec2 c V Fs) := by
  intro w
  rw [withArrays_arr spec2 launch2.win.arr_inj c V Fs w]
  exact hF w

/-- Across the host stretch after region 2: off the references it writes the buffers hold what they held. -/
theorem untouched_host3 {S : List (Ref sig .tc)} {c : Dev nD} {V : Valuation τ sig (Elt F)} (hU : Untouched m S c V) :
    Untouched m (S ++ hostOps3_W) c (StableHlo.after hostOps3 V) := by
  intro r hr
  rw [StableHlo.after_of_writes_sub hostOps3 V hostOps3_writes (fun hm => hr (List.mem_append_right _ hm))]
  exact hU r fun hm => hr (List.mem_append_left _ hm)

/-- The host stretch after region 2 writes each result as the transposed, reshaped result array. -/
theorem hostout2 {c : Dev nD} {V : Valuation τ sig (Elt F)} (hR : RegOut2 m c V) : HostOut2 m c (StableHlo.after hostOps3 V) := by
  refine ⟨⟨V main_call0_v14_0, hR 6, ?_⟩, ⟨V main_call0_v14_1, hR 7, ?_⟩, ⟨V main_call0_v14_2, hR 8, ?_⟩⟩
  · unfold tail2; after_results; rfl
  · unfold tail2; after_results; rfl
  · unfold tail2; after_results; rfl

/-! ## Region 3 -/

/-- The result arrays of region 3. -/
abbrev O3 : List (Ref sig .tc) := [main_call0_v21_0, main_call0_v21_1, main_call0_v21_2]

/-- A [7, 8000] array transposed and given a trailing unit axis: what the host stretch after region 3 makes of a result array. -/
def tail3 (B : S7x8000.Idx → Elt F .f32) : S8000x7x1.Idx → Elt F .f32 :=
  shapeCast S8000x7x1 (transpose S8000x7 [1, 0] B transposes_S7x8000_S8000x7_1_0) shapeCasts_S8000x7_S8000x7x1

/-- Every array of region 3 holds contents it may hold after every write-back of the region. -/
def RegOut3 (c : Dev nD) (V : Valuation τ sig (Elt F)) : Prop :=
  ∀ w : Fin cfg3.W, (rdat3 m c).ArrAt w cfg3.N (V (arrRef spec3 w))

/-- Each of the three results the host stretch after region 3 writes is the transposed, reshaped contents of some
    contents the matching result array may hold after every write-back. -/
def HostOut3 (c : Dev nD) (V : Valuation τ sig (Elt F)) : Prop :=
  (∃ B, (rdat3 m c).ArrAt 6 cfg3.N B ∧ V main_v0_3 = tail3 B)
  ∧ (∃ B, (rdat3 m c).ArrAt 7 cfg3.N B ∧ V main_v0_7 = tail3 B)
  ∧ (∃ B, (rdat3 m c).ArrAt 8 cfg3.N B ∧ V main_v0_11 = tail3 B)

theorem HostOut3.congr {c : Dev nD} {V V' : Valuation τ sig (Elt F)} (h : HostOut3 m c V)
    (h0 : V' main_v0_3 = V main_v0_3) (h1 : V' main_v0_7 = V main_v0_7) (h2 : V' main_v0_11 = V main_v0_11) : HostOut3 m c V' := by
  obtain ⟨⟨B0, a0, e0⟩, ⟨B1, a1, e1⟩, ⟨B2, a2, e2⟩⟩ := h
  exact ⟨⟨B0, a0, h0.trans e0⟩, ⟨B1, a1, h1.trans e1⟩, ⟨B2, a2, h2.trans e2⟩⟩

/-- A result-window array is one of the region's result arrays. -/
theorem out_mem3 : ∀ w : Fin cfg3.W, (cfg3.win w).isOut = true → arrRef spec3 w ∈ (O3 : List (Ref sig .tc)) := by decide

/-- Across region 3: off the region's result arrays the buffers hold what they held (an operand array is never
    written). -/
theorem untouched_reg3 {S : List (Ref sig .tc)} {c : Dev nD} {V : Valuation τ sig (Elt F)} (hU : Untouched m S c V)
    (hS : ∀ w : Fin cfg3.W, arrRef spec3 w ∉ S)
    (Fs : (w : Fin cfg3.W) → Buf (Elt F) ((cfg3.win w).arr.view.loc (c.tc : Thread nD τ)))
    (hF : ∀ w, (rdat3 m c).ArrAt w cfg3.N (Fs w)) : Untouched m (S ++ O3) c (withArrays spec3 c V Fs) := by
  intro r hr
  by_cases h : ∃ w, arrRef spec3 w = r
  · obtain ⟨w, rfl⟩ := h
    rw [withArrays_arr spec3 launch3.win.arr_inj c V Fs w]
    have hin : (cfg3.win w).isOut = false := by
      cases hw : (cfg3.win w).isOut with
      | false => rfl
      | true => exact absurd (List.mem_append_right _ (out_mem3 w hw)) hr
    have h1 := hF w
    rw [(rdat3 m c).ArrAt_in w hin cfg3.N] at h1
    exact h1
  · rw [withArrays_of_ne spec3 c V Fs r (fun w hw => h ⟨w, hw⟩)]
    exact hU r fun hm => hr (List.mem_append_left _ hm)

theorem regout3 {c : Dev nD} (V : Valuation τ sig (Elt F))
    (Fs : (w : Fin cfg3.W) → Buf (Elt F) ((cfg3.win w).arr.view.loc (c.tc : Thread nD τ)))
    (hF : ∀ w, (rdat3 m c).ArrAt w cfg3.N (Fs w)) : RegOut3 m c (withArrays spec3 c V Fs) := by
  intro w
  rw [withArrays_arr spec3 launch3.win.arr_inj c V Fs w]
  exact hF w

/-- Across the host stretch after region 3: off the references it writes the buffers hold what they held. -/
theorem untouched_host4 {S : List (Ref sig .tc)} {c : Dev nD} {V : Valuation τ sig (Elt F)} (hU : Untouched m S c V) :
    Untouched m (S ++ hostOps4_W) c (StableHlo.after hostOps4 V) := by
  intro r hr
  rw [StableHlo.after_of_writes_sub hostOps4 V hostOps4_writes (fun hm => hr (List.mem_append_right _ hm))]
  exact hU r fun hm => hr (List.mem_append_left _ hm)

/-- The host stretch after region 3 writes each result as the transposed, reshaped result array. -/
theorem hostout3 {c : Dev nD} {V : Valuation τ sig (Elt F)} (hR : RegOut3 m c V) : HostOut3 m c (StableHlo.after hostOps4 V) := by
  refine ⟨⟨V main_call0_v21_0, hR 6, ?_⟩, ⟨V main_call0_v21_1, hR 7, ?_⟩, ⟨V main_call0_v21_2, hR 8, ?_⟩⟩
  · unfold tail3; after_results; rfl
  · unfold tail3; after_results; rfl
  · unfold tail3; after_results; rfl

theorem hostout0_reg1 {c : Dev nD} {V : Valuation τ sig (Elt F)} (h : HostOut0 m c V)
    (Fs : (w : Fin cfg1.W) → Buf (Elt F) ((cfg1.win w).arr.view.loc (c.tc : Thread nD τ))) : HostOut0 m c (withArrays spec1 c V Fs) :=
  h.congr m (withArrays_of_ne spec1 c V Fs _ (by decide)) (withArrays_of_ne spec1 c V Fs _ (by decide)) (withArrays_of_ne spec1 c V Fs _ (by decide))
theorem hostout0_host2 {c : Dev nD} {V : Valuation τ sig (Elt F)} (h : HostOut0 m c V) : HostOut0 m c (StableHlo.after hostOps2 V) :=
  h.congr m (StableHlo.after_of_writes_sub hostOps2 V hostOps2_writes (by decide)) (StableHlo.after_of_writes_sub hostOps2 V hostOps2_writes (by decide)) (StableHlo.after_of_writes_sub hostOps2 V hostOps2_writes (by decide))
theorem hostout0_reg2 {c : Dev nD} {V : Valuation τ sig (Elt F)} (h : HostOut0 m c V)
    (Fs : (w : Fin cfg2.W) → Buf (Elt F) ((cfg2.win w).arr.view.loc (c.tc : Thread nD τ))) : HostOut0 m c (withArrays spec2 c V Fs) :=
  h.congr m (withArrays_of_ne spec2 c V Fs _ (by decide)) (withArrays_of_ne spec2 c V Fs _ (by decide)) (withArrays_of_ne spec2 c V Fs _ (by decide))
theorem hostout0_host3 {c : Dev nD} {V : Valuation τ sig (Elt F)} (h : HostOut0 m c V) : HostOut0 m c (StableHlo.after hostOps3 V) :=
  h.congr m (StableHlo.after_of_writes_sub hostOps3 V hostOps3_writes (by decide)) (StableHlo.after_of_writes_sub hostOps3 V hostOps3_writes (by decide)) (StableHlo.after_of_writes_sub hostOps3 V hostOps3_writes (by decide))
theorem hostout0_reg3 {c : Dev nD} {V : Valuation τ sig (Elt F)} (h : HostOut0 m c V)
    (Fs : (w : Fin cfg3.W) → Buf (Elt F) ((cfg3.win w).arr.view.loc (c.tc : Thread nD τ))) : HostOut0 m c (withArrays spec3 c V Fs) :=
  h.congr m (withArrays_of_ne spec3 c V Fs _ (by decide)) (withArrays_of_ne spec3 c V Fs _ (by decide)) (withArrays_of_ne spec3 c V Fs _ (by decide))
theorem hostout0_host4 {c : Dev nD} {V : Valuation τ sig (Elt F)} (h : HostOut0 m c V) : HostOut0 m c (StableHlo.after hostOps4 V) :=
  h.congr m (StableHlo.after_of_writes_sub hostOps4 V hostOps4_writes (by decide)) (StableHlo.after_of_writes_sub hostOps4 V hostOps4_writes (by decide)) (StableHlo.after_of_writes_sub hostOps4 V hostOps4_writes (by decide))
theorem hostout1_reg2 {c : Dev nD} {V : Valuation τ sig (Elt F)} (h : HostOut1 m c V)
    (Fs : (w : Fin cfg2.W) → Buf (Elt F) ((cfg2.win w).arr.view.loc (c.tc : Thread nD τ))) : HostOut1 m c (withArrays spec2 c V Fs) :=
  h.congr m (withArrays_of_ne spec2 c V Fs _ (by decide)) (withArrays_of_ne spec2 c V Fs _ (by decide)) (withArrays_of_ne spec2 c V Fs _ (by decide))
theorem hostout1_host3 {c : Dev nD} {V : Valuation τ sig (Elt F)} (h : HostOut1 m c V) : HostOut1 m c (StableHlo.after hostOps3 V) :=
  h.congr m (StableHlo.after_of_writes_sub hostOps3 V hostOps3_writes (by decide)) (StableHlo.after_of_writes_sub hostOps3 V hostOps3_writes (by decide)) (StableHlo.after_of_writes_sub hostOps3 V hostOps3_writes (by decide))
theorem hostout1_reg3 {c : Dev nD} {V : Valuation τ sig (Elt F)} (h : HostOut1 m c V)
    (Fs : (w : Fin cfg3.W) → Buf (Elt F) ((cfg3.win w).arr.view.loc (c.tc : Thread nD τ))) : HostOut1 m c (withArrays spec3 c V Fs) :=
  h.congr m (withArrays_of_ne spec3 c V Fs _ (by decide)) (withArrays_of_ne spec3 c V Fs _ (by decide)) (withArrays_of_ne spec3 c V Fs _ (by decide))
theorem hostout1_host4 {c : Dev nD} {V : Valuation τ sig (Elt F)} (h : HostOut1 m c V) : HostOut1 m c (StableHlo.after hostOps4 V) :=
  h.congr m (StableHlo.after_of_writes_sub hostOps4 V hostOps4_writes (by decide)) (StableHlo.after_of_writes_sub hostOps4 V hostOps4_writes (by decide)) (StableHlo.after_of_writes_sub hostOps4 V hostOps4_writes (by decide))
theorem hostout2_reg3 {c : Dev nD} {V : Valuation τ sig (Elt F)} (h : HostOut2 m c V)
    (Fs : (w : Fin cfg3.W) → Buf (Elt F) ((cfg3.win w).arr.view.loc (c.tc : Thread nD τ))) : HostOut2 m c (withArrays spec3 c V Fs) :=
  h.congr m (withArrays_of_ne spec3 c V Fs _ (by decide)) (withArrays_of_ne spec3 c V Fs _ (by decide)) (withArrays_of_ne spec3 c V Fs _ (by decide))
theorem hostout2_host4 {c : Dev nD} {V : Valuation τ sig (Elt F)} (h : HostOut2 m c V) : HostOut2 m c (StableHlo.after hostOps4 V) :=
  h.congr m (StableHlo.after_of_writes_sub hostOps4 V hostOps4_writes (by decide)) (StableHlo.after_of_writes_sub hostOps4 V hostOps4_writes (by decide)) (StableHlo.after_of_writes_sub hostOps4 V hostOps4_writes (by decide))

/-! ## The thread states' knowledge, item by item -/

def I0 (c : Dev nD) (V : Valuation τ sig (Elt F)) : Prop := Untouched m ([]) c V
def I1 (c : Dev nD) (V : Valuation τ sig (Elt F)) : Prop := Untouched m (O0) c V ∧ RegOut0 m c V
def I2 (c : Dev nD) (V : Valuation τ sig (Elt F)) : Prop := Untouched m (O0 ++ hostOps1_W) c V ∧ HostOut0 m c V
def I3 (c : Dev nD) (V : Valuation τ sig (Elt F)) : Prop := Untouched m (O0 ++ hostOps1_W ++ O1) c V ∧ HostOut0 m c V ∧ RegOut1 m c V
def I4 (c : Dev nD) (V : Valuation τ sig (Elt F)) : Prop := Untouched m (O0 ++ hostOps1_W ++ O1 ++ hostOps2_W) c V ∧ HostOut0 m c V ∧ HostOut1 m c V
def I5 (c : Dev nD) (V : Valuation τ sig (Elt F)) : Prop := Untouched m (O0 ++ hostOps1_W ++ O1 ++ hostOps2_W ++ O2) c V ∧ HostOut0 m c V ∧ HostOut1 m c V ∧ RegOut2 m c V
def I6 (c : Dev nD) (V : Valuation τ sig (Elt F)) : Prop := Untouched m (O0 ++ hostOps1_W ++ O1 ++ hostOps2_W ++ O2 ++ hostOps3_W) c V ∧ HostOut0 m c V ∧ HostOut1 m c V ∧ HostOut2 m c V
def I7 (c : Dev nD) (V : Valuation τ sig (Elt F)) : Prop := Untouched m (O0 ++ hostOps1_W ++ O1 ++ hostOps2_W ++ O2 ++ hostOps3_W ++ O3) c V ∧ HostOut0 m c V ∧ HostOut1 m c V ∧ HostOut2 m c V ∧ RegOut3 m c V
def I8 (c : Dev nD) (V : Valuation τ sig (Elt F)) : Prop := Untouched m (O0 ++ hostOps1_W ++ O1 ++ hostOps2_W ++ O2 ++ hostOps3_W ++ O3 ++ hostOps4_W) c V ∧ HostOut0 m c V ∧ HostOut1 m c V ∧ HostOut2 m c V ∧ HostOut3 m c V

theorem init_I0 (c : Dev nD) : I0 m c (fun b => m (c, b)) := fun _ _ => rfl

/-- Across region 0. -/
theorem step_reg0 {c : Dev nD} {V : Valuation τ sig (Elt F)} (hI : I0 m c V)
    (Fs : (w : Fin cfg0.W) → Buf (Elt F) ((cfg0.win w).arr.view.loc (c.tc : Thread nD τ)))
    (hF : ∀ w, (rdat0 m c).ArrAt w cfg0.N (Fs w)) : I1 m c (withArrays spec0 c V Fs) := by
  have hU : Untouched m [] c V := hI
  exact ⟨untouched_reg0 m hU (by decide) Fs hF, regout0 m V Fs hF⟩

/-- At the entry of region 0 its arrays hold their launch contents. -/
theorem entry_reg0 {c : Dev nD} {V : Valuation τ sig (Elt F)} (hI : I0 m c V) (w : Fin cfg0.W) :
    (rdat0 m c).A w = V (arrRef spec0 w) := by
  have hU : Untouched m [] c V := hI
  exact (hU (arrRef spec0 w) ((by decide : ∀ w : Fin cfg0.W, arrRef spec0 w ∉ ([] : List (Ref sig .tc))) w)).symm

/-- Across the host stretch after region 0. -/
theorem step_host1 {c : Dev nD} {V : Valuation τ sig (Elt F)} (hI : I1 m c V) : I2 m c (StableHlo.after hostOps1 V) := by
  obtain ⟨hU, hR⟩ := hI
  exact ⟨untouched_host1 m hU, hostout0 m hR⟩

/-- Across region 1. -/
theorem step_reg1 {c : Dev nD} {V : Valuation τ sig (Elt F)} (hI : I2 m c V)
    (Fs : (w : Fin cfg1.W) → Buf (Elt F) ((cfg1.win w).arr.view.loc (c.tc : Thread nD τ)))
    (hF : ∀ w, (rdat1 m c).ArrAt w cfg1.N (Fs w)) : I3 m c (withArrays spec1 c V Fs) := by
  obtain ⟨hU, hH0⟩ := hI
  exact ⟨untouched_reg1 m hU (by decide) Fs hF, hostout0_reg1 m hH0 Fs, regout1 m V Fs hF⟩

/-- At the entry of region 1 its arrays hold their launch contents. -/
theorem entry_reg1 {c : Dev nD} {V : Valuation τ sig (Elt F)} (hI : I2 m c V) (w : Fin cfg1.W) :
    (rdat1 m c).A w = V (arrRef spec1 w) := by
  obtain ⟨hU, hH0⟩ := hI
  exact (hU (arrRef spec1 w) ((by decide : ∀ w : Fin cfg1.W, arrRef spec1 w ∉ (O0 ++ hostOps1_W : List (Ref sig .tc))) w)).symm

/-- Across the host stretch after region 1. -/
theorem step_host2 {c : Dev nD} {V : Valuation τ sig (Elt F)} (hI : I3 m c V) : I4 m c (StableHlo.after hostOps2 V) := by
  obtain ⟨hU, hH0, hR⟩ := hI
  exact ⟨untouched_host2 m hU, hostout0_host2 m hH0, hostout1 m hR⟩

/-- Across region 2. -/
theorem step_reg2 {c : Dev nD} {V : Valuation τ sig (Elt F)} (hI : I4 m c V)
    (Fs : (w : Fin cfg2.W) → Buf (Elt F) ((cfg2.win w).arr.view.loc (c.tc : Thread nD τ)))
    (hF : ∀ w, (rdat2 m c).ArrAt w cfg2.N (Fs w)) : I5 m c (withArrays spec2 c V Fs) := by
  obtain ⟨hU, hH0, hH1⟩ := hI
  exact ⟨untouched_reg2 m hU (by decide) Fs hF, hostout0_reg2 m hH0 Fs, hostout1_reg2 m hH1 Fs, regout2 m V Fs hF⟩

/-- At the entry of region 2 its arrays hold their launch contents. -/
theorem entry_reg2 {c : Dev nD} {V : Valuation τ sig (Elt F)} (hI : I4 m c V) (w : Fin cfg2.W) :
    (rdat2 m c).A w = V (arrRef spec2 w) := by
  obtain ⟨hU, hH0, hH1⟩ := hI
  exact (hU (arrRef spec2 w) ((by decide : ∀ w : Fin cfg2.W, arrRef spec2 w ∉ (O0 ++ hostOps1_W ++ O1 ++ hostOps2_W : List (Ref sig .tc))) w)).symm

/-- Across the host stretch after region 2. -/
theorem step_host3 {c : Dev nD} {V : Valuation τ sig (Elt F)} (hI : I5 m c V) : I6 m c (StableHlo.after hostOps3 V) := by
  obtain ⟨hU, hH0, hH1, hR⟩ := hI
  exact ⟨untouched_host3 m hU, hostout0_host3 m hH0, hostout1_host3 m hH1, hostout2 m hR⟩

/-- Across region 3. -/
theorem step_reg3 {c : Dev nD} {V : Valuation τ sig (Elt F)} (hI : I6 m c V)
    (Fs : (w : Fin cfg3.W) → Buf (Elt F) ((cfg3.win w).arr.view.loc (c.tc : Thread nD τ)))
    (hF : ∀ w, (rdat3 m c).ArrAt w cfg3.N (Fs w)) : I7 m c (withArrays spec3 c V Fs) := by
  obtain ⟨hU, hH0, hH1, hH2⟩ := hI
  exact ⟨untouched_reg3 m hU (by decide) Fs hF, hostout0_reg3 m hH0 Fs, hostout1_reg3 m hH1 Fs, hostout2_reg3 m hH2 Fs, regout3 m V Fs hF⟩

/-- At the entry of region 3 its arrays hold their launch contents. -/
theorem entry_reg3 {c : Dev nD} {V : Valuation τ sig (Elt F)} (hI : I6 m c V) (w : Fin cfg3.W) :
    (rdat3 m c).A w = V (arrRef spec3 w) := by
  obtain ⟨hU, hH0, hH1, hH2⟩ := hI
  exact (hU (arrRef spec3 w) ((by decide : ∀ w : Fin cfg3.W, arrRef spec3 w ∉ (O0 ++ hostOps1_W ++ O1 ++ hostOps2_W ++ O2 ++ hostOps3_W : List (Ref sig .tc))) w)).symm

/-- Across the host stretch after region 3. -/
theorem step_host4 {c : Dev nD} {V : Valuation τ sig (Elt F)} (hI : I7 m c V) : I8 m c (StableHlo.after hostOps4 V) := by
  obtain ⟨hU, hH0, hH1, hH2, hR⟩ := hI
  exact ⟨untouched_host4 m hU, hostout0_host4 m hH0, hostout1_host4 m hH1, hostout2_host4 m hH2, hostout3 m hR⟩

end Cert.Kernel.Hand

end
-- ==== Proof.LibWholeAccess.lean ====
/-
  Over the library only: accesses through the rectangle that is the WHOLE shape at zero offsets (however the zeros are
  spelt). One unmasked store through it leaves its payload, whatever the buffer held; a load through it reads the
  contents. Stated over an abstract shape, so that using them at a large literal shape unfolds nothing of it.
-/
import Idealize.ShloMosaic.Lib.Pipeline.FrameBody
import Idealize.ShloMosaic.Lib.Pipeline.Value

noncomputable section

namespace WholeAccess

open Idealize.ShloMosaic

variable {sig : RefSig} {κ : Kind} {sp : Space} {S : Shape} {e : EltTy} {Val : EltTy → Type}

/-- One store through the whole-shape rectangle leaves its payload. -/
theorem read_writes_unit_zero [∀ e, Nonempty (Val e)] (v : View sig κ sp S e) (f : v.ty.Contents Val)
    {off : Fin S.rank → Nat} (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load through the whole-shape rectangle reads the contents. -/
theorem readAt_unit_zero (v : View sig κ sp S e) (f : v.ty.Contents Val)
    {off : Fin S.rank → Nat} (h : off = fun _ => 0) (inb : ∀ a, off a + S.size a ≤ S.size a) :
    v.readAt Val (Rect.unit off S.size inb).toLoadRect f = v.read Val f := by
  rw [View.readAt_eq_ld, View.ld_unit_zero h]

end WholeAccess

end
-- ==== Proof.BitsBody0.lean ====
/-
  The body of kernel region 0, as a triple: on whole staging buffers holding three data blocks and three weight rows
  it loads each pair, forms the block's weighted sums along the last axis, transposed, and stores them over the whole
  result block. The loads and the one store per result are through the rectangle that is the whole block.
-/
import proofs.«177139_j56324201120475_2_alg».proof.Proof.Gen.Kernel.Launch
import proofs.«177139_j56324201120475_2_alg».proof.Proof.Gen.Kernel.Skeleton
import proofs.«177139_j56324201120475_2_alg».proof.Proof.Gen.Kernel.Points
import proofs.«177139_j56324201120475_2_alg».proof.Proof.LibWholeAccess
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The body of region 0 on whole staging buffers: the three data blocks at `x0 x1 x2`, the three weight rows at `w0 w1 w2`,
    the three result blocks at anything. It runs to the continuation with the inputs as they were and each result block
    at its payload of the matching data block and weight row. -/
theorem sound_kernel0 (c : Dev nD) (E : Set ℕ) (i : grid0.Coords) (arg1 : Memref sig .tc .vmem S1024x1x128 .f32) (harg1 : arg1.IsWhole) (arg2 : Memref sig .tc .vmem S1024x1x128 .f32) (harg2 : arg2.IsWhole) (arg3 : Memref sig .tc .vmem S1024x1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)
    (x0 x1 x2 : Vec F S1024x1x128 .f32) (w0 w1 w2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare w0 ∗ owns (c : Thread nD τ) arg5 fullShare w1 ∗ owns (c : Thread nD τ) arg6 fullShare w2
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare w0 ∗ owns (c : Thread nD τ) arg5 fullShare w1 ∗ owns (c : Thread nD τ) arg6 fullShare w2
            ∗ owns (c : Thread nD τ) arg7 fullShare (k0_pay1 x0 w0) ∗ owns (c : Thread nD τ) arg8 fullShare (k0_pay2 x1 w1)
            ∗ owns (c : Thread nD τ) arg9 fullShare (k0_pay3 x2 w2)) -∗ K ⟨⟩))
      ⊢ wp frame (wpE (defs₀ (F := F)) Variants.none c none) E (cc0__linear1_kernel3 i arg1 harg1 arg2 harg2 arg3 harg3 arg4 harg4 arg5 harg5 arg6 harg6 arg7 harg7 arg8 harg8 arg9 harg9) K := by
  simp only [cc0__linear1_kernel3_eq_skeleton]; unfold cc0__linear1_kernel3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  have hz2 : (![0, 0] : Fin 2 → Nat) = fun _ => 0 := funext fun a => by fin_cases a <;> rfl
  have hz3 : (![0, 0, 0] : Fin 3 → Nat) = fun _ => 0 := funext fun a => by fin_cases a <;> rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [WholeAccess.read_writes_unit_zero _ _ hz2, WholeAccess.readAt_unit_zero _ _ hz3, WholeAccess.readAt_unit_zero _ _ hz2]
  isplitl [H7]
  · iexists _; isplitr
    swap; · iexact H7
    ipureintro
    rw [WholeAccess.read_writes_unit_zero _ _ hz2, WholeAccess.readAt_unit_zero _ _ hz3, WholeAccess.readAt_unit_zero _ _ hz2]
  · iexists _; isplitr
    swap; · iexact H8
    ipureintro
    rw [WholeAccess.read_writes_unit_zero _ _ hz2, WholeAccess.readAt_unit_zero _ _ hz3, WholeAccess.readAt_unit_zero _ _ hz2]

end Cert.Kernel.Hand

end
-- ==== Proof.BitsOblig0.lean ====
/-
  The body obligation of kernel region 0 for its relational proof data: at every grid point the body, handed the
  windows' buffers at whatever they may then hold, hands them back in the relation the proof data states.
-/
import proofs.«177139_j56324201120475_2_alg».proof.Proof.Gen.Kernel.Launch
import proofs.«177139_j56324201120475_2_alg».proof.Proof.Gen.Kernel.Skeleton
import proofs.«177139_j56324201120475_2_alg».proof.Proof.Gen.Kernel.Points
import proofs.«177139_j56324201120475_2_alg».proof.Proof.BitsBody0
import proofs.«177139_j56324201120475_2_alg».proof.Proof.BitsData0
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- The body at any grid point, on whatever the windows' current buffers may then hold: the data windows just fetched,
    the weight windows as the first point's fetch left them. It leaves the data and weight buffers as they were and each
    result buffer at its payload of those. -/
theorem sound_body0 (c : Dev nD) (t : Fin cfg0.N) (Y : (w : Fin cfg0.W) → (cfg0.win w).block.Idx → Elt F (cfg0.win w).elt)
    (hY : ∀ w, (rdat0 m c).Finds w t (Y w)) :
    iprop((rdat0 m c).Φ t.castSucc ∗ (rdat0 m c).owesAt () t.castSucc
        ∗ owns (c : Thread nD τ) (st0_0 t) fullShare (Y 0)
        ∗ owns (c : Thread nD τ) (st0_1 t) fullShare (Y 1)
        ∗ owns (c : Thread nD τ) (st0_2 t) fullShare (Y 2)
        ∗ owns (c : Thread nD τ) (st0_3 t) fullShare (Y 3)
        ∗ owns (c : Thread nD τ) (st0_4 t) fullShare (Y 4)
        ∗ owns (c : Thread nD τ) (st0_5 t) fullShare (Y 5)
        ∗ owns (c : Thread nD τ) (st0_6 t) fullShare (Y 6)
        ∗ owns (c : Thread nD τ) (st0_7 t) fullShare (Y 7)
        ∗ owns (c : Thread nD τ) (st0_8 t) fullShare (Y 8))
      ⊢ wp frame (wpE (defs₀ (F := F)) Variants.none c none) Set.univ (bodyAt0 t) (fun _ =>
          iprop((rdat0 m c).Φ t.succ ∗ (rdat0 m c).owesAt () t.succ
            ∗ (∃ X, ⌜(rdat0 m c).after 0 t (Y 0) X⌝ ∗ owns (c : Thread nD τ) (st0_0 t) fullShare X)
            ∗ (∃ X, ⌜(rdat0 m c).after 1 t (Y 1) X⌝ ∗ owns (c : Thread nD τ) (st0_1 t) fullShare X)
            ∗ (∃ X, ⌜(rdat0 m c).after 2 t (Y 2) X⌝ ∗ owns (c : Thread nD τ) (st0_2 t) fullShare X)
            ∗ (∃ X, ⌜(rdat0 m c).after 3 t (Y 3) X⌝ ∗ owns (c : Thread nD τ) (st0_3 t) fullShare X)
            ∗ (∃ X, ⌜(rdat0 m c).after 4 t (Y 4) X⌝ ∗ owns (c : Thread nD τ) (st0_4 t) fullShare X)
            ∗ (∃ X, ⌜(rdat0 m c).after 5 t (Y 5) X⌝ ∗ owns (c : Thread nD τ) (st0_5 t) fullShare X)
            ∗ (∃ X, ⌜(rdat0 m c).after 6 t (Y 6) X⌝ ∗ owns (c : Thread nD τ) (st0_6 t) fullShare X)
            ∗ (∃ X, ⌜(rdat0 m c).after 7 t (Y 7) X⌝ ∗ owns (c : Thread nD τ) (st0_7 t) fullShare X)
            ∗ (∃ X, ⌜(rdat0 m c).after 8 t (Y 8) X⌝ ∗ owns (c : Thread nD τ) (st0_8 t) fullShare X))) := by
  obtain ⟨d0, e0⟩ := finds0_0 m c t _ (hY 0)
  obtain ⟨d1, e1⟩ := finds0_1 m c t _ (hY 1)
  obtain ⟨d2, e2⟩ := finds0_2 m c t _ (hY 2)
  obtain ⟨d3, e3⟩ := finds0_3 m c t _ (hY 3)
  obtain ⟨d4, e4⟩ := finds0_4 m c t _ (hY 4)
  obtain ⟨d5, e5⟩ := finds0_5 m c t _ (hY 5)
  unfold bodyAt0
  rw [show (rdat0 m c).Φ t.succ = (rdat0 m c).Φ t.castSucc from rfl,
    show (rdat0 m c).owesAt () t.succ = (rdat0 m c).owesAt () t.castSucc from rfl]
  iintro ⟨HΦ, Ho, H0, H1, H2, H3, H4, H5, H6, H7, H8⟩
  iapply (sound_kernel0 (F := F) c Set.univ (grid0.coords t) _ _ _ _ _ _ _ _ _ _ _ _ _ _ _ _ _ _ (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]
  · iexists (Y 0); isplitr; · ipureintro; exact trivial
    iexact H0
  isplitl [H1]
  · iexists (Y 1); isplitr; · ipureintro; exact trivial
    iexact H1
  isplitl [H2]
  · iexists (Y 2); isplitr; · ipureintro; exact trivial
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (k0_pay1 (Y 0) (Y 3)); isplitr; · ipureintro; exact ⟨d0, d3, by rw [e0, e3]⟩
    iexact H6
  isplitl [H7]
  · iexists (k0_pay2 (Y 1) (Y 4)); isplitr; · ipureintro; exact ⟨d1, d4, by rw [e1, e4]⟩
    iexact H7
  · iexists (k0_pay3 (Y 2) (Y 5)); isplitr; · ipureintro; exact ⟨d2, d5, by rw [e2, e5]⟩
    iexact H8

/-- The library's body obligation for relational proof data, at every point. -/
theorem body_obligation0 (c : Dev nD) : (rdat0 (F := F) m c).BodyObligation (defs₀ (F := F)) Variants.none () Set.univ := fun t Y hY => by
  rw [bigSep_W0, bigSep_W0]
  exact sound_body0 m c t Y hY

end Cert.Kernel.Hand

end
-- ==== Proof.BitsBody1.lean ====
/-
  The body of kernel region 1, as a triple: on whole staging buffers holding three data blocks and three weight rows
  it loads each pair, forms the block's weighted sums along the last axis, transposed, and stores them over the whole
  result block. The loads and the one store per result are through the rectangle that is the whole block.
-/
import proofs.«177139_j56324201120475_2_alg».proof.Proof.Gen.Kernel.Launch
import proofs.«177139_j56324201120475_2_alg».proof.Proof.Gen.Kernel.Skeleton
import proofs.«177139_j56324201120475_2_alg».proof.Proof.Gen.Kernel.Points
import proofs.«177139_j56324201120475_2_alg».proof.Proof.LibWholeAccess
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The body of region 1 on whole staging buffers: the three data blocks at `x0 x1 x2`, the three weight rows at `w0 w1 w2`,
    the three result blocks at anything. It runs to the continuation with the inputs as they were and each result block
    at its payload of the matching data block and weight row. -/
theorem sound_kernel1 (c : Dev nD) (E : Set ℕ) (i : grid1.Coords) (arg1 : Memref sig .tc .vmem S1024x3x256 .f32) (harg1 : arg1.IsWhole) (arg2 : Memref sig .tc .vmem S1024x3x256 .f32) (harg2 : arg2.IsWhole) (arg3 : Memref sig .tc .vmem S1024x3x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S3x1024 .f32) (harg9 : arg9.IsWhole)
    (x0 x1 x2 : Vec F S1024x3x256 .f32) (w0 w1 w2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare w0 ∗ owns (c : Thread nD τ) arg5 fullShare w1 ∗ owns (c : Thread nD τ) arg6 fullShare w2
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare w0 ∗ owns (c : Thread nD τ) arg5 fullShare w1 ∗ owns (c : Thread nD τ) arg6 fullShare w2
            ∗ owns (c : Thread nD τ) arg7 fullShare (k1_pay1 x0 w0) ∗ owns (c : Thread nD τ) arg8 fullShare (k1_pay2 x1 w1)
            ∗ owns (c : Thread nD τ) arg9 fullShare (k1_pay3 x2 w2)) -∗ K ⟨⟩))
      ⊢ wp frame (wpE (defs₀ (F := F)) Variants.none c none) E (cc1__linear1_kernel3 i arg1 harg1 arg2 harg2 arg3 harg3 arg4 harg4 arg5 harg5 arg6 harg6 arg7 harg7 arg8 harg8 arg9 harg9) K := by
  simp only [cc1__linear1_kernel3_eq_skeleton]; unfold cc1__linear1_kernel3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  have hz2 : (![0, 0] : Fin 2 → Nat) = fun _ => 0 := funext fun a => by fin_cases a <;> rfl
  have hz3 : (![0, 0, 0] : Fin 3 → Nat) = fun _ => 0 := funext fun a => by fin_cases a <;> rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [WholeAccess.read_writes_unit_zero _ _ hz2, WholeAccess.readAt_unit_zero _ _ hz3, WholeAccess.readAt_unit_zero _ _ hz2]
  isplitl [H7]
  · iexists _; isplitr
    swap; · iexact H7
    ipureintro
    rw [WholeAccess.read_writes_unit_zero _ _ hz2, WholeAccess.readAt_unit_zero _ _ hz3, WholeAccess.readAt_unit_zero _ _ hz2]
  · iexists _; isplitr
    swap; · iexact H8
    ipureintro
    rw [WholeAccess.read_writes_unit_zero _ _ hz2, WholeAccess.readAt_unit_zero _ _ hz3, WholeAccess.readAt_unit_zero _ _ hz2]

end Cert.Kernel.Hand

end
-- ==== Proof.BitsOblig1.lean ====
/-
  The body obligation of kernel region 1 for its relational proof data: at every grid point the body, handed the
  windows' buffers at whatever they may then hold, hands them back in the relation the proof data states.
-/
import proofs.«177139_j56324201120475_2_alg».proof.Proof.Gen.Kernel.Launch
import proofs.«177139_j56324201120475_2_alg».proof.Proof.Gen.Kernel.Skeleton
import proofs.«177139_j56324201120475_2_alg».proof.Proof.Gen.Kernel.Points
import proofs.«177139_j56324201120475_2_alg».proof.Proof.BitsBody1
import proofs.«177139_j56324201120475_2_alg».proof.Proof.BitsData1
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- The body at any grid point, on whatever the windows' current buffers may then hold: the data windows just fetched,
    the weight windows as the first point's fetch left them. It leaves the data and weight buffers as they were and each
    result buffer at its payload of those. -/
theorem sound_body1 (c : Dev nD) (t : Fin cfg1.N) (Y : (w : Fin cfg1.W) → (cfg1.win w).block.Idx → Elt F (cfg1.win w).elt)
    (hY : ∀ w, (rdat1 m c).Finds w t (Y w)) :
    iprop((rdat1 m c).Φ t.castSucc ∗ (rdat1 m c).owesAt () t.castSucc
        ∗ owns (c : Thread nD τ) (st1_0 t) fullShare (Y 0)
        ∗ owns (c : Thread nD τ) (st1_1 t) fullShare (Y 1)
        ∗ owns (c : Thread nD τ) (st1_2 t) fullShare (Y 2)
        ∗ owns (c : Thread nD τ) (st1_3 t) fullShare (Y 3)
        ∗ owns (c : Thread nD τ) (st1_4 t) fullShare (Y 4)
        ∗ owns (c : Thread nD τ) (st1_5 t) fullShare (Y 5)
        ∗ owns (c : Thread nD τ) (st1_6 t) fullShare (Y 6)
        ∗ owns (c : Thread nD τ) (st1_7 t) fullShare (Y 7)
        ∗ owns (c : Thread nD τ) (st1_8 t) fullShare (Y 8))
      ⊢ wp frame (wpE (defs₀ (F := F)) Variants.none c none) Set.univ (bodyAt1 t) (fun _ =>
          iprop((rdat1 m c).Φ t.succ ∗ (rdat1 m c).owesAt () t.succ
            ∗ (∃ X, ⌜(rdat1 m c).after 0 t (Y 0) X⌝ ∗ owns (c : Thread nD τ) (st1_0 t) fullShare X)
            ∗ (∃ X, ⌜(rdat1 m c).after 1 t (Y 1) X⌝ ∗ owns (c : Thread nD τ) (st1_1 t) fullShare X)
            ∗ (∃ X, ⌜(rdat1 m c).after 2 t (Y 2) X⌝ ∗ owns (c : Thread nD τ) (st1_2 t) fullShare X)
            ∗ (∃ X, ⌜(rdat1 m c).after 3 t (Y 3) X⌝ ∗ owns (c : Thread nD τ) (st1_3 t) fullShare X)
            ∗ (∃ X, ⌜(rdat1 m c).after 4 t (Y 4) X⌝ ∗ owns (c : Thread nD τ) (st1_4 t) fullShare X)
            ∗ (∃ X, ⌜(rdat1 m c).after 5 t (Y 5) X⌝ ∗ owns (c : Thread nD τ) (st1_5 t) fullShare X)
            ∗ (∃ X, ⌜(rdat1 m c).after 6 t (Y 6) X⌝ ∗ owns (c : Thread nD τ) (st1_6 t) fullShare X)
            ∗ (∃ X, ⌜(rdat1 m c).after 7 t (Y 7) X⌝ ∗ owns (c : Thread nD τ) (st1_7 t) fullShare X)
            ∗ (∃ X, ⌜(rdat1 m c).after 8 t (Y 8) X⌝ ∗ owns (c : Thread nD τ) (st1_8 t) fullShare X))) := by
  obtain ⟨d0, e0⟩ := finds1_0 m c t _ (hY 0)
  obtain ⟨d1, e1⟩ := finds1_1 m c t _ (hY 1)
  obtain ⟨d2, e2⟩ := finds1_2 m c t _ (hY 2)
  obtain ⟨d3, e3⟩ := finds1_3 m c t _ (hY 3)
  obtain ⟨d4, e4⟩ := finds1_4 m c t _ (hY 4)
  obtain ⟨d5, e5⟩ := finds1_5 m c t _ (hY 5)
  unfold bodyAt1
  rw [show (rdat1 m c).Φ t.succ = (rdat1 m c).Φ t.castSucc from rfl,
    show (rdat1 m c).owesAt () t.succ = (rdat1 m c).owesAt () t.castSucc from rfl]
  iintro ⟨HΦ, Ho, H0, H1, H2, H3, H4, H5, H6, H7, H8⟩
  iapply (sound_kernel1 (F := F) c Set.univ (grid1.coords t) _ _ _ _ _ _ _ _ _ _ _ _ _ _ _ _ _ _ (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]
  · iexists (Y 0); isplitr; · ipureintro; exact trivial
    iexact H0
  isplitl [H1]
  · iexists (Y 1); isplitr; · ipureintro; exact trivial
    iexact H1
  isplitl [H2]
  · iexists (Y 2); isplitr; · ipureintro; exact trivial
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (k1_pay1 (Y 0) (Y 3)); isplitr; · ipureintro; exact ⟨d0, d3, by rw [e0, e3]⟩
    iexact H6
  isplitl [H7]
  · iexists (k1_pay2 (Y 1) (Y 4)); isplitr; · ipureintro; exact ⟨d1, d4, by rw [e1, e4]⟩
    iexact H7
  · iexists (k1_pay3 (Y 2) (Y 5)); isplitr; · ipureintro; exact ⟨d2, d5, by rw [e2, e5]⟩
    iexact H8

/-- The library's body obligation for relational proof data, at every point. -/
theorem body_obligation1 (c : Dev nD) : (rdat1 (F := F) m c).BodyObligation (defs₀ (F := F)) Variants.none () Set.univ := fun t Y hY => by
  rw [bigSep_W1, bigSep_W1]
  exact sound_body1 m c t Y hY

end Cert.Kernel.Hand

end
-- ==== Proof.BitsBody2.lean ====
/-
  The body of kernel region 2, as a triple: on whole staging buffers holding three data blocks and three weight rows
  it loads each pair, forms the block's weighted sums along the last axis, transposed, and stores them over the whole
  result block. The loads and the one store per result are through the rectangle that is the whole block.
-/
import proofs.«177139_j56324201120475_2_alg».proof.Proof.Gen.Kernel.Launch
import proofs.«177139_j56324201120475_2_alg».proof.Proof.Gen.Kernel.Skeleton
import proofs.«177139_j56324201120475_2_alg».proof.Proof.Gen.Kernel.Points
import proofs.«177139_j56324201120475_2_alg».proof.Proof.LibWholeAccess
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The body of region 2 on whole staging buffers: the three data blocks at `x0 x1 x2`, the three weight rows at `w0 w1 w2`,
    the three result blocks at anything. It runs to the continuation with the inputs as they were and each result block
    at its payload of the matching data block and weight row. -/
theorem sound_kernel2 (c : Dev nD) (E : Set ℕ) (i : grid2.Coords) (arg1 : Memref sig .tc .vmem S512x5x512 .f32) (harg1 : arg1.IsWhole) (arg2 : Memref sig .tc .vmem S512x5x512 .f32) (harg2 : arg2.IsWhole) (arg3 : Memref sig .tc .vmem S512x5x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S5x512 .f32) (harg7 : arg7.IsWhole) (arg8 : Memref sig .tc .vmem S5x512 .f32) (harg8 : arg8.IsWhole) (arg9 : Memref sig .tc .vmem S5x512 .f32) (harg9 : arg9.IsWhole)
    (x0 x1 x2 : Vec F S512x5x512 .f32) (w0 w1 w2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare w0 ∗ owns (c : Thread nD τ) arg5 fullShare w1 ∗ owns (c : Thread nD τ) arg6 fullShare w2
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare w0 ∗ owns (c : Thread nD τ) arg5 fullShare w1 ∗ owns (c : Thread nD τ) arg6 fullShare w2
            ∗ owns (c : Thread nD τ) arg7 fullShare (k2_pay1 x0 w0) ∗ owns (c : Thread nD τ) arg8 fullShare (k2_pay2 x1 w1)
            ∗ owns (c : Thread nD τ) arg9 fullShare (k2_pay3 x2 w2)) -∗ K ⟨⟩))
      ⊢ wp frame (wpE (defs₀ (F := F)) Variants.none c none) E (cc2__linear1_kernel3 i arg1 harg1 arg2 harg2 arg3 harg3 arg4 harg4 arg5 harg5 arg6 harg6 arg7 harg7 arg8 harg8 arg9 harg9) K := by
  simp only [cc2__linear1_kernel3_eq_skeleton]; unfold cc2__linear1_kernel3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  have hz2 : (![0, 0] : Fin 2 → Nat) = fun _ => 0 := funext fun a => by fin_cases a <;> rfl
  have hz3 : (![0, 0, 0] : Fin 3 → Nat) = fun _ => 0 := funext fun a => by fin_cases a <;> rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [WholeAccess.read_writes_unit_zero _ _ hz2, WholeAccess.readAt_unit_zero _ _ hz3, WholeAccess.readAt_unit_zero _ _ hz2]
  isplitl [H7]
  · iexists _; isplitr
    swap; · iexact H7
    ipureintro
    rw [WholeAccess.read_writes_unit_zero _ _ hz2, WholeAccess.readAt_unit_zero _ _ hz3, WholeAccess.readAt_unit_zero _ _ hz2]
  · iexists _; isplitr
    swap; · iexact H8
    ipureintro
    rw [WholeAccess.read_writes_unit_zero _ _ hz2, WholeAccess.readAt_unit_zero _ _ hz3, WholeAccess.readAt_unit_zero _ _ hz2]

end Cert.Kernel.Hand

end
-- ==== Proof.BitsOblig2.lean ====
/-
  The body obligation of kernel region 2 for its relational proof data: at every grid point the body, handed the
  windows' buffers at whatever they may then hold, hands them back in the relation the proof data states.
-/
import proofs.«177139_j56324201120475_2_alg».proof.Proof.Gen.Kernel.Launch
import proofs.«177139_j56324201120475_2_alg».proof.Proof.Gen.Kernel.Skeleton
import proofs.«177139_j56324201120475_2_alg».proof.Proof.Gen.Kernel.Points
import proofs.«177139_j56324201120475_2_alg».proof.Proof.BitsBody2
import proofs.«177139_j56324201120475_2_alg».proof.Proof.BitsData2
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- The body at any grid point, on whatever the windows' current buffers may then hold: the data windows just fetched,
    the weight windows as the first point's fetch left them. It leaves the data and weight buffers as they were and each
    result buffer at its payload of those. -/
theorem sound_body2 (c : Dev nD) (t : Fin cfg2.N) (Y : (w : Fin cfg2.W) → (cfg2.win w).block.Idx → Elt F (cfg2.win w).elt)
    (hY : ∀ w, (rdat2 m c).Finds w t (Y w)) :
    iprop((rdat2 m c).Φ t.castSucc ∗ (rdat2 m c).owesAt () t.castSucc
        ∗ owns (c : Thread nD τ) (st2_0 t) fullShare (Y 0)
        ∗ owns (c : Thread nD τ) (st2_1 t) fullShare (Y 1)
        ∗ owns (c : Thread nD τ) (st2_2 t) fullShare (Y 2)
        ∗ owns (c : Thread nD τ) (st2_3 t) fullShare (Y 3)
        ∗ owns (c : Thread nD τ) (st2_4 t) fullShare (Y 4)
        ∗ owns (c : Thread nD τ) (st2_5 t) fullShare (Y 5)
        ∗ owns (c : Thread nD τ) (st2_6 t) fullShare (Y 6)
        ∗ owns (c : Thread nD τ) (st2_7 t) fullShare (Y 7)
        ∗ owns (c : Thread nD τ) (st2_8 t) fullShare (Y 8))
      ⊢ wp frame (wpE (defs₀ (F := F)) Variants.none c none) Set.univ (bodyAt2 t) (fun _ =>
          iprop((rdat2 m c).Φ t.succ ∗ (rdat2 m c).owesAt () t.succ
            ∗ (∃ X, ⌜(rdat2 m c).after 0 t (Y 0) X⌝ ∗ owns (c : Thread nD τ) (st2_0 t) fullShare X)
            ∗ (∃ X, ⌜(rdat2 m c).after 1 t (Y 1) X⌝ ∗ owns (c : Thread nD τ) (st2_1 t) fullShare X)
            ∗ (∃ X, ⌜(rdat2 m c).after 2 t (Y 2) X⌝ ∗ owns (c : Thread nD τ) (st2_2 t) fullShare X)
            ∗ (∃ X, ⌜(rdat2 m c).after 3 t (Y 3) X⌝ ∗ owns (c : Thread nD τ) (st2_3 t) fullShare X)
            ∗ (∃ X, ⌜(rdat2 m c).after 4 t (Y 4) X⌝ ∗ owns (c : Thread nD τ) (st2_4 t) fullShare X)
            ∗ (∃ X, ⌜(rdat2 m c).after 5 t (Y 5) X⌝ ∗ owns (c : Thread nD τ) (st2_5 t) fullShare X)
            ∗ (∃ X, ⌜(rdat2 m c).after 6 t (Y 6) X⌝ ∗ owns (c : Thread nD τ) (st2_6 t) fullShare X)
            ∗ (∃ X, ⌜(rdat2 m c).after 7 t (Y 7) X⌝ ∗ owns (c : Thread nD τ) (st2_7 t) fullShare X)
            ∗ (∃ X, ⌜(rdat2 m c).after 8 t (Y 8) X⌝ ∗ owns (c : Thread nD τ) (st2_8 t) fullShare X))) := by
  obtain ⟨d0, e0⟩ := finds2_0 m c t _ (hY 0)
  obtain ⟨d1, e1⟩ := finds2_1 m c t _ (hY 1)
  obtain ⟨d2, e2⟩ := finds2_2 m c t _ (hY 2)
  obtain ⟨d3, e3⟩ := finds2_3 m c t _ (hY 3)
  obtain ⟨d4, e4⟩ := finds2_4 m c t _ (hY 4)
  obtain ⟨d5, e5⟩ := finds2_5 m c t _ (hY 5)
  unfold bodyAt2
  rw [show (rdat2 m c).Φ t.succ = (rdat2 m c).Φ t.castSucc from rfl,
    show (rdat2 m c).owesAt () t.succ = (rdat2 m c).owesAt () t.castSucc from rfl]
  iintro ⟨HΦ, Ho, H0, H1, H2, H3, H4, H5, H6, H7, H8⟩
  iapply (sound_kernel2 (F := F) c Set.univ (grid2.coords t) _ _ _ _ _ _ _ _ _ _ _ _ _ _ _ _ _ _ (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]
  · iexists (Y 0); isplitr; · ipureintro; exact trivial
    iexact H0
  isplitl [H1]
  · iexists (Y 1); isplitr; · ipureintro; exact trivial
    iexact H1
  isplitl [H2]
  · iexists (Y 2); isplitr; · ipureintro; exact trivial
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (k2_pay1 (Y 0) (Y 3)); isplitr; · ipureintro; exact ⟨d0, d3, by rw [e0, e3]⟩
    iexact H6
  isplitl [H7]
  · iexists (k2_pay2 (Y 1) (Y 4)); isplitr; · ipureintro; exact ⟨d1, d4, by rw [e1, e4]⟩
    iexact H7
  · iexists (k2_pay3 (Y 2) (Y 5)); isplitr; · ipureintro; exact ⟨d2, d5, by rw [e2, e5]⟩
    iexact H8

/-- The library's body obligation for relational proof data, at every point. -/
theorem body_obligation2 (c : Dev nD) : (rdat2 (F := F) m c).BodyObligation (defs₀ (F := F)) Variants.none () Set.univ := fun t Y hY => by
  rw [bigSep_W2, bigSep_W2]
  exact sound_body2 m c t Y hY

end Cert.Kernel.Hand

end
-- ==== Proof.BitsBody3.lean ====
/-
  The body of kernel region 3, as a triple: on whole staging buffers holding three data blocks and three weight rows
  it loads each pair, forms the block's weighted sums along the last axis, transposed, and stores them over the whole
  result block. The loads and the one store per result are through the rectangle that is the whole block.
-/
import proofs.«177139_j56324201120475_2_alg».proof.Proof.Gen.Kernel.Launch
import proofs.«177139_j56324201120475_2_alg».proof.Proof.Gen.Kernel.Skeleton
import proofs.«177139_j56324201120475_2_alg».proof.Proof.Gen.Kernel.Points
import proofs.«177139_j56324201120475_2_alg».proof.Proof.LibWholeAccess
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The body of region 3 on whole staging buffers: the three data blocks at `x0 x1 x2`, the three weight rows at `w0 w1 w2`,
    the three result blocks at anything. It runs to the continuation with the inputs as they were and each result block
    at its payload of the matching data block and weight row. -/
theorem sound_kernel3 (c : Dev nD) (E : Set ℕ) (i : grid3.Coords) (arg1 : Memref sig .tc .vmem S256x7x1024 .f32) (harg1 : arg1.IsWhole) (arg2 : Memref sig .tc .vmem S256x7x1024 .f32) (harg2 : arg2.IsWhole) (arg3 : Memref sig .tc .vmem S256x7x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S7x256 .f32) (harg7 : arg7.IsWhole) (arg8 : Memref sig .tc .vmem S7x256 .f32) (harg8 : arg8.IsWhole) (arg9 : Memref sig .tc .vmem S7x256 .f32) (harg9 : arg9.IsWhole)
    (x0 x1 x2 : Vec F S256x7x1024 .f32) (w0 w1 w2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare w0 ∗ owns (c : Thread nD τ) arg5 fullShare w1 ∗ owns (c : Thread nD τ) arg6 fullShare w2
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare w0 ∗ owns (c : Thread nD τ) arg5 fullShare w1 ∗ owns (c : Thread nD τ) arg6 fullShare w2
            ∗ owns (c : Thread nD τ) arg7 fullShare (k3_pay1 x0 w0) ∗ owns (c : Thread nD τ) arg8 fullShare (k3_pay2 x1 w1)
            ∗ owns (c : Thread nD τ) arg9 fullShare (k3_pay3 x2 w2)) -∗ K ⟨⟩))
      ⊢ wp frame (wpE (defs₀ (F := F)) Variants.none c none) E (cc3__linear1_kernel3 i arg1 harg1 arg2 harg2 arg3 harg3 arg4 harg4 arg5 harg5 arg6 harg6 arg7 harg7 arg8 harg8 arg9 harg9) K := by
  simp only [cc3__linear1_kernel3_eq_skeleton]; unfold cc3__linear1_kernel3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  have hz2 : (![0, 0] : Fin 2 → Nat) = fun _ => 0 := funext fun a => by fin_cases a <;> rfl
  have hz3 : (![0, 0, 0] : Fin 3 → Nat) = fun _ => 0 := funext fun a => by fin_cases a <;> rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [WholeAccess.read_writes_unit_zero _ _ hz2, WholeAccess.readAt_unit_zero _ _ hz3, WholeAccess.readAt_unit_zero _ _ hz2]
  isplitl [H7]
  · iexists _; isplitr
    swap; · iexact H7
    ipureintro
    rw [WholeAccess.read_writes_unit_zero _ _ hz2, WholeAccess.readAt_unit_zero _ _ hz3, WholeAccess.readAt_unit_zero _ _ hz2]
  · iexists _; isplitr
    swap; · iexact H8
    ipureintro
    rw [WholeAccess.read_writes_unit_zero _ _ hz2, WholeAccess.readAt_unit_zero _ _ hz3, WholeAccess.readAt_unit_zero _ _ hz2]

end Cert.Kernel.Hand

end
-- ==== Proof.BitsOblig3.lean ====
/-
  The body obligation of kernel region 3 for its relational proof data: at every grid point the body, handed the
  windows' buffers at whatever they may then hold, hands them back in the relation the proof data states.
-/
import proofs.«177139_j56324201120475_2_alg».proof.Proof.Gen.Kernel.Launch
import proofs.«177139_j56324201120475_2_alg».proof.Proof.Gen.Kernel.Skeleton
import proofs.«177139_j56324201120475_2_alg».proof.Proof.Gen.Kernel.Points
import proofs.«177139_j56324201120475_2_alg».proof.Proof.BitsBody3
import proofs.«177139_j56324201120475_2_alg».proof.Proof.BitsData3
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- The body at any grid point, on whatever the windows' current buffers may then hold: the data windows just fetched,
    the weight windows as the first point's fetch left them. It leaves the data and weight buffers as they were and each
    result buffer at its payload of those. -/
theorem sound_body3 (c : Dev nD) (t : Fin cfg3.N) (Y : (w : Fin cfg3.W) → (cfg3.win w).block.Idx → Elt F (cfg3.win w).elt)
    (hY : ∀ w, (rdat3 m c).Finds w t (Y w)) :
    iprop((rdat3 m c).Φ t.castSucc ∗ (rdat3 m c).owesAt () t.castSucc
        ∗ owns (c : Thread nD τ) (st3_0 t) fullShare (Y 0)
        ∗ owns (c : Thread nD τ) (st3_1 t) fullShare (Y 1)
        ∗ owns (c : Thread nD τ) (st3_2 t) fullShare (Y 2)
        ∗ owns (c : Thread nD τ) (st3_3 t) fullShare (Y 3)
        ∗ owns (c : Thread nD τ) (st3_4 t) fullShare (Y 4)
        ∗ owns (c : Thread nD τ) (st3_5 t) fullShare (Y 5)
        ∗ owns (c : Thread nD τ) (st3_6 t) fullShare (Y 6)
        ∗ owns (c : Thread nD τ) (st3_7 t) fullShare (Y 7)
        ∗ owns (c : Thread nD τ) (st3_8 t) fullShare (Y 8))
      ⊢ wp frame (wpE (defs₀ (F := F)) Variants.none c none) Set.univ (bodyAt3 t) (fun _ =>
          iprop((rdat3 m c).Φ t.succ ∗ (rdat3 m c).owesAt () t.succ
            ∗ (∃ X, ⌜(rdat3 m c).after 0 t (Y 0) X⌝ ∗ owns (c : Thread nD τ) (st3_0 t) fullShare X)
            ∗ (∃ X, ⌜(rdat3 m c).after 1 t (Y 1) X⌝ ∗ owns (c : Thread nD τ) (st3_1 t) fullShare X)
            ∗ (∃ X, ⌜(rdat3 m c).after 2 t (Y 2) X⌝ ∗ owns (c : Thread nD τ) (st3_2 t) fullShare X)
            ∗ (∃ X, ⌜(rdat3 m c).after 3 t (Y 3) X⌝ ∗ owns (c : Thread nD τ) (st3_3 t) fullShare X)
            ∗ (∃ X, ⌜(rdat3 m c).after 4 t (Y 4) X⌝ ∗ owns (c : Thread nD τ) (st3_4 t) fullShare X)
            ∗ (∃ X, ⌜(rdat3 m c).after 5 t (Y 5) X⌝ ∗ owns (c : Thread nD τ) (st3_5 t) fullShare X)
            ∗ (∃ X, ⌜(rdat3 m c).after 6 t (Y 6) X⌝ ∗ owns (c : Thread nD τ) (st3_6 t) fullShare X)
            ∗ (∃ X, ⌜(rdat3 m c).after 7 t (Y 7) X⌝ ∗ owns (c : Thread nD τ) (st3_7 t) fullShare X)
            ∗ (∃ X, ⌜(rdat3 m c).after 8 t (Y 8) X⌝ ∗ owns (c : Thread nD τ) (st3_8 t) fullShare X))) := by
  obtain ⟨d0, e0⟩ := finds3_0 m c t _ (hY 0)
  obtain ⟨d1, e1⟩ := finds3_1 m c t _ (hY 1)
  obtain ⟨d2, e2⟩ := finds3_2 m c t _ (hY 2)
  obtain ⟨d3, e3⟩ := finds3_3 m c t _ (hY 3)
  obtain ⟨d4, e4⟩ := finds3_4 m c t _ (hY 4)
  obtain ⟨d5, e5⟩ := finds3_5 m c t _ (hY 5)
  unfold bodyAt3
  rw [show (rdat3 m c).Φ t.succ = (rdat3 m c).Φ t.castSucc from rfl,
    show (rdat3 m c).owesAt () t.succ = (rdat3 m c).owesAt () t.castSucc from rfl]
  iintro ⟨HΦ, Ho, H0, H1, H2, H3, H4, H5, H6, H7, H8⟩
  iapply (sound_kernel3 (F := F) c Set.univ (grid3.coords t) _ _ _ _ _ _ _ _ _ _ _ _ _ _ _ _ _ _ (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]
  · iexists (Y 0); isplitr; · ipureintro; exact trivial
    iexact H0
  isplitl [H1]
  · iexists (Y 1); isplitr; · ipureintro; exact trivial
    iexact H1
  isplitl [H2]
  · iexists (Y 2); isplitr; · ipureintro; exact trivial
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (k3_pay1 (Y 0) (Y 3)); isplitr; · ipureintro; exact ⟨d0, d3, by rw [e0, e3]⟩
    iexact H6
  isplitl [H7]
  · iexists (k3_pay2 (Y 1) (Y 4)); isplitr; · ipureintro; exact ⟨d1, d4, by rw [e1, e4]⟩
    iexact H7
  · iexists (k3_pay3 (Y 2) (Y 5)); isplitr; · ipureintro; exact ⟨d2, d5, by rw [e2, e5]⟩
    iexact H8

/-- The library's body obligation for relational proof data, at every point. -/
theorem body_obligation3 (c : Dev nD) : (rdat3 (F := F) m c).BodyObligation (defs₀ (F := F)) Variants.none () Set.univ := fun t Y hY => by
  rw [bigSep_W3, bigSep_W3]
  exact sound_body3 m c t Y hY

end Cert.Kernel.Hand

end
-- ==== Proof.LibRegionRecord.lean ====
/-
  Over the library only: the record of ONE kernel region of a host program of several regions, for a kernel that
  has no semaphore of its own, owes nothing at any grid point, reads no prefetched table, and whose region
  invariant is the scoped rest beside the generator register.

  Between two items of the host program a core holds every unscoped buffer whole at some contents, beside its
  generator register at some state and the fact that it owes nothing (`Rest`). The record is entered from the
  contents `Vin` and left at `Vout`. What is particular to a region — how the unscoped buffers at `Vin` make the
  proof data's arrays at entry beside a bypassing part `Z`, and how the arrays at their final contents and `Z`
  make the unscoped buffers at `Vout` — is taken as two entailments, so that the same record serves a region
  whose windows hold distinct arrays and one whose windows share an array.
-/
import Idealize.ShloMosaic.Lib.Pipeline.Regions
import Idealize.ShloMosaic.Lib.Pipeline.Frame

noncomputable section

namespace RegionRecord

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.TcCoe

variable {nD : Nat} {τ : Topo} {sig : RefSig} {Val : EltTy → Type} {U : Type} [URA U]
variable {Λ₀ : Idealize.SL.Sem.Labels} {P : Type} [Fintype P]

local notation "𝕄" => MT nD τ sig Unit Val ℕ U ℕ

/-- What a core holds beside its unscoped buffers between two items: the generator register at some state, and
    that it owes nothing. -/
def Rest (c : Dev nD) : sProp 𝕄 :=
  iprop((∃ r, prngReg c r) ∗ ∃ W, owes (c : Thread nD τ) (0 : CellTallies nD τ sig Unit) W)

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- The region record from the layout facts, the body obligation, the proof data's shape (`howed`, `hrec`, `hΦ`,
    `hnotab`) and the two entailments that sort the arrays out of the unscoped buffers and put them back. -/
def plain (p : P) (win : WinFacts₀ (pcs p).spec)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hbody : ∀ c, BodyObligationLoose (pdats p c) defs₀ 𝒱₀ () Set.univ)
    (howed : ∀ c t, (pdats p c).owed t = 0)
    (hrec : ∀ c t, (pdats p c).recorded t = Set.univ)
    (hΦ : ∀ c t, (pdats p c).Φ t = ΦA (U := U) (Val := Val) (pin pcs a p).spec c)
    (hnotab : ∀ c : Dev nD, (BI.emp : sProp 𝕄) ⊢ prefHeld (pcs p).pre c (fun _ => fullShare) (a p).1)
    (Vin Vout : Dev nD → Valuation τ sig Val) (Z : Dev nD → sProp 𝕄)
    (hsplit : ∀ c : Dev nD, (StableHlo.held (c : Thread nD τ) (ucRefs τ sig) (Vin c) : sProp 𝕄)
      ⊢ iprop((pdats p c).arrays ((pdats p c).arrAt · 0) ∗ Z c))
    (hjoin : ∀ c : Dev nD, iprop((pdats p c).arrays ((pdats p c).arrAt · (pin pcs a p).N) ∗ Z c)
      ⊢ (StableHlo.held (c : Thread nD τ) (ucRefs τ sig) (Vout c) : sProp 𝕄)) :
    RegionSeg pcs a pdats () defs₀ 𝒱₀ L lv p where
  win := win
  block_pos := hpos
  stage_whole := hstage
  K := PEmpty
  osem k := k.elim
  ho := OwnSemFacts.none _
  hbody := hbody
  hwaits := hwaits_of_owed_zero _ _ _ _ L lv p howed
  pre c := iprop(StableHlo.held (c : Thread nD τ) (ucRefs τ sig) (Vin c) ∗ Rest c)
  post c := iprop(StableHlo.held (c : Thread nD τ) (ucRefs τ sig) (Vout c) ∗ Rest c)
  X c := iprop(∃ r, prngReg c r)
  Y c := iprop(∃ r, prngReg c r)
  Z := Z
  hentry c := by
    -- the buffers give the arrays and the bypassing part; the register enters the invariant; the debt is nothing
    unfold Rest Dat.owesAt owesWithin
    rw [howed c 0]
    iintro ⟨⟨Hheld, Hreg, ⟨%W, Howes⟩⟩, -, -⟩
    ihave Hs := (hsplit c) $$ Hheld
    icases Hs with ⟨Harr, Hz⟩
    imodintro
    isplitl [Harr]; · iexact Harr
    isplitr; · iapply (hnotab c); iempintro
    isplitl [Howes]
    · iexists W; isplitr
      · ipureintro; rw [Dat.bound, hrec c 0]; exact fun _ _ => Or.inl trivial
      iexact Howes
    isplitl [Hreg]; · iexact Hreg
    iexact Hz
  hin c := by
    rw [hΦ c 0]; unfold ΦA
    iintro ⟨Hreg, -, Hsc⟩
    isplitl [Hsc]; · iexact Hsc
    iexact Hreg
  hout c := by
    rw [hΦ c (Fin.last _), ownSems0_none]; unfold ΦA
    iintro ⟨Hsc, Hreg⟩
    isplitl [Hreg]; · iexact Hreg
    isplitr; · iempintro
    iexact Hsc
  hexit c := by
    unfold Rest Dat.owesAt owesWithin
    rw [howed c (Fin.last _)]
    iintro ⟨Harr, ⟨%W, -, Howes⟩, Hreg, Hz⟩
    imodintro
    isplitl [Harr Hz]
    · iapply (hjoin c); isplitl [Harr]; · iexact Harr
      iexact Hz
    isplitl [Hreg]; · iexact Hreg
    iexists W; iexact Howes

end RegionRecord

end
-- ==== Proof.LibRegionRecordR.lean ====
/-
  Over the library and the exact-data record's `Rest` only: the record of ONE kernel region of a host program of
  several regions, for RELATIONAL proof data (what the body leaves in a staging buffer is constrained, not named),
  for a kernel that has no semaphore of its own, owes nothing at any grid point, reads no prefetched table, and whose
  region invariant is the scoped rest beside the generator register.

  Since the contents a region leaves in its result arrays are then only known to satisfy a predicate, the thread state
  between two items of the host program holds every unscoped buffer whole at SOME contents `V` satisfying a predicate
  of the proof's choosing (`Pin` before the region, `Pout` after it), beside the generator register at some state and
  the fact that the core owes nothing. What is particular to a region is taken as two entailments: how the unscoped
  buffers at a `V` with `Pin c V` make the arrays at their entry contents beside a bypassing part `Zr c V`, and how
  the arrays at contents they may hold after every write-back and that bypassing part make the unscoped buffers at
  some `V'` with `Pout c V'`.
-/
import Idealize.ShloMosaic.Lib.Pipeline.Regions
import Idealize.ShloMosaic.Lib.Pipeline.Frame
import proofs.«177139_j56324201120475_2_alg».proof.Proof.LibRegionRecord

noncomputable section

namespace RegionRecord

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.TcCoe

variable {nD : Nat} {τ : Topo} {sig : RefSig} {Val : EltTy → Type} {U : Type} [URA U]
variable {Λ₀ : Idealize.SL.Sem.Labels} {P : Type} [Fintype P]

local notation "𝕄" => MT nD τ sig Unit Val ℕ U ℕ

/-- The thread state between two items: every unscoped buffer whole at some contents satisfying `I`, beside `Rest`. -/
def Between (I : Dev nD → Valuation τ sig Val → Prop) (c : Dev nD) : sProp 𝕄 :=
  iprop((∃ V, ⌜I c V⌝ ∗ StableHlo.held (c : Thread nD τ) (ucRefs τ sig) V) ∗ Rest c)

variable (pcs : P → PCfg sig Λ₀ Val) (a : (p : P) → (pcs p).Adm)
  (rdats : (p : P) → (c : Dev nD) → RDat τ Val Unit ℕ U ℕ (pin pcs a p) c)
  (defs₀ : Defs nD τ sig Val Λ₀) (𝒱₀ : Variants)
  (L : GSem nD τ sig → Finset Unit) (lv : GSem nD τ sig → Unit → ℕ)

/-- The region record from the layout facts, the body obligation, the proof data's shape (`howed`, `hrec`, `hΦ`,
    `hnotab`) and the two entailments that sort the arrays out of the unscoped buffers and put them back. -/
def plainR (p : P) (win : WinFacts₀ (pcs p).spec)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hbody : ∀ c, (rdats p c).BodyObligation defs₀ 𝒱₀ () Set.univ)
    (howed : ∀ c t, (rdats p c).owed t = 0)
    (hrec : ∀ c t, (rdats p c).recorded t = Set.univ)
    (hΦ : ∀ c t, (rdats p c).Φ t = ΦA (U := U) (Val := Val) (pin pcs a p).spec c)
    (hnotab : ∀ c : Dev nD, (BI.emp : sProp 𝕄) ⊢ prefHeld (pcs p).pre c (fun _ => fullShare) (a p).1)
    (Pin Pout : Dev nD → Valuation τ sig Val → Prop) (Zr : Dev nD → Valuation τ sig Val → sProp 𝕄)
    (hsplit : ∀ (c : Dev nD) (V : Valuation τ sig Val), Pin c V →
      (StableHlo.held (c : Thread nD τ) (ucRefs τ sig) V : sProp 𝕄) ⊢ iprop((rdats p c).arrays (rdats p c).A ∗ Zr c V))
    (hjoin : ∀ (c : Dev nD) (V : Valuation τ sig Val), Pin c V →
      iprop((rdats p c).arraysAt (pin pcs a p).N ∗ Zr c V)
        ⊢ (iprop(∃ V', ⌜Pout c V'⌝ ∗ StableHlo.held (c : Thread nD τ) (ucRefs τ sig) V') : sProp 𝕄)) :
    RDat.RegionSeg pcs a rdats () defs₀ 𝒱₀ L lv p where
  win := win
  block_pos := hpos
  stage_whole := hstage
  K := PEmpty
  osem k := k.elim
  ho := OwnSemFacts.none _
  hbody := hbody
  hwaits := RDat.hwaits_of_owed_zero _ _ _ _ L lv p howed
  pre := Between Pin
  post := Between Pout
  X c := iprop(∃ r, prngReg c r)
  Y c := iprop(∃ r, prngReg c r)
  Z c := iprop(∃ V, ⌜Pin c V⌝ ∗ Zr c V)
  hentry c := by
    unfold Between Rest RDat.owesAt owesWithin
    rw [howed c 0]
    iintro ⟨⟨⟨%V, %hV, Hheld⟩, Hreg, ⟨%W, Howes⟩⟩, -, -⟩
    ihave Hs := (hsplit c V hV) $$ Hheld
    icases Hs with ⟨Harr, Hz⟩
    imodintro
    isplitl [Harr]; · iexact Harr
    isplitr; · iapply (hnotab c); iempintro
    isplitl [Howes]
    · iexists W; isplitr
      · ipureintro; rw [RDat.bound, hrec c 0]; exact fun _ _ => Or.inl trivial
      iexact Howes
    isplitl [Hreg]; · iexact Hreg
    iexists V; isplitr; · ipureintro; exact hV
    iexact Hz
  hin c := by
    rw [hΦ c 0]; unfold ΦA
    iintro ⟨Hreg, -, Hsc⟩
    isplitl [Hsc]; · iexact Hsc
    iexact Hreg
  hout c := by
    rw [hΦ c (Fin.last _), ownSems0_none]; unfold ΦA
    iintro ⟨Hsc, Hreg⟩
    isplitl [Hreg]; · iexact Hreg
    isplitr; · iempintro
    iexact Hsc
  hexit c := by
    unfold Between Rest RDat.owesAt owesWithin
    rw [howed c (Fin.last _)]
    iintro ⟨Harr, ⟨%W, -, Howes⟩, Hreg, ⟨%V, %hV, Hz⟩⟩
    imodintro
    isplitl [Harr Hz]
    · iapply (hjoin c V hV); isplitl [Harr]; · iexact Harr
      iexact Hz
    isplitl [Hreg]; · iexact Hreg
    iexists W; iexact Howes

end RegionRecord

end
-- ==== Proof.LibBetween.lean ====
/-
  Over the library and this directory's region record for relational proof data: what goes between two items of a host
  program whose thread states hold every unscoped buffer at SOME contents satisfying a predicate.

  * `hostBetween`: a stretch of host operations as a segment from `Between I` to `Between I'`, when `I'` holds of the
    contents the operations leave from any contents satisfying `I`.
  * `arrays_of_held`: the unscoped buffers held at `V` are a pipeline's arrays at entry contents read off `V`, beside
    the unscoped rest at `V`.
  * `arraysAt_family`: the arrays after every write-back, each at some contents it may hold, are the arrays at ONE
    family of contents each member of which it may hold.
  * `held_of_arrays`: the arrays at contents `F` beside the unscoped rest at `V` are the unscoped buffers held at `V`
    updated to `F` at the arrays.
-/
import Idealize.ShloMosaic.Lib.Pipeline.Regions
import Idealize.ShloMosaic.Lib.Pipeline.RegionsLoop
import Idealize.ShloMosaic.Lib.Pipeline.Frame
import Idealize.ShloMosaic.Lib.Pipeline.FrameSuffix
import proofs.«177139_j56324201120475_2_alg».proof.Proof.LibRegionRecordR

noncomputable section

namespace RegionRecord

open Idealize.ShloMosaic Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA
open Idealize.ShloMosaic.TcCoe

variable {nD : Nat} {τ : Topo} {sig : RefSig} {Val : EltTy → Type} {U : Type} [URA U]
variable {Λ₀ : Idealize.SL.Sem.Labels} {P : Type} [Fintype P]

local notation "𝕄" => MT nD τ sig Unit Val ℕ U ℕ

variable (pcs : P → PCfg sig Λ₀ Val) (a : (p : P) → (pcs p).Adm)
  (rdats : (p : P) → (c : Dev nD) → RDat τ Val Unit ℕ U ℕ (pin pcs a p) c)
  (defs₀ : Defs nD τ sig Val Λ₀) (𝒱₀ : Variants)
  (L : GSem nD τ sig → Finset Unit) (lv : GSem nD τ sig → Unit → ℕ)

-- a StableHLO rule stated for any thread is applied at the TensorCore thread of `c`: unification may unfold plain
-- definitions in a metavariable's type
set_option backward.isDefEq.respectTransparency.types false in
/-- A stretch of host operations between two thread states that hold the unscoped buffers at some contents: from
    contents satisfying `I` the operations leave contents satisfying `I'` (`himp`). -/
def hostBetween (ops : List (HloOp τ sig Val))
    (hsub : ∀ op ∈ ops, op.bufs ⊆ ucRefs τ sig) (hfresh : ∀ op ∈ ops, op.fresh = ∅)
    (I I' : Dev nD → Valuation τ sig Val → Prop)
    (himp : ∀ c V, I c V → I' c (StableHlo.after ops V)) :
    HostSeg (Ix := Unit) (Name := ℕ) (U := U) (Lvl := ℕ) pcs defs₀ 𝒱₀ L lv where
  prog := StableHlo.seq ops
  pre := Between I
  post := Between I'
  run c β k K := by
    have key : ∀ V : Valuation τ sig Val, I c V →
        iprop((iprop(boundary (c.tc : Thread nD τ) ∗ Between I' c) -∗ wp frame (wpE (Pipeline.defs pcs defs₀) (Variants.lift 𝒱₀) (c.tc : Thread nD τ) none) Set.univ (k ⟨⟩) K)
          ∗ boundary (c.tc : Thread nD τ) ∗ StableHlo.held (c.tc : Thread nD τ) (ucRefs τ sig) V ∗ Rest c)
        ⊢ wp frame (wpE (Pipeline.defs pcs defs₀) (Variants.lift 𝒱₀) (c.tc : Thread nD τ) none) Set.univ (StableHlo.seq ops >>= k) K := by
      intro V hV
      have hseq := StableHlo.wp_seq (defs := Pipeline.defs pcs defs₀) (Variants.lift 𝒱₀) none Set.univ c (ucRefs τ sig) k (K := K) ops hsub hfresh V
      unfold Between
      iintro ⟨Hk, Hbd, Hh, HR⟩
      iapply hseq $$ [Hbd Hh]
      · isplitl [Hbd] <;> iassumption
      iintro ⟨Hbd, Hh⟩
      iapply Hk
      isplitl [Hbd]; · iexact Hbd
      isplitl [Hh]
      · iexists (StableHlo.after ops V); isplitr; · ipureintro; exact himp c V hV
        iexact Hh
      iexact HR
    unfold Between
    iintro ⟨Hk, Hbd, ⟨HV, HR⟩, -⟩
    icases HV with ⟨%V, %hV, Hh⟩
    iapply (key V hV)
    isplitl [Hk]
    · unfold Between; iexact Hk
    isplitl [Hbd]; · iexact Hbd
    isplitl [Hh]; · iexact Hh
    iexact HR

/-- ENTRY: the unscoped buffers held at `V` are pipeline `p`'s arrays at the proof data's entry contents, when those
    are read off `V` (`hA`), beside the unscoped rest at `V`. -/
theorem arrays_of_held {p : P} (hw : WinFacts (pin pcs a p).spec) (harr : ∀ w, ((pin pcs a p).spec w).arr.IsWhole)
    (c : Dev nD) (hshare : ∀ w, (rdats p c).share w = fullShare) (V : Valuation τ sig Val)
    (hA : ∀ w, (rdats p c).A w = V (arrRef (pin pcs a p).spec w)) :
    (StableHlo.held (c : Thread nD τ) (ucRefs τ sig) V : sProp 𝕄)
      ⊢ iprop((rdats p c).arrays (rdats p c).A ∗ unscopedRest (pin pcs a p).spec c (fun b => V b)) := by
  rw [← unscopedBufs_held (Ix := Unit) (Name := ℕ) (U := U) (Lvl := ℕ) c V]
  exact RDat.arrays_of_unscopedBufs pcs a rdats hw harr c hshare (fun b => V b) hA

/-- The arrays after the write-backs below `n`, as ONE family of contents each of which the array may then hold. -/
theorem arraysAt_family [∀ e, Nonempty (Val e)] {p : P} (c : Dev nD) (n : Nat) :
    ((rdats p c).arraysAt n : sProp 𝕄)
      ⊢ iprop(∃ F : (w : Fin (pin pcs a p).W) → Buf Val (((pin pcs a p).spec w).arr.view.loc (c.tc : Thread nD τ)),
          ⌜∀ w, (rdats p c).ArrAt w n (F w)⌝ ∗ (rdats p c).arrays F) := by
  classical
  unfold RDat.arraysAt RDat.arrays
  iintro Ha
  ihave Ha' := (BI.bigSep_exists_pi Finset.univ (fun w F => iprop(⌜(rdats p c).ArrAt w n F⌝
      ∗ ((pin pcs a p).win w).arr.view.loc (c.tc : Thread nD τ) ↦[((pin pcs a p).win w).arr.view.set]{(rdats p c).share w} F))) $$ Ha
  icases Ha' with ⟨%Fs, Ha⟩
  ihave Ha2 := (BI.bigSep_pure_sep Finset.univ (fun w => (rdats p c).ArrAt w n (Fs w))
      (fun w => ((pin pcs a p).win w).arr.view.loc (c.tc : Thread nD τ) ↦[((pin pcs a p).win w).arr.view.set]{(rdats p c).share w} Fs w)) $$ Ha
  icases Ha2 with ⟨%hFs, Ha⟩
  iexists Fs
  isplitr; · ipureintro; exact fun w => hFs w (Finset.mem_univ w)
  iexact Ha

/-- EXIT: pipeline `p`'s arrays at contents `F` beside the unscoped rest at `V` are the unscoped buffers held at `V`
    with the arrays at `F`. -/
theorem held_of_arrays {p : P} (hw : WinFacts (pin pcs a p).spec) (harr : ∀ w, ((pin pcs a p).spec w).arr.IsWhole)
    (c : Dev nD) (hshare : ∀ w, (rdats p c).share w = fullShare) (V : Valuation τ sig Val)
    (F : (w : Fin (pin pcs a p).W) → Buf Val (((pin pcs a p).spec w).arr.view.loc (c.tc : Thread nD τ))) :
    iprop((rdats p c).arrays F ∗ unscopedRest (pin pcs a p).spec c (fun b => V b))
      ⊢ (StableHlo.held (c : Thread nD τ) (ucRefs τ sig) (withArrays (pin pcs a p).spec c V F) : sProp 𝕄) := by
  rw [← unscopedBufs_held (Ix := Unit) (Name := ℕ) (U := U) (Lvl := ℕ) c (withArrays (pin pcs a p).spec c V F),
    unscopedBufs_split (pin pcs a) p hw.arr_unscoped hw.arr_inj c (fun b => withArrays (pin pcs a p).spec c V F b),
    RDat.arrays_eq pcs a rdats p c harr hshare]
  refine sep_mono (Entails.of_eq (bigSep_congr fun w _ => by rw [withArrays_arr (pin pcs a p).spec hw.arr_inj c V F w])) (Entails.of_eq ?_)
  unfold unscopedRest
  exact bigSep_congr fun b hb => by
    beta_reduce
    rw [withArrays_of_ne (pin pcs a p).spec c V F b (fun w h => (Finset.mem_sdiff.mp hb).2 (Finset.mem_image.mpr ⟨w, Finset.mem_univ w, h⟩))]

end RegionRecord

end
-- ==== Proof.BitsRun.lean ====
/-
  The run of the whole host program through the library's launch theorem for several regions over relational proof data: the four kernel regions as
  records over their body obligations, the four host stretches between them, the thread states chained, the launch,
  and the final memory read against the last thread state. Every weakly fair execution terminates without a fault in
  a memory that agrees, on every unscoped buffer, with contents `V` of which the last thread state's knowledge holds.
-/
import proofs.«177139_j56324201120475_2_alg».proof.Proof.Gen.Kernel.Launch
import proofs.«177139_j56324201120475_2_alg».proof.Proof.Gen.Kernel.Skeleton
import proofs.«177139_j56324201120475_2_alg».proof.Proof.Gen.Kernel.Points
import proofs.«177139_j56324201120475_2_alg».proof.Proof.BitsInv
import proofs.«177139_j56324201120475_2_alg».proof.Proof.BitsOblig0
import proofs.«177139_j56324201120475_2_alg».proof.Proof.BitsOblig1
import proofs.«177139_j56324201120475_2_alg».proof.Proof.BitsOblig2
import proofs.«177139_j56324201120475_2_alg».proof.Proof.BitsOblig3
import proofs.«177139_j56324201120475_2_alg».proof.Proof.LibBetween
import Idealize.ShloMosaic.Lib.Pipeline.Kit
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.Pipeline (withArrays arrRef unscopedRest)
open RegionRecord (Between Rest)

variable (m : (ℓ : Loc nD τ sig) → Buf (Elt F) ℓ) (ρ : Dev nD → PrngReg)

/-- The proof data of the four pipelines. -/
def rdats : (p : Fin 4) → (c : Dev nD) → RDat τ (Elt F) Unit ℕ (UR sig nD τ) ℕ (cfgs p) c
  | ⟨0, _⟩ => rdat0 m
  | ⟨1, _⟩ => rdat1 m
  | ⟨2, _⟩ => rdat2 m
  | ⟨3, _⟩ => rdat3 m
  | ⟨n + 4, h⟩ => absurd h (by omega)

/-- No core owes another anything: no level is assigned. -/
abbrev L : GSem nD τ sig → Finset Unit := fun _ => ∅
abbrev lv : GSem nD τ sig → Unit → ℕ := fun _ _ => 0

-- the library's lemmas are stated at the pinned configuration `pin pcfgs adm 0`, which is `cfg0` after unfolding plain
-- definitions in a metavariable's type
set_option backward.isDefEq.respectTransparency.types false in
/-- Region 0: entered from buffers whose contents satisfy `I0`, left at contents satisfying `I1` — the buffers
    updated at the region's arrays to contents they may hold after every write-back. -/
def region0 : Pipeline.RDat.RegionSeg (pcfgs (F := F)) adm (rdats m) () defs₀ Variants.none L lv 0 :=
  RegionRecord.plainR (pcfgs (F := F)) adm (rdats m) defs₀ Variants.none L lv 0 launch0.win.to₀ launch0.block_pos launch0.stage_whole
    (fun c => body_obligation0 m c) (fun _ _ => rfl) (fun _ _ => rfl) (fun _ _ => rfl)
    (fun c => by unfold Pipeline.prefHeld; rw [show (Finset.univ : Finset (Fin 0)) = ∅ from rfl, BI.bigSep_empty])
    (I0 m) (I1 m) (fun c V => unscopedRest spec0 c (fun b => V b))
    (fun c V hV => RegionRecord.arrays_of_held (pcfgs (F := F)) adm (rdats m) (p := 0) launch0.win launch0.arr_whole c
      (fun w => by show (rdat0 m c).share w = fullShare; unfold RDat.share; split <;> rfl) V (fun w => entry_reg0 m hV w))
    (fun c V hV => by
      have hfam := RegionRecord.arraysAt_family (pcfgs (F := F)) adm (rdats m) (p := 0) c cfg0.N
      have hheld := fun Fs => RegionRecord.held_of_arrays (pcfgs (F := F)) adm (rdats m) (p := 0) launch0.win launch0.arr_whole c
        (fun w => by show (rdat0 m c).share w = fullShare; unfold RDat.share; split <;> rfl) V Fs
      iintro ⟨Ha, Hr⟩
      ihave H := hfam $$ Ha
      icases H with ⟨%Fs, %hFs, Ha⟩
      iexists (withArrays spec0 c V Fs)
      isplitr; · ipureintro; exact step_reg0 m hV Fs hFs
      iapply (hheld Fs)
      isplitl [Ha]; · iexact Ha
      iexact Hr)

/-- The host stretch after region 0. -/
def host1 : Pipeline.HostSeg (Ix := Unit) (Name := ℕ) (U := UR sig nD τ) (Lvl := ℕ) (pcfgs (F := F)) defs₀ Variants.none L lv :=
  RegionRecord.hostBetween (pcfgs (F := F)) defs₀ Variants.none L lv hostOps1
    (fun op h => Pipeline.sub_ucRefs op ((List.forall_iff_forall_mem.mp hostOps1_sub) op h))
    (fun op h => (List.forall_iff_forall_mem.mp hostOps1_fresh) op h)
    (I1 m) (I2 m) (fun c V h => step_host1 m h)

-- the library's lemmas are stated at the pinned configuration `pin pcfgs adm 1`, which is `cfg1` after unfolding plain
-- definitions in a metavariable's type
set_option backward.isDefEq.respectTransparency.types false in
/-- Region 1: entered from buffers whose contents satisfy `I2`, left at contents satisfying `I3` — the buffers
    updated at the region's arrays to contents they may hold after every write-back. -/
def region1 : Pipeline.RDat.RegionSeg (pcfgs (F := F)) adm (rdats m) () defs₀ Variants.none L lv 1 :=
  RegionRecord.plainR (pcfgs (F := F)) adm (rdats m) defs₀ Variants.none L lv 1 launch1.win.to₀ launch1.block_pos launch1.stage_whole
    (fun c => body_obligation1 m c) (fun _ _ => rfl) (fun _ _ => rfl) (fun _ _ => rfl)
    (fun c => by unfold Pipeline.prefHeld; rw [show (Finset.univ : Finset (Fin 0)) = ∅ from rfl, BI.bigSep_empty])
    (I2 m) (I3 m) (fun c V => unscopedRest spec1 c (fun b => V b))
    (fun c V hV => RegionRecord.arrays_of_held (pcfgs (F := F)) adm (rdats m) (p := 1) launch1.win launch1.arr_whole c
      (fun w => by show (rdat1 m c).share w = fullShare; unfold RDat.share; split <;> rfl) V (fun w => entry_reg1 m hV w))
    (fun c V hV => by
      have hfam := RegionRecord.arraysAt_family (pcfgs (F := F)) adm (rdats m) (p := 1) c cfg1.N
      have hheld := fun Fs => RegionRecord.held_of_arrays (pcfgs (F := F)) adm (rdats m) (p := 1) launch1.win launch1.arr_whole c
        (fun w => by show (rdat1 m c).share w = fullShare; unfold RDat.share; split <;> rfl) V Fs
      iintro ⟨Ha, Hr⟩
      ihave H := hfam $$ Ha
      icases H with ⟨%Fs, %hFs, Ha⟩
      iexists (withArrays spec1 c V Fs)
      isplitr; · ipureintro; exact step_reg1 m hV Fs hFs
      iapply (hheld Fs)
      isplitl [Ha]; · iexact Ha
      iexact Hr)

/-- The host stretch after region 1. -/
def host2 : Pipeline.HostSeg (Ix := Unit) (Name := ℕ) (U := UR sig nD τ) (Lvl := ℕ) (pcfgs (F := F)) defs₀ Variants.none L lv :=
  RegionRecord.hostBetween (pcfgs (F := F)) defs₀ Variants.none L lv hostOps2
    (fun op h => Pipeline.sub_ucRefs op ((List.forall_iff_forall_mem.mp hostOps2_sub) op h))
    (fun op h => (List.forall_iff_forall_mem.mp hostOps2_fresh) op h)
    (I3 m) (I4 m) (fun c V h => step_host2 m h)

-- the library's lemmas are stated at the pinned configuration `pin pcfgs adm 2`, which is `cfg2` after unfolding plain
-- definitions in a metavariable's type
set_option backward.isDefEq.respectTransparency.types false in
/-- Region 2: entered from buffers whose contents satisfy `I4`, left at contents satisfying `I5` — the buffers
    updated at the region's arrays to contents they may hold after every write-back. -/
def region2 : Pipeline.RDat.RegionSeg (pcfgs (F := F)) adm (rdats m) () defs₀ Variants.none L lv 2 :=
  RegionRecord.plainR (pcfgs (F := F)) adm (rdats m) defs₀ Variants.none L lv 2 launch2.win.to₀ launch2.block_pos launch2.stage_whole
    (fun c => body_obligation2 m c) (fun _ _ => rfl) (fun _ _ => rfl) (fun _ _ => rfl)
    (fun c => by unfold Pipeline.prefHeld; rw [show (Finset.univ : Finset (Fin 0)) = ∅ from rfl, BI.bigSep_empty])
    (I4 m) (I5 m) (fun c V => unscopedRest spec2 c (fun b => V b))
    (fun c V hV => RegionRecord.arrays_of_held (pcfgs (F := F)) adm (rdats m) (p := 2) launch2.win launch2.arr_whole c
      (fun w => by show (rdat2 m c).share w = fullShare; unfold RDat.share; split <;> rfl) V (fun w => entry_reg2 m hV w))
    (fun c V hV => by
      have hfam := RegionRecord.arraysAt_family (pcfgs (F := F)) adm (rdats m) (p := 2) c cfg2.N
      have hheld := fun Fs => RegionRecord.held_of_arrays (pcfgs (F := F)) adm (rdats m) (p := 2) launch2.win launch2.arr_whole c
        (fun w => by show (rdat2 m c).share w = fullShare; unfold RDat.share; split <;> rfl) V Fs
      iintro ⟨Ha, Hr⟩
      ihave H := hfam $$ Ha
      icases H with ⟨%Fs, %hFs, Ha⟩
      iexists (withArrays spec2 c V Fs)
      isplitr; · ipureintro; exact step_reg2 m hV Fs hFs
      iapply (hheld Fs)
      isplitl [Ha]; · iexact Ha
      iexact Hr)

/-- The host stretch after region 2. -/
def host3 : Pipeline.HostSeg (Ix := Unit) (Name := ℕ) (U := UR sig nD τ) (Lvl := ℕ) (pcfgs (F := F)) defs₀ Variants.none L lv :=
  RegionRecord.hostBetween (pcfgs (F := F)) defs₀ Variants.none L lv hostOps3
    (fun op h => Pipeline.sub_ucRefs op ((List.forall_iff_forall_mem.mp hostOps3_sub) op h))
    (fun op h => (List.forall_iff_forall_mem.mp hostOps3_fresh) op h)
    (I5 m) (I6 m) (fun c V h => step_host3 m h)

-- the library's lemmas are stated at the pinned configuration `pin pcfgs adm 3`, which is `cfg3` after unfolding plain
-- definitions in a metavariable's type
set_option backward.isDefEq.respectTransparency.types false in
/-- Region 3: entered from buffers whose contents satisfy `I6`, left at contents satisfying `I7` — the buffers
    updated at the region's arrays to contents they may hold after every write-back. -/
def region3 : Pipeline.RDat.RegionSeg (pcfgs (F := F)) adm (rdats m) () defs₀ Variants.none L lv 3 :=
  RegionRecord.plainR (pcfgs (F := F)) adm (rdats m) defs₀ Variants.none L lv 3 launch3.win.to₀ launch3.block_pos launch3.stage_whole
    (fun c => body_obligation3 m c) (fun _ _ => rfl) (fun _ _ => rfl) (fun _ _ => rfl)
    (fun c => by unfold Pipeline.prefHeld; rw [show (Finset.univ : Finset (Fin 0)) = ∅ from rfl, BI.bigSep_empty])
    (I6 m) (I7 m) (fun c V => unscopedRest spec3 c (fun b => V b))
    (fun c V hV => RegionRecord.arrays_of_held (pcfgs (F := F)) adm (rdats m) (p := 3) launch3.win launch3.arr_whole c
      (fun w => by show (rdat3 m c).share w = fullShare; unfold RDat.share; split <;> rfl) V (fun w => entry_reg3 m hV w))
    (fun c V hV => by
      have hfam := RegionRecord.arraysAt_family (pcfgs (F := F)) adm (rdats m) (p := 3) c cfg3.N
      have hheld := fun Fs => RegionRecord.held_of_arrays (pcfgs (F := F)) adm (rdats m) (p := 3) launch3.win launch3.arr_whole c
        (fun w => by show (rdat3 m c).share w = fullShare; unfold RDat.share; split <;> rfl) V Fs
      iintro ⟨Ha, Hr⟩
      ihave H := hfam $$ Ha
      icases H with ⟨%Fs, %hFs, Ha⟩
      iexists (withArrays spec3 c V Fs)
      isplitr; · ipureintro; exact step_reg3 m hV Fs hFs
      iapply (hheld Fs)
      isplitl [Ha]; · iexact Ha
      iexact Hr)

/-- The host stretch after region 3. -/
def host4 : Pipeline.HostSeg (Ix := Unit) (Name := ℕ) (U := UR sig nD τ) (Lvl := ℕ) (pcfgs (F := F)) defs₀ Variants.none L lv :=
  RegionRecord.hostBetween (pcfgs (F := F)) defs₀ Variants.none L lv hostOps4
    (fun op h => Pipeline.sub_ucRefs op ((List.forall_iff_forall_mem.mp hostOps4_sub) op h))
    (fun op h => (List.forall_iff_forall_mem.mp hostOps4_fresh) op h)
    (I7 m) (I8 m) (fun c V h => step_host4 m h)

/-- @main's items, in order. -/
abbrev segs : List (Pipeline.RDat.Seg (pcfgs (F := F)) adm (rdats m) () defs₀ Variants.none L lv) :=
  [.region (region0 m), .host (host1 m), .region (region1 m), .host (host2 m), .region (region2 m), .host (host3 m), .region (region3 m), .host (host4 m)]

/-- The last thread state, less the fact that the core owes nothing. -/
abbrev Tlast (c : Dev nD) : sProp 𝕄 :=
  iprop((∃ V, ⌜I8 m c V⌝ ∗ StableHlo.held (c : Thread nD τ) (Pipeline.ucRefs τ sig) V) ∗ ∃ r, prngReg c r)

/-- What is read of a final memory on core `c`: it agrees on every unscoped buffer with contents of which the last
    thread state's knowledge holds. -/
def Final (c : Dev nD) (s : MemSt nD τ sig (Elt F)) : Prop :=
  ∃ V : Valuation τ sig (Elt F), I8 m c V ∧ ∀ b ∈ Pipeline.ucRefs τ sig, s.mem (((c : Thread nD τ)).1, b) = V b

-- the launch theorem's implicit arguments are found by unifying its conclusion with this one, which takes unfolding plain
-- definitions in a metavariable's type
set_option backward.isDefEq.respectTransparency.types false in
/-- At the compiled mesh, for any float values, from any memory with zero counters: every weakly fair execution of
    @main terminates, nothing faulting, in a memory of which `Final` holds on every core. -/
theorem run_main : θ_run defs (onTc (τ := τ) (main (F := F))) ⟨m, fun _ => 0, ρ⟩ (fun r => ∀ c : Dev nD, Final m c r.2) :=
  Pipeline.RDat.θ_run_regions_kit (pcfgs (F := F)) adm (rdats m) () cellOf_inj emb₁ defs₀ Variants.none L lv m ρ main (segs m)
    (fun c Q => by
      rewrite [main_chain c, Pipeline.RDat.Seg.run_eq_chain,
        show (segs m).map Pipeline.RDat.Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := Between (I0 m)) (Tₙ := Tlast m)
    (hch := ⟨fun _ => .rfl, fun _ => .rfl, fun _ => .rfl, fun _ => .rfl, fun _ => .rfl, fun _ => .rfl, fun _ => .rfl, fun _ => .rfl, fun c => by
      show (Between (I8 m) c : sProp 𝕄) ⊢ iprop(Tlast m c ∗ ∃ W, owes (c.tc : Thread nD τ) (0 : CellTallies nD τ sig Unit) W)
      unfold Between Rest
      iintro ⟨HV, Hp, HO⟩
      isplitl [HV Hp]
      · isplitl [HV]; · iexact HV
        iexact Hp
      iexact HO⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      unfold Between Rest
      iintro ⟨⟨Hh, -, HO, -, Hp, -⟩, -⟩
      imodintro
      isplitl [Hh]
      · iexists (fun b => m (c, b)); isplitr; · ipureintro; exact init_I0 m c
        iexact Hh
      isplitl [Hp]; · iexists _; iexact Hp
      iexists ∅; iexact HO)
    (QY := Final m)
    (hfin := fun c s' => by
      have key : ∀ V : Valuation τ sig (Elt F),
          iprop(StableHlo.held (c : Thread nD τ) (Pipeline.ucRefs τ sig) V ∗ SI s')
            ⊢ (iprop(⌜∀ b ∈ Pipeline.ucRefs τ sig, s'.mem.mem (((c : Thread nD τ)).1, b) = V b⌝ ∗ SI s') : sProp 𝕄) := fun V => by
        unfold StableHlo.held
        exact pointsTo_read_all (Pipeline.ucRefs τ sig) (fun b => ((c : Thread nD τ).1, b)) V s'
      iintro ⟨⟨HV, -⟩, HSI⟩
      icases HV with ⟨%V, %hV, Hh⟩
      ihave Hr := (key V) $$ [Hh HSI]
      · isplitl [Hh] <;> iassumption
      icases Hr with ⟨%h, HSI⟩
      imodintro
      isplitr; · ipureintro; exact ⟨V, hV, h⟩
      iexact HSI)
    (hQ := fun _ h => h)

end Cert.Kernel.Hand

end
-- ==== Proof.BitsFrame.lean ====
/-
  The frame claim from the run: no item of the host program writes an argument array, so the contents the last thread
  state holds at an argument are its launch contents, and the final memory agrees with them.
-/
import proofs.«177139_j56324201120475_2_alg».proof.Proof.Gen.Kernel.Launch
import proofs.«177139_j56324201120475_2_alg».proof.Proof.Gen.Kernel.Skeleton
import proofs.«177139_j56324201120475_2_alg».proof.Proof.Gen.Kernel.Points
import proofs.«177139_j56324201120475_2_alg».proof.Proof.BitsRun
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last thread state's knowledge gives each argument's launch contents. -/
theorem final_untouched {c : Dev nD} {V : Valuation τ sig (Elt F)} (hI : I8 m c V) :
    Untouched m (O0 ++ hostOps1_W ++ O1 ++ hostOps2_W ++ O2 ++ hostOps3_W ++ O3 ++ hostOps4_W) c V := hI.1

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => by
    obtain ⟨V, hI, hm⟩ := h c
    have hU := final_untouched m hI
    exact ⟨(hm (Proc.devRef .tc main_arg0) (Finset.mem_filter.mpr ⟨StableHlo.devRef_mem_tcRefs main_arg0, by decide⟩)).trans (hU main_arg0 (by decide)),
      (hm (Proc.devRef .tc main_arg1) (Finset.mem_filter.mpr ⟨StableHlo.devRef_mem_tcRefs main_arg1, by decide⟩)).trans (hU main_arg1 (by decide)),
      (hm (Proc.devRef .tc main_arg2) (Finset.mem_filter.mpr ⟨StableHlo.devRef_mem_tcRefs main_arg2, by decide⟩)).trans (hU main_arg2 (by decide)),
      (hm (Proc.devRef .tc main_arg3) (Finset.mem_filter.mpr ⟨StableHlo.devRef_mem_tcRefs main_arg3, by decide⟩)).trans (hU main_arg3 (by decide)),
      (hm (Proc.devRef .tc main_arg4) (Finset.mem_filter.mpr ⟨StableHlo.devRef_mem_tcRefs main_arg4, by decide⟩)).trans (hU main_arg4 (by decide)),
      (hm (Proc.devRef .tc main_arg5) (Finset.mem_filter.mpr ⟨StableHlo.devRef_mem_tcRefs main_arg5, by decide⟩)).trans (hU main_arg5 (by decide)),
      (hm (Proc.devRef .tc main_arg6) (Finset.mem_filter.mpr ⟨StableHlo.devRef_mem_tcRefs main_arg6, by decide⟩)).trans (hU main_arg6 (by decide)),
      (hm (Proc.devRef .tc main_arg7) (Finset.mem_filter.mpr ⟨StableHlo.devRef_mem_tcRefs main_arg7, by decide⟩)).trans (hU main_arg7 (by decide)),
      (hm (Proc.devRef .tc main_arg8) (Finset.mem_filter.mpr ⟨StableHlo.devRef_mem_tcRefs main_arg8, by decide⟩)).trans (hU main_arg8 (by decide)),
      (hm (Proc.devRef .tc main_arg9) (Finset.mem_filter.mpr ⟨StableHlo.devRef_mem_tcRefs main_arg9, by decide⟩)).trans (hU main_arg9 (by decide)),
      (hm (Proc.devRef .tc main_arg10) (Finset.mem_filter.mpr ⟨StableHlo.devRef_mem_tcRefs main_arg10, by decide⟩)).trans (hU main_arg10 (by decide)),
      (hm (Proc.devRef .tc main_arg11) (Finset.mem_filter.mpr ⟨StableHlo.devRef_mem_tcRefs main_arg11, by decide⟩)).trans (hU main_arg11 (by decide)),
      (hm (Proc.devRef .tc main_arg12) (Finset.mem_filter.mpr ⟨StableHlo.devRef_mem_tcRefs main_arg12, by decide⟩)).trans (hU main_arg12 (by decide)),
      (hm (Proc.devRef .tc main_arg13) (Finset.mem_filter.mpr ⟨StableHlo.devRef_mem_tcRefs main_arg13, by decide⟩)).trans (hU main_arg13 (by decide)),
      (hm (Proc.devRef .tc main_arg14) (Finset.mem_filter.mpr ⟨StableHlo.devRef_mem_tcRefs main_arg14, by decide⟩)).trans (hU main_arg14 (by decide)),
      (hm (Proc.devRef .tc main_arg15) (Finset.mem_filter.mpr ⟨StableHlo.devRef_mem_tcRefs main_arg15, by decide⟩)).trans (hU main_arg15 (by decide)),
      (hm (Proc.devRef .tc main_arg16) (Finset.mem_filter.mpr ⟨StableHlo.devRef_mem_tcRefs main_arg16, by decide⟩)).trans (hU main_arg16 (by decide)),
      (hm (Proc.devRef .tc main_arg17) (Finset.mem_filter.mpr ⟨StableHlo.devRef_mem_tcRefs main_arg17, by decide⟩)).trans (hU main_arg17 (by decide)),
      (hm (Proc.devRef .tc main_arg18) (Finset.mem_filter.mpr ⟨StableHlo.devRef_mem_tcRefs main_arg18, by decide⟩)).trans (hU main_arg18 (by decide)),
      (hm (Proc.devRef .tc main_arg19) (Finset.mem_filter.mpr ⟨StableHlo.devRef_mem_tcRefs main_arg19, by decide⟩)).trans (hU main_arg19 (by decide)),
      (hm (Proc.devRef .tc main_arg20) (Finset.mem_filter.mpr ⟨StableHlo.devRef_mem_tcRefs main_arg20, by decide⟩)).trans (hU main_arg20 (by decide)),
      (hm (Proc.devRef .tc main_arg21) (Finset.mem_filter.mpr ⟨StableHlo.devRef_mem_tcRefs main_arg21, by decide⟩)).trans (hU main_arg21 (by decide)),
      (hm (Proc.devRef .tc main_arg22) (Finset.mem_filter.mpr ⟨StableHlo.devRef_mem_tcRefs main_arg22, by decide⟩)).trans (hU main_arg22 (by decide)),
      (hm (Proc.devRef .tc main_arg23) (Finset.mem_filter.mpr ⟨StableHlo.devRef_mem_tcRefs main_arg23, by decide⟩)).trans (hU main_arg23 (by decide))⟩) (run_main m ρ)

end Cert.Kernel.Hand

end
-- ==== Proof.IdealData0.lean ====
/-
  The relational proof data of kernel region 0: what the pipeline's windows hold when the body runs at a grid
  point, and what the body may leave in them.
-/
import proofs.«177139_j56324201120475_2_alg».proof.Proof.Gen.KernelIdeal.Launch
import proofs.«177139_j56324201120475_2_alg».proof.Proof.Gen.KernelIdeal.Skeleton
import proofs.«177139_j56324201120475_2_alg».proof.Proof.Gen.KernelIdeal.Points
import proofs.«177139_j56324201120475_2_alg».proof.Proof.LibKeptWindow
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-! ## Region 0 -/

/-- The first grid point of region 0. -/
def tz0 : Fin cfg0.N := ⟨0, by have := N_0; show 0 < grid0.N; omega⟩

/-- Region 0's arrays when the region is entered: as launched (no earlier item of the program writes them). -/
abbrev A0 (c : Dev nD) (w : Fin cfg0.W) : Buf (Elt F) ((cfg0.win w).arr.view.loc (c.tc : Thread nD τ)) :=
  m ((c : Thread nD τ).loc (Pipeline.arrRef spec0 w))

/-- What window `w`'s staging buffer holds once the fetch at point `t` has landed, if it held `d`: the launch array's
    block at `t` on the part inside the array, `d` elsewhere. -/
def fetched0 (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (((cfg0.win w).blk t).view.read (Elt F) (A0 m c w))

/-- The relational proof data of region 0 on core `c`. The arrays enter at their launch contents. Of a data
    window's buffer (fetched anew at every point) nothing is kept; a weight window's buffer is left as found; a result
    window's buffer is left at the payload of the point's data block and the weight row as the fetches left them in
    their buffers — whatever filled those buffers past the arrays' ends. -/
def rdat0 (c : Dev nD) : RDat τ (Elt F) Unit ℕ (UR sig nD τ) ℕ cfg0 c where
  A := A0 m c
  after w t Y X := match w with
    | ⟨0, _⟩ => True
    | ⟨1, _⟩ => True
    | ⟨2, _⟩ => True
    | ⟨3, _⟩ => X = Y
    | ⟨4, _⟩ => X = Y
    | ⟨5, _⟩ => X = Y
    | ⟨6, _⟩ => ∃ d d', X = k0_pay1 (fetched0 m c 0 t d) (fetched0 m c 3 tz0 d')
    | ⟨7, _⟩ => ∃ d d', X = k0_pay2 (fetched0 m c 1 t d) (fetched0 m c 4 tz0 d')
    | ⟨8, _⟩ => ∃ d d', X = k0_pay3 (fetched0 m c 2 t d) (fetched0 m c 5 tz0 d')
  Φ _ := Pipeline.ΦA spec0 c
  q _ := fullShare
  owed _ := 0

theorem rdat0_fetched (c : Dev nD) (w : Fin cfg0.W) (t : Fin cfg0.N) (d) :
    (rdat0 m c).fetched w t d = fetched0 m c w t d := rfl

/-- The weight windows are never written back. -/
theorem noflush0_3 : ∀ t : Fin cfg0.N, (cfg0.win 3).flush t = false :=
  (by decide +kernel : ∀ t : Fin grid0.N, win0_3.flush t = false)
theorem noflush0_4 : ∀ t : Fin cfg0.N, (cfg0.win 4).flush t = false :=
  (by decide +kernel : ∀ t : Fin grid0.N, win0_4.flush t = false)
theorem noflush0_5 : ∀ t : Fin cfg0.N, (cfg0.win 5).flush t = false :=
  (by decide +kernel : ∀ t : Fin grid0.N, win0_5.flush t = false)

/-- A point of the grid with index a multiple of the grid's size is the first. -/
theorem mod0 (t : Fin cfg0.N) : t.val % 8 = 0 ↔ t.val = 0 := by
  have h : t.val < 8 := lt_of_lt_of_eq t.isLt N_0
  omega

/-- At every point a weight window's buffer is found as the first point's fetch left it. -/
theorem finds0_3 (c : Dev nD) (t : Fin cfg0.N) (Y) (h : (rdat0 m c).Finds 3 t Y) : ∃ d, Y = fetched0 m c 3 tz0 d :=
  KeptWindow.finds_first (rdat0 m c) 3 tz0 rfl (fun t => (fetch0_3 t).trans (mod0 t)) noflush0_3 (fun _ _ _ h => h) t.val t rfl Y h
theorem finds0_4 (c : Dev nD) (t : Fin cfg0.N) (Y) (h : (rdat0 m c).Finds 4 t Y) : ∃ d, Y = fetched0 m c 4 tz0 d :=
  KeptWindow.finds_first (rdat0 m c) 4 tz0 rfl (fun t => (fetch0_4 t).trans (mod0 t)) noflush0_4 (fun _ _ _ h => h) t.val t rfl Y h
theorem finds0_5 (c : Dev nD) (t : Fin cfg0.N) (Y) (h : (rdat0 m c).Finds 5 t Y) : ∃ d, Y = fetched0 m c 5 tz0 d :=
  KeptWindow.finds_first (rdat0 m c) 5 tz0 rfl (fun t => (fetch0_5 t).trans (mod0 t)) noflush0_5 (fun _ _ _ h => h) t.val t rfl Y h

/-- At every point a data window's buffer is found just fetched. -/
theorem finds0_0 (c : Dev nD) (t : Fin cfg0.N) (Y) (h : (rdat0 m c).Finds 0 t Y) : ∃ d, Y = fetched0 m c 0 t d :=
  ((rdat0 m c).finds_of_fetch (fetch0_0 t) Y).1 h
theorem finds0_1 (c : Dev nD) (t : Fin cfg0.N) (Y) (h : (rdat0 m c).Finds 1 t Y) : ∃ d, Y = fetched0 m c 1 t d :=
  ((rdat0 m c).finds_of_fetch (fetch0_1 t) Y).1 h
theorem finds0_2 (c : Dev nD) (t : Fin cfg0.N) (Y) (h : (rdat0 m c).Finds 2 t Y) : ∃ d, Y = fetched0 m c 2 t d :=
  ((rdat0 m c).finds_of_fetch (fetch0_2 t) Y).1 h

end Cert.KernelIdeal.Hand

end
-- ==== Proof.IdealData1.lean ====
/-
  The relational proof data of kernel region 1: what the pipeline's windows hold when the body runs at a grid
  point, and what the body may leave in them.
-/
import proofs.«177139_j56324201120475_2_alg».proof.Proof.Gen.KernelIdeal.Launch
import proofs.«177139_j56324201120475_2_alg».proof.Proof.Gen.KernelIdeal.Skeleton
import proofs.«177139_j56324201120475_2_alg».proof.Proof.Gen.KernelIdeal.Points
import proofs.«177139_j56324201120475_2_alg».proof.Proof.LibKeptWindow
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-! ## Region 1 -/

/-- The first grid point of region 1. -/
def tz1 : Fin cfg1.N := ⟨0, by have := N_1; show 0 < grid1.N; omega⟩

/-- Region 1's arrays when the region is entered: as launched (no earlier item of the program writes them). -/
abbrev A1 (c : Dev nD) (w : Fin cfg1.W) : Buf (Elt F) ((cfg1.win w).arr.view.loc (c.tc : Thread nD τ)) :=
  m ((c : Thread nD τ).loc (Pipeline.arrRef spec1 w))

/-- What window `w`'s staging buffer holds once the fetch at point `t` has landed, if it held `d`: the launch array's
    block at `t` on the part inside the array, `d` elsewhere. -/
def fetched1 (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (((cfg1.win w).blk t).view.read (Elt F) (A1 m c w))

/-- The relational proof data of region 1 on core `c`. The arrays enter at their launch contents. Of a data
    window's buffer (fetched anew at every point) nothing is kept; a weight window's buffer is left as found; a result
    window's buffer is left at the payload of the point's data block and the weight row as the fetches left them in
    their buffers — whatever filled those buffers past the arrays' ends. -/
def rdat1 (c : Dev nD) : RDat τ (Elt F) Unit ℕ (UR sig nD τ) ℕ cfg1 c where
  A := A1 m c
  after w t Y X := match w with
    | ⟨0, _⟩ => True
    | ⟨1, _⟩ => True
    | ⟨2, _⟩ => True
    | ⟨3, _⟩ => X = Y
    | ⟨4, _⟩ => X = Y
    | ⟨5, _⟩ => X = Y
    | ⟨6, _⟩ => ∃ d d', X = k1_pay1 (fetched1 m c 0 t d) (fetched1 m c 3 tz1 d')
    | ⟨7, _⟩ => ∃ d d', X = k1_pay2 (fetched1 m c 1 t d) (fetched1 m c 4 tz1 d')
    | ⟨8, _⟩ => ∃ d d', X = k1_pay3 (fetched1 m c 2 t d) (fetched1 m c 5 tz1 d')
  Φ _ := Pipeline.ΦA spec1 c
  q _ := fullShare
  owed _ := 0

theorem rdat1_fetched (c : Dev nD) (w : Fin cfg1.W) (t : Fin cfg1.N) (d) :
    (rdat1 m c).fetched w t d = fetched1 m c w t d := rfl

/-- The weight windows are never written back. -/
theorem noflush1_3 : ∀ t : Fin cfg1.N, (cfg1.win 3).flush t = false :=
  (by decide +kernel : ∀ t : Fin grid1.N, win1_3.flush t = false)
theorem noflush1_4 : ∀ t : Fin cfg1.N, (cfg1.win 4).flush t = false :=
  (by decide +kernel : ∀ t : Fin grid1.N, win1_4.flush t = false)
theorem noflush1_5 : ∀ t : Fin cfg1.N, (cfg1.win 5).flush t = false :=
  (by decide +kernel : ∀ t : Fin grid1.N, win1_5.flush t = false)

/-- A point of the grid with index a multiple of the grid's size is the first. -/
theorem mod1 (t : Fin cfg1.N) : t.val % 8 = 0 ↔ t.val = 0 := by
  have h : t.val < 8 := lt_of_lt_of_eq t.isLt N_1
  omega

/-- At every point a weight window's buffer is found as the first point's fetch left it. -/
theorem finds1_3 (c : Dev nD) (t : Fin cfg1.N) (Y) (h : (rdat1 m c).Finds 3 t Y) : ∃ d, Y = fetched1 m c 3 tz1 d :=
  KeptWindow.finds_first (rdat1 m c) 3 tz1 rfl (fun t => (fetch1_3 t).trans (mod1 t)) noflush1_3 (fun _ _ _ h => h) t.val t rfl Y h
theorem finds1_4 (c : Dev nD) (t : Fin cfg1.N) (Y) (h : (rdat1 m c).Finds 4 t Y) : ∃ d, Y = fetched1 m c 4 tz1 d :=
  KeptWindow.finds_first (rdat1 m c) 4 tz1 rfl (fun t => (fetch1_4 t).trans (mod1 t)) noflush1_4 (fun _ _ _ h => h) t.val t rfl Y h
theorem finds1_5 (c : Dev nD) (t : Fin cfg1.N) (Y) (h : (rdat1 m c).Finds 5 t Y) : ∃ d, Y = fetched1 m c 5 tz1 d :=
  KeptWindow.finds_first (rdat1 m c) 5 tz1 rfl (fun t => (fetch1_5 t).trans (mod1 t)) noflush1_5 (fun _ _ _ h => h) t.val t rfl Y h

/-- At every point a data window's buffer is found just fetched. -/
theorem finds1_0 (c : Dev nD) (t : Fin cfg1.N) (Y) (h : (rdat1 m c).Finds 0 t Y) : ∃ d, Y = fetched1 m c 0 t d :=
  ((rdat1 m c).finds_of_fetch (fetch1_0 t) Y).1 h
theorem finds1_1 (c : Dev nD) (t : Fin cfg1.N) (Y) (h : (rdat1 m c).Finds 1 t Y) : ∃ d, Y = fetched1 m c 1 t d :=
  ((rdat1 m c).finds_of_fetch (fetch1_1 t) Y).1 h
theorem finds1_2 (c : Dev nD) (t : Fin cfg1.N) (Y) (h : (rdat1 m c).Finds 2 t Y) : ∃ d, Y = fetched1 m c 2 t d :=
  ((rdat1 m c).finds_of_fetch (fetch1_2 t) Y).1 h

end Cert.KernelIdeal.Hand

end
-- ==== Proof.IdealData2.lean ====
/-
  The relational proof data of kernel region 2: what the pipeline's windows hold when the body runs at a grid
  point, and what the body may leave in them.
-/
import proofs.«177139_j56324201120475_2_alg».proof.Proof.Gen.KernelIdeal.Launch
import proofs.«177139_j56324201120475_2_alg».proof.Proof.Gen.KernelIdeal.Skeleton
import proofs.«177139_j56324201120475_2_alg».proof.Proof.Gen.KernelIdeal.Points
import proofs.«177139_j56324201120475_2_alg».proof.Proof.LibKeptWindow
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-! ## Region 2 -/

/-- The first grid point of region 2. -/
def tz2 : Fin cfg2.N := ⟨0, by have := N_2; show 0 < grid2.N; omega⟩

/-- Region 2's arrays when the region is entered: as launched (no earlier item of the program writes them). -/
abbrev A2 (c : Dev nD) (w : Fin cfg2.W) : Buf (Elt F) ((cfg2.win w).arr.view.loc (c.tc : Thread nD τ)) :=
  m ((c : Thread nD τ).loc (Pipeline.arrRef spec2 w))

/-- What window `w`'s staging buffer holds once the fetch at point `t` has landed, if it held `d`: the launch array's
    block at `t` on the part inside the array, `d` elsewhere. -/
def fetched2 (c : Dev nD) (w : Fin cfg2.W) (t : Fin cfg2.N) (d : (cfg2.win w).block.Idx → Elt F (cfg2.win w).elt) :
    (cfg2.win w).block.Idx → Elt F (cfg2.win w).elt :=
  (cfg2.win w).fill (cfg2.grid.coords t) d (((cfg2.win w).blk t).view.read (Elt F) (A2 m c w))

/-- The relational proof data of region 2 on core `c`. The arrays enter at their launch contents. Of a data
    window's buffer (fetched anew at every point) nothing is kept; a weight window's buffer is left as found; a result
    window's buffer is left at the payload of the point's data block and the weight row as the fetches left them in
    their buffers — whatever filled those buffers past the arrays' ends. -/
def rdat2 (c : Dev nD) : RDat τ (Elt F) Unit ℕ (UR sig nD τ) ℕ cfg2 c where
  A := A2 m c
  after w t Y X := match w with
    | ⟨0, _⟩ => True
    | ⟨1, _⟩ => True
    | ⟨2, _⟩ => True
    | ⟨3, _⟩ => X = Y
    | ⟨4, _⟩ => X = Y
    | ⟨5, _⟩ => X = Y
    | ⟨6, _⟩ => ∃ d d', X = k2_pay1 (fetched2 m c 0 t d) (fetched2 m c 3 tz2 d')
    | ⟨7, _⟩ => ∃ d d', X = k2_pay2 (fetched2 m c 1 t d) (fetched2 m c 4 tz2 d')
    | ⟨8, _⟩ => ∃ d d', X = k2_pay3 (fetched2 m c 2 t d) (fetched2 m c 5 tz2 d')
  Φ _ := Pipeline.ΦA spec2 c
  q _ := fullShare
  owed _ := 0

theorem rdat2_fetched (c : Dev nD) (w : Fin cfg2.W) (t : Fin cfg2.N) (d) :
    (rdat2 m c).fetched w t d = fetched2 m c w t d := rfl

/-- The weight windows are never written back. -/
theorem noflush2_3 : ∀ t : Fin cfg2.N, (cfg2.win 3).flush t = false :=
  (by decide +kernel : ∀ t : Fin grid2.N, win2_3.flush t = false)
theorem noflush2_4 : ∀ t : Fin cfg2.N, (cfg2.win 4).flush t = false :=
  (by decide +kernel : ∀ t : Fin grid2.N, win2_4.flush t = false)
theorem noflush2_5 : ∀ t : Fin cfg2.N, (cfg2.win 5).flush t = false :=
  (by decide +kernel : ∀ t : Fin grid2.N, win2_5.flush t = false)

/-- A point of the grid with index a multiple of the grid's size is the first. -/
theorem mod2 (t : Fin cfg2.N) : t.val % 16 = 0 ↔ t.val = 0 := by
  have h : t.val < 16 := lt_of_lt_of_eq t.isLt N_2
  omega

/-- At every point a weight window's buffer is found as the first point's fetch left it. -/
theorem finds2_3 (c : Dev nD) (t : Fin cfg2.N) (Y) (h : (rdat2 m c).Finds 3 t Y) : ∃ d, Y = fetched2 m c 3 tz2 d :=
  KeptWindow.finds_first (rdat2 m c) 3 tz2 rfl (fun t => (fetch2_3 t).trans (mod2 t)) noflush2_3 (fun _ _ _ h => h) t.val t rfl Y h
theorem finds2_4 (c : Dev nD) (t : Fin cfg2.N) (Y) (h : (rdat2 m c).Finds 4 t Y) : ∃ d, Y = fetched2 m c 4 tz2 d :=
  KeptWindow.finds_first (rdat2 m c) 4 tz2 rfl (fun t => (fetch2_4 t).trans (mod2 t)) noflush2_4 (fun _ _ _ h => h) t.val t rfl Y h
theorem finds2_5 (c : Dev nD) (t : Fin cfg2.N) (Y) (h : (rdat2 m c).Finds 5 t Y) : ∃ d, Y = fetched2 m c 5 tz2 d :=
  KeptWindow.finds_first (rdat2 m c) 5 tz2 rfl (fun t => (fetch2_5 t).trans (mod2 t)) noflush2_5 (fun _ _ _ h => h) t.val t rfl Y h

/-- At every point a data window's buffer is found just fetched. -/
theorem finds2_0 (c : Dev nD) (t : Fin cfg2.N) (Y) (h : (rdat2 m c).Finds 0 t Y) : ∃ d, Y = fetched2 m c 0 t d :=
  ((rdat2 m c).finds_of_fetch (fetch2_0 t) Y).1 h
theorem finds2_1 (c : Dev nD) (t : Fin cfg2.N) (Y) (h : (rdat2 m c).Finds 1 t Y) : ∃ d, Y = fetched2 m c 1 t d :=
  ((rdat2 m c).finds_of_fetch (fetch2_1 t) Y).1 h
theorem finds2_2 (c : Dev nD) (t : Fin cfg2.N) (Y) (h : (rdat2 m c).Finds 2 t Y) : ∃ d, Y = fetched2 m c 2 t d :=
  ((rdat2 m c).finds_of_fetch (fetch2_2 t) Y).1 h

end Cert.KernelIdeal.Hand

end
-- ==== Proof.IdealData3.lean ====
/-
  The relational proof data of kernel region 3: what the pipeline's windows hold when the body runs at a grid
  point, and what the body may leave in them.
-/
import proofs.«177139_j56324201120475_2_alg».proof.Proof.Gen.KernelIdeal.Launch
import proofs.«177139_j56324201120475_2_alg».proof.Proof.Gen.KernelIdeal.Skeleton
import proofs.«177139_j56324201120475_2_alg».proof.Proof.Gen.KernelIdeal.Points
import proofs.«177139_j56324201120475_2_alg».proof.Proof.LibKeptWindow
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-! ## Region 3 -/

/-- The first grid point of region 3. -/
def tz3 : Fin cfg3.N := ⟨0, by have := N_3; show 0 < grid3.N; omega⟩

/-- Region 3's arrays when the region is entered: as launched (no earlier item of the program writes them). -/
abbrev A3 (c : Dev nD) (w : Fin cfg3.W) : Buf (Elt F) ((cfg3.win w).arr.view.loc (c.tc : Thread nD τ)) :=
  m ((c : Thread nD τ).loc (Pipeline.arrRef spec3 w))

/-- What window `w`'s staging buffer holds once the fetch at point `t` has landed, if it held `d`: the launch array's
    block at `t` on the part inside the array, `d` elsewhere. -/
def fetched3 (c : Dev nD) (w : Fin cfg3.W) (t : Fin cfg3.N) (d : (cfg3.win w).block.Idx → Elt F (cfg3.win w).elt) :
    (cfg3.win w).block.Idx → Elt F (cfg3.win w).elt :=
  (cfg3.win w).fill (cfg3.grid.coords t) d (((cfg3.win w).blk t).view.read (Elt F) (A3 m c w))

/-- The relational proof data of region 3 on core `c`. The arrays enter at their launch contents. Of a data
    window's buffer (fetched anew at every point) nothing is kept; a weight window's buffer is left as found; a result
    window's buffer is left at the payload of the point's data block and the weight row as the fetches left them in
    their buffers — whatever filled those buffers past the arrays' ends. -/
def rdat3 (c : Dev nD) : RDat τ (Elt F) Unit ℕ (UR sig nD τ) ℕ cfg3 c where
  A := A3 m c
  after w t Y X := match w with
    | ⟨0, _⟩ => True
    | ⟨1, _⟩ => True
    | ⟨2, _⟩ => True
    | ⟨3, _⟩ => X = Y
    | ⟨4, _⟩ => X = Y
    | ⟨5, _⟩ => X = Y
    | ⟨6, _⟩ => ∃ d d', X = k3_pay1 (fetched3 m c 0 t d) (fetched3 m c 3 tz3 d')
    | ⟨7, _⟩ => ∃ d d', X = k3_pay2 (fetched3 m c 1 t d) (fetched3 m c 4 tz3 d')
    | ⟨8, _⟩ => ∃ d d', X = k3_pay3 (fetched3 m c 2 t d) (fetched3 m c 5 tz3 d')
  Φ _ := Pipeline.ΦA spec3 c
  q _ := fullShare
  owed _ := 0

theorem rdat3_fetched (c : Dev nD) (w : Fin cfg3.W) (t : Fin cfg3.N) (d) :
    (rdat3 m c).fetched w t d = fetched3 m c w t d := rfl

/-- The weight windows are never written back. -/
theorem noflush3_3 : ∀ t : Fin cfg3.N, (cfg3.win 3).flush t = false :=
  (by decide +kernel : ∀ t : Fin grid3.N, win3_3.flush t = false)
theorem noflush3_4 : ∀ t : Fin cfg3.N, (cfg3.win 4).flush t = false :=
  (by decide +kernel : ∀ t : Fin grid3.N, win3_4.flush t = false)
theorem noflush3_5 : ∀ t : Fin cfg3.N, (cfg3.win 5).flush t = false :=
  (by decide +kernel : ∀ t : Fin grid3.N, win3_5.flush t = false)

/-- A point of the grid with index a multiple of the grid's size is the first. -/
theorem mod3 (t : Fin cfg3.N) : t.val % 32 = 0 ↔ t.val = 0 := by
  have h : t.val < 32 := lt_of_lt_of_eq t.isLt N_3
  omega

/-- At every point a weight window's buffer is found as the first point's fetch left it. -/
theorem finds3_3 (c : Dev nD) (t : Fin cfg3.N) (Y) (h : (rdat3 m c).Finds 3 t Y) : ∃ d, Y = fetched3 m c 3 tz3 d :=
  KeptWindow.finds_first (rdat3 m c) 3 tz3 rfl (fun t => (fetch3_3 t).trans (mod3 t)) noflush3_3 (fun _ _ _ h => h) t.val t rfl Y h
theorem finds3_4 (c : Dev nD) (t : Fin cfg3.N) (Y) (h : (rdat3 m c).Finds 4 t Y) : ∃ d, Y = fetched3 m c 4 tz3 d :=
  KeptWindow.finds_first (rdat3 m c) 4 tz3 rfl (fun t => (fetch3_4 t).trans (mod3 t)) noflush3_4 (fun _ _ _ h => h) t.val t rfl Y h
theorem finds3_5 (c : Dev nD) (t : Fin cfg3.N) (Y) (h : (rdat3 m c).Finds 5 t Y) : ∃ d, Y = fetched3 m c 5 tz3 d :=
  KeptWindow.finds_first (rdat3 m c) 5 tz3 rfl (fun t => (fetch3_5 t).trans (mod3 t)) noflush3_5 (fun _ _ _ h => h) t.val t rfl Y h

/-- At every point a data window's buffer is found just fetched. -/
theorem finds3_0 (c : Dev nD) (t : Fin cfg3.N) (Y) (h : (rdat3 m c).Finds 0 t Y) : ∃ d, Y = fetched3 m c 0 t d :=
  ((rdat3 m c).finds_of_fetch (fetch3_0 t) Y).1 h
theorem finds3_1 (c : Dev nD) (t : Fin cfg3.N) (Y) (h : (rdat3 m c).Finds 1 t Y) : ∃ d, Y = fetched3 m c 1 t d :=
  ((rdat3 m c).finds_of_fetch (fetch3_1 t) Y).1 h
theorem finds3_2 (c : Dev nD) (t : Fin cfg3.N) (Y) (h : (rdat3 m c).Finds 2 t Y) : ∃ d, Y = fetched3 m c 2 t d :=
  ((rdat3 m c).finds_of_fetch (fetch3_2 t) Y).1 h

end Cert.KernelIdeal.Hand

end
-- ==== Proof.IdealInv.lean ====
/-
  What the thread state between two items of the host program knows of the contents `V` the unscoped buffers are held
  at: every reference no earlier item writes holds its launch contents; each array of a finished kernel region holds
  contents it may hold after every write-back of that region; and each result a finished host stretch wrote is the
  transposed, reshaped contents of such an array. With the lemmas that carry this knowledge across a region (the
  buffers change at that region's arrays only) and across a host stretch (at the references it writes only).
-/
import proofs.«177139_j56324201120475_2_alg».proof.Proof.Gen.KernelIdeal.Launch
import proofs.«177139_j56324201120475_2_alg».proof.Proof.Gen.KernelIdeal.Skeleton
import proofs.«177139_j56324201120475_2_alg».proof.Proof.Gen.KernelIdeal.Points
import proofs.«177139_j56324201120475_2_alg».proof.Proof.Gen.KernelIdeal.Regions
import proofs.«177139_j56324201120475_2_alg».proof.Proof.IdealData0
import proofs.«177139_j56324201120475_2_alg».proof.Proof.IdealData1
import proofs.«177139_j56324201120475_2_alg».proof.Proof.IdealData2
import proofs.«177139_j56324201120475_2_alg».proof.Proof.IdealData3
import Idealize.ShloMosaic.Lib.Pipeline.FrameSuffix
import Idealize.ShloMosaic.Lib.StableHlo.Run
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.Pipeline (withArrays withArrays_arr withArrays_of_ne arrRef)

variable (m : (ℓ : Loc nD τ sig) → Buf (Elt F) ℓ)

/-- `V` holds the launch contents at every reference outside `S`. -/
def Untouched (S : List (Ref sig .tc)) (c : Dev nD) (V : Valuation τ sig (Elt F)) : Prop :=
  ∀ r : Ref sig .tc, r ∉ S → V r = m ((c : Thread nD τ).loc r)

theorem Untouched.mono {S S' : List (Ref sig .tc)} {c : Dev nD} {V : Valuation τ sig (Elt F)} (h : Untouched m S c V)
    (hS : ∀ r, r ∈ S → r ∈ S') : Untouched m S' c V := fun r hr => h r fun hm => hr (hS r hm)

/-! ## Region 0 -/

/-- The result arrays of region 0. -/
abbrev O0 : List (Ref sig .tc) := [main_call0_v0_0, main_call0_v0_1, main_call0_v0_2]

/-- A [1, 8000] array transposed and given a trailing unit axis: what the host stretch after region 0 makes of a result array. -/
def tail0 (B : S1x8000.Idx → Elt F .f32) : S8000x1x1.Idx → Elt F .f32 :=
  shapeCast S8000x1x1 (transpose S8000x1 [1, 0] B transposes_S1x8000_S8000x1_1_0) shapeCasts_S8000x1_S8000x1x1

/-- Every array of region 0 holds contents it may hold after every write-back of the region. -/
def RegOut0 (c : Dev nD) (V : Valuation τ sig (Elt F)) : Prop :=
  ∀ w : Fin cfg0.W, (rdat0 m c).ArrAt w cfg0.N (V (arrRef spec0 w))

/-- Each of the three results the host stretch after region 0 writes is the transposed, reshaped contents of some
    contents the matching result array may hold after every write-back. -/
def HostOut0 (c : Dev nD) (V : Valuation τ sig (Elt F)) : Prop :=
  (∃ B, (rdat0 m c).ArrAt 6 cfg0.N B ∧ V main_v0_0 = tail0 B)
  ∧ (∃ B, (rdat0 m c).ArrAt 7 cfg0.N B ∧ V main_v0_4 = tail0 B)
  ∧ (∃ B, (rdat0 m c).ArrAt 8 cfg0.N B ∧ V main_v0_8 = tail0 B)

theorem HostOut0.congr {c : Dev nD} {V V' : Valuation τ sig (Elt F)} (h : HostOut0 m c V)
    (h0 : V' main_v0_0 = V main_v0_0) (h1 : V' main_v0_4 = V main_v0_4) (h2 : V' main_v0_8 = V main_v0_8) : HostOut0 m c V' := by
  obtain ⟨⟨B0, a0, e0⟩, ⟨B1, a1, e1⟩, ⟨B2, a2, e2⟩⟩ := h
  exact ⟨⟨B0, a0, h0.trans e0⟩, ⟨B1, a1, h1.trans e1⟩, ⟨B2, a2, h2.trans e2⟩⟩

/-- A result-window array is one of the region's result arrays. -/
theorem out_mem0 : ∀ w : Fin cfg0.W, (cfg0.win w).isOut = true → arrRef spec0 w ∈ (O0 : List (Ref sig .tc)) := by decide

/-- Across region 0: off the region's result arrays the buffers hold what they held (an operand array is never
    written). -/
theorem untouched_reg0 {S : List (Ref sig .tc)} {c : Dev nD} {V : Valuation τ sig (Elt F)} (hU : Untouched m S c V)
    (hS : ∀ w : Fin cfg0.W, arrRef spec0 w ∉ S)
    (Fs : (w : Fin cfg0.W) → Buf (Elt F) ((cfg0.win w).arr.view.loc (c.tc : Thread nD τ)))
    (hF : ∀ w, (rdat0 m c).ArrAt w cfg0.N (Fs w)) : Untouched m (S ++ O0) c (withArrays spec0 c V Fs) := by
  intro r hr
  by_cases h : ∃ w, arrRef spec0 w = r
  · obtain ⟨w, rfl⟩ := h
    rw [withArrays_arr spec0 launch0.win.arr_inj c V Fs w]
    have hin : (cfg0.win w).isOut = false := by
      cases hw : (cfg0.win w).isOut with
      | false => rfl
      | true => exact absurd (List.mem_append_right _ (out_mem0 w hw)) hr
    have h1 := hF w
    rw [(rdat0 m c).ArrAt_in w hin cfg0.N] at h1
    exact h1
  · rw [withArrays_of_ne spec0 c V Fs r (fun w hw => h ⟨w, hw⟩)]
    exact hU r fun hm => hr (List.mem_append_left _ hm)

theorem regout0 {c : Dev nD} (V : Valuation τ sig (Elt F))
    (Fs : (w : Fin cfg0.W) → Buf (Elt F) ((cfg0.win w).arr.view.loc (c.tc : Thread nD τ)))
    (hF : ∀ w, (rdat0 m c).ArrAt w cfg0.N (Fs w)) : RegOut0 m c (withArrays spec0 c V Fs) := by
  intro w
  rw [withArrays_arr spec0 launch0.win.arr_inj c V Fs w]
  exact hF w

/-- Across the host stretch after region 0: off the references it writes the buffers hold what they held. -/
theorem untouched_host1 {S : List (Ref sig .tc)} {c : Dev nD} {V : Valuation τ sig (Elt F)} (hU : Untouched m S c V) :
    Untouched m (S ++ hostOps1_W) c (StableHlo.after hostOps1 V) := by
  intro r hr
  rw [StableHlo.after_of_writes_sub hostOps1 V hostOps1_writes (fun hm => hr (List.mem_append_right _ hm))]
  exact hU r fun hm => hr (List.mem_append_left _ hm)

/-- The host stretch after region 0 writes each result as the transposed, reshaped result array. -/
theorem hostout0 {c : Dev nD} {V : Valuation τ sig (Elt F)} (hR : RegOut0 m c V) : HostOut0 m c (StableHlo.after hostOps1 V) := by
  refine ⟨⟨V main_call0_v0_0, hR 6, ?_⟩, ⟨V main_call0_v0_1, hR 7, ?_⟩, ⟨V main_call0_v0_2, hR 8, ?_⟩⟩
  · unfold tail0; after_results; rfl
  · unfold tail0; after_results; rfl
  · unfold tail0; after_results; rfl

/-! ## Region 1 -/

/-- The result arrays of region 1. -/
abbrev O1 : List (Ref sig .tc) := [main_call0_v7_0, main_call0_v7_1, main_call0_v7_2]

/-- A [3, 8000] array transposed and given a trailing unit axis: what the host stretch after region 1 makes of a result array. -/
def tail1 (B : S3x8000.Idx → Elt F .f32) : S8000x3x1.Idx → Elt F .f32 :=
  shapeCast S8000x3x1 (transpose S8000x3 [1, 0] B transposes_S3x8000_S8000x3_1_0) shapeCasts_S8000x3_S8000x3x1

/-- Every array of region 1 holds contents it may hold after every write-back of the region. -/
def RegOut1 (c : Dev nD) (V : Valuation τ sig (Elt F)) : Prop :=
  ∀ w : Fin cfg1.W, (rdat1 m c).ArrAt w cfg1.N (V (arrRef spec1 w))

/-- Each of the three results the host stretch after region 1 writes is the transposed, reshaped contents of some
    contents the matching result array may hold after every write-back. -/
def HostOut1 (c : Dev nD) (V : Valuation τ sig (Elt F)) : Prop :=
  (∃ B, (rdat1 m c).ArrAt 6 cfg1.N B ∧ V main_v0_1 = tail1 B)
  ∧ (∃ B, (rdat1 m c).ArrAt 7 cfg1.N B ∧ V main_v0_5 = tail1 B)
  ∧ (∃ B, (rdat1 m c).ArrAt 8 cfg1.N B ∧ V main_v0_9 = tail1 B)

theorem HostOut1.congr {c : Dev nD} {V V' : Valuation τ sig (Elt F)} (h : HostOut1 m c V)
    (h0 : V' main_v0_1 = V main_v0_1) (h1 : V' main_v0_5 = V main_v0_5) (h2 : V' main_v0_9 = V main_v0_9) : HostOut1 m c V' := by
  obtain ⟨⟨B0, a0, e0⟩, ⟨B1, a1, e1⟩, ⟨B2, a2, e2⟩⟩ := h
  exact ⟨⟨B0, a0, h0.trans e0⟩, ⟨B1, a1, h1.trans e1⟩, ⟨B2, a2, h2.trans e2⟩⟩

/-- A result-window array is one of the region's result arrays. -/
theorem out_mem1 : ∀ w : Fin cfg1.W, (cfg1.win w).isOut = true → arrRef spec1 w ∈ (O1 : List (Ref sig .tc)) := by decide

/-- Across region 1: off the region's result arrays the buffers hold what they held (an operand array is never
    written). -/
theorem untouched_reg1 {S : List (Ref sig .tc)} {c : Dev nD} {V : Valuation τ sig (Elt F)} (hU : Untouched m S c V)
    (hS : ∀ w : Fin cfg1.W, arrRef spec1 w ∉ S)
    (Fs : (w : Fin cfg1.W) → Buf (Elt F) ((cfg1.win w).arr.view.loc (c.tc : Thread nD τ)))
    (hF : ∀ w, (rdat1 m c).ArrAt w cfg1.N (Fs w)) : Untouched m (S ++ O1) c (withArrays spec1 c V Fs) := by
  intro r hr
  by_cases h : ∃ w, arrRef spec1 w = r
  · obtain ⟨w, rfl⟩ := h
    rw [withArrays_arr spec1 launch1.win.arr_inj c V Fs w]
    have hin : (cfg1.win w).isOut = false := by
      cases hw : (cfg1.win w).isOut with
      | false => rfl
      | true => exact absurd (List.mem_append_right _ (out_mem1 w hw)) hr
    have h1 := hF w
    rw [(rdat1 m c).ArrAt_in w hin cfg1.N] at h1
    exact h1
  · rw [withArrays_of_ne spec1 c V Fs r (fun w hw => h ⟨w, hw⟩)]
    exact hU r fun hm => hr (List.mem_append_left _ hm)

theorem regout1 {c : Dev nD} (V : Valuation τ sig (Elt F))
    (Fs : (w : Fin cfg1.W) → Buf (Elt F) ((cfg1.win w).arr.view.loc (c.tc : Thread nD τ)))
    (hF : ∀ w, (rdat1 m c).ArrAt w cfg1.N (Fs w)) : RegOut1 m c (withArrays spec1 c V Fs) := by
  intro w
  rw [withArrays_arr spec1 launch1.win.arr_inj c V Fs w]
  exact hF w

/-- Across the host stretch after region 1: off the references it writes the buffers hold what they held. -/
theorem untouched_host2 {S : List (Ref sig .tc)} {c : Dev nD} {V : Valuation τ sig (Elt F)} (hU : Untouched m S c V) :
    Untouched m (S ++ hostOps2_W) c (StableHlo.after hostOps2 V) := by
  intro r hr
  rw [StableHlo.after_of_writes_sub hostOps2 V hostOps2_writes (fun hm => hr (List.mem_append_right _ hm))]
  exact hU r fun hm => hr (List.mem_append_left _ hm)

/-- The host stretch after region 1 writes each result as the transposed, reshaped result array. -/
theorem hostout1 {c : Dev nD} {V : Valuation τ sig (Elt F)} (hR : RegOut1 m c V) : HostOut1 m c (StableHlo.after hostOps2 V) := by
  refine ⟨⟨V main_call0_v7_0, hR 6, ?_⟩, ⟨V main_call0_v7_1, hR 7, ?_⟩, ⟨V main_call0_v7_2, hR 8, ?_⟩⟩
  · unfold tail1; after_results; rfl
  · unfold tail1; after_results; rfl
  · unfold tail1; after_results; rfl

/-! ## Region 2 -/

/-- The result arrays of region 2. -/
abbrev O2 : List (Ref sig .tc) := [main_call0_v14_0, main_call0_v14_1, main_call0_v14_2]

/-- A [5, 8000] array transposed and given a trailing unit axis: what the host stretch after region 2 makes of a result array. -/
def tail2 (B : S5x8000.Idx → Elt F .f32) : S8000x5x1.Idx → Elt F .f32 :=
  shapeCast S8000x5x1 (transpose S8000x5 [1, 0] B transposes_S5x8000_S8000x5_1_0) shapeCasts_S8000x5_S8000x5x1

/-- Every array of region 2 holds contents it may hold after every write-back of the region. -/
def RegOut2 (c : Dev nD) (V : Valuation τ sig (Elt F)) : Prop :=
  ∀ w : Fin cfg2.W, (rdat2 m c).ArrAt w cfg2.N (V (arrRef spec2 w))

/-- Each of the three results the host stretch after region 2 writes is the transposed, reshaped contents of some
    contents the matching result array may hold after every write-back. -/
def HostOut2 (c : Dev nD) (V : Valuation τ sig (Elt F)) : Prop :=
  (∃ B, (rdat2 m c).ArrAt 6 cfg2.N B ∧ V main_v0_2 = tail2 B)
  ∧ (∃ B, (rdat2 m c).ArrAt 7 cfg2.N B ∧ V main_v0_6 = tail2 B)
  ∧ (∃ B, (rdat2 m c).ArrAt 8 cfg2.N B ∧ V main_v0_10 = tail2 B)

theorem HostOut2.congr {c : Dev nD} {V V' : Valuation τ sig (Elt F)} (h : HostOut2 m c V)
    (h0 : V' main_v0_2 = V main_v0_2) (h1 : V' main_v0_6 = V main_v0_6) (h2 : V' main_v0_10 = V main_v0_10) : HostOut2 m c V' := by
  obtain ⟨⟨B0, a0, e0⟩, ⟨B1, a1, e1⟩, ⟨B2, a2, e2⟩⟩ := h
  exact ⟨⟨B0, a0, h0.trans e0⟩, ⟨B1, a1, h1.trans e1⟩, ⟨B2, a2, h2.trans e2⟩⟩

/-- A result-window array is one of the region's result arrays. -/
theorem out_mem2 : ∀ w : Fin cfg2.W, (cfg2.win w).isOut = true → arrRef spec2 w ∈ (O2 : List (Ref sig .tc)) := by decide

/-- Across region 2: off the region's result arrays the buffers hold what they held (an operand array is never
    written). -/
theorem untouched_reg2 {S : List (Ref sig .tc)} {c : Dev nD} {V : Valuation τ sig (Elt F)} (hU : Untouched m S c V)
    (hS : ∀ w : Fin cfg2.W, arrRef spec2 w ∉ S)
    (Fs : (w : Fin cfg2.W) → Buf (Elt F) ((cfg2.win w).arr.view.loc (c.tc : Thread nD τ)))
    (hF : ∀ w, (rdat2 m c).ArrAt w cfg2.N (Fs w)) : Untouched m (S ++ O2) c (withArrays spec2 c V Fs) := by
  intro r hr
  by_cases h : ∃ w, arrRef spec2 w = r
  · obtain ⟨w, rfl⟩ := h
    rw [withArrays_arr spec2 launch2.win.arr_inj c V Fs w]
    have hin : (cfg2.win w).isOut = false := by
      cases hw : (cfg2.win w).isOut with
      | false => rfl
      | true => exact absurd (List.mem_append_right _ (out_mem2 w hw)) hr
    have h1 := hF w
    rw [(rdat2 m c).ArrAt_in w hin cfg2.N] at h1
    exact h1
  · rw [withArrays_of_ne spec2 c V Fs r (fun w hw => h ⟨w, hw⟩)]
    exact hU r fun hm => hr (List.mem_append_left _ hm)

theorem regout2 {c : Dev nD} (V : Valuation τ sig (Elt F))
    (Fs : (w : Fin cfg2.W) → Buf (Elt F) ((cfg2.win w).arr.view.loc (c.tc : Thread nD τ)))
    (hF : ∀ w, (rdat2 m c).ArrAt w cfg2.N (Fs w)) : RegOut2 m c (withArrays spec2 c V Fs) := by
  intro w
  rw [withArrays_arr spec2 launch2.win.arr_inj c V Fs w]
  exact hF w

/-- Across the host stretch after region 2: off the references it writes the buffers hold what they held. -/
theorem untouched_host3 {S : List (Ref sig .tc)} {c : Dev nD} {V : Valuation τ sig (Elt F)} (hU : Untouched m S c V) :
    Untouched m (S ++ hostOps3_W) c (StableHlo.after hostOps3 V) := by
  intro r hr
  rw [StableHlo.after_of_writes_sub hostOps3 V hostOps3_writes (fun hm => hr (List.mem_append_right _ hm))]
  exact hU r fun hm => hr (List.mem_append_left _ hm)

/-- The host stretch after region 2 writes each result as the transposed, reshaped result array. -/
theorem hostout2 {c : Dev nD} {V : Valuation τ sig (Elt F)} (hR : RegOut2 m c V) : HostOut2 m c (StableHlo.after hostOps3 V) := by
  refine ⟨⟨V main_call0_v14_0, hR 6, ?_⟩, ⟨V main_call0_v14_1, hR 7, ?_⟩, ⟨V main_call0_v14_2, hR 8, ?_⟩⟩
  · unfold tail2; after_results; rfl
  · unfold tail2; after_results; rfl
  · unfold tail2; after_results; rfl

/-! ## Region 3 -/

/-- The result arrays of region 3. -/
abbrev O3 : List (Ref sig .tc) := [main_call0_v21_0, main_call0_v21_1, main_call0_v21_2]

/-- A [7, 8000] array transposed and given a trailing unit axis: what the host stretch after region 3 makes of a result array. -/
def tail3 (B : S7x8000.Idx → Elt F .f32) : S8000x7x1.Idx → Elt F .f32 :=
  shapeCast S8000x7x1 (transpose S8000x7 [1, 0] B transposes_S7x8000_S8000x7_1_0) shapeCasts_S8000x7_S8000x7x1

/-- Every array of region 3 holds contents it may hold after every write-back of the region. -/
def RegOut3 (c : Dev nD) (V : Valuation τ sig (Elt F)) : Prop :=
  ∀ w : Fin cfg3.W, (rdat3 m c).ArrAt w cfg3.N (V (arrRef spec3 w))

/-- Each of the three results the host stretch after region 3 writes is the transposed, reshaped contents of some
    contents the matching result array may hold after every write-back. -/
def HostOut3 (c : Dev nD) (V : Valuation τ sig (Elt F)) : Prop :=
  (∃ B, (rdat3 m c).ArrAt 6 cfg3.N B ∧ V main_v0_3 = tail3 B)
  ∧ (∃ B, (rdat3 m c).ArrAt 7 cfg3.N B ∧ V main_v0_7 = tail3 B)
  ∧ (∃ B, (rdat3 m c).ArrAt 8 cfg3.N B ∧ V main_v0_11 = tail3 B)

theorem HostOut3.congr {c : Dev nD} {V V' : Valuation τ sig (Elt F)} (h : HostOut3 m c V)
    (h0 : V' main_v0_3 = V main_v0_3) (h1 : V' main_v0_7 = V main_v0_7) (h2 : V' main_v0_11 = V main_v0_11) : HostOut3 m c V' := by
  obtain ⟨⟨B0, a0, e0⟩, ⟨B1, a1, e1⟩, ⟨B2, a2, e2⟩⟩ := h
  exact ⟨⟨B0, a0, h0.trans e0⟩, ⟨B1, a1, h1.trans e1⟩, ⟨B2, a2, h2.trans e2⟩⟩

/-- A result-window array is one of the region's result arrays. -/
theorem out_mem3 : ∀ w : Fin cfg3.W, (cfg3.win w).isOut = true → arrRef spec3 w ∈ (O3 : List (Ref sig .tc)) := by decide

/-- Across region 3: off the region's result arrays the buffers hold what they held (an operand array is never
    written). -/
theorem untouched_reg3 {S : List (Ref sig .tc)} {c : Dev nD} {V : Valuation τ sig (Elt F)} (hU : Untouched m S c V)
    (hS : ∀ w : Fin cfg3.W, arrRef spec3 w ∉ S)
    (Fs : (w : Fin cfg3.W) → Buf (Elt F) ((cfg3.win w).arr.view.loc (c.tc : Thread nD τ)))
    (hF : ∀ w, (rdat3 m c).ArrAt w cfg3.N (Fs w)) : Untouched m (S ++ O3) c (withArrays spec3 c V Fs) := by
  intro r hr
  by_cases h : ∃ w, arrRef spec3 w = r
  · obtain ⟨w, rfl⟩ := h
    rw [withArrays_arr spec3 launch3.win.arr_inj c V Fs w]
    have hin : (cfg3.win w).isOut = false := by
      cases hw : (cfg3.win w).isOut with
      | false => rfl
      | true => exact absurd (List.mem_append_right _ (out_mem3 w hw)) hr
    have h1 := hF w
    rw [(rdat3 m c).ArrAt_in w hin cfg3.N] at h1
    exact h1
  · rw [withArrays_of_ne spec3 c V Fs r (fun w hw => h ⟨w, hw⟩)]
    exact hU r fun hm => hr (List.mem_append_left _ hm)

theorem regout3 {c : Dev nD} (V : Valuation τ sig (Elt F))
    (Fs : (w : Fin cfg3.W) → Buf (Elt F) ((cfg3.win w).arr.view.loc (c.tc : Thread nD τ)))
    (hF : ∀ w, (rdat3 m c).ArrAt w cfg3.N (Fs w)) : RegOut3 m c (withArrays spec3 c V Fs) := by
  intro w
  rw [withArrays_arr spec3 launch3.win.arr_inj c V Fs w]
  exact hF w

/-- Across the host stretch after region 3: off the references it writes the buffers hold what they held. -/
theorem untouched_host4 {S : List (Ref sig .tc)} {c : Dev nD} {V : Valuation τ sig (Elt F)} (hU : Untouched m S c V) :
    Untouched m (S ++ hostOps4_W) c (StableHlo.after hostOps4 V) := by
  intro r hr
  rw [StableHlo.after_of_writes_sub hostOps4 V hostOps4_writes (fun hm => hr (List.mem_append_right _ hm))]
  exact hU r fun hm => hr (List.mem_append_left _ hm)

/-- The host stretch after region 3 writes each result as the transposed, reshaped result array. -/
theorem hostout3 {c : Dev nD} {V : Valuation τ sig (Elt F)} (hR : RegOut3 m c V) : HostOut3 m c (StableHlo.after hostOps4 V) := by
  refine ⟨⟨V main_call0_v21_0, hR 6, ?_⟩, ⟨V main_call0_v21_1, hR 7, ?_⟩, ⟨V main_call0_v21_2, hR 8, ?_⟩⟩
  · unfold tail3; after_results; rfl
  · unfold tail3; after_results; rfl
  · unfold tail3; after_results; rfl

theorem hostout0_reg1 {c : Dev nD} {V : Valuation τ sig (Elt F)} (h : HostOut0 m c V)
    (Fs : (w : Fin cfg1.W) → Buf (Elt F) ((cfg1.win w).arr.view.loc (c.tc : Thread nD τ))) : HostOut0 m c (withArrays spec1 c V Fs) :=
  h.congr m (withArrays_of_ne spec1 c V Fs _ (by decide)) (withArrays_of_ne spec1 c V Fs _ (by decide)) (withArrays_of_ne spec1 c V Fs _ (by decide))
theorem hostout0_host2 {c : Dev nD} {V : Valuation τ sig (Elt F)} (h : HostOut0 m c V) : HostOut0 m c (StableHlo.after hostOps2 V) :=
  h.congr m (StableHlo.after_of_writes_sub hostOps2 V hostOps2_writes (by decide)) (StableHlo.after_of_writes_sub hostOps2 V hostOps2_writes (by decide)) (StableHlo.after_of_writes_sub hostOps2 V hostOps2_writes (by decide))
theorem hostout0_reg2 {c : Dev nD} {V : Valuation τ sig (Elt F)} (h : HostOut0 m c V)
    (Fs : (w : Fin cfg2.W) → Buf (Elt F) ((cfg2.win w).arr.view.loc (c.tc : Thread nD τ))) : HostOut0 m c (withArrays spec2 c V Fs) :=
  h.congr m (withArrays_of_ne spec2 c V Fs _ (by decide)) (withArrays_of_ne spec2 c V Fs _ (by decide)) (withArrays_of_ne spec2 c V Fs _ (by decide))
theorem hostout0_host3 {c : Dev nD} {V : Valuation τ sig (Elt F)} (h : HostOut0 m c V) : HostOut0 m c (StableHlo.after hostOps3 V) :=
  h.congr m (StableHlo.after_of_writes_sub hostOps3 V hostOps3_writes (by decide)) (StableHlo.after_of_writes_sub hostOps3 V hostOps3_writes (by decide)) (StableHlo.after_of_writes_sub hostOps3 V hostOps3_writes (by decide))
theorem hostout0_reg3 {c : Dev nD} {V : Valuation τ sig (Elt F)} (h : HostOut0 m c V)
    (Fs : (w : Fin cfg3.W) → Buf (Elt F) ((cfg3.win w).arr.view.loc (c.tc : Thread nD τ))) : HostOut0 m c (withArrays spec3 c V Fs) :=
  h.congr m (withArrays_of_ne spec3 c V Fs _ (by decide)) (withArrays_of_ne spec3 c V Fs _ (by decide)) (withArrays_of_ne spec3 c V Fs _ (by decide))
theorem hostout0_host4 {c : Dev nD} {V : Valuation τ sig (Elt F)} (h : HostOut0 m c V) : HostOut0 m c (StableHlo.after hostOps4 V) :=
  h.congr m (StableHlo.after_of_writes_sub hostOps4 V hostOps4_writes (by decide)) (StableHlo.after_of_writes_sub hostOps4 V hostOps4_writes (by decide)) (StableHlo.after_of_writes_sub hostOps4 V hostOps4_writes (by decide))
theorem hostout1_reg2 {c : Dev nD} {V : Valuation τ sig (Elt F)} (h : HostOut1 m c V)
    (Fs : (w : Fin cfg2.W) → Buf (Elt F) ((cfg2.win w).arr.view.loc (c.tc : Thread nD τ))) : HostOut1 m c (withArrays spec2 c V Fs) :=
  h.congr m (withArrays_of_ne spec2 c V Fs _ (by decide)) (withArrays_of_ne spec2 c V Fs _ (by decide)) (withArrays_of_ne spec2 c V Fs _ (by decide))
theorem hostout1_host3 {c : Dev nD} {V : Valuation τ sig (Elt F)} (h : HostOut1 m c V) : HostOut1 m c (StableHlo.after hostOps3 V) :=
  h.congr m (StableHlo.after_of_writes_sub hostOps3 V hostOps3_writes (by decide)) (StableHlo.after_of_writes_sub hostOps3 V hostOps3_writes (by decide)) (StableHlo.after_of_writes_sub hostOps3 V hostOps3_writes (by decide))
theorem hostout1_reg3 {c : Dev nD} {V : Valuation τ sig (Elt F)} (h : HostOut1 m c V)
    (Fs : (w : Fin cfg3.W) → Buf (Elt F) ((cfg3.win w).arr.view.loc (c.tc : Thread nD τ))) : HostOut1 m c (withArrays spec3 c V Fs) :=
  h.congr m (withArrays_of_ne spec3 c V Fs _ (by decide)) (withArrays_of_ne spec3 c V Fs _ (by decide)) (withArrays_of_ne spec3 c V Fs _ (by decide))
theorem hostout1_host4 {c : Dev nD} {V : Valuation τ sig (Elt F)} (h : HostOut1 m c V) : HostOut1 m c (StableHlo.after hostOps4 V) :=
  h.congr m (StableHlo.after_of_writes_sub hostOps4 V hostOps4_writes (by decide)) (StableHlo.after_of_writes_sub hostOps4 V hostOps4_writes (by decide)) (StableHlo.after_of_writes_sub hostOps4 V hostOps4_writes (by decide))
theorem hostout2_reg3 {c : Dev nD} {V : Valuation τ sig (Elt F)} (h : HostOut2 m c V)
    (Fs : (w : Fin cfg3.W) → Buf (Elt F) ((cfg3.win w).arr.view.loc (c.tc : Thread nD τ))) : HostOut2 m c (withArrays spec3 c V Fs) :=
  h.congr m (withArrays_of_ne spec3 c V Fs _ (by decide)) (withArrays_of_ne spec3 c V Fs _ (by decide)) (withArrays_of_ne spec3 c V Fs _ (by decide))
theorem hostout2_host4 {c : Dev nD} {V : Valuation τ sig (Elt F)} (h : HostOut2 m c V) : HostOut2 m c (StableHlo.after hostOps4 V) :=
  h.congr m (StableHlo.after_of_writes_sub hostOps4 V hostOps4_writes (by decide)) (StableHlo.after_of_writes_sub hostOps4 V hostOps4_writes (by decide)) (StableHlo.after_of_writes_sub hostOps4 V hostOps4_writes (by decide))

/-! ## The thread states' knowledge, item by item -/

def I0 (c : Dev nD) (V : Valuation τ sig (Elt F)) : Prop := Untouched m ([]) c V
def I1 (c : Dev nD) (V : Valuation τ sig (Elt F)) : Prop := Untouched m (O0) c V ∧ RegOut0 m c V
def I2 (c : Dev nD) (V : Valuation τ sig (Elt F)) : Prop := Untouched m (O0 ++ hostOps1_W) c V ∧ HostOut0 m c V
def I3 (c : Dev nD) (V : Valuation τ sig (Elt F)) : Prop := Untouched m (O0 ++ hostOps1_W ++ O1) c V ∧ HostOut0 m c V ∧ RegOut1 m c V
def I4 (c : Dev nD) (V : Valuation τ sig (Elt F)) : Prop := Untouched m (O0 ++ hostOps1_W ++ O1 ++ hostOps2_W) c V ∧ HostOut0 m c V ∧ HostOut1 m c V
def I5 (c : Dev nD) (V : Valuation τ sig (Elt F)) : Prop := Untouched m (O0 ++ hostOps1_W ++ O1 ++ hostOps2_W ++ O2) c V ∧ HostOut0 m c V ∧ HostOut1 m c V ∧ RegOut2 m c V
def I6 (c : Dev nD) (V : Valuation τ sig (Elt F)) : Prop := Untouched m (O0 ++ hostOps1_W ++ O1 ++ hostOps2_W ++ O2 ++ hostOps3_W) c V ∧ HostOut0 m c V ∧ HostOut1 m c V ∧ HostOut2 m c V
def I7 (c : Dev nD) (V : Valuation τ sig (Elt F)) : Prop := Untouched m (O0 ++ hostOps1_W ++ O1 ++ hostOps2_W ++ O2 ++ hostOps3_W ++ O3) c V ∧ HostOut0 m c V ∧ HostOut1 m c V ∧ HostOut2 m c V ∧ RegOut3 m c V
def I8 (c : Dev nD) (V : Valuation τ sig (Elt F)) : Prop := Untouched m (O0 ++ hostOps1_W ++ O1 ++ hostOps2_W ++ O2 ++ hostOps3_W ++ O3 ++ hostOps4_W) c V ∧ HostOut0 m c V ∧ HostOut1 m c V ∧ HostOut2 m c V ∧ HostOut3 m c V

theorem init_I0 (c : Dev nD) : I0 m c (fun b => m (c, b)) := fun _ _ => rfl

/-- Across region 0. -/
theorem step_reg0 {c : Dev nD} {V : Valuation τ sig (Elt F)} (hI : I0 m c V)
    (Fs : (w : Fin cfg0.W) → Buf (Elt F) ((cfg0.win w).arr.view.loc (c.tc : Thread nD τ)))
    (hF : ∀ w, (rdat0 m c).ArrAt w cfg0.N (Fs w)) : I1 m c (withArrays spec0 c V Fs) := by
  have hU : Untouched m [] c V := hI
  exact ⟨untouched_reg0 m hU (by decide) Fs hF, regout0 m V Fs hF⟩

/-- At the entry of region 0 its arrays hold their launch contents. -/
theorem entry_reg0 {c : Dev nD} {V : Valuation τ sig (Elt F)} (hI : I0 m c V) (w : Fin cfg0.W) :
    (rdat0 m c).A w = V (arrRef spec0 w) := by
  have hU : Untouched m [] c V := hI
  exact (hU (arrRef spec0 w) ((by decide : ∀ w : Fin cfg0.W, arrRef spec0 w ∉ ([] : List (Ref sig .tc))) w)).symm

/-- Across the host stretch after region 0. -/
theorem step_host1 {c : Dev nD} {V : Valuation τ sig (Elt F)} (hI : I1 m c V) : I2 m c (StableHlo.after hostOps1 V) := by
  obtain ⟨hU, hR⟩ := hI
  exact ⟨untouched_host1 m hU, hostout0 m hR⟩

/-- Across region 1. -/
theorem step_reg1 {c : Dev nD} {V : Valuation τ sig (Elt F)} (hI : I2 m c V)
    (Fs : (w : Fin cfg1.W) → Buf (Elt F) ((cfg1.win w).arr.view.loc (c.tc : Thread nD τ)))
    (hF : ∀ w, (rdat1 m c).ArrAt w cfg1.N (Fs w)) : I3 m c (withArrays spec1 c V Fs) := by
  obtain ⟨hU, hH0⟩ := hI
  exact ⟨untouched_reg1 m hU (by decide) Fs hF, hostout0_reg1 m hH0 Fs, regout1 m V Fs hF⟩

/-- At the entry of region 1 its arrays hold their launch contents. -/
theorem entry_reg1 {c : Dev nD} {V : Valuation τ sig (Elt F)} (hI : I2 m c V) (w : Fin cfg1.W) :
    (rdat1 m c).A w = V (arrRef spec1 w) := by
  obtain ⟨hU, hH0⟩ := hI
  exact (hU (arrRef spec1 w) ((by decide : ∀ w : Fin cfg1.W, arrRef spec1 w ∉ (O0 ++ hostOps1_W : List (Ref sig .tc))) w)).symm

/-- Across the host stretch after region 1. -/
theorem step_host2 {c : Dev nD} {V : Valuation τ sig (Elt F)} (hI : I3 m c V) : I4 m c (StableHlo.after hostOps2 V) := by
  obtain ⟨hU, hH0, hR⟩ := hI
  exact ⟨untouched_host2 m hU, hostout0_host2 m hH0, hostout1 m hR⟩

/-- Across region 2. -/
theorem step_reg2 {c : Dev nD} {V : Valuation τ sig (Elt F)} (hI : I4 m c V)
    (Fs : (w : Fin cfg2.W) → Buf (Elt F) ((cfg2.win w).arr.view.loc (c.tc : Thread nD τ)))
    (hF : ∀ w, (rdat2 m c).ArrAt w cfg2.N (Fs w)) : I5 m c (withArrays spec2 c V Fs) := by
  obtain ⟨hU, hH0, hH1⟩ := hI
  exact ⟨untouched_reg2 m hU (by decide) Fs hF, hostout0_reg2 m hH0 Fs, hostout1_reg2 m hH1 Fs, regout2 m V Fs hF⟩

/-- At the entry of region 2 its arrays hold their launch contents. -/
theorem entry_reg2 {c : Dev nD} {V : Valuation τ sig (Elt F)} (hI : I4 m c V) (w : Fin cfg2.W) :
    (rdat2 m c).A w = V (arrRef spec2 w) := by
  obtain ⟨hU, hH0, hH1⟩ := hI
  exact (hU (arrRef spec2 w) ((by decide : ∀ w : Fin cfg2.W, arrRef spec2 w ∉ (O0 ++ hostOps1_W ++ O1 ++ hostOps2_W : List (Ref sig .tc))) w)).symm

/-- Across the host stretch after region 2. -/
theorem step_host3 {c : Dev nD} {V : Valuation τ sig (Elt F)} (hI : I5 m c V) : I6 m c (StableHlo.after hostOps3 V) := by
  obtain ⟨hU, hH0, hH1, hR⟩ := hI
  exact ⟨untouched_host3 m hU, hostout0_host3 m hH0, hostout1_host3 m hH1, hostout2 m hR⟩

/-- Across region 3. -/
theorem step_reg3 {c : Dev nD} {V : Valuation τ sig (Elt F)} (hI : I6 m c V)
    (Fs : (w : Fin cfg3.W) → Buf (Elt F) ((cfg3.win w).arr.view.loc (c.tc : Thread nD τ)))
    (hF : ∀ w, (rdat3 m c).ArrAt w cfg3.N (Fs w)) : I7 m c (withArrays spec3 c V Fs) := by
  obtain ⟨hU, hH0, hH1, hH2⟩ := hI
  exact ⟨untouched_reg3 m hU (by decide) Fs hF, hostout0_reg3 m hH0 Fs, hostout1_reg3 m hH1 Fs, hostout2_reg3 m hH2 Fs, regout3 m V Fs hF⟩

/-- At the entry of region 3 its arrays hold their launch contents. -/
theorem entry_reg3 {c : Dev nD} {V : Valuation τ sig (Elt F)} (hI : I6 m c V) (w : Fin cfg3.W) :
    (rdat3 m c).A w = V (arrRef spec3 w) := by
  obtain ⟨hU, hH0, hH1, hH2⟩ := hI
  exact (hU (arrRef spec3 w) ((by decide : ∀ w : Fin cfg3.W, arrRef spec3 w ∉ (O0 ++ hostOps1_W ++ O1 ++ hostOps2_W ++ O2 ++ hostOps3_W : List (Ref sig .tc))) w)).symm

/-- Across the host stretch after region 3. -/
theorem step_host4 {c : Dev nD} {V : Valuation τ sig (Elt F)} (hI : I7 m c V) : I8 m c (StableHlo.after hostOps4 V) := by
  obtain ⟨hU, hH0, hH1, hH2, hR⟩ := hI
  exact ⟨untouched_host4 m hU, hostout0_host4 m hH0, hostout1_host4 m hH1, hostout2_host4 m hH2, hostout3 m hR⟩

end Cert.KernelIdeal.Hand

end
-- ==== Proof.IdealBody0.lean ====
/-
  The body of kernel region 0, as a triple: on whole staging buffers holding three data blocks and three weight rows
  it loads each pair, forms the block's weighted sums along the last axis, transposed, and stores them over the whole
  result block. The loads and the one store per result are through the rectangle that is the whole block.
-/
import proofs.«177139_j56324201120475_2_alg».proof.Proof.Gen.KernelIdeal.Launch
import proofs.«177139_j56324201120475_2_alg».proof.Proof.Gen.KernelIdeal.Skeleton
import proofs.«177139_j56324201120475_2_alg».proof.Proof.Gen.KernelIdeal.Points
import proofs.«177139_j56324201120475_2_alg».proof.Proof.LibWholeAccess
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The body of region 0 on whole staging buffers: the three data blocks at `x0 x1 x2`, the three weight rows at `w0 w1 w2`,
    the three result blocks at anything. It runs to the continuation with the inputs as they were and each result block
    at its payload of the matching data block and weight row. -/
theorem sound_kernel0 (c : Dev nD) (E : Set ℕ) (i : grid0.Coords) (arg1 : Memref sig .tc .vmem S1024x1x128 .f32) (harg1 : arg1.IsWhole) (arg2 : Memref sig .tc .vmem S1024x1x128 .f32) (harg2 : arg2.IsWhole) (arg3 : Memref sig .tc .vmem S1024x1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)
    (x0 x1 x2 : Vec F S1024x1x128 .f32) (w0 w1 w2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare w0 ∗ owns (c : Thread nD τ) arg5 fullShare w1 ∗ owns (c : Thread nD τ) arg6 fullShare w2
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare w0 ∗ owns (c : Thread nD τ) arg5 fullShare w1 ∗ owns (c : Thread nD τ) arg6 fullShare w2
            ∗ owns (c : Thread nD τ) arg7 fullShare (k0_pay1 x0 w0) ∗ owns (c : Thread nD τ) arg8 fullShare (k0_pay2 x1 w1)
            ∗ owns (c : Thread nD τ) arg9 fullShare (k0_pay3 x2 w2)) -∗ K ⟨⟩))
      ⊢ wp frame (wpE (defs₀ (F := F)) Variants.none c none) E (cc0__linear1_kernel3 i arg1 harg1 arg2 harg2 arg3 harg3 arg4 harg4 arg5 harg5 arg6 harg6 arg7 harg7 arg8 harg8 arg9 harg9) K := by
  simp only [cc0__linear1_kernel3_eq_skeleton]; unfold cc0__linear1_kernel3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  have hz2 : (![0, 0] : Fin 2 → Nat) = fun _ => 0 := funext fun a => by fin_cases a <;> rfl
  have hz3 : (![0, 0, 0] : Fin 3 → Nat) = fun _ => 0 := funext fun a => by fin_cases a <;> rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [WholeAccess.read_writes_unit_zero _ _ hz2, WholeAccess.readAt_unit_zero _ _ hz3, WholeAccess.readAt_unit_zero _ _ hz2]
  isplitl [H7]
  · iexists _; isplitr
    swap; · iexact H7
    ipureintro
    rw [WholeAccess.read_writes_unit_zero _ _ hz2, WholeAccess.readAt_unit_zero _ _ hz3, WholeAccess.readAt_unit_zero _ _ hz2]
  · iexists _; isplitr
    swap; · iexact H8
    ipureintro
    rw [WholeAccess.read_writes_unit_zero _ _ hz2, WholeAccess.readAt_unit_zero _ _ hz3, WholeAccess.readAt_unit_zero _ _ hz2]

end Cert.KernelIdeal.Hand

end
-- ==== Proof.IdealOblig0.lean ====
/-
  The body obligation of kernel region 0 for its relational proof data: at every grid point the body, handed the
  windows' buffers at whatever they may then hold, hands them back in the relation the proof data states.
-/
import proofs.«177139_j56324201120475_2_alg».proof.Proof.Gen.KernelIdeal.Launch
import proofs.«177139_j56324201120475_2_alg».proof.Proof.Gen.KernelIdeal.Skeleton
import proofs.«177139_j56324201120475_2_alg».proof.Proof.Gen.KernelIdeal.Points
import proofs.«177139_j56324201120475_2_alg».proof.Proof.IdealBody0
import proofs.«177139_j56324201120475_2_alg».proof.Proof.IdealData0
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- The body at any grid point, on whatever the windows' current buffers may then hold: the data windows just fetched,
    the weight windows as the first point's fetch left them. It leaves the data and weight buffers as they were and each
    result buffer at its payload of those. -/
theorem sound_body0 (c : Dev nD) (t : Fin cfg0.N) (Y : (w : Fin cfg0.W) → (cfg0.win w).block.Idx → Elt F (cfg0.win w).elt)
    (hY : ∀ w, (rdat0 m c).Finds w t (Y w)) :
    iprop((rdat0 m c).Φ t.castSucc ∗ (rdat0 m c).owesAt () t.castSucc
        ∗ owns (c : Thread nD τ) (st0_0 t) fullShare (Y 0)
        ∗ owns (c : Thread nD τ) (st0_1 t) fullShare (Y 1)
        ∗ owns (c : Thread nD τ) (st0_2 t) fullShare (Y 2)
        ∗ owns (c : Thread nD τ) (st0_3 t) fullShare (Y 3)
        ∗ owns (c : Thread nD τ) (st0_4 t) fullShare (Y 4)
        ∗ owns (c : Thread nD τ) (st0_5 t) fullShare (Y 5)
        ∗ owns (c : Thread nD τ) (st0_6 t) fullShare (Y 6)
        ∗ owns (c : Thread nD τ) (st0_7 t) fullShare (Y 7)
        ∗ owns (c : Thread nD τ) (st0_8 t) fullShare (Y 8))
      ⊢ wp frame (wpE (defs₀ (F := F)) Variants.none c none) Set.univ (bodyAt0 t) (fun _ =>
          iprop((rdat0 m c).Φ t.succ ∗ (rdat0 m c).owesAt () t.succ
            ∗ (∃ X, ⌜(rdat0 m c).after 0 t (Y 0) X⌝ ∗ owns (c : Thread nD τ) (st0_0 t) fullShare X)
            ∗ (∃ X, ⌜(rdat0 m c).after 1 t (Y 1) X⌝ ∗ owns (c : Thread nD τ) (st0_1 t) fullShare X)
            ∗ (∃ X, ⌜(rdat0 m c).after 2 t (Y 2) X⌝ ∗ owns (c : Thread nD τ) (st0_2 t) fullShare X)
            ∗ (∃ X, ⌜(rdat0 m c).after 3 t (Y 3) X⌝ ∗ owns (c : Thread nD τ) (st0_3 t) fullShare X)
            ∗ (∃ X, ⌜(rdat0 m c).after 4 t (Y 4) X⌝ ∗ owns (c : Thread nD τ) (st0_4 t) fullShare X)
            ∗ (∃ X, ⌜(rdat0 m c).after 5 t (Y 5) X⌝ ∗ owns (c : Thread nD τ) (st0_5 t) fullShare X)
            ∗ (∃ X, ⌜(rdat0 m c).after 6 t (Y 6) X⌝ ∗ owns (c : Thread nD τ) (st0_6 t) fullShare X)
            ∗ (∃ X, ⌜(rdat0 m c).after 7 t (Y 7) X⌝ ∗ owns (c : Thread nD τ) (st0_7 t) fullShare X)
            ∗ (∃ X, ⌜(rdat0 m c).after 8 t (Y 8) X⌝ ∗ owns (c : Thread nD τ) (st0_8 t) fullShare X))) := by
  obtain ⟨d0, e0⟩ := finds0_0 m c t _ (hY 0)
  obtain ⟨d1, e1⟩ := finds0_1 m c t _ (hY 1)
  obtain ⟨d2, e2⟩ := finds0_2 m c t _ (hY 2)
  obtain ⟨d3, e3⟩ := finds0_3 m c t _ (hY 3)
  obtain ⟨d4, e4⟩ := finds0_4 m c t _ (hY 4)
  obtain ⟨d5, e5⟩ := finds0_5 m c t _ (hY 5)
  unfold bodyAt0
  rw [show (rdat0 m c).Φ t.succ = (rdat0 m c).Φ t.castSucc from rfl,
    show (rdat0 m c).owesAt () t.succ = (rdat0 m c).owesAt () t.castSucc from rfl]
  iintro ⟨HΦ, Ho, H0, H1, H2, H3, H4, H5, H6, H7, H8⟩
  iapply (sound_kernel0 (F := F) c Set.univ (grid0.coords t) _ _ _ _ _ _ _ _ _ _ _ _ _ _ _ _ _ _ (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]
  · iexists (Y 0); isplitr; · ipureintro; exact trivial
    iexact H0
  isplitl [H1]
  · iexists (Y 1); isplitr; · ipureintro; exact trivial
    iexact H1
  isplitl [H2]
  · iexists (Y 2); isplitr; · ipureintro; exact trivial
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (k0_pay1 (Y 0) (Y 3)); isplitr; · ipureintro; exact ⟨d0, d3, by rw [e0, e3]⟩
    iexact H6
  isplitl [H7]
  · iexists (k0_pay2 (Y 1) (Y 4)); isplitr; · ipureintro; exact ⟨d1, d4, by rw [e1, e4]⟩
    iexact H7
  · iexists (k0_pay3 (Y 2) (Y 5)); isplitr; · ipureintro; exact ⟨d2, d5, by rw [e2, e5]⟩
    iexact H8

/-- The library's body obligation for relational proof data, at every point. -/
theorem body_obligation0 (c : Dev nD) : (rdat0 (F := F) m c).BodyObligation (defs₀ (F := F)) Variants.none () Set.univ := fun t Y hY => by
  rw [bigSep_W0, bigSep_W0]
  exact sound_body0 m c t Y hY

end Cert.KernelIdeal.Hand

end
-- ==== Proof.IdealBody1.lean ====
/-
  The body of kernel region 1, as a triple: on whole staging buffers holding three data blocks and three weight rows
  it loads each pair, forms the block's weighted sums along the last axis, transposed, and stores them over the whole
  result block. The loads and the one store per result are through the rectangle that is the whole block.
-/
import proofs.«177139_j56324201120475_2_alg».proof.Proof.Gen.KernelIdeal.Launch
import proofs.«177139_j56324201120475_2_alg».proof.Proof.Gen.KernelIdeal.Skeleton
import proofs.«177139_j56324201120475_2_alg».proof.Proof.Gen.KernelIdeal.Points
import proofs.«177139_j56324201120475_2_alg».proof.Proof.LibWholeAccess
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The body of region 1 on whole staging buffers: the three data blocks at `x0 x1 x2`, the three weight rows at `w0 w1 w2`,
    the three result blocks at anything. It runs to the continuation with the inputs as they were and each result block
    at its payload of the matching data block and weight row. -/
theorem sound_kernel1 (c : Dev nD) (E : Set ℕ) (i : grid1.Coords) (arg1 : Memref sig .tc .vmem S1024x3x256 .f32) (harg1 : arg1.IsWhole) (arg2 : Memref sig .tc .vmem S1024x3x256 .f32) (harg2 : arg2.IsWhole) (arg3 : Memref sig .tc .vmem S1024x3x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S3x1024 .f32) (harg7 : arg7.IsWhole) (arg8 : Memref sig .tc .vmem S3x1024 .f32) (harg8 : arg8.IsWhole) (arg9 : Memref sig .tc .vmem S3x1024 .f32) (harg9 : arg9.IsWhole)
    (x0 x1 x2 : Vec F S1024x3x256 .f32) (w0 w1 w2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare w0 ∗ owns (c : Thread nD τ) arg5 fullShare w1 ∗ owns (c : Thread nD τ) arg6 fullShare w2
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare w0 ∗ owns (c : Thread nD τ) arg5 fullShare w1 ∗ owns (c : Thread nD τ) arg6 fullShare w2
            ∗ owns (c : Thread nD τ) arg7 fullShare (k1_pay1 x0 w0) ∗ owns (c : Thread nD τ) arg8 fullShare (k1_pay2 x1 w1)
            ∗ owns (c : Thread nD τ) arg9 fullShare (k1_pay3 x2 w2)) -∗ K ⟨⟩))
      ⊢ wp frame (wpE (defs₀ (F := F)) Variants.none c none) E (cc1__linear1_kernel3 i arg1 harg1 arg2 harg2 arg3 harg3 arg4 harg4 arg5 harg5 arg6 harg6 arg7 harg7 arg8 harg8 arg9 harg9) K := by
  simp only [cc1__linear1_kernel3_eq_skeleton]; unfold cc1__linear1_kernel3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  have hz2 : (![0, 0] : Fin 2 → Nat) = fun _ => 0 := funext fun a => by fin_cases a <;> rfl
  have hz3 : (![0, 0, 0] : Fin 3 → Nat) = fun _ => 0 := funext fun a => by fin_cases a <;> rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [WholeAccess.read_writes_unit_zero _ _ hz2, WholeAccess.readAt_unit_zero _ _ hz3, WholeAccess.readAt_unit_zero _ _ hz2]
  isplitl [H7]
  · iexists _; isplitr
    swap; · iexact H7
    ipureintro
    rw [WholeAccess.read_writes_unit_zero _ _ hz2, WholeAccess.readAt_unit_zero _ _ hz3, WholeAccess.readAt_unit_zero _ _ hz2]
  · iexists _; isplitr
    swap; · iexact H8
    ipureintro
    rw [WholeAccess.read_writes_unit_zero _ _ hz2, WholeAccess.readAt_unit_zero _ _ hz3, WholeAccess.readAt_unit_zero _ _ hz2]

end Cert.KernelIdeal.Hand

end
-- ==== Proof.IdealOblig1.lean ====
/-
  The body obligation of kernel region 1 for its relational proof data: at every grid point the body, handed the
  windows' buffers at whatever they may then hold, hands them back in the relation the proof data states.
-/
import proofs.«177139_j56324201120475_2_alg».proof.Proof.Gen.KernelIdeal.Launch
import proofs.«177139_j56324201120475_2_alg».proof.Proof.Gen.KernelIdeal.Skeleton
import proofs.«177139_j56324201120475_2_alg».proof.Proof.Gen.KernelIdeal.Points
import proofs.«177139_j56324201120475_2_alg».proof.Proof.IdealBody1
import proofs.«177139_j56324201120475_2_alg».proof.Proof.IdealData1
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- The body at any grid point, on whatever the windows' current buffers may then hold: the data windows just fetched,
    the weight windows as the first point's fetch left them. It leaves the data and weight buffers as they were and each
    result buffer at its payload of those. -/
theorem sound_body1 (c : Dev nD) (t : Fin cfg1.N) (Y : (w : Fin cfg1.W) → (cfg1.win w).block.Idx → Elt F (cfg1.win w).elt)
    (hY : ∀ w, (rdat1 m c).Finds w t (Y w)) :
    iprop((rdat1 m c).Φ t.castSucc ∗ (rdat1 m c).owesAt () t.castSucc
        ∗ owns (c : Thread nD τ) (st1_0 t) fullShare (Y 0)
        ∗ owns (c : Thread nD τ) (st1_1 t) fullShare (Y 1)
        ∗ owns (c : Thread nD τ) (st1_2 t) fullShare (Y 2)
        ∗ owns (c : Thread nD τ) (st1_3 t) fullShare (Y 3)
        ∗ owns (c : Thread nD τ) (st1_4 t) fullShare (Y 4)
        ∗ owns (c : Thread nD τ) (st1_5 t) fullShare (Y 5)
        ∗ owns (c : Thread nD τ) (st1_6 t) fullShare (Y 6)
        ∗ owns (c : Thread nD τ) (st1_7 t) fullShare (Y 7)
        ∗ owns (c : Thread nD τ) (st1_8 t) fullShare (Y 8))
      ⊢ wp frame (wpE (defs₀ (F := F)) Variants.none c none) Set.univ (bodyAt1 t) (fun _ =>
          iprop((rdat1 m c).Φ t.succ ∗ (rdat1 m c).owesAt () t.succ
            ∗ (∃ X, ⌜(rdat1 m c).after 0 t (Y 0) X⌝ ∗ owns (c : Thread nD τ) (st1_0 t) fullShare X)
            ∗ (∃ X, ⌜(rdat1 m c).after 1 t (Y 1) X⌝ ∗ owns (c : Thread nD τ) (st1_1 t) fullShare X)
            ∗ (∃ X, ⌜(rdat1 m c).after 2 t (Y 2) X⌝ ∗ owns (c : Thread nD τ) (st1_2 t) fullShare X)
            ∗ (∃ X, ⌜(rdat1 m c).after 3 t (Y 3) X⌝ ∗ owns (c : Thread nD τ) (st1_3 t) fullShare X)
            ∗ (∃ X, ⌜(rdat1 m c).after 4 t (Y 4) X⌝ ∗ owns (c : Thread nD τ) (st1_4 t) fullShare X)
            ∗ (∃ X, ⌜(rdat1 m c).after 5 t (Y 5) X⌝ ∗ owns (c : Thread nD τ) (st1_5 t) fullShare X)
            ∗ (∃ X, ⌜(rdat1 m c).after 6 t (Y 6) X⌝ ∗ owns (c : Thread nD τ) (st1_6 t) fullShare X)
            ∗ (∃ X, ⌜(rdat1 m c).after 7 t (Y 7) X⌝ ∗ owns (c : Thread nD τ) (st1_7 t) fullShare X)
            ∗ (∃ X, ⌜(rdat1 m c).after 8 t (Y 8) X⌝ ∗ owns (c : Thread nD τ) (st1_8 t) fullShare X))) := by
  obtain ⟨d0, e0⟩ := finds1_0 m c t _ (hY 0)
  obtain ⟨d1, e1⟩ := finds1_1 m c t _ (hY 1)
  obtain ⟨d2, e2⟩ := finds1_2 m c t _ (hY 2)
  obtain ⟨d3, e3⟩ := finds1_3 m c t _ (hY 3)
  obtain ⟨d4, e4⟩ := finds1_4 m c t _ (hY 4)
  obtain ⟨d5, e5⟩ := finds1_5 m c t _ (hY 5)
  unfold bodyAt1
  rw [show (rdat1 m c).Φ t.succ = (rdat1 m c).Φ t.castSucc from rfl,
    show (rdat1 m c).owesAt () t.succ = (rdat1 m c).owesAt () t.castSucc from rfl]
  iintro ⟨HΦ, Ho, H0, H1, H2, H3, H4, H5, H6, H7, H8⟩
  iapply (sound_kernel1 (F := F) c Set.univ (grid1.coords t) _ _ _ _ _ _ _ _ _ _ _ _ _ _ _ _ _ _ (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]
  · iexists (Y 0); isplitr; · ipureintro; exact trivial
    iexact H0
  isplitl [H1]
  · iexists (Y 1); isplitr; · ipureintro; exact trivial
    iexact H1
  isplitl [H2]
  · iexists (Y 2); isplitr; · ipureintro; exact trivial
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (k1_pay1 (Y 0) (Y 3)); isplitr; · ipureintro; exact ⟨d0, d3, by rw [e0, e3]⟩
    iexact H6
  isplitl [H7]
  · iexists (k1_pay2 (Y 1) (Y 4)); isplitr; · ipureintro; exact ⟨d1, d4, by rw [e1, e4]⟩
    iexact H7
  · iexists (k1_pay3 (Y 2) (Y 5)); isplitr; · ipureintro; exact ⟨d2, d5, by rw [e2, e5]⟩
    iexact H8

/-- The library's body obligation for relational proof data, at every point. -/
theorem body_obligation1 (c : Dev nD) : (rdat1 (F := F) m c).BodyObligation (defs₀ (F := F)) Variants.none () Set.univ := fun t Y hY => by
  rw [bigSep_W1, bigSep_W1]
  exact sound_body1 m c t Y hY

end Cert.KernelIdeal.Hand

end
-- ==== Proof.IdealBody2.lean ====
/-
  The body of kernel region 2, as a triple: on whole staging buffers holding three data blocks and three weight rows
  it loads each pair, forms the block's weighted sums along the last axis, transposed, and stores them over the whole
  result block. The loads and the one store per result are through the rectangle that is the whole block.
-/
import proofs.«177139_j56324201120475_2_alg».proof.Proof.Gen.KernelIdeal.Launch
import proofs.«177139_j56324201120475_2_alg».proof.Proof.Gen.KernelIdeal.Skeleton
import proofs.«177139_j56324201120475_2_alg».proof.Proof.Gen.KernelIdeal.Points
import proofs.«177139_j56324201120475_2_alg».proof.Proof.LibWholeAccess
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The body of region 2 on whole staging buffers: the three data blocks at `x0 x1 x2`, the three weight rows at `w0 w1 w2`,
    the three result blocks at anything. It runs to the continuation with the inputs as they were and each result block
    at its payload of the matching data block and weight row. -/
theorem sound_kernel2 (c : Dev nD) (E : Set ℕ) (i : grid2.Coords) (arg1 : Memref sig .tc .vmem S512x5x512 .f32) (harg1 : arg1.IsWhole) (arg2 : Memref sig .tc .vmem S512x5x512 .f32) (harg2 : arg2.IsWhole) (arg3 : Memref sig .tc .vmem S512x5x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S5x512 .f32) (harg7 : arg7.IsWhole) (arg8 : Memref sig .tc .vmem S5x512 .f32) (harg8 : arg8.IsWhole) (arg9 : Memref sig .tc .vmem S5x512 .f32) (harg9 : arg9.IsWhole)
    (x0 x1 x2 : Vec F S512x5x512 .f32) (w0 w1 w2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare w0 ∗ owns (c : Thread nD τ) arg5 fullShare w1 ∗ owns (c : Thread nD τ) arg6 fullShare w2
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare w0 ∗ owns (c : Thread nD τ) arg5 fullShare w1 ∗ owns (c : Thread nD τ) arg6 fullShare w2
            ∗ owns (c : Thread nD τ) arg7 fullShare (k2_pay1 x0 w0) ∗ owns (c : Thread nD τ) arg8 fullShare (k2_pay2 x1 w1)
            ∗ owns (c : Thread nD τ) arg9 fullShare (k2_pay3 x2 w2)) -∗ K ⟨⟩))
      ⊢ wp frame (wpE (defs₀ (F := F)) Variants.none c none) E (cc2__linear1_kernel3 i arg1 harg1 arg2 harg2 arg3 harg3 arg4 harg4 arg5 harg5 arg6 harg6 arg7 harg7 arg8 harg8 arg9 harg9) K := by
  simp only [cc2__linear1_kernel3_eq_skeleton]; unfold cc2__linear1_kernel3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  have hz2 : (![0, 0] : Fin 2 → Nat) = fun _ => 0 := funext fun a => by fin_cases a <;> rfl
  have hz3 : (![0, 0, 0] : Fin 3 → Nat) = fun _ => 0 := funext fun a => by fin_cases a <;> rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [WholeAccess.read_writes_unit_zero _ _ hz2, WholeAccess.readAt_unit_zero _ _ hz3, WholeAccess.readAt_unit_zero _ _ hz2]
  isplitl [H7]
  · iexists _; isplitr
    swap; · iexact H7
    ipureintro
    rw [WholeAccess.read_writes_unit_zero _ _ hz2, WholeAccess.readAt_unit_zero _ _ hz3, WholeAccess.readAt_unit_zero _ _ hz2]
  · iexists _; isplitr
    swap; · iexact H8
    ipureintro
    rw [WholeAccess.read_writes_unit_zero _ _ hz2, WholeAccess.readAt_unit_zero _ _ hz3, WholeAccess.readAt_unit_zero _ _ hz2]

end Cert.KernelIdeal.Hand

end
-- ==== Proof.IdealOblig2.lean ====
/-
  The body obligation of kernel region 2 for its relational proof data: at every grid point the body, handed the
  windows' buffers at whatever they may then hold, hands them back in the relation the proof data states.
-/
import proofs.«177139_j56324201120475_2_alg».proof.Proof.Gen.KernelIdeal.Launch
import proofs.«177139_j56324201120475_2_alg».proof.Proof.Gen.KernelIdeal.Skeleton
import proofs.«177139_j56324201120475_2_alg».proof.Proof.Gen.KernelIdeal.Points
import proofs.«177139_j56324201120475_2_alg».proof.Proof.IdealBody2
import proofs.«177139_j56324201120475_2_alg».proof.Proof.IdealData2
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- The body at any grid point, on whatever the windows' current buffers may then hold: the data windows just fetched,
    the weight windows as the first point's fetch left them. It leaves the data and weight buffers as they were and each
    result buffer at its payload of those. -/
theorem sound_body2 (c : Dev nD) (t : Fin cfg2.N) (Y : (w : Fin cfg2.W) → (cfg2.win w).block.Idx → Elt F (cfg2.win w).elt)
    (hY : ∀ w, (rdat2 m c).Finds w t (Y w)) :
    iprop((rdat2 m c).Φ t.castSucc ∗ (rdat2 m c).owesAt () t.castSucc
        ∗ owns (c : Thread nD τ) (st2_0 t) fullShare (Y 0)
        ∗ owns (c : Thread nD τ) (st2_1 t) fullShare (Y 1)
        ∗ owns (c : Thread nD τ) (st2_2 t) fullShare (Y 2)
        ∗ owns (c : Thread nD τ) (st2_3 t) fullShare (Y 3)
        ∗ owns (c : Thread nD τ) (st2_4 t) fullShare (Y 4)
        ∗ owns (c : Thread nD τ) (st2_5 t) fullShare (Y 5)
        ∗ owns (c : Thread nD τ) (st2_6 t) fullShare (Y 6)
        ∗ owns (c : Thread nD τ) (st2_7 t) fullShare (Y 7)
        ∗ owns (c : Thread nD τ) (st2_8 t) fullShare (Y 8))
      ⊢ wp frame (wpE (defs₀ (F := F)) Variants.none c none) Set.univ (bodyAt2 t) (fun _ =>
          iprop((rdat2 m c).Φ t.succ ∗ (rdat2 m c).owesAt () t.succ
            ∗ (∃ X, ⌜(rdat2 m c).after 0 t (Y 0) X⌝ ∗ owns (c : Thread nD τ) (st2_0 t) fullShare X)
            ∗ (∃ X, ⌜(rdat2 m c).after 1 t (Y 1) X⌝ ∗ owns (c : Thread nD τ) (st2_1 t) fullShare X)
            ∗ (∃ X, ⌜(rdat2 m c).after 2 t (Y 2) X⌝ ∗ owns (c : Thread nD τ) (st2_2 t) fullShare X)
            ∗ (∃ X, ⌜(rdat2 m c).after 3 t (Y 3) X⌝ ∗ owns (c : Thread nD τ) (st2_3 t) fullShare X)
            ∗ (∃ X, ⌜(rdat2 m c).after 4 t (Y 4) X⌝ ∗ owns (c : Thread nD τ) (st2_4 t) fullShare X)
            ∗ (∃ X, ⌜(rdat2 m c).after 5 t (Y 5) X⌝ ∗ owns (c : Thread nD τ) (st2_5 t) fullShare X)
            ∗ (∃ X, ⌜(rdat2 m c).after 6 t (Y 6) X⌝ ∗ owns (c : Thread nD τ) (st2_6 t) fullShare X)
            ∗ (∃ X, ⌜(rdat2 m c).after 7 t (Y 7) X⌝ ∗ owns (c : Thread nD τ) (st2_7 t) fullShare X)
            ∗ (∃ X, ⌜(rdat2 m c).after 8 t (Y 8) X⌝ ∗ owns (c : Thread nD τ) (st2_8 t) fullShare X))) := by
  obtain ⟨d0, e0⟩ := finds2_0 m c t _ (hY 0)
  obtain ⟨d1, e1⟩ := finds2_1 m c t _ (hY 1)
  obtain ⟨d2, e2⟩ := finds2_2 m c t _ (hY 2)
  obtain ⟨d3, e3⟩ := finds2_3 m c t _ (hY 3)
  obtain ⟨d4, e4⟩ := finds2_4 m c t _ (hY 4)
  obtain ⟨d5, e5⟩ := finds2_5 m c t _ (hY 5)
  unfold bodyAt2
  rw [show (rdat2 m c).Φ t.succ = (rdat2 m c).Φ t.castSucc from rfl,
    show (rdat2 m c).owesAt () t.succ = (rdat2 m c).owesAt () t.castSucc from rfl]
  iintro ⟨HΦ, Ho, H0, H1, H2, H3, H4, H5, H6, H7, H8⟩
  iapply (sound_kernel2 (F := F) c Set.univ (grid2.coords t) _ _ _ _ _ _ _ _ _ _ _ _ _ _ _ _ _ _ (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]
  · iexists (Y 0); isplitr; · ipureintro; exact trivial
    iexact H0
  isplitl [H1]
  · iexists (Y 1); isplitr; · ipureintro; exact trivial
    iexact H1
  isplitl [H2]
  · iexists (Y 2); isplitr; · ipureintro; exact trivial
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (k2_pay1 (Y 0) (Y 3)); isplitr; · ipureintro; exact ⟨d0, d3, by rw [e0, e3]⟩
    iexact H6
  isplitl [H7]
  · iexists (k2_pay2 (Y 1) (Y 4)); isplitr; · ipureintro; exact ⟨d1, d4, by rw [e1, e4]⟩
    iexact H7
  · iexists (k2_pay3 (Y 2) (Y 5)); isplitr; · ipureintro; exact ⟨d2, d5, by rw [e2, e5]⟩
    iexact H8

/-- The library's body obligation for relational proof data, at every point. -/
theorem body_obligation2 (c : Dev nD) : (rdat2 (F := F) m c).BodyObligation (defs₀ (F := F)) Variants.none () Set.univ := fun t Y hY => by
  rw [bigSep_W2, bigSep_W2]
  exact sound_body2 m c t Y hY

end Cert.KernelIdeal.Hand

end
-- ==== Proof.IdealBody3.lean ====
/-
  The body of kernel region 3, as a triple: on whole staging buffers holding three data blocks and three weight rows
  it loads each pair, forms the block's weighted sums along the last axis, transposed, and stores them over the whole
  result block. The loads and the one store per result are through the rectangle that is the whole block.
-/
import proofs.«177139_j56324201120475_2_alg».proof.Proof.Gen.KernelIdeal.Launch
import proofs.«177139_j56324201120475_2_alg».proof.Proof.Gen.KernelIdeal.Skeleton
import proofs.«177139_j56324201120475_2_alg».proof.Proof.Gen.KernelIdeal.Points
import proofs.«177139_j56324201120475_2_alg».proof.Proof.LibWholeAccess
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The body of region 3 on whole staging buffers: the three data blocks at `x0 x1 x2`, the three weight rows at `w0 w1 w2`,
    the three result blocks at anything. It runs to the continuation with the inputs as they were and each result block
    at its payload of the matching data block and weight row. -/
theorem sound_kernel3 (c : Dev nD) (E : Set ℕ) (i : grid3.Coords) (arg1 : Memref sig .tc .vmem S256x7x1024 .f32) (harg1 : arg1.IsWhole) (arg2 : Memref sig .tc .vmem S256x7x1024 .f32) (harg2 : arg2.IsWhole) (arg3 : Memref sig .tc .vmem S256x7x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S7x256 .f32) (harg7 : arg7.IsWhole) (arg8 : Memref sig .tc .vmem S7x256 .f32) (harg8 : arg8.IsWhole) (arg9 : Memref sig .tc .vmem S7x256 .f32) (harg9 : arg9.IsWhole)
    (x0 x1 x2 : Vec F S256x7x1024 .f32) (w0 w1 w2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare w0 ∗ owns (c : Thread nD τ) arg5 fullShare w1 ∗ owns (c : Thread nD τ) arg6 fullShare w2
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare w0 ∗ owns (c : Thread nD τ) arg5 fullShare w1 ∗ owns (c : Thread nD τ) arg6 fullShare w2
            ∗ owns (c : Thread nD τ) arg7 fullShare (k3_pay1 x0 w0) ∗ owns (c : Thread nD τ) arg8 fullShare (k3_pay2 x1 w1)
            ∗ owns (c : Thread nD τ) arg9 fullShare (k3_pay3 x2 w2)) -∗ K ⟨⟩))
      ⊢ wp frame (wpE (defs₀ (F := F)) Variants.none c none) E (cc3__linear1_kernel3 i arg1 harg1 arg2 harg2 arg3 harg3 arg4 harg4 arg5 harg5 arg6 harg6 arg7 harg7 arg8 harg8 arg9 harg9) K := by
  simp only [cc3__linear1_kernel3_eq_skeleton]; unfold cc3__linear1_kernel3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  have hz2 : (![0, 0] : Fin 2 → Nat) = fun _ => 0 := funext fun a => by fin_cases a <;> rfl
  have hz3 : (![0, 0, 0] : Fin 3 → Nat) = fun _ => 0 := funext fun a => by fin_cases a <;> rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [WholeAccess.read_writes_unit_zero _ _ hz2, WholeAccess.readAt_unit_zero _ _ hz3, WholeAccess.readAt_unit_zero _ _ hz2]
  isplitl [H7]
  · iexists _; isplitr
    swap; · iexact H7
    ipureintro
    rw [WholeAccess.read_writes_unit_zero _ _ hz2, WholeAccess.readAt_unit_zero _ _ hz3, WholeAccess.readAt_unit_zero _ _ hz2]
  · iexists _; isplitr
    swap; · iexact H8
    ipureintro
    rw [WholeAccess.read_writes_unit_zero _ _ hz2, WholeAccess.readAt_unit_zero _ _ hz3, WholeAccess.readAt_unit_zero _ _ hz2]

end Cert.KernelIdeal.Hand

end
-- ==== Proof.IdealOblig3.lean ====
/-
  The body obligation of kernel region 3 for its relational proof data: at every grid point the body, handed the
  windows' buffers at whatever they may then hold, hands them back in the relation the proof data states.
-/
import proofs.«177139_j56324201120475_2_alg».proof.Proof.Gen.KernelIdeal.Launch
import proofs.«177139_j56324201120475_2_alg».proof.Proof.Gen.KernelIdeal.Skeleton
import proofs.«177139_j56324201120475_2_alg».proof.Proof.Gen.KernelIdeal.Points
import proofs.«177139_j56324201120475_2_alg».proof.Proof.IdealBody3
import proofs.«177139_j56324201120475_2_alg».proof.Proof.IdealData3
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- The body at any grid point, on whatever the windows' current buffers may then hold: the data windows just fetched,
    the weight windows as the first point's fetch left them. It leaves the data and weight buffers as they were and each
    result buffer at its payload of those. -/
theorem sound_body3 (c : Dev nD) (t : Fin cfg3.N) (Y : (w : Fin cfg3.W) → (cfg3.win w).block.Idx → Elt F (cfg3.win w).elt)
    (hY : ∀ w, (rdat3 m c).Finds w t (Y w)) :
    iprop((rdat3 m c).Φ t.castSucc ∗ (rdat3 m c).owesAt () t.castSucc
        ∗ owns (c : Thread nD τ) (st3_0 t) fullShare (Y 0)
        ∗ owns (c : Thread nD τ) (st3_1 t) fullShare (Y 1)
        ∗ owns (c : Thread nD τ) (st3_2 t) fullShare (Y 2)
        ∗ owns (c : Thread nD τ) (st3_3 t) fullShare (Y 3)
        ∗ owns (c : Thread nD τ) (st3_4 t) fullShare (Y 4)
        ∗ owns (c : Thread nD τ) (st3_5 t) fullShare (Y 5)
        ∗ owns (c : Thread nD τ) (st3_6 t) fullShare (Y 6)
        ∗ owns (c : Thread nD τ) (st3_7 t) fullShare (Y 7)
        ∗ owns (c : Thread nD τ) (st3_8 t) fullShare (Y 8))
      ⊢ wp frame (wpE (defs₀ (F := F)) Variants.none c none) Set.univ (bodyAt3 t) (fun _ =>
          iprop((rdat3 m c).Φ t.succ ∗ (rdat3 m c).owesAt () t.succ
            ∗ (∃ X, ⌜(rdat3 m c).after 0 t (Y 0) X⌝ ∗ owns (c : Thread nD τ) (st3_0 t) fullShare X)
            ∗ (∃ X, ⌜(rdat3 m c).after 1 t (Y 1) X⌝ ∗ owns (c : Thread nD τ) (st3_1 t) fullShare X)
            ∗ (∃ X, ⌜(rdat3 m c).after 2 t (Y 2) X⌝ ∗ owns (c : Thread nD τ) (st3_2 t) fullShare X)
            ∗ (∃ X, ⌜(rdat3 m c).after 3 t (Y 3) X⌝ ∗ owns (c : Thread nD τ) (st3_3 t) fullShare X)
            ∗ (∃ X, ⌜(rdat3 m c).after 4 t (Y 4) X⌝ ∗ owns (c : Thread nD τ) (st3_4 t) fullShare X)
            ∗ (∃ X, ⌜(rdat3 m c).after 5 t (Y 5) X⌝ ∗ owns (c : Thread nD τ) (st3_5 t) fullShare X)
            ∗ (∃ X, ⌜(rdat3 m c).after 6 t (Y 6) X⌝ ∗ owns (c : Thread nD τ) (st3_6 t) fullShare X)
            ∗ (∃ X, ⌜(rdat3 m c).after 7 t (Y 7) X⌝ ∗ owns (c : Thread nD τ) (st3_7 t) fullShare X)
            ∗ (∃ X, ⌜(rdat3 m c).after 8 t (Y 8) X⌝ ∗ owns (c : Thread nD τ) (st3_8 t) fullShare X))) := by
  obtain ⟨d0, e0⟩ := finds3_0 m c t _ (hY 0)
  obtain ⟨d1, e1⟩ := finds3_1 m c t _ (hY 1)
  obtain ⟨d2, e2⟩ := finds3_2 m c t _ (hY 2)
  obtain ⟨d3, e3⟩ := finds3_3 m c t _ (hY 3)
  obtain ⟨d4, e4⟩ := finds3_4 m c t _ (hY 4)
  obtain ⟨d5, e5⟩ := finds3_5 m c t _ (hY 5)
  unfold bodyAt3
  rw [show (rdat3 m c).Φ t.succ = (rdat3 m c).Φ t.castSucc from rfl,
    show (rdat3 m c).owesAt () t.succ = (rdat3 m c).owesAt () t.castSucc from rfl]
  iintro ⟨HΦ, Ho, H0, H1, H2, H3, H4, H5, H6, H7, H8⟩
  iapply (sound_kernel3 (F := F) c Set.univ (grid3.coords t) _ _ _ _ _ _ _ _ _ _ _ _ _ _ _ _ _ _ (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]
  · iexists (Y 0); isplitr; · ipureintro; exact trivial
    iexact H0
  isplitl [H1]
  · iexists (Y 1); isplitr; · ipureintro; exact trivial
    iexact H1
  isplitl [H2]
  · iexists (Y 2); isplitr; · ipureintro; exact trivial
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (k3_pay1 (Y 0) (Y 3)); isplitr; · ipureintro; exact ⟨d0, d3, by rw [e0, e3]⟩
    iexact H6
  isplitl [H7]
  · iexists (k3_pay2 (Y 1) (Y 4)); isplitr; · ipureintro; exact ⟨d1, d4, by rw [e1, e4]⟩
    iexact H7
  · iexists (k3_pay3 (Y 2) (Y 5)); isplitr; · ipureintro; exact ⟨d2, d5, by rw [e2, e5]⟩
    iexact H8

/-- The library's body obligation for relational proof data, at every point. -/
theorem body_obligation3 (c : Dev nD) : (rdat3 (F := F) m c).BodyObligation (defs₀ (F := F)) Variants.none () Set.univ := fun t Y hY => by
  rw [bigSep_W3, bigSep_W3]
  exact sound_body3 m c t Y hY

end Cert.KernelIdeal.Hand

end
-- ==== Proof.IdealRun.lean ====
/-
  The run of the whole host program through the library's launch theorem for several regions over relational proof data: the four kernel regions as
  records over their body obligations, the four host stretches between them, the thread states chained, the launch,
  and the final memory read against the last thread state. Every weakly fair execution terminates without a fault in
  a memory that agrees, on every unscoped buffer, with contents `V` of which the last thread state's knowledge holds.
-/
import proofs.«177139_j56324201120475_2_alg».proof.Proof.Gen.KernelIdeal.Launch
import proofs.«177139_j56324201120475_2_alg».proof.Proof.Gen.KernelIdeal.Skeleton
import proofs.«177139_j56324201120475_2_alg».proof.Proof.Gen.KernelIdeal.Points
import proofs.«177139_j56324201120475_2_alg».proof.Proof.IdealInv
import proofs.«177139_j56324201120475_2_alg».proof.Proof.IdealOblig0
import proofs.«177139_j56324201120475_2_alg».proof.Proof.IdealOblig1
import proofs.«177139_j56324201120475_2_alg».proof.Proof.IdealOblig2
import proofs.«177139_j56324201120475_2_alg».proof.Proof.IdealOblig3
import proofs.«177139_j56324201120475_2_alg».proof.Proof.LibBetween
import Idealize.ShloMosaic.Lib.Pipeline.Kit
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.Pipeline (withArrays arrRef unscopedRest)
open RegionRecord (Between Rest)

variable (m : (ℓ : Loc nD τ sig) → Buf (Elt F) ℓ) (ρ : Dev nD → PrngReg)

/-- The proof data of the four pipelines. -/
def rdats : (p : Fin 4) → (c : Dev nD) → RDat τ (Elt F) Unit ℕ (UR sig nD τ) ℕ (cfgs p) c
  | ⟨0, _⟩ => rdat0 m
  | ⟨1, _⟩ => rdat1 m
  | ⟨2, _⟩ => rdat2 m
  | ⟨3, _⟩ => rdat3 m
  | ⟨n + 4, h⟩ => absurd h (by omega)

/-- No core owes another anything: no level is assigned. -/
abbrev L : GSem nD τ sig → Finset Unit := fun _ => ∅
abbrev lv : GSem nD τ sig → Unit → ℕ := fun _ _ => 0

-- the library's lemmas are stated at the pinned configuration `pin pcfgs adm 0`, which is `cfg0` after unfolding plain
-- definitions in a metavariable's type
set_option backward.isDefEq.respectTransparency.types false in
/-- Region 0: entered from buffers whose contents satisfy `I0`, left at contents satisfying `I1` — the buffers
    updated at the region's arrays to contents they may hold after every write-back. -/
def region0 : Pipeline.RDat.RegionSeg (pcfgs (F := F)) adm (rdats m) () defs₀ Variants.none L lv 0 :=
  RegionRecord.plainR (pcfgs (F := F)) adm (rdats m) defs₀ Variants.none L lv 0 launch0.win.to₀ launch0.block_pos launch0.stage_whole
    (fun c => body_obligation0 m c) (fun _ _ => rfl) (fun _ _ => rfl) (fun _ _ => rfl)
    (fun c => by unfold Pipeline.prefHeld; rw [show (Finset.univ : Finset (Fin 0)) = ∅ from rfl, BI.bigSep_empty])
    (I0 m) (I1 m) (fun c V => unscopedRest spec0 c (fun b => V b))
    (fun c V hV => RegionRecord.arrays_of_held (pcfgs (F := F)) adm (rdats m) (p := 0) launch0.win launch0.arr_whole c
      (fun w => by show (rdat0 m c).share w = fullShare; unfold RDat.share; split <;> rfl) V (fun w => entry_reg0 m hV w))
    (fun c V hV => by
      have hfam := RegionRecord.arraysAt_family (pcfgs (F := F)) adm (rdats m) (p := 0) c cfg0.N
      have hheld := fun Fs => RegionRecord.held_of_arrays (pcfgs (F := F)) adm (rdats m) (p := 0) launch0.win launch0.arr_whole c
        (fun w => by show (rdat0 m c).share w = fullShare; unfold RDat.share; split <;> rfl) V Fs
      iintro ⟨Ha, Hr⟩
      ihave H := hfam $$ Ha
      icases H with ⟨%Fs, %hFs, Ha⟩
      iexists (withArrays spec0 c V Fs)
      isplitr; · ipureintro; exact step_reg0 m hV Fs hFs
      iapply (hheld Fs)
      isplitl [Ha]; · iexact Ha
      iexact Hr)

/-- The host stretch after region 0. -/
def host1 : Pipeline.HostSeg (Ix := Unit) (Name := ℕ) (U := UR sig nD τ) (Lvl := ℕ) (pcfgs (F := F)) defs₀ Variants.none L lv :=
  RegionRecord.hostBetween (pcfgs (F := F)) defs₀ Variants.none L lv hostOps1
    (fun op h => Pipeline.sub_ucRefs op ((List.forall_iff_forall_mem.mp hostOps1_sub) op h))
    (fun op h => (List.forall_iff_forall_mem.mp hostOps1_fresh) op h)
    (I1 m) (I2 m) (fun c V h => step_host1 m h)

-- the library's lemmas are stated at the pinned configuration `pin pcfgs adm 1`, which is `cfg1` after unfolding plain
-- definitions in a metavariable's type
set_option backward.isDefEq.respectTransparency.types false in
/-- Region 1: entered from buffers whose contents satisfy `I2`, left at contents satisfying `I3` — the buffers
    updated at the region's arrays to contents they may hold after every write-back. -/
def region1 : Pipeline.RDat.RegionSeg (pcfgs (F := F)) adm (rdats m) () defs₀ Variants.none L lv 1 :=
  RegionRecord.plainR (pcfgs (F := F)) adm (rdats m) defs₀ Variants.none L lv 1 launch1.win.to₀ launch1.block_pos launch1.stage_whole
    (fun c => body_obligation1 m c) (fun _ _ => rfl) (fun _ _ => rfl) (fun _ _ => rfl)
    (fun c => by unfold Pipeline.prefHeld; rw [show (Finset.univ : Finset (Fin 0)) = ∅ from rfl, BI.bigSep_empty])
    (I2 m) (I3 m) (fun c V => unscopedRest spec1 c (fun b => V b))
    (fun c V hV => RegionRecord.arrays_of_held (pcfgs (F := F)) adm (rdats m) (p := 1) launch1.win launch1.arr_whole c
      (fun w => by show (rdat1 m c).share w = fullShare; unfold RDat.share; split <;> rfl) V (fun w => entry_reg1 m hV w))
    (fun c V hV => by
      have hfam := RegionRecord.arraysAt_family (pcfgs (F := F)) adm (rdats m) (p := 1) c cfg1.N
      have hheld := fun Fs => RegionRecord.held_of_arrays (pcfgs (F := F)) adm (rdats m) (p := 1) launch1.win launch1.arr_whole c
        (fun w => by show (rdat1 m c).share w = fullShare; unfold RDat.share; split <;> rfl) V Fs
      iintro ⟨Ha, Hr⟩
      ihave H := hfam $$ Ha
      icases H with ⟨%Fs, %hFs, Ha⟩
      iexists (withArrays spec1 c V Fs)
      isplitr; · ipureintro; exact step_reg1 m hV Fs hFs
      iapply (hheld Fs)
      isplitl [Ha]; · iexact Ha
      iexact Hr)

/-- The host stretch after region 1. -/
def host2 : Pipeline.HostSeg (Ix := Unit) (Name := ℕ) (U := UR sig nD τ) (Lvl := ℕ) (pcfgs (F := F)) defs₀ Variants.none L lv :=
  RegionRecord.hostBetween (pcfgs (F := F)) defs₀ Variants.none L lv hostOps2
    (fun op h => Pipeline.sub_ucRefs op ((List.forall_iff_forall_mem.mp hostOps2_sub) op h))
    (fun op h => (List.forall_iff_forall_mem.mp hostOps2_fresh) op h)
    (I3 m) (I4 m) (fun c V h => step_host2 m h)

-- the library's lemmas are stated at the pinned configuration `pin pcfgs adm 2`, which is `cfg2` after unfolding plain
-- definitions in a metavariable's type
set_option backward.isDefEq.respectTransparency.types false in
/-- Region 2: entered from buffers whose contents satisfy `I4`, left at contents satisfying `I5` — the buffers
    updated at the region's arrays to contents they may hold after every write-back. -/
def region2 : Pipeline.RDat.RegionSeg (pcfgs (F := F)) adm (rdats m) () defs₀ Variants.none L lv 2 :=
  RegionRecord.plainR (pcfgs (F := F)) adm (rdats m) defs₀ Variants.none L lv 2 launch2.win.to₀ launch2.block_pos launch2.stage_whole
    (fun c => body_obligation2 m c) (fun _ _ => rfl) (fun _ _ => rfl) (fun _ _ => rfl)
    (fun c => by unfold Pipeline.prefHeld; rw [show (Finset.univ : Finset (Fin 0)) = ∅ from rfl, BI.bigSep_empty])
    (I4 m) (I5 m) (fun c V => unscopedRest spec2 c (fun b => V b))
    (fun c V hV => RegionRecord.arrays_of_held (pcfgs (F := F)) adm (rdats m) (p := 2) launch2.win launch2.arr_whole c
      (fun w => by show (rdat2 m c).share w = fullShare; unfold RDat.share; split <;> rfl) V (fun w => entry_reg2 m hV w))
    (fun c V hV => by
      have hfam := RegionRecord.arraysAt_family (pcfgs (F := F)) adm (rdats m) (p := 2) c cfg2.N
      have hheld := fun Fs => RegionRecord.held_of_arrays (pcfgs (F := F)) adm (rdats m) (p := 2) launch2.win launch2.arr_whole c
        (fun w => by show (rdat2 m c).share w = fullShare; unfold RDat.share; split <;> rfl) V Fs
      iintro ⟨Ha, Hr⟩
      ihave H := hfam $$ Ha
      icases H with ⟨%Fs, %hFs, Ha⟩
      iexists (withArrays spec2 c V Fs)
      isplitr; · ipureintro; exact step_reg2 m hV Fs hFs
      iapply (hheld Fs)
      isplitl [Ha]; · iexact Ha
      iexact Hr)

/-- The host stretch after region 2. -/
def host3 : Pipeline.HostSeg (Ix := Unit) (Name := ℕ) (U := UR sig nD τ) (Lvl := ℕ) (pcfgs (F := F)) defs₀ Variants.none L lv :=
  RegionRecord.hostBetween (pcfgs (F := F)) defs₀ Variants.none L lv hostOps3
    (fun op h => Pipeline.sub_ucRefs op ((List.forall_iff_forall_mem.mp hostOps3_sub) op h))
    (fun op h => (List.forall_iff_forall_mem.mp hostOps3_fresh) op h)
    (I5 m) (I6 m) (fun c V h => step_host3 m h)

-- the library's lemmas are stated at the pinned configuration `pin pcfgs adm 3`, which is `cfg3` after unfolding plain
-- definitions in a metavariable's type
set_option backward.isDefEq.respectTransparency.types false in
/-- Region 3: entered from buffers whose contents satisfy `I6`, left at contents satisfying `I7` — the buffers
    updated at the region's arrays to contents they may hold after every write-back. -/
def region3 : Pipeline.RDat.RegionSeg (pcfgs (F := F)) adm (rdats m) () defs₀ Variants.none L lv 3 :=
  RegionRecord.plainR (pcfgs (F := F)) adm (rdats m) defs₀ Variants.none L lv 3 launch3.win.to₀ launch3.block_pos launch3.stage_whole
    (fun c => body_obligation3 m c) (fun _ _ => rfl) (fun _ _ => rfl) (fun _ _ => rfl)
    (fun c => by unfold Pipeline.prefHeld; rw [show (Finset.univ : Finset (Fin 0)) = ∅ from rfl, BI.bigSep_empty])
    (I6 m) (I7 m) (fun c V => unscopedRest spec3 c (fun b => V b))
    (fun c V hV => RegionRecord.arrays_of_held (pcfgs (F := F)) adm (rdats m) (p := 3) launch3.win launch3.arr_whole c
      (fun w => by show (rdat3 m c).share w = fullShare; unfold RDat.share; split <;> rfl) V (fun w => entry_reg3 m hV w))
    (fun c V hV => by
      have hfam := RegionRecord.arraysAt_family (pcfgs (F := F)) adm (rdats m) (p := 3) c cfg3.N
      have hheld := fun Fs => RegionRecord.held_of_arrays (pcfgs (F := F)) adm (rdats m) (p := 3) launch3.win launch3.arr_whole c
        (fun w => by show (rdat3 m c).share w = fullShare; unfold RDat.share; split <;> rfl) V Fs
      iintro ⟨Ha, Hr⟩
      ihave H := hfam $$ Ha
      icases H with ⟨%Fs, %hFs, Ha⟩
      iexists (withArrays spec3 c V Fs)
      isplitr; · ipureintro; exact step_reg3 m hV Fs hFs
      iapply (hheld Fs)
      isplitl [Ha]; · iexact Ha
      iexact Hr)

/-- The host stretch after region 3. -/
def host4 : Pipeline.HostSeg (Ix := Unit) (Name := ℕ) (U := UR sig nD τ) (Lvl := ℕ) (pcfgs (F := F)) defs₀ Variants.none L lv :=
  RegionRecord.hostBetween (pcfgs (F := F)) defs₀ Variants.none L lv hostOps4
    (fun op h => Pipeline.sub_ucRefs op ((List.forall_iff_forall_mem.mp hostOps4_sub) op h))
    (fun op h => (List.forall_iff_forall_mem.mp hostOps4_fresh) op h)
    (I7 m) (I8 m) (fun c V h => step_host4 m h)

/-- @main's items, in order. -/
abbrev segs : List (Pipeline.RDat.Seg (pcfgs (F := F)) adm (rdats m) () defs₀ Variants.none L lv) :=
  [.region (region0 m), .host (host1 m), .region (region1 m), .host (host2 m), .region (region2 m), .host (host3 m), .region (region3 m), .host (host4 m)]

/-- The last thread state, less the fact that the core owes nothing. -/
abbrev Tlast (c : Dev nD) : sProp 𝕄 :=
  iprop((∃ V, ⌜I8 m c V⌝ ∗ StableHlo.held (c : Thread nD τ) (Pipeline.ucRefs τ sig) V) ∗ ∃ r, prngReg c r)

/-- What is read of a final memory on core `c`: it agrees on every unscoped buffer with contents of which the last
    thread state's knowledge holds. -/
def Final (c : Dev nD) (s : MemSt nD τ sig (Elt F)) : Prop :=
  ∃ V : Valuation τ sig (Elt F), I8 m c V ∧ ∀ b ∈ Pipeline.ucRefs τ sig, s.mem (((c : Thread nD τ)).1, b) = V b

-- the launch theorem's implicit arguments are found by unifying its conclusion with this one, which takes unfolding plain
-- definitions in a metavariable's type
set_option backward.isDefEq.respectTransparency.types false in
/-- At the compiled mesh, for any float values, from any memory with zero counters: every weakly fair execution of
    @main terminates, nothing faulting, in a memory of which `Final` holds on every core. -/
theorem run_main : θ_run defs (onTc (τ := τ) (main (F := F))) ⟨m, fun _ => 0, ρ⟩ (fun r => ∀ c : Dev nD, Final m c r.2) :=
  Pipeline.RDat.θ_run_regions_kit (pcfgs (F := F)) adm (rdats m) () cellOf_inj emb₁ defs₀ Variants.none L lv m ρ main (segs m)
    (fun c Q => by
      rewrite [main_chain c, Pipeline.RDat.Seg.run_eq_chain,
        show (segs m).map Pipeline.RDat.Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := Between (I0 m)) (Tₙ := Tlast m)
    (hch := ⟨fun _ => .rfl, fun _ => .rfl, fun _ => .rfl, fun _ => .rfl, fun _ => .rfl, fun _ => .rfl, fun _ => .rfl, fun _ => .rfl, fun c => by
      show (Between (I8 m) c : sProp 𝕄) ⊢ iprop(Tlast m c ∗ ∃ W, owes (c.tc : Thread nD τ) (0 : CellTallies nD τ sig Unit) W)
      unfold Between Rest
      iintro ⟨HV, Hp, HO⟩
      isplitl [HV Hp]
      · isplitl [HV]; · iexact HV
        iexact Hp
      iexact HO⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      unfold Between Rest
      iintro ⟨⟨Hh, -, HO, -, Hp, -⟩, -⟩
      imodintro
      isplitl [Hh]
      · iexists (fun b => m (c, b)); isplitr; · ipureintro; exact init_I0 m c
        iexact Hh
      isplitl [Hp]; · iexists _; iexact Hp
      iexists ∅; iexact HO)
    (QY := Final m)
    (hfin := fun c s' => by
      have key : ∀ V : Valuation τ sig (Elt F),
          iprop(StableHlo.held (c : Thread nD τ) (Pipeline.ucRefs τ sig) V ∗ SI s')
            ⊢ (iprop(⌜∀ b ∈ Pipeline.ucRefs τ sig, s'.mem.mem (((c : Thread nD τ)).1, b) = V b⌝ ∗ SI s') : sProp 𝕄) := fun V => by
        unfold StableHlo.held
        exact pointsTo_read_all (Pipeline.ucRefs τ sig) (fun b => ((c : Thread nD τ).1, b)) V s'
      iintro ⟨⟨HV, -⟩, HSI⟩
      icases HV with ⟨%V, %hV, Hh⟩
      ihave Hr := (key V) $$ [Hh HSI]
      · isplitl [Hh] <;> iassumption
      icases Hr with ⟨%h, HSI⟩
      imodintro
      isplitr; · ipureintro; exact ⟨V, hV, h⟩
      iexact HSI)
    (hQ := fun _ h => h)

end Cert.KernelIdeal.Hand

end
-- ==== Proof.IdealFrame.lean ====
/-
  The frame claim from the run: no item of the host program writes an argument array, so the contents the last thread
  state holds at an argument are its launch contents, and the final memory agrees with them.
-/
import proofs.«177139_j56324201120475_2_alg».proof.Proof.Gen.KernelIdeal.Launch
import proofs.«177139_j56324201120475_2_alg».proof.Proof.Gen.KernelIdeal.Skeleton
import proofs.«177139_j56324201120475_2_alg».proof.Proof.Gen.KernelIdeal.Points
import proofs.«177139_j56324201120475_2_alg».proof.Proof.IdealRun
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last thread state's knowledge gives each argument's launch contents. -/
theorem final_untouched {c : Dev nD} {V : Valuation τ sig (Elt F)} (hI : I8 m c V) :
    Untouched m (O0 ++ hostOps1_W ++ O1 ++ hostOps2_W ++ O2 ++ hostOps3_W ++ O3 ++ hostOps4_W) c V := hI.1

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => by
    obtain ⟨V, hI, hm⟩ := h c
    have hU := final_untouched m hI
    exact ⟨(hm (Proc.devRef .tc main_arg0) (Finset.mem_filter.mpr ⟨StableHlo.devRef_mem_tcRefs main_arg0, by decide⟩)).trans (hU main_arg0 (by decide)),
      (hm (Proc.devRef .tc main_arg1) (Finset.mem_filter.mpr ⟨StableHlo.devRef_mem_tcRefs main_arg1, by decide⟩)).trans (hU main_arg1 (by decide)),
      (hm (Proc.devRef .tc main_arg2) (Finset.mem_filter.mpr ⟨StableHlo.devRef_mem_tcRefs main_arg2, by decide⟩)).trans (hU main_arg2 (by decide)),
      (hm (Proc.devRef .tc main_arg3) (Finset.mem_filter.mpr ⟨StableHlo.devRef_mem_tcRefs main_arg3, by decide⟩)).trans (hU main_arg3 (by decide)),
      (hm (Proc.devRef .tc main_arg4) (Finset.mem_filter.mpr ⟨StableHlo.devRef_mem_tcRefs main_arg4, by decide⟩)).trans (hU main_arg4 (by decide)),
      (hm (Proc.devRef .tc main_arg5) (Finset.mem_filter.mpr ⟨StableHlo.devRef_mem_tcRefs main_arg5, by decide⟩)).trans (hU main_arg5 (by decide)),
      (hm (Proc.devRef .tc main_arg6) (Finset.mem_filter.mpr ⟨StableHlo.devRef_mem_tcRefs main_arg6, by decide⟩)).trans (hU main_arg6 (by decide)),
      (hm (Proc.devRef .tc main_arg7) (Finset.mem_filter.mpr ⟨StableHlo.devRef_mem_tcRefs main_arg7, by decide⟩)).trans (hU main_arg7 (by decide)),
      (hm (Proc.devRef .tc main_arg8) (Finset.mem_filter.mpr ⟨StableHlo.devRef_mem_tcRefs main_arg8, by decide⟩)).trans (hU main_arg8 (by decide)),
      (hm (Proc.devRef .tc main_arg9) (Finset.mem_filter.mpr ⟨StableHlo.devRef_mem_tcRefs main_arg9, by decide⟩)).trans (hU main_arg9 (by decide)),
      (hm (Proc.devRef .tc main_arg10) (Finset.mem_filter.mpr ⟨StableHlo.devRef_mem_tcRefs main_arg10, by decide⟩)).trans (hU main_arg10 (by decide)),
      (hm (Proc.devRef .tc main_arg11) (Finset.mem_filter.mpr ⟨StableHlo.devRef_mem_tcRefs main_arg11, by decide⟩)).trans (hU main_arg11 (by decide)),
      (hm (Proc.devRef .tc main_arg12) (Finset.mem_filter.mpr ⟨StableHlo.devRef_mem_tcRefs main_arg12, by decide⟩)).trans (hU main_arg12 (by decide)),
      (hm (Proc.devRef .tc main_arg13) (Finset.mem_filter.mpr ⟨StableHlo.devRef_mem_tcRefs main_arg13, by decide⟩)).trans (hU main_arg13 (by decide)),
      (hm (Proc.devRef .tc main_arg14) (Finset.mem_filter.mpr ⟨StableHlo.devRef_mem_tcRefs main_arg14, by decide⟩)).trans (hU main_arg14 (by decide)),
      (hm (Proc.devRef .tc main_arg15) (Finset.mem_filter.mpr ⟨StableHlo.devRef_mem_tcRefs main_arg15, by decide⟩)).trans (hU main_arg15 (by decide)),
      (hm (Proc.devRef .tc main_arg16) (Finset.mem_filter.mpr ⟨StableHlo.devRef_mem_tcRefs main_arg16, by decide⟩)).trans (hU main_arg16 (by decide)),
      (hm (Proc.devRef .tc main_arg17) (Finset.mem_filter.mpr ⟨StableHlo.devRef_mem_tcRefs main_arg17, by decide⟩)).trans (hU main_arg17 (by decide)),
      (hm (Proc.devRef .tc main_arg18) (Finset.mem_filter.mpr ⟨StableHlo.devRef_mem_tcRefs main_arg18, by decide⟩)).trans (hU main_arg18 (by decide)),
      (hm (Proc.devRef .tc main_arg19) (Finset.mem_filter.mpr ⟨StableHlo.devRef_mem_tcRefs main_arg19, by decide⟩)).trans (hU main_arg19 (by decide)),
      (hm (Proc.devRef .tc main_arg20) (Finset.mem_filter.mpr ⟨StableHlo.devRef_mem_tcRefs main_arg20, by decide⟩)).trans (hU main_arg20 (by decide)),
      (hm (Proc.devRef .tc main_arg21) (Finset.mem_filter.mpr ⟨StableHlo.devRef_mem_tcRefs main_arg21, by decide⟩)).trans (hU main_arg21 (by decide)),
      (hm (Proc.devRef .tc main_arg22) (Finset.mem_filter.mpr ⟨StableHlo.devRef_mem_tcRefs main_arg22, by decide⟩)).trans (hU main_arg22 (by decide)),
      (hm (Proc.devRef .tc main_arg23) (Finset.mem_filter.mpr ⟨StableHlo.devRef_mem_tcRefs main_arg23, by decide⟩)).trans (hU main_arg23 (by decide))⟩) (run_main m ρ)

end Cert.KernelIdeal.Hand

end
-- ==== Proof.Spec.lean ====
/-
  The function both programs compute, per block: for an array x of shape [N, C, P] and a weight row w of shape
  [1, P], the array of shape [N, C, 1] whose entry (s, c, 0) is the weighted sum over the last axis,
  sum over p < P of x(s, c, p) * w(0, p), on the extended reals.
-/
import Idealize.ShloMosaic.PureOps.Ideal
import Idealize.ShloMosaic.Lib.ValueIdx

noncomputable section

namespace Cert.Spec

open Idealize.ShloMosaic Idealize.ShloMosaic.ValueIdx

/-- The weighted sum along the last axis: entry (s, c, 0) is the sum over p of x(s, c, p) * w(0, p). -/
def lin (N C P : Nat) (x : (⟨3, ![N, C, P]⟩ : Shape).Idx → EReal) (w : (⟨2, ![1, P]⟩ : Shape).Idx → EReal) :
    (⟨3, ![N, C, 1]⟩ : Shape).Idx → EReal :=
  fun i => ∑ p : Fin P, x (ix3 (i 0) (i 1) p) * w (ix2 (0 : Fin 1) p)

/-- The same entry read at explicit coordinates. -/
theorem lin_apply (N C P : Nat) (x : (⟨3, ![N, C, P]⟩ : Shape).Idx → EReal) (w : (⟨2, ![1, P]⟩ : Shape).Idx → EReal)
    (s : Fin N) (c : Fin C) (z : Fin 1) :
    lin N C P x w (ix3 s c z) = ∑ p : Fin P, x (ix3 s c p) * w (ix2 (0 : Fin 1) p) := rfl

end Cert.Spec

end
-- ==== Proof.PayValue.lean ====
/-
  Each kernel's stored block, read at an index, is the weighted sum along the last axis of the input block at one
  row; and the host's transpose and reshape of a [C, 8000] result array, read at an index.
-/
import proofs.«177139_j56324201120475_2_alg».proof.Proof.Gen.KernelIdeal.Skeleton
import proofs.«177139_j56324201120475_2_alg».proof.Proof.Gen.KernelIdeal.Launch
import proofs.«177139_j56324201120475_2_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.PayValue

open Cert.KernelIdeal Cert.KernelIdeal.Gen Idealize.ShloMosaic Idealize.ShloMosaic.ValueIdx

/-! ## The kernels' stored blocks -/

/-- Kernel 0's stored block at (c, s): the weight row, given a leading unit axis and repeated over the 1024 rows and
    1 components, is multiplied into the input block elementwise, summed over the last axis and transposed, so the
    entry is the sum over p of X(s, c, p) * W(0, p). It reads the input block only at row s. -/
theorem pay0_apply (X : FVec Ideal S1024x1x128 .f32) (W : FVec Ideal S1x128 .f32) (c : Fin 1) (s : Fin 1024) :
    k0_pay1 (F := Ideal) X W (ix2 c s) = ∑ p : Fin 128, X (ix3 s c p) * W (ix2 (0 : Fin 1) p) := by
  unfold k0_pay1
  refine (transpose_ix2_apply _ _ c s).trans ?_
  refine (Ideal.multiReduction_add_single _ _ reduces_S1024x1x128_S1024x1 _ _ (ix2 s c)).trans ?_
  refine Finset.sum_congr rfl fun (p : Fin 128) _ => ?_
  have hl : reduces_S1024x1x128_S1024x1.lift (ix2 s c) p = ix3 s c p :=
    funext fun a => Fin.ext (by match a with | ⟨0, _⟩ => rfl | ⟨1, _⟩ => rfl | ⟨2, _⟩ => rfl)
  rw [hl, mulf_apply]
  congr 1
  refine (broadcastTo_apply _ _ (ix3 s c p) (ix3 (0 : Fin 1) (0 : Fin 1) p)
    (fun a => by match a with | ⟨0, _⟩ => rfl | ⟨1, _⟩ => rfl | ⟨2, _⟩ => rfl)).trans ?_
  exact shapeCast_ab_1ab_apply W _ (0 : Fin 1) (0 : Fin 1) p

/-- The second and third stored blocks of kernel 0 are the same function of their operands. -/
theorem k0_pay2_eq : k0_pay2 (F := Ideal) = k0_pay1 (F := Ideal) := rfl
theorem k0_pay3_eq : k0_pay3 (F := Ideal) = k0_pay1 (F := Ideal) := rfl

/-- Kernel 1's stored block at (c, s): the weight row, given a leading unit axis and repeated over the 1024 rows and
    3 components, is multiplied into the input block elementwise, summed over the last axis and transposed, so the
    entry is the sum over p of X(s, c, p) * W(0, p). It reads the input block only at row s. -/
theorem pay1_apply (X : FVec Ideal S1024x3x256 .f32) (W : FVec Ideal S1x256 .f32) (c : Fin 3) (s : Fin 1024) :
    k1_pay1 (F := Ideal) X W (ix2 c s) = ∑ p : Fin 256, X (ix3 s c p) * W (ix2 (0 : Fin 1) p) := by
  unfold k1_pay1
  refine (transpose_ix2_apply _ _ c s).trans ?_
  refine (Ideal.multiReduction_add_single _ _ reduces_S1024x3x256_S1024x3 _ _ (ix2 s c)).trans ?_
  refine Finset.sum_congr rfl fun (p : Fin 256) _ => ?_
  have hl : reduces_S1024x3x256_S1024x3.lift (ix2 s c) p = ix3 s c p :=
    funext fun a => Fin.ext (by match a with | ⟨0, _⟩ => rfl | ⟨1, _⟩ => rfl | ⟨2, _⟩ => rfl)
  rw [hl, mulf_apply]
  congr 1
  refine (broadcastTo_apply _ _ (ix3 s c p) (ix3 (0 : Fin 1) (0 : Fin 1) p)
    (fun a => by match a with | ⟨0, _⟩ => rfl | ⟨1, _⟩ => rfl | ⟨2, _⟩ => rfl)).trans ?_
  exact shapeCast_ab_1ab_apply W _ (0 : Fin 1) (0 : Fin 1) p

/-- The second and third stored blocks of kernel 1 are the same function of their operands. -/
theorem k1_pay2_eq : k1_pay2 (F := Ideal) = k1_pay1 (F := Ideal) := rfl
theorem k1_pay3_eq : k1_pay3 (F := Ideal) = k1_pay1 (F := Ideal) := rfl

/-- Kernel 2's stored block at (c, s): the weight row, given a leading unit axis and repeated over the 512 rows and
    5 components, is multiplied into the input block elementwise, summed over the last axis and transposed, so the
    entry is the sum over p of X(s, c, p) * W(0, p). It reads the input block only at row s. -/
theorem pay2_apply (X : FVec Ideal S512x5x512 .f32) (W : FVec Ideal S1x512 .f32) (c : Fin 5) (s : Fin 512) :
    k2_pay1 (F := Ideal) X W (ix2 c s) = ∑ p : Fin 512, X (ix3 s c p) * W (ix2 (0 : Fin 1) p) := by
  unfold k2_pay1
  refine (transpose_ix2_apply _ _ c s).trans ?_
  refine (Ideal.multiReduction_add_single _ _ reduces_S512x5x512_S512x5 _ _ (ix2 s c)).trans ?_
  refine Finset.sum_congr rfl fun (p : Fin 512) _ => ?_
  have hl : reduces_S512x5x512_S512x5.lift (ix2 s c) p = ix3 s c p :=
    funext fun a => Fin.ext (by match a with | ⟨0, _⟩ => rfl | ⟨1, _⟩ => rfl | ⟨2, _⟩ => rfl)
  rw [hl, mulf_apply]
  congr 1
  refine (broadcastTo_apply _ _ (ix3 s c p) (ix3 (0 : Fin 1) (0 : Fin 1) p)
    (fun a => by match a with | ⟨0, _⟩ => rfl | ⟨1, _⟩ => rfl | ⟨2, _⟩ => rfl)).trans ?_
  exact shapeCast_ab_1ab_apply W _ (0 : Fin 1) (0 : Fin 1) p

/-- The second and third stored blocks of kernel 2 are the same function of their operands. -/
theorem k2_pay2_eq : k2_pay2 (F := Ideal) = k2_pay1 (F := Ideal) := rfl
theorem k2_pay3_eq : k2_pay3 (F := Ideal) = k2_pay1 (F := Ideal) := rfl

/-- Kernel 3's stored block at (c, s): the weight row, given a leading unit axis and repeated over the 256 rows and
    7 components, is multiplied into the input block elementwise, summed over the last axis and transposed, so the
    entry is the sum over p of X(s, c, p) * W(0, p). It reads the input block only at row s. -/
theorem pay3_apply (X : FVec Ideal S256x7x1024 .f32) (W : FVec Ideal S1x1024 .f32) (c : Fin 7) (s : Fin 256) :
    k3_pay1 (F := Ideal) X W (ix2 c s) = ∑ p : Fin 1024, X (ix3 s c p) * W (ix2 (0 : Fin 1) p) := by
  unfold k3_pay1
  refine (transpose_ix2_apply _ _ c s).trans ?_
  refine (Ideal.multiReduction_add_single _ _ reduces_S256x7x1024_S256x7 _ _ (ix2 s c)).trans ?_
  refine Finset.sum_congr rfl fun (p : Fin 1024) _ => ?_
  have hl : reduces_S256x7x1024_S256x7.lift (ix2 s c) p = ix3 s c p :=
    funext fun a => Fin.ext (by match a with | ⟨0, _⟩ => rfl | ⟨1, _⟩ => rfl | ⟨2, _⟩ => rfl)
  rw [hl, mulf_apply]
  congr 1
  refine (broadcastTo_apply _ _ (ix3 s c p) (ix3 (0 : Fin 1) (0 : Fin 1) p)
    (fun a => by match a with | ⟨0, _⟩ => rfl | ⟨1, _⟩ => rfl | ⟨2, _⟩ => rfl)).trans ?_
  exact shapeCast_ab_1ab_apply W _ (0 : Fin 1) (0 : Fin 1) p

/-- The second and third stored blocks of kernel 3 are the same function of their operands. -/
theorem k3_pay2_eq : k3_pay2 (F := Ideal) = k3_pay1 (F := Ideal) := rfl
theorem k3_pay3_eq : k3_pay3 (F := Ideal) = k3_pay1 (F := Ideal) := rfl

/-! ## The host's transpose and reshape of a result array -/

/-- The host's last two steps on a [1, 8000] result array, a transpose to [8000, 1] and a reshape to [8000, 1, 1]:
    entry (s, c, 0) of the outcome is entry (c, s) of the array. -/
theorem tail1_apply (B : FVec Ideal S1x8000 .f32) (s : Fin 8000) (c : Fin 1) (z : Fin 1) :
    shapeCast S8000x1x1 (transpose S8000x1 [1, 0] B transposes_S1x8000_S8000x1_1_0) shapeCasts_S8000x1_S8000x1x1 (ix3 s c z)
      = B (ix2 c s) := by
  refine (shapeCast_apply _ _ (ix3 s c z) (ix2 s c) ?_).trans (transpose_ix2_apply B _ s c)
  have hz : z.val = 0 := by omega
  rw [Shape.rowMajor_val_two, Shape.rowMajor_val_three]
  show s.val * 1 + c.val = (s.val * 1 + c.val) * 1 + z.val
  omega

/-- The host's last two steps on a [3, 8000] result array, a transpose to [8000, 3] and a reshape to [8000, 3, 1]:
    entry (s, c, 0) of the outcome is entry (c, s) of the array. -/
theorem tail3_apply (B : FVec Ideal S3x8000 .f32) (s : Fin 8000) (c : Fin 3) (z : Fin 1) :
    shapeCast S8000x3x1 (transpose S8000x3 [1, 0] B transposes_S3x8000_S8000x3_1_0) shapeCasts_S8000x3_S8000x3x1 (ix3 s c z)
      = B (ix2 c s) := by
  refine (shapeCast_apply _ _ (ix3 s c z) (ix2 s c) ?_).trans (transpose_ix2_apply B _ s c)
  have hz : z.val = 0 := by omega
  rw [Shape.rowMajor_val_two, Shape.rowMajor_val_three]
  show s.val * 3 + c.val = (s.val * 3 + c.val) * 1 + z.val
  omega

/-- The host's last two steps on a [5, 8000] result array, a transpose to [8000, 5] and a reshape to [8000, 5, 1]:
    entry (s, c, 0) of the outcome is entry (c, s) of the array. -/
theorem tail5_apply (B : FVec Ideal S5x8000 .f32) (s : Fin 8000) (c : Fin 5) (z : Fin 1) :
    shapeCast S8000x5x1 (transpose S8000x5 [1, 0] B transposes_S5x8000_S8000x5_1_0) shapeCasts_S8000x5_S8000x5x1 (ix3 s c z)
      = B (ix2 c s) := by
  refine (shapeCast_apply _ _ (ix3 s c z) (ix2 s c) ?_).trans (transpose_ix2_apply B _ s c)
  have hz : z.val = 0 := by omega
  rw [Shape.rowMajor_val_two, Shape.rowMajor_val_three]
  show s.val * 5 + c.val = (s.val * 5 + c.val) * 1 + z.val
  omega

/-- The host's last two steps on a [7, 8000] result array, a transpose to [8000, 7] and a reshape to [8000, 7, 1]:
    entry (s, c, 0) of the outcome is entry (c, s) of the array. -/
theorem tail7_apply (B : FVec Ideal S7x8000 .f32) (s : Fin 8000) (c : Fin 7) (z : Fin 1) :
    shapeCast S8000x7x1 (transpose S8000x7 [1, 0] B transposes_S7x8000_S8000x7_1_0) shapeCasts_S8000x7_S8000x7x1 (ix3 s c z)
      = B (ix2 c s) := by
  refine (shapeCast_apply _ _ (ix3 s c z) (ix2 s c) ?_).trans (transpose_ix2_apply B _ s c)
  have hz : z.val = 0 := by omega
  rw [Shape.rowMajor_val_two, Shape.rowMajor_val_three]
  show s.val * 7 + c.val = (s.val * 7 + c.val) * 1 + z.val
  omega

end Cert.KernelIdeal.PayValue

end
-- ==== Proof.LibFillMoved.lean ====
/-
  A staging block filled by a clipped transfer.

  A transfer that the array's edge cuts moves only the leading part of a block; filling contents d with the moved part g
  gives g wherever the transfer moves and d elsewhere. So at a position the transfer moves, the filled block does not
  depend on d.
-/
import Idealize.ShloMosaic.Lib.Pipeline

noncomputable section

namespace Cert.LibFillMoved

open Idealize.ShloMosaic Idealize.ShloMosaic.Pipeline

variable {sig : RefSig}

/-- At a position the transfer moves, a filled block reads the moved part whatever was there before. -/
theorem fill_congr_of_moved {G : Grid} (w : Window sig G) {α : Type} (i : G.Coords) (d d' : w.block.Idx → α)
    (g : (w.xblock i).Idx → α) (p : w.block.Idx) (h : w.moved i p = true) : w.fill i d g p = w.fill i d' g p := by
  unfold Window.fill; rw [dif_pos h, dif_pos h]

end Cert.LibFillMoved

end
-- ==== Proof.LibArrAtCover.lean ====
/-
  Over the library only, for relational proof data: the contents of a written-back array, read at an index.

  Relational proof data do not name what the body leaves in a result window's staging buffer, they constrain it; so what
  the array may hold after the write-backs is a predicate, each write-back overwriting a block by the moved part of SOME
  contents the body may have left. If the moved part of EVERY such contents, at every point that writes back, is that
  point's block of ONE array function G, then whatever the array may hold after the write-backs below n reads G at every
  index in the block of a point below n that writes back: a later point that covers the index again writes the same
  value, an earlier one is overwritten. When the blocks cover the array it holds G. This is the counterpart, for
  relational data, of the library's reading of exact data's array at a covered index.

  Also: a block filled by a clipped transfer, read at a position the transfer moves.
-/
import Idealize.ShloMosaic.Lib.Pipeline.Value

noncomputable section

namespace ArrAtCover

open Idealize.ShloMosaic Idealize.ShloMosaic.Pipeline
open Idealize.SL Idealize.SL.RA

variable {nD : Nat} {τ : Topo} {sig : RefSig} {Val : EltTy → Type} {Λ₀ : Idealize.SL.Sem.Labels}
variable {Ix : Type} [DecidableEq Ix] {Name : Type} [DecidableEq Name] {U : Type} [URA U] {Lvl : Type}
variable {cfg : Cfg sig Λ₀} {c : Dev nD}

/-- If every contents the body may leave at a point that writes back has moved part equal to the point's block of one
    array function `G` (`hG`), then any contents the array may hold after the write-backs below `n` reads `G` at an index
    in the block of a point below `n` that writes back. By induction on `n`: the last write-back writes `G`'s block over
    the array (so an index in its block reads `G`), and leaves every other index as the write-backs before it did. -/
theorem arrAt_apply_of_mem (rd : RDat τ Val Ix Name U Lvl cfg c) (w : Fin cfg.W)
    (G : Buf Val ((cfg.win w).arr.view.loc (c.tc : Thread nD τ)))
    (hG : ∀ (t : Fin cfg.N) (X : (cfg.win w).block.Idx → Val (cfg.win w).elt), (cfg.win w).flush t = true → rd.Leaves w t X →
      (cfg.win w).cut (cfg.grid.coords t) X = ((cfg.win w).blk t).view.read Val G) :
    ∀ (n : Nat) (B : Buf Val ((cfg.win w).arr.view.loc (c.tc : Thread nD τ))), rd.ArrAt w n B →
      ∀ (t : Fin cfg.N) (i : ((cfg.win w).arr.view.loc (c.tc : Thread nD τ)).2.ty.Idx),
        t.val < n → (cfg.win w).flush t = true → i ∈ ((cfg.win w).blk t).view.set → B i = G i
  | 0, _, _, _, _, ht, _, _ => absurd ht (Nat.not_lt_zero _)
  | n + 1, B, hB, t, i, ht, hf, hi => by
    by_cases hn : n < cfg.N
    swap
    · -- past the grid nothing changes, and `t` is below `n`
      have e : rd.ArrAt w (n + 1) = rd.ArrAt w n :=
        (rd.ArrAt_stable w (n + 1) (by omega)).trans (rd.ArrAt_stable w n (by omega)).symm
      rw [e] at hB
      exact arrAt_apply_of_mem rd w G hG n B hB t i (by have := t.isLt; omega) hf hi
    have e := rd.ArrAt_succ w ⟨n, hn⟩
    rw [show (⟨n, hn⟩ : Fin cfg.N).val + 1 = n + 1 from rfl] at e
    rw [e] at hB
    by_cases hfn : (cfg.win w).flush ⟨n, hn⟩ = true
    · rw [if_pos hfn] at hB
      obtain ⟨G₀, X, hG₀, hX, rfl⟩ := hB
      rw [hG _ X hfn hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        -- not in point `n`'s block: then `t` is an earlier point
        have htn : t.val ≠ n := fun e => hin (by rw [View.setOn_univ]; have : t = ⟨n, hn⟩ := Fin.ext e; exact this ▸ hi)
        exact arrAt_apply_of_mem rd w G hG n G₀ hG₀ t i (by omega) hf hi
    · rw [if_neg hfn] at hB
      have htn : t.val ≠ n := fun e => hfn (by have : t = ⟨n, hn⟩ := Fin.ext e; exact this ▸ hf)
      exact arrAt_apply_of_mem rd w G hG n B hB t i (by omega) hf hi

/-- When moreover every index of the array is in the block of some point that writes back, the array may hold only `G`
    after the last write-back. -/
theorem arrAt_eq_of_cover (rd : RDat τ Val Ix Name U Lvl cfg c) (w : Fin cfg.W)
    (G : Buf Val ((cfg.win w).arr.view.loc (c.tc : Thread nD τ)))
    (hG : ∀ (t : Fin cfg.N) (X : (cfg.win w).block.Idx → Val (cfg.win w).elt), (cfg.win w).flush t = true → rd.Leaves w t X →
      (cfg.win w).cut (cfg.grid.coords t) X = ((cfg.win w).blk t).view.read Val G)
    (hcover : ∀ i : ((cfg.win w).arr.view.loc (c.tc : Thread nD τ)).2.ty.Idx,
      ∃ t : Fin cfg.N, (cfg.win w).flush t = true ∧ i ∈ ((cfg.win w).blk t).view.set)
    (B : Buf Val ((cfg.win w).arr.view.loc (c.tc : Thread nD τ))) (hB : rd.ArrAt w cfg.N B) : B = G :=
  funext fun i => by
    obtain ⟨t, hf, hi⟩ := hcover i
    exact arrAt_apply_of_mem rd w G hG cfg.N B hB t i t.isLt hf hi

/-- A filled block read at a position the transfer moves (every coordinate below the moved extent on its axis) is the
    moved part read at the same coordinates, whatever the block held before. -/
theorem fill_apply_of_lt {G : Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

end ArrAtCover

end
-- ==== Proof.IdealArr0_6.lean ====
/-
  Region 0, result window 6: from the blocks the pipeline writes back to the result arrays. Whatever a result array may hold after the
  last write-back, its entry (c, s) is the weighted sum over the last axis of the data array's row s, component c,
  against the weight row.
-/
import proofs.«177139_j56324201120475_2_alg».proof.Proof.IdealData0
import proofs.«177139_j56324201120475_2_alg».proof.Proof.PayValue
import proofs.«177139_j56324201120475_2_alg».proof.Proof.LibFillMoved
import proofs.«177139_j56324201120475_2_alg».proof.Proof.LibArrAtCover
import Idealize.ShloMosaic.Lib.Pipeline.Value

set_option maxRecDepth 16384

noncomputable section

namespace Cert.KernelIdeal.Hand

open Cert.KernelIdeal Cert.KernelIdeal.Gen Cert.KernelIdeal.PayValue
open Idealize.ShloMosaic Idealize.ShloMosaic.TcCoe Idealize.ShloMosaic.ValueIdx
open Idealize.SL Idealize.SL.Sem
open Idealize.ShloMosaic.Pipeline (Dat RDat Cfg Window)

variable (m : (ℓ : Loc nD τ sig) → Buf (Elt Ideal) ℓ)

/-! ## Result window 6 (data window 0, weight window 3) -/

/-- The index maps and the cuts, decided over the grid: the data block and the result block at point t are block t of
    their arrays along the row axis, cut alike at the arrays' end; the other axes are whole. -/
theorem idx0_6 : ∀ t : Fin cfg0.N,
    win0_0.index t (0 : Fin 3) = t.val ∧ win0_0.index t (1 : Fin 3) = 0 ∧ win0_0.index t (2 : Fin 3) = 0
    ∧ win0_6.index t (0 : Fin 2) = 0 ∧ win0_6.index t (1 : Fin 2) = t.val
    ∧ win0_0.xsize (grid0.coords t) (0 : Fin 3) = win0_6.xsize (grid0.coords t) (1 : Fin 2)
    ∧ win0_0.xsize (grid0.coords t) (1 : Fin 3) = 1 ∧ win0_0.xsize (grid0.coords t) (2 : Fin 3) = 128
    ∧ win0_6.xsize (grid0.coords t) (0 : Fin 2) = 1
    ∧ t.val * 1024 + win0_6.xsize (grid0.coords t) (1 : Fin 2) = min ((t.val + 1) * 1024) 8000 :=
  (by decide +kernel : ∀ t : Fin grid0.N, _)

/-- The weight row's window is the whole row at every point. -/
theorem idxw0_3 : ∀ t : Fin cfg0.N,
    win0_3.index t (0 : Fin 2) = 0 ∧ win0_3.index t (1 : Fin 2) = 0
    ∧ win0_3.xsize (grid0.coords t) (0 : Fin 2) = 1 ∧ win0_3.xsize (grid0.coords t) (1 : Fin 2) = 128 :=
  (by decide +kernel : ∀ t : Fin grid0.N, _)

/-- The data array and the weight row of result window 6, as launched. -/
def dat0_6 (c : Dev nD) : FVec Ideal S8000x1x128 .f32 := A0 m c 0
def wt0_6 (c : Dev nD) : FVec Ideal S1x128 .f32 := A0 m c 3

/-- The array function the write-backs piece together: entry (c, s) is the weighted sum of the data array's row s,
    component c, against the weight row. -/
def G0_6 (c : Dev nD) : FVec Ideal S1x8000 .f32 :=
  fun i => ∑ p : Fin 128,
    dat0_6 m c (ix3 (⟨(i 1).val, (i 1).isLt⟩ : Fin 8000) (⟨(i 0).val, (i 0).isLt⟩ : Fin 1) p) * wt0_6 m c (ix2 (0 : Fin 1) p)

theorem G0_6_apply (c : Dev nD) (cc : Fin 1) (s : Fin 8000) :
    G0_6 m c (ix2 cc s) = ∑ p : Fin 128, dat0_6 m c (ix3 s cc p) * wt0_6 m c (ix2 (0 : Fin 1) p) := rfl

/-- The moved part of whatever the body may leave in the result's staging buffer at point t is block t of that array
    function: an entry of the moved part lies in a column inside the array, so the payload there reads the data block
    at a row the fetch moved, which is the data array's row, and the weight row as fetched, which is the weight array's. -/
theorem leaves0_6 (c : Dev nD) (t : Fin cfg0.N) (X : (cfg0.win 6).block.Idx → Elt Ideal (cfg0.win 6).elt)
    (hX : (rdat0 (F := Ideal) m c).Leaves 6 t X) :
    (cfg0.win 6).cut (cfg0.grid.coords t) X = ((cfg0.win 6).blk t).view.read (Elt Ideal) (G0_6 m c) := by
  obtain ⟨Y, -, d, d', rfl⟩ := hX
  obtain ⟨e0, e1, e2, e3, e4, e5, e6, e7, e8, e9⟩ := idx0_6 t
  obtain ⟨w0, w1, w2, w3⟩ := idxw0_3 tz0
  funext j
  have hj0 : (j 0).val < 1 := lt_of_lt_of_eq (j 0).isLt e8
  have hj1 : (j 1).val < win0_6.xsize (grid0.coords t) (1 : Fin 2) := (j 1).isLt
  have hx1 : win0_6.xsize (grid0.coords t) (1 : Fin 2) ≤ 1024 := win0_6.xsize_le _ _
  have hxi : (cfg0.win 6).xinj (cfg0.grid.coords t) j = ix2 (⟨(j 0).val, hj0⟩ : Fin 1) (⟨(j 1).val, by omega⟩ : Fin 1024) :=
    funext fun a => Fin.ext (by match a with | ⟨0, _⟩ => rfl | ⟨1, _⟩ => rfl)
  show k0_pay1 (F := Ideal) (fetched0 m c 0 t d) (fetched0 m c 3 tz0 d') ((cfg0.win 6).xinj (cfg0.grid.coords t) j)
    = G0_6 m c (((cfg0.win 6).blk t).view.emb j)
  rw [hxi]
  refine (pay0_apply _ _ _ _).trans ?_
  refine Finset.sum_congr rfl fun p _ => ?_
  congr 1
  · -- the data block at a row the fetch moved is the data array's row
    unfold fetched0
    refine (ArrAtCover.fill_apply_of_lt (cfg0.win 0) _ _ _ _ (fun a => by
      match a with
      | ⟨0, _⟩ => show (j 1).val < win0_0.xsize (grid0.coords t) (0 : Fin 3); omega
      | ⟨1, _⟩ => show (j 0).val < win0_0.xsize (grid0.coords t) (1 : Fin 3); omega
      | ⟨2, _⟩ => show p.val < win0_0.xsize (grid0.coords t) (2 : Fin 3); omega)).trans ?_
    show A0 m c 0 (((cfg0.win 0).blk t).view.emb _) = dat0_6 m c _
    unfold dat0_6
    refine congrArg _ (funext fun a => Fin.ext ?_)
    match a with
    | ⟨0, _⟩ =>
      show win0_0.index t (0 : Fin 3) * 1024 + 1 * (j 1).val = win0_6.index t (1 : Fin 2) * 1024 + 1 * (j 1).val
      omega
    | ⟨1, _⟩ =>
      show win0_0.index t (1 : Fin 3) * 1 + 1 * (j 0).val = win0_6.index t (0 : Fin 2) * 1 + 1 * (j 0).val
      omega
    | ⟨2, _⟩ =>
      show win0_0.index t (2 : Fin 3) * 128 + 1 * p.val = p.val
      omega
  · -- the weight row as fetched is the weight array's
    unfold fetched0
    refine (ArrAtCover.fill_apply_of_lt (cfg0.win 3) _ _ _ _ (fun a => by
      match a with
      | ⟨0, _⟩ => show (0 : Nat) < win0_3.xsize (grid0.coords tz0) (0 : Fin 2); omega
      | ⟨1, _⟩ => show p.val < win0_3.xsize (grid0.coords tz0) (1 : Fin 2); have := p.isLt; omega)).trans ?_
    show A0 m c 3 (((cfg0.win 3).blk tz0).view.emb _) = wt0_6 m c _
    unfold wt0_6
    refine congrArg _ (funext fun a => Fin.ext ?_)
    match a with
    | ⟨0, _⟩ =>
      show win0_3.index tz0 (0 : Fin 2) * 1 + 1 * 0 = 0
      omega
    | ⟨1, _⟩ =>
      show win0_3.index tz0 (1 : Fin 2) * 128 + 1 * p.val = p.val
      omega

/-- An index of the result array is in point t's block iff each coordinate is in the block's moved range on its axis. -/
theorem mem_blk0_6 (t : Fin cfg0.N) (i : S1x8000.Idx) :
    i ∈ ((cfg0.win 6).blk t).view.set ↔ ∀ a : Fin 2, win0_6.index t a * S1x1024.size a ≤ (i a).val
      ∧ (i a).val < win0_6.index t a * S1x1024.size a + win0_6.xsize (grid0.coords t) a := by
  show i ∈ ((View.whole main_call0_v0_0).slice (win0_6.rect t)).set ↔ _
  rw [View.set_slice_whole, Rect.mem_set_unit]
  exact Iff.rfl

/-- Every column s of the result array lies in the block of point s / 1024. -/
theorem cover0_6 (i : S1x8000.Idx) : ∃ t : Fin cfg0.N, (cfg0.win 6).flush t = true ∧ i ∈ ((cfg0.win 6).blk t).view.set := by
  have hi0 : (i 0).val < 1 := (i 0).isLt
  have hi1 : (i 1).val < 8000 := (i 1).isLt
  have hN : cfg0.N = 8 := N_0
  let t : Fin cfg0.N := ⟨(i 1).val / 1024, by omega⟩
  have ht : t.val = (i 1).val / 1024 := rfl
  obtain ⟨e0, e1, e2, e3, e4, e5, e6, e7, e8, e9⟩ := idx0_6 t
  refine ⟨t, flush0_6 t, ?_⟩
  rw [mem_blk0_6]
  intro a
  match a with
  | ⟨0, _⟩ =>
    show win0_6.index t (0 : Fin 2) * 1 ≤ (i 0).val ∧ (i 0).val < win0_6.index t (0 : Fin 2) * 1 + win0_6.xsize (grid0.coords t) (0 : Fin 2)
    omega
  | ⟨1, _⟩ =>
    show win0_6.index t (1 : Fin 2) * 1024 ≤ (i 1).val ∧ (i 1).val < win0_6.index t (1 : Fin 2) * 1024 + win0_6.xsize (grid0.coords t) (1 : Fin 2)
    omega

/-- Whatever result array 0 of region 0 may hold after the last write-back is that array function: -/
theorem arr0_6 (c : Dev nD) (B : Buf (Elt Ideal) ((cfg0.win 6).arr.view.loc (c.tc : Thread nD τ)))
    (h : (rdat0 (F := Ideal) m c).ArrAt 6 cfg0.N B) : B = G0_6 m c :=
  ArrAtCover.arrAt_eq_of_cover (rdat0 (F := Ideal) m c) 6 (G0_6 m c)
    (fun t X _ hX => leaves0_6 m c t X hX) (cover0_6) B h

/-- its entry (c, s) is the weighted sum over p of the data array's entry (s, c, p) against the weight row's entry (0, p). -/
theorem out0_6 (c : Dev nD) (B : Buf (Elt Ideal) ((cfg0.win 6).arr.view.loc (c.tc : Thread nD τ)))
    (h : (rdat0 (F := Ideal) m c).ArrAt 6 cfg0.N B) (cc : Fin 1) (s : Fin 8000) :
    @Eq (Ideal .f32) (B (ix2 cc s)) (∑ p : Fin 128, dat0_6 m c (ix3 s cc p) * wt0_6 m c (ix2 (0 : Fin 1) p)) :=
  (congrFun (arr0_6 m c B h) (ix2 cc s)).trans (G0_6_apply m c cc s)

end Cert.KernelIdeal.Hand

end
-- ==== Proof.IdealArr0_7.lean ====
/-
  Region 0, result window 7: from the blocks the pipeline writes back to the result arrays. Whatever a result array may hold after the
  last write-back, its entry (c, s) is the weighted sum over the last axis of the data array's row s, component c,
  against the weight row.
-/
import proofs.«177139_j56324201120475_2_alg».proof.Proof.IdealData0
import proofs.«177139_j56324201120475_2_alg».proof.Proof.PayValue
import proofs.«177139_j56324201120475_2_alg».proof.Proof.LibFillMoved
import proofs.«177139_j56324201120475_2_alg».proof.Proof.LibArrAtCover
import Idealize.ShloMosaic.Lib.Pipeline.Value

set_option maxRecDepth 16384

noncomputable section

namespace Cert.KernelIdeal.Hand

open Cert.KernelIdeal Cert.KernelIdeal.Gen Cert.KernelIdeal.PayValue
open Idealize.ShloMosaic Idealize.ShloMosaic.TcCoe Idealize.ShloMosaic.ValueIdx
open Idealize.SL Idealize.SL.Sem
open Idealize.ShloMosaic.Pipeline (Dat RDat Cfg Window)

variable (m : (ℓ : Loc nD τ sig) → Buf (Elt Ideal) ℓ)

/-! ## Result window 7 (data window 1, weight window 4) -/

/-- The index maps and the cuts, decided over the grid: the data block and the result block at point t are block t of
    their arrays along the row axis, cut alike at the arrays' end; the other axes are whole. -/
theorem idx0_7 : ∀ t : Fin cfg0.N,
    win0_1.index t (0 : Fin 3) = t.val ∧ win0_1.index t (1 : Fin 3) = 0 ∧ win0_1.index t (2 : Fin 3) = 0
    ∧ win0_7.index t (0 : Fin 2) = 0 ∧ win0_7.index t (1 : Fin 2) = t.val
    ∧ win0_1.xsize (grid0.coords t) (0 : Fin 3) = win0_7.xsize (grid0.coords t) (1 : Fin 2)
    ∧ win0_1.xsize (grid0.coords t) (1 : Fin 3) = 1 ∧ win0_1.xsize (grid0.coords t) (2 : Fin 3) = 128
    ∧ win0_7.xsize (grid0.coords t) (0 : Fin 2) = 1
    ∧ t.val * 1024 + win0_7.xsize (grid0.coords t) (1 : Fin 2) = min ((t.val + 1) * 1024) 8000 :=
  (by decide +kernel : ∀ t : Fin grid0.N, _)

/-- The weight row's window is the whole row at every point. -/
theorem idxw0_4 : ∀ t : Fin cfg0.N,
    win0_4.index t (0 : Fin 2) = 0 ∧ win0_4.index t (1 : Fin 2) = 0
    ∧ win0_4.xsize (grid0.coords t) (0 : Fin 2) = 1 ∧ win0_4.xsize (grid0.coords t) (1 : Fin 2) = 128 :=
  (by decide +kernel : ∀ t : Fin grid0.N, _)

/-- The data array and the weight row of result window 7, as launched. -/
def dat0_7 (c : Dev nD) : FVec Ideal S8000x1x128 .f32 := A0 m c 1
def wt0_7 (c : Dev nD) : FVec Ideal S1x128 .f32 := A0 m c 4

/-- The array function the write-backs piece together: entry (c, s) is the weighted sum of the data array's row s,
    component c, against the weight row. -/
def G0_7 (c : Dev nD) : FVec Ideal S1x8000 .f32 :=
  fun i => ∑ p : Fin 128,
    dat0_7 m c (ix3 (⟨(i 1).val, (i 1).isLt⟩ : Fin 8000) (⟨(i 0).val, (i 0).isLt⟩ : Fin 1) p) * wt0_7 m c (ix2 (0 : Fin 1) p)

theorem G0_7_apply (c : Dev nD) (cc : Fin 1) (s : Fin 8000) :
    G0_7 m c (ix2 cc s) = ∑ p : Fin 128, dat0_7 m c (ix3 s cc p) * wt0_7 m c (ix2 (0 : Fin 1) p) := rfl

/-- The moved part of whatever the body may leave in the result's staging buffer at point t is block t of that array
    function: an entry of the moved part lies in a column inside the array, so the payload there reads the data block
    at a row the fetch moved, which is the data array's row, and the weight row as fetched, which is the weight array's. -/
theorem leaves0_7 (c : Dev nD) (t : Fin cfg0.N) (X : (cfg0.win 7).block.Idx → Elt Ideal (cfg0.win 7).elt)
    (hX : (rdat0 (F := Ideal) m c).Leaves 7 t X) :
    (cfg0.win 7).cut (cfg0.grid.coords t) X = ((cfg0.win 7).blk t).view.read (Elt Ideal) (G0_7 m c) := by
  obtain ⟨Y, -, d, d', rfl⟩ := hX
  obtain ⟨e0, e1, e2, e3, e4, e5, e6, e7, e8, e9⟩ := idx0_7 t
  obtain ⟨w0, w1, w2, w3⟩ := idxw0_4 tz0
  funext j
  have hj0 : (j 0).val < 1 := lt_of_lt_of_eq (j 0).isLt e8
  have hj1 : (j 1).val < win0_7.xsize (grid0.coords t) (1 : Fin 2) := (j 1).isLt
  have hx1 : win0_7.xsize (grid0.coords t) (1 : Fin 2) ≤ 1024 := win0_7.xsize_le _ _
  have hxi : (cfg0.win 7).xinj (cfg0.grid.coords t) j = ix2 (⟨(j 0).val, hj0⟩ : Fin 1) (⟨(j 1).val, by omega⟩ : Fin 1024) :=
    funext fun a => Fin.ext (by match a with | ⟨0, _⟩ => rfl | ⟨1, _⟩ => rfl)
  show k0_pay2 (F := Ideal) (fetched0 m c 1 t d) (fetched0 m c 4 tz0 d') ((cfg0.win 7).xinj (cfg0.grid.coords t) j)
    = G0_7 m c (((cfg0.win 7).blk t).view.emb j)
  rw [hxi, k0_pay2_eq]
  refine (pay0_apply _ _ _ _).trans ?_
  refine Finset.sum_congr rfl fun p _ => ?_
  congr 1
  · -- the data block at a row the fetch moved is the data array's row
    unfold fetched0
    refine (ArrAtCover.fill_apply_of_lt (cfg0.win 1) _ _ _ _ (fun a => by
      match a with
      | ⟨0, _⟩ => show (j 1).val < win0_1.xsize (grid0.coords t) (0 : Fin 3); omega
      | ⟨1, _⟩ => show (j 0).val < win0_1.xsize (grid0.coords t) (1 : Fin 3); omega
      | ⟨2, _⟩ => show p.val < win0_1.xsize (grid0.coords t) (2 : Fin 3); omega)).trans ?_
    show A0 m c 1 (((cfg0.win 1).blk t).view.emb _) = dat0_7 m c _
    unfold dat0_7
    refine congrArg _ (funext fun a => Fin.ext ?_)
    match a with
    | ⟨0, _⟩ =>
      show win0_1.index t (0 : Fin 3) * 1024 + 1 * (j 1).val = win0_7.index t (1 : Fin 2) * 1024 + 1 * (j 1).val
      omega
    | ⟨1, _⟩ =>
      show win0_1.index t (1 : Fin 3) * 1 + 1 * (j 0).val = win0_7.index t (0 : Fin 2) * 1 + 1 * (j 0).val
      omega
    | ⟨2, _⟩ =>
      show win0_1.index t (2 : Fin 3) * 128 + 1 * p.val = p.val
      omega
  · -- the weight row as fetched is the weight array's
    unfold fetched0
    refine (ArrAtCover.fill_apply_of_lt (cfg0.win 4) _ _ _ _ (fun a => by
      match a with
      | ⟨0, _⟩ => show (0 : Nat) < win0_4.xsize (grid0.coords tz0) (0 : Fin 2); omega
      | ⟨1, _⟩ => show p.val < win0_4.xsize (grid0.coords tz0) (1 : Fin 2); have := p.isLt; omega)).trans ?_
    show A0 m c 4 (((cfg0.win 4).blk tz0).view.emb _) = wt0_7 m c _
    unfold wt0_7
    refine congrArg _ (funext fun a => Fin.ext ?_)
    match a with
    | ⟨0, _⟩ =>
      show win0_4.index tz0 (0 : Fin 2) * 1 + 1 * 0 = 0
      omega
    | ⟨1, _⟩ =>
      show win0_4.index tz0 (1 : Fin 2) * 128 + 1 * p.val = p.val
      omega

/-- An index of the result array is in point t's block iff each coordinate is in the block's moved range on its axis. -/
theorem mem_blk0_7 (t : Fin cfg0.N) (i : S1x8000.Idx) :
    i ∈ ((cfg0.win 7).blk t).view.set ↔ ∀ a : Fin 2, win0_7.index t a * S1x1024.size a ≤ (i a).val
      ∧ (i a).val < win0_7.index t a * S1x1024.size a + win0_7.xsize (grid0.coords t) a := by
  show i ∈ ((View.whole main_call0_v0_1).slice (win0_7.rect t)).set ↔ _
  rw [View.set_slice_whole, Rect.mem_set_unit]
  exact Iff.rfl

/-- Every column s of the result array lies in the block of point s / 1024. -/
theorem cover0_7 (i : S1x8000.Idx) : ∃ t : Fin cfg0.N, (cfg0.win 7).flush t = true ∧ i ∈ ((cfg0.win 7).blk t).view.set := by
  have hi0 : (i 0).val < 1 := (i 0).isLt
  have hi1 : (i 1).val < 8000 := (i 1).isLt
  have hN : cfg0.N = 8 := N_0
  let t : Fin cfg0.N := ⟨(i 1).val / 1024, by omega⟩
  have ht : t.val = (i 1).val / 1024 := rfl
  obtain ⟨e0, e1, e2, e3, e4, e5, e6, e7, e8, e9⟩ := idx0_7 t
  refine ⟨t, flush0_7 t, ?_⟩
  rw [mem_blk0_7]
  intro a
  match a with
  | ⟨0, _⟩ =>
    show win0_7.index t (0 : Fin 2) * 1 ≤ (i 0).val ∧ (i 0).val < win0_7.index t (0 : Fin 2) * 1 + win0_7.xsize (grid0.coords t) (0 : Fin 2)
    omega
  | ⟨1, _⟩ =>
    show win0_7.index t (1 : Fin 2) * 1024 ≤ (i 1).val ∧ (i 1).val < win0_7.index t (1 : Fin 2) * 1024 + win0_7.xsize (grid0.coords t) (1 : Fin 2)
    omega

/-- Whatever result array 1 of region 0 may hold after the last write-back is that array function: -/
theorem arr0_7 (c : Dev nD) (B : Buf (Elt Ideal) ((cfg0.win 7).arr.view.loc (c.tc : Thread nD τ)))
    (h : (rdat0 (F := Ideal) m c).ArrAt 7 cfg0.N B) : B = G0_7 m c :=
  ArrAtCover.arrAt_eq_of_cover (rdat0 (F := Ideal) m c) 7 (G0_7 m c)
    (fun t X _ hX => leaves0_7 m c t X hX) (cover0_7) B h

/-- its entry (c, s) is the weighted sum over p of the data array's entry (s, c, p) against the weight row's entry (0, p). -/
theorem out0_7 (c : Dev nD) (B : Buf (Elt Ideal) ((cfg0.win 7).arr.view.loc (c.tc : Thread nD τ)))
    (h : (rdat0 (F := Ideal) m c).ArrAt 7 cfg0.N B) (cc : Fin 1) (s : Fin 8000) :
    @Eq (Ideal .f32) (B (ix2 cc s)) (∑ p : Fin 128, dat0_7 m c (ix3 s cc p) * wt0_7 m c (ix2 (0 : Fin 1) p)) :=
  (congrFun (arr0_7 m c B h) (ix2 cc s)).trans (G0_7_apply m c cc s)

end Cert.KernelIdeal.Hand

end
-- ==== Proof.IdealArr0_8.lean ====
/-
  Region 0, result window 8: from the blocks the pipeline writes back to the result arrays. Whatever a result array may hold after the
  last write-back, its entry (c, s) is the weighted sum over the last axis of the data array's row s, component c,
  against the weight row.
-/
import proofs.«177139_j56324201120475_2_alg».proof.Proof.IdealData0
import proofs.«177139_j56324201120475_2_alg».proof.Proof.PayValue
import proofs.«177139_j56324201120475_2_alg».proof.Proof.LibFillMoved
import proofs.«177139_j56324201120475_2_alg».proof.Proof.LibArrAtCover
import Idealize.ShloMosaic.Lib.Pipeline.Value

set_option maxRecDepth 16384

noncomputable section

namespace Cert.KernelIdeal.Hand

open Cert.KernelIdeal Cert.KernelIdeal.Gen Cert.KernelIdeal.PayValue
open Idealize.ShloMosaic Idealize.ShloMosaic.TcCoe Idealize.ShloMosaic.ValueIdx
open Idealize.SL Idealize.SL.Sem
open Idealize.ShloMosaic.Pipeline (Dat RDat Cfg Window)

variable (m : (ℓ : Loc nD τ sig) → Buf (Elt Ideal) ℓ)

/-! ## Result window 8 (data window 2, weight window 5) -/

/-- The index maps and the cuts, decided over the grid: the data block and the result block at point t are block t of
    their arrays along the row axis, cut alike at the arrays' end; the other axes are whole. -/
theorem idx0_8 : ∀ t : Fin cfg0.N,
    win0_2.index t (0 : Fin 3) = t.val ∧ win0_2.index t (1 : Fin 3) = 0 ∧ win0_2.index t (2 : Fin 3) = 0
    ∧ win0_8.index t (0 : Fin 2) = 0 ∧ win0_8.index t (1 : Fin 2) = t.val
    ∧ win0_2.xsize (grid0.coords t) (0 : Fin 3) = win0_8.xsize (grid0.coords t) (1 : Fin 2)
    ∧ win0_2.xsize (grid0.coords t) (1 : Fin 3) = 1 ∧ win0_2.xsize (grid0.coords t) (2 : Fin 3) = 128
    ∧ win0_8.xsize (grid0.coords t) (0 : Fin 2) = 1
    ∧ t.val * 1024 + win0_8.xsize (grid0.coords t) (1 : Fin 2) = min ((t.val + 1) * 1024) 8000 :=
  (by decide +kernel : ∀ t : Fin grid0.N, _)

/-- The weight row's window is the whole row at every point. -/
theorem idxw0_5 : ∀ t : Fin cfg0.N,
    win0_5.index t (0 : Fin 2) = 0 ∧ win0_5.index t (1 : Fin 2) = 0
    ∧ win0_5.xsize (grid0.coords t) (0 : Fin 2) = 1 ∧ win0_5.xsize (grid0.coords t) (1 : Fin 2) = 128 :=
  (by decide +kernel : ∀ t : Fin grid0.N, _)

/-- The data array and the weight row of result window 8, as launched. -/
def dat0_8 (c : Dev nD) : FVec Ideal S8000x1x128 .f32 := A0 m c 2
def wt0_8 (c : Dev nD) : FVec Ideal S1x128 .f32 := A0 m c 5

/-- The array function the write-backs piece together: entry (c, s) is the weighted sum of the data array's row s,
    component c, against the weight row. -/
def G0_8 (c : Dev nD) : FVec Ideal S1x8000 .f32 :=
  fun i => ∑ p : Fin 128,
    dat0_8 m c (ix3 (⟨(i 1).val, (i 1).isLt⟩ : Fin 8000) (⟨(i 0).val, (i 0).isLt⟩ : Fin 1) p) * wt0_8 m c (ix2 (0 : Fin 1) p)

theorem G0_8_apply (c : Dev nD) (cc : Fin 1) (s : Fin 8000) :
    G0_8 m c (ix2 cc s) = ∑ p : Fin 128, dat0_8 m c (ix3 s cc p) * wt0_8 m c (ix2 (0 : Fin 1) p) := rfl

/-- The moved part of whatever the body may leave in the result's staging buffer at point t is block t of that array
    function: an entry of the moved part lies in a column inside the array, so the payload there reads the data block
    at a row the fetch moved, which is the data array's row, and the weight row as fetched, which is the weight array's. -/
theorem leaves0_8 (c : Dev nD) (t : Fin cfg0.N) (X : (cfg0.win 8).block.Idx → Elt Ideal (cfg0.win 8).elt)
    (hX : (rdat0 (F := Ideal) m c).Leaves 8 t X) :
    (cfg0.win 8).cut (cfg0.grid.coords t) X = ((cfg0.win 8).blk t).view.read (Elt Ideal) (G0_8 m c) := by
  obtain ⟨Y, -, d, d', rfl⟩ := hX
  obtain ⟨e0, e1, e2, e3, e4, e5, e6, e7, e8, e9⟩ := idx0_8 t
  obtain ⟨w0, w1, w2, w3⟩ := idxw0_5 tz0
  funext j
  have hj0 : (j 0).val < 1 := lt_of_lt_of_eq (j 0).isLt e8
  have hj1 : (j 1).val < win0_8.xsize (grid0.coords t) (1 : Fin 2) := (j 1).isLt
  have hx1 : win0_8.xsize (grid0.coords t) (1 : Fin 2) ≤ 1024 := win0_8.xsize_le _ _
  have hxi : (cfg0.win 8).xinj (cfg0.grid.coords t) j = ix2 (⟨(j 0).val, hj0⟩ : Fin 1) (⟨(j 1).val, by omega⟩ : Fin 1024) :=
    funext fun a => Fin.ext (by match a with | ⟨0, _⟩ => rfl | ⟨1, _⟩ => rfl)
  show k0_pay3 (F := Ideal) (fetched0 m c 2 t d) (fetched0 m c 5 tz0 d') ((cfg0.win 8).xinj (cfg0.grid.coords t) j)
    = G0_8 m c (((cfg0.win 8).blk t).view.emb j)
  rw [hxi, k0_pay3_eq]
  refine (pay0_apply _ _ _ _).trans ?_
  refine Finset.sum_congr rfl fun p _ => ?_
  congr 1
  · -- the data block at a row the fetch moved is the data array's row
    unfold fetched0
    refine (ArrAtCover.fill_apply_of_lt (cfg0.win 2) _ _ _ _ (fun a => by
      match a with
      | ⟨0, _⟩ => show (j 1).val < win0_2.xsize (grid0.coords t) (0 : Fin 3); omega
      | ⟨1, _⟩ => show (j 0).val < win0_2.xsize (grid0.coords t) (1 : Fin 3); omega
      | ⟨2, _⟩ => show p.val < win0_2.xsize (grid0.coords t) (2 : Fin 3); omega)).trans ?_
    show A0 m c 2 (((cfg0.win 2).blk t).view.emb _) = dat0_8 m c _
    unfold dat0_8
    refine congrArg _ (funext fun a => Fin.ext ?_)
    match a with
    | ⟨0, _⟩ =>
      show win0_2.index t (0 : Fin 3) * 1024 + 1 * (j 1).val = win0_8.index t (1 : Fin 2) * 1024 + 1 * (j 1).val
      omega
    | ⟨1, _⟩ =>
      show win0_2.index t (1 : Fin 3) * 1 + 1 * (j 0).val = win0_8.index t (0 : Fin 2) * 1 + 1 * (j 0).val
      omega
    | ⟨2, _⟩ =>
      show win0_2.index t (2 : Fin 3) * 128 + 1 * p.val = p.val
      omega
  · -- the weight row as fetched is the weight array's
    unfold fetched0
    refine (ArrAtCover.fill_apply_of_lt (cfg0.win 5) _ _ _ _ (fun a => by
      match a with
      | ⟨0, _⟩ => show (0 : Nat) < win0_5.xsize (grid0.coords tz0) (0 : Fin 2); omega
      | ⟨1, _⟩ => show p.val < win0_5.xsize (grid0.coords tz0) (1 : Fin 2); have := p.isLt; omega)).trans ?_
    show A0 m c 5 (((cfg0.win 5).blk tz0).view.emb _) = wt0_8 m c _
    unfold wt0_8
    refine congrArg _ (funext fun a => Fin.ext ?_)
    match a with
    | ⟨0, _⟩ =>
      show win0_5.index tz0 (0 : Fin 2) * 1 + 1 * 0 = 0
      omega
    | ⟨1, _⟩ =>
      show win0_5.index tz0 (1 : Fin 2) * 128 + 1 * p.val = p.val
      omega

/-- An index of the result array is in point t's block iff each coordinate is in the block's moved range on its axis. -/
theorem mem_blk0_8 (t : Fin cfg0.N) (i : S1x8000.Idx) :
    i ∈ ((cfg0.win 8).blk t).view.set ↔ ∀ a : Fin 2, win0_8.index t a * S1x1024.size a ≤ (i a).val
      ∧ (i a).val < win0_8.index t a * S1x1024.size a + win0_8.xsize (grid0.coords t) a := by
  show i ∈ ((View.whole main_call0_v0_2).slice (win0_8.rect t)).set ↔ _
  rw [View.set_slice_whole, Rect.mem_set_unit]
  exact Iff.rfl

/-- Every column s of the result array lies in the block of point s / 1024. -/
theorem cover0_8 (i : S1x8000.Idx) : ∃ t : Fin cfg0.N, (cfg0.win 8).flush t = true ∧ i ∈ ((cfg0.win 8).blk t).view.set := by
  have hi0 : (i 0).val < 1 := (i 0).isLt
  have hi1 : (i 1).val < 8000 := (i 1).isLt
  have hN : cfg0.N = 8 := N_0
  let t : Fin cfg0.N := ⟨(i 1).val / 1024, by omega⟩
  have ht : t.val = (i 1).val / 1024 := rfl
  obtain ⟨e0, e1, e2, e3, e4, e5, e6, e7, e8, e9⟩ := idx0_8 t
  refine ⟨t, flush0_8 t, ?_⟩
  rw [mem_blk0_8]
  intro a
  match a with
  | ⟨0, _⟩ =>
    show win0_8.index t (0 : Fin 2) * 1 ≤ (i 0).val ∧ (i 0).val < win0_8.index t (0 : Fin 2) * 1 + win0_8.xsize (grid0.coords t) (0 : Fin 2)
    omega
  | ⟨1, _⟩ =>
    show win0_8.index t (1 : Fin 2) * 1024 ≤ (i 1).val ∧ (i 1).val < win0_8.index t (1 : Fin 2) * 1024 + win0_8.xsize (grid0.coords t) (1 : Fin 2)
    omega

/-- Whatever result array 2 of region 0 may hold after the last write-back is that array function: -/
theorem arr0_8 (c : Dev nD) (B : Buf (Elt Ideal) ((cfg0.win 8).arr.view.loc (c.tc : Thread nD τ)))
    (h : (rdat0 (F := Ideal) m c).ArrAt 8 cfg0.N B) : B = G0_8 m c :=
  ArrAtCover.arrAt_eq_of_cover (rdat0 (F := Ideal) m c) 8 (G0_8 m c)
    (fun t X _ hX => leaves0_8 m c t X hX) (cover0_8) B h

/-- its entry (c, s) is the weighted sum over p of the data array's entry (s, c, p) against the weight row's entry (0, p). -/
theorem out0_8 (c : Dev nD) (B : Buf (Elt Ideal) ((cfg0.win 8).arr.view.loc (c.tc : Thread nD τ)))
    (h : (rdat0 (F := Ideal) m c).ArrAt 8 cfg0.N B) (cc : Fin 1) (s : Fin 8000) :
    @Eq (Ideal .f32) (B (ix2 cc s)) (∑ p : Fin 128, dat0_8 m c (ix3 s cc p) * wt0_8 m c (ix2 (0 : Fin 1) p)) :=
  (congrFun (arr0_8 m c B h) (ix2 cc s)).trans (G0_8_apply m c cc s)

end Cert.KernelIdeal.Hand

end
-- ==== Proof.IdealArr0.lean ====
/-
  Region 0: from the blocks the pipeline writes back to the three result arrays (one module per result window).
-/
import proofs.«177139_j56324201120475_2_alg».proof.Proof.IdealArr0_6
import proofs.«177139_j56324201120475_2_alg».proof.Proof.IdealArr0_7
import proofs.«177139_j56324201120475_2_alg».proof.Proof.IdealArr0_8
-- ==== Proof.IdealArr1_6.lean ====
/-
  Region 1, result window 6: from the blocks the pipeline writes back to the result arrays. Whatever a result array may hold after the
  last write-back, its entry (c, s) is the weighted sum over the last axis of the data array's row s, component c,
  against the weight row.
-/
import proofs.«177139_j56324201120475_2_alg».proof.Proof.IdealData1
import proofs.«177139_j56324201120475_2_alg».proof.Proof.PayValue
import proofs.«177139_j56324201120475_2_alg».proof.Proof.LibFillMoved
import proofs.«177139_j56324201120475_2_alg».proof.Proof.LibArrAtCover
import Idealize.ShloMosaic.Lib.Pipeline.Value

set_option maxRecDepth 16384

noncomputable section

namespace Cert.KernelIdeal.Hand

open Cert.KernelIdeal Cert.KernelIdeal.Gen Cert.KernelIdeal.PayValue
open Idealize.ShloMosaic Idealize.ShloMosaic.TcCoe Idealize.ShloMosaic.ValueIdx
open Idealize.SL Idealize.SL.Sem
open Idealize.ShloMosaic.Pipeline (Dat RDat Cfg Window)

variable (m : (ℓ : Loc nD τ sig) → Buf (Elt Ideal) ℓ)

/-! ## Result window 6 (data window 0, weight window 3) -/

/-- The index maps and the cuts, decided over the grid: the data block and the result block at point t are block t of
    their arrays along the row axis, cut alike at the arrays' end; the other axes are whole. -/
theorem idx1_6 : ∀ t : Fin cfg1.N,
    win1_0.index t (0 : Fin 3) = t.val ∧ win1_0.index t (1 : Fin 3) = 0 ∧ win1_0.index t (2 : Fin 3) = 0
    ∧ win1_6.index t (0 : Fin 2) = 0 ∧ win1_6.index t (1 : Fin 2) = t.val
    ∧ win1_0.xsize (grid1.coords t) (0 : Fin 3) = win1_6.xsize (grid1.coords t) (1 : Fin 2)
    ∧ win1_0.xsize (grid1.coords t) (1 : Fin 3) = 3 ∧ win1_0.xsize (grid1.coords t) (2 : Fin 3) = 256
    ∧ win1_6.xsize (grid1.coords t) (0 : Fin 2) = 3
    ∧ t.val * 1024 + win1_6.xsize (grid1.coords t) (1 : Fin 2) = min ((t.val + 1) * 1024) 8000 :=
  (by decide +kernel : ∀ t : Fin grid1.N, _)

/-- The weight row's window is the whole row at every point. -/
theorem idxw1_3 : ∀ t : Fin cfg1.N,
    win1_3.index t (0 : Fin 2) = 0 ∧ win1_3.index t (1 : Fin 2) = 0
    ∧ win1_3.xsize (grid1.coords t) (0 : Fin 2) = 1 ∧ win1_3.xsize (grid1.coords t) (1 : Fin 2) = 256 :=
  (by decide +kernel : ∀ t : Fin grid1.N, _)

/-- The data array and the weight row of result window 6, as launched. -/
def dat1_6 (c : Dev nD) : FVec Ideal S8000x3x256 .f32 := A1 m c 0
def wt1_6 (c : Dev nD) : FVec Ideal S1x256 .f32 := A1 m c 3

/-- The array function the write-backs piece together: entry (c, s) is the weighted sum of the data array's row s,
    component c, against the weight row. -/
def G1_6 (c : Dev nD) : FVec Ideal S3x8000 .f32 :=
  fun i => ∑ p : Fin 256,
    dat1_6 m c (ix3 (⟨(i 1).val, (i 1).isLt⟩ : Fin 8000) (⟨(i 0).val, (i 0).isLt⟩ : Fin 3) p) * wt1_6 m c (ix2 (0 : Fin 1) p)

theorem G1_6_apply (c : Dev nD) (cc : Fin 3) (s : Fin 8000) :
    G1_6 m c (ix2 cc s) = ∑ p : Fin 256, dat1_6 m c (ix3 s cc p) * wt1_6 m c (ix2 (0 : Fin 1) p) := rfl

/-- The moved part of whatever the body may leave in the result's staging buffer at point t is block t of that array
    function: an entry of the moved part lies in a column inside the array, so the payload there reads the data block
    at a row the fetch moved, which is the data array's row, and the weight row as fetched, which is the weight array's. -/
theorem leaves1_6 (c : Dev nD) (t : Fin cfg1.N) (X : (cfg1.win 6).block.Idx → Elt Ideal (cfg1.win 6).elt)
    (hX : (rdat1 (F := Ideal) m c).Leaves 6 t X) :
    (cfg1.win 6).cut (cfg1.grid.coords t) X = ((cfg1.win 6).blk t).view.read (Elt Ideal) (G1_6 m c) := by
  obtain ⟨Y, -, d, d', rfl⟩ := hX
  obtain ⟨e0, e1, e2, e3, e4, e5, e6, e7, e8, e9⟩ := idx1_6 t
  obtain ⟨w0, w1, w2, w3⟩ := idxw1_3 tz1
  funext j
  have hj0 : (j 0).val < 3 := lt_of_lt_of_eq (j 0).isLt e8
  have hj1 : (j 1).val < win1_6.xsize (grid1.coords t) (1 : Fin 2) := (j 1).isLt
  have hx1 : win1_6.xsize (grid1.coords t) (1 : Fin 2) ≤ 1024 := win1_6.xsize_le _ _
  have hxi : (cfg1.win 6).xinj (cfg1.grid.coords t) j = ix2 (⟨(j 0).val, hj0⟩ : Fin 3) (⟨(j 1).val, by omega⟩ : Fin 1024) :=
    funext fun a => Fin.ext (by match a with | ⟨0, _⟩ => rfl | ⟨1, _⟩ => rfl)
  show k1_pay1 (F := Ideal) (fetched1 m c 0 t d) (fetched1 m c 3 tz1 d') ((cfg1.win 6).xinj (cfg1.grid.coords t) j)
    = G1_6 m c (((cfg1.win 6).blk t).view.emb j)
  rw [hxi]
  refine (pay1_apply _ _ _ _).trans ?_
  refine Finset.sum_congr rfl fun p _ => ?_
  congr 1
  · -- the data block at a row the fetch moved is the data array's row
    unfold fetched1
    refine (ArrAtCover.fill_apply_of_lt (cfg1.win 0) _ _ _ _ (fun a => by
      match a with
      | ⟨0, _⟩ => show (j 1).val < win1_0.xsize (grid1.coords t) (0 : Fin 3); omega
      | ⟨1, _⟩ => show (j 0).val < win1_0.xsize (grid1.coords t) (1 : Fin 3); omega
      | ⟨2, _⟩ => show p.val < win1_0.xsize (grid1.coords t) (2 : Fin 3); omega)).trans ?_
    show A1 m c 0 (((cfg1.win 0).blk t).view.emb _) = dat1_6 m c _
    unfold dat1_6
    refine congrArg _ (funext fun a => Fin.ext ?_)
    match a with
    | ⟨0, _⟩ =>
      show win1_0.index t (0 : Fin 3) * 1024 + 1 * (j 1).val = win1_6.index t (1 : Fin 2) * 1024 + 1 * (j 1).val
      omega
    | ⟨1, _⟩ =>
      show win1_0.index t (1 : Fin 3) * 3 + 1 * (j 0).val = win1_6.index t (0 : Fin 2) * 3 + 1 * (j 0).val
      omega
    | ⟨2, _⟩ =>
      show win1_0.index t (2 : Fin 3) * 256 + 1 * p.val = p.val
      omega
  · -- the weight row as fetched is the weight array's
    unfold fetched1
    refine (ArrAtCover.fill_apply_of_lt (cfg1.win 3) _ _ _ _ (fun a => by
      match a with
      | ⟨0, _⟩ => show (0 : Nat) < win1_3.xsize (grid1.coords tz1) (0 : Fin 2); omega
      | ⟨1, _⟩ => show p.val < win1_3.xsize (grid1.coords tz1) (1 : Fin 2); have := p.isLt; omega)).trans ?_
    show A1 m c 3 (((cfg1.win 3).blk tz1).view.emb _) = wt1_6 m c _
    unfold wt1_6
    refine congrArg _ (funext fun a => Fin.ext ?_)
    match a with
    | ⟨0, _⟩ =>
      show win1_3.index tz1 (0 : Fin 2) * 1 + 1 * 0 = 0
      omega
    | ⟨1, _⟩ =>
      show win1_3.index tz1 (1 : Fin 2) * 256 + 1 * p.val = p.val
      omega

/-- An index of the result array is in point t's block iff each coordinate is in the block's moved range on its axis. -/
theorem mem_blk1_6 (t : Fin cfg1.N) (i : S3x8000.Idx) :
    i ∈ ((cfg1.win 6).blk t).view.set ↔ ∀ a : Fin 2, win1_6.index t a * S3x1024.size a ≤ (i a).val
      ∧ (i a).val < win1_6.index t a * S3x1024.size a + win1_6.xsize (grid1.coords t) a := by
  show i ∈ ((View.whole main_call0_v7_0).slice (win1_6.rect t)).set ↔ _
  rw [View.set_slice_whole, Rect.mem_set_unit]
  exact Iff.rfl

/-- Every column s of the result array lies in the block of point s / 1024. -/
theorem cover1_6 (i : S3x8000.Idx) : ∃ t : Fin cfg1.N, (cfg1.win 6).flush t = true ∧ i ∈ ((cfg1.win 6).blk t).view.set := by
  have hi0 : (i 0).val < 3 := (i 0).isLt
  have hi1 : (i 1).val < 8000 := (i 1).isLt
  have hN : cfg1.N = 8 := N_1
  let t : Fin cfg1.N := ⟨(i 1).val / 1024, by omega⟩
  have ht : t.val = (i 1).val / 1024 := rfl
  obtain ⟨e0, e1, e2, e3, e4, e5, e6, e7, e8, e9⟩ := idx1_6 t
  refine ⟨t, flush1_6 t, ?_⟩
  rw [mem_blk1_6]
  intro a
  match a with
  | ⟨0, _⟩ =>
    show win1_6.index t (0 : Fin 2) * 3 ≤ (i 0).val ∧ (i 0).val < win1_6.index t (0 : Fin 2) * 3 + win1_6.xsize (grid1.coords t) (0 : Fin 2)
    omega
  | ⟨1, _⟩ =>
    show win1_6.index t (1 : Fin 2) * 1024 ≤ (i 1).val ∧ (i 1).val < win1_6.index t (1 : Fin 2) * 1024 + win1_6.xsize (grid1.coords t) (1 : Fin 2)
    omega

/-- Whatever result array 0 of region 1 may hold after the last write-back is that array function: -/
theorem arr1_6 (c : Dev nD) (B : Buf (Elt Ideal) ((cfg1.win 6).arr.view.loc (c.tc : Thread nD τ)))
    (h : (rdat1 (F := Ideal) m c).ArrAt 6 cfg1.N B) : B = G1_6 m c :=
  ArrAtCover.arrAt_eq_of_cover (rdat1 (F := Ideal) m c) 6 (G1_6 m c)
    (fun t X _ hX => leaves1_6 m c t X hX) (cover1_6) B h

/-- its entry (c, s) is the weighted sum over p of the data array's entry (s, c, p) against the weight row's entry (0, p). -/
theorem out1_6 (c : Dev nD) (B : Buf (Elt Ideal) ((cfg1.win 6).arr.view.loc (c.tc : Thread nD τ)))
    (h : (rdat1 (F := Ideal) m c).ArrAt 6 cfg1.N B) (cc : Fin 3) (s : Fin 8000) :
    @Eq (Ideal .f32) (B (ix2 cc s)) (∑ p : Fin 256, dat1_6 m c (ix3 s cc p) * wt1_6 m c (ix2 (0 : Fin 1) p)) :=
  (congrFun (arr1_6 m c B h) (ix2 cc s)).trans (G1_6_apply m c cc s)

end Cert.KernelIdeal.Hand

end
-- ==== Proof.IdealArr1_7.lean ====
/-
  Region 1, result window 7: from the blocks the pipeline writes back to the result arrays. Whatever a result array may hold after the
  last write-back, its entry (c, s) is the weighted sum over the last axis of the data array's row s, component c,
  against the weight row.
-/
import proofs.«177139_j56324201120475_2_alg».proof.Proof.IdealData1
import proofs.«177139_j56324201120475_2_alg».proof.Proof.PayValue
import proofs.«177139_j56324201120475_2_alg».proof.Proof.LibFillMoved
import proofs.«177139_j56324201120475_2_alg».proof.Proof.LibArrAtCover
import Idealize.ShloMosaic.Lib.Pipeline.Value

set_option maxRecDepth 16384

noncomputable section

namespace Cert.KernelIdeal.Hand

open Cert.KernelIdeal Cert.KernelIdeal.Gen Cert.KernelIdeal.PayValue
open Idealize.ShloMosaic Idealize.ShloMosaic.TcCoe Idealize.ShloMosaic.ValueIdx
open Idealize.SL Idealize.SL.Sem
open Idealize.ShloMosaic.Pipeline (Dat RDat Cfg Window)

variable (m : (ℓ : Loc nD τ sig) → Buf (Elt Ideal) ℓ)

/-! ## Result window 7 (data window 1, weight window 4) -/

/-- The index maps and the cuts, decided over the grid: the data block and the result block at point t are block t of
    their arrays along the row axis, cut alike at the arrays' end; the other axes are whole. -/
theorem idx1_7 : ∀ t : Fin cfg1.N,
    win1_1.index t (0 : Fin 3) = t.val ∧ win1_1.index t (1 : Fin 3) = 0 ∧ win1_1.index t (2 : Fin 3) = 0
    ∧ win1_7.index t (0 : Fin 2) = 0 ∧ win1_7.index t (1 : Fin 2) = t.val
    ∧ win1_1.xsize (grid1.coords t) (0 : Fin 3) = win1_7.xsize (grid1.coords t) (1 : Fin 2)
    ∧ win1_1.xsize (grid1.coords t) (1 : Fin 3) = 3 ∧ win1_1.xsize (grid1.coords t) (2 : Fin 3) = 256
    ∧ win1_7.xsize (grid1.coords t) (0 : Fin 2) = 3
    ∧ t.val * 1024 + win1_7.xsize (grid1.coords t) (1 : Fin 2) = min ((t.val + 1) * 1024) 8000 :=
  (by decide +kernel : ∀ t : Fin grid1.N, _)

/-- The weight row's window is the whole row at every point. -/
theorem idxw1_4 : ∀ t : Fin cfg1.N,
    win1_4.index t (0 : Fin 2) = 0 ∧ win1_4.index t (1 : Fin 2) = 0
    ∧ win1_4.xsize (grid1.coords t) (0 : Fin 2) = 1 ∧ win1_4.xsize (grid1.coords t) (1 : Fin 2) = 256 :=
  (by decide +kernel : ∀ t : Fin grid1.N, _)

/-- The data array and the weight row of result window 7, as launched. -/
def dat1_7 (c : Dev nD) : FVec Ideal S8000x3x256 .f32 := A1 m c 1
def wt1_7 (c : Dev nD) : FVec Ideal S1x256 .f32 := A1 m c 4

/-- The array function the write-backs piece together: entry (c, s) is the weighted sum of the data array's row s,
    component c, against the weight row. -/
def G1_7 (c : Dev nD) : FVec Ideal S3x8000 .f32 :=
  fun i => ∑ p : Fin 256,
    dat1_7 m c (ix3 (⟨(i 1).val, (i 1).isLt⟩ : Fin 8000) (⟨(i 0).val, (i 0).isLt⟩ : Fin 3) p) * wt1_7 m c (ix2 (0 : Fin 1) p)

theorem G1_7_apply (c : Dev nD) (cc : Fin 3) (s : Fin 8000) :
    G1_7 m c (ix2 cc s) = ∑ p : Fin 256, dat1_7 m c (ix3 s cc p) * wt1_7 m c (ix2 (0 : Fin 1) p) := rfl

/-- The moved part of whatever the body may leave in the result's staging buffer at point t is block t of that array
    function: an entry of the moved part lies in a column inside the array, so the payload there reads the data block
    at a row the fetch moved, which is the data array's row, and the weight row as fetched, which is the weight array's. -/
theorem leaves1_7 (c : Dev nD) (t : Fin cfg1.N) (X : (cfg1.win 7).block.Idx → Elt Ideal (cfg1.win 7).elt)
    (hX : (rdat1 (F := Ideal) m c).Leaves 7 t X) :
    (cfg1.win 7).cut (cfg1.grid.coords t) X = ((cfg1.win 7).blk t).view.read (Elt Ideal) (G1_7 m c) := by
  obtain ⟨Y, -, d, d', rfl⟩ := hX
  obtain ⟨e0, e1, e2, e3, e4, e5, e6, e7, e8, e9⟩ := idx1_7 t
  obtain ⟨w0, w1, w2, w3⟩ := idxw1_4 tz1
  funext j
  have hj0 : (j 0).val < 3 := lt_of_lt_of_eq (j 0).isLt e8
  have hj1 : (j 1).val < win1_7.xsize (grid1.coords t) (1 : Fin 2) := (j 1).isLt
  have hx1 : win1_7.xsize (grid1.coords t) (1 : Fin 2) ≤ 1024 := win1_7.xsize_le _ _
  have hxi : (cfg1.win 7).xinj (cfg1.grid.coords t) j = ix2 (⟨(j 0).val, hj0⟩ : Fin 3) (⟨(j 1).val, by omega⟩ : Fin 1024) :=
    funext fun a => Fin.ext (by match a with | ⟨0, _⟩ => rfl | ⟨1, _⟩ => rfl)
  show k1_pay2 (F := Ideal) (fetched1 m c 1 t d) (fetched1 m c 4 tz1 d') ((cfg1.win 7).xinj (cfg1.grid.coords t) j)
    = G1_7 m c (((cfg1.win 7).blk t).view.emb j)
  rw [hxi, k1_pay2_eq]
  refine (pay1_apply _ _ _ _).trans ?_
  refine Finset.sum_congr rfl fun p _ => ?_
  congr 1
  · -- the data block at a row the fetch moved is the data array's row
    unfold fetched1
    refine (ArrAtCover.fill_apply_of_lt (cfg1.win 1) _ _ _ _ (fun a => by
      match a with
      | ⟨0, _⟩ => show (j 1).val < win1_1.xsize (grid1.coords t) (0 : Fin 3); omega
      | ⟨1, _⟩ => show (j 0).val < win1_1.xsize (grid1.coords t) (1 : Fin 3); omega
      | ⟨2, _⟩ => show p.val < win1_1.xsize (grid1.coords t) (2 : Fin 3); omega)).trans ?_
    show A1 m c 1 (((cfg1.win 1).blk t).view.emb _) = dat1_7 m c _
    unfold dat1_7
    refine congrArg _ (funext fun a => Fin.ext ?_)
    match a with
    | ⟨0, _⟩ =>
      show win1_1.index t (0 : Fin 3) * 1024 + 1 * (j 1).val = win1_7.index t (1 : Fin 2) * 1024 + 1 * (j 1).val
      omega
    | ⟨1, _⟩ =>
      show win1_1.index t (1 : Fin 3) * 3 + 1 * (j 0).val = win1_7.index t (0 : Fin 2) * 3 + 1 * (j 0).val
      omega
    | ⟨2, _⟩ =>
      show win1_1.index t (2 : Fin 3) * 256 + 1 * p.val = p.val
      omega
  · -- the weight row as fetched is the weight array's
    unfold fetched1
    refine (ArrAtCover.fill_apply_of_lt (cfg1.win 4) _ _ _ _ (fun a => by
      match a with
      | ⟨0, _⟩ => show (0 : Nat) < win1_4.xsize (grid1.coords tz1) (0 : Fin 2); omega
      | ⟨1, _⟩ => show p.val < win1_4.xsize (grid1.coords tz1) (1 : Fin 2); have := p.isLt; omega)).trans ?_
    show A1 m c 4 (((cfg1.win 4).blk tz1).view.emb _) = wt1_7 m c _
    unfold wt1_7
    refine congrArg _ (funext fun a => Fin.ext ?_)
    match a with
    | ⟨0, _⟩ =>
      show win1_4.index tz1 (0 : Fin 2) * 1 + 1 * 0 = 0
      omega
    | ⟨1, _⟩ =>
      show win1_4.index tz1 (1 : Fin 2) * 256 + 1 * p.val = p.val
      omega

/-- An index of the result array is in point t's block iff each coordinate is in the block's moved range on its axis. -/
theorem mem_blk1_7 (t : Fin cfg1.N) (i : S3x8000.Idx) :
    i ∈ ((cfg1.win 7).blk t).view.set ↔ ∀ a : Fin 2, win1_7.index t a * S3x1024.size a ≤ (i a).val
      ∧ (i a).val < win1_7.index t a * S3x1024.size a + win1_7.xsize (grid1.coords t) a := by
  show i ∈ ((View.whole main_call0_v7_1).slice (win1_7.rect t)).set ↔ _
  rw [View.set_slice_whole, Rect.mem_set_unit]
  exact Iff.rfl

/-- Every column s of the result array lies in the block of point s / 1024. -/
theorem cover1_7 (i : S3x8000.Idx) : ∃ t : Fin cfg1.N, (cfg1.win 7).flush t = true ∧ i ∈ ((cfg1.win 7).blk t).view.set := by
  have hi0 : (i 0).val < 3 := (i 0).isLt
  have hi1 : (i 1).val < 8000 := (i 1).isLt
  have hN : cfg1.N = 8 := N_1
  let t : Fin cfg1.N := ⟨(i 1).val / 1024, by omega⟩
  have ht : t.val = (i 1).val / 1024 := rfl
  obtain ⟨e0, e1, e2, e3, e4, e5, e6, e7, e8, e9⟩ := idx1_7 t
  refine ⟨t, flush1_7 t, ?_⟩
  rw [mem_blk1_7]
  intro a
  match a with
  | ⟨0, _⟩ =>
    show win1_7.index t (0 : Fin 2) * 3 ≤ (i 0).val ∧ (i 0).val < win1_7.index t (0 : Fin 2) * 3 + win1_7.xsize (grid1.coords t) (0 : Fin 2)
    omega
  | ⟨1, _⟩ =>
    show win1_7.index t (1 : Fin 2) * 1024 ≤ (i 1).val ∧ (i 1).val < win1_7.index t (1 : Fin 2) * 1024 + win1_7.xsize (grid1.coords t) (1 : Fin 2)
    omega

/-- Whatever result array 1 of region 1 may hold after the last write-back is that array function: -/
theorem arr1_7 (c : Dev nD) (B : Buf (Elt Ideal) ((cfg1.win 7).arr.view.loc (c.tc : Thread nD τ)))
    (h : (rdat1 (F := Ideal) m c).ArrAt 7 cfg1.N B) : B = G1_7 m c :=
  ArrAtCover.arrAt_eq_of_cover (rdat1 (F := Ideal) m c) 7 (G1_7 m c)
    (fun t X _ hX => leaves1_7 m c t X hX) (cover1_7) B h

/-- its entry (c, s) is the weighted sum over p of the data array's entry (s, c, p) against the weight row's entry (0, p). -/
theorem out1_7 (c : Dev nD) (B : Buf (Elt Ideal) ((cfg1.win 7).arr.view.loc (c.tc : Thread nD τ)))
    (h : (rdat1 (F := Ideal) m c).ArrAt 7 cfg1.N B) (cc : Fin 3) (s : Fin 8000) :
    @Eq (Ideal .f32) (B (ix2 cc s)) (∑ p : Fin 256, dat1_7 m c (ix3 s cc p) * wt1_7 m c (ix2 (0 : Fin 1) p)) :=
  (congrFun (arr1_7 m c B h) (ix2 cc s)).trans (G1_7_apply m c cc s)

end Cert.KernelIdeal.Hand

end
-- ==== Proof.IdealArr1_8.lean ====
/-
  Region 1, result window 8: from the blocks the pipeline writes back to the result arrays. Whatever a result array may hold after the
  last write-back, its entry (c, s) is the weighted sum over the last axis of the data array's row s, component c,
  against the weight row.
-/
import proofs.«177139_j56324201120475_2_alg».proof.Proof.IdealData1
import proofs.«177139_j56324201120475_2_alg».proof.Proof.PayValue
import proofs.«177139_j56324201120475_2_alg».proof.Proof.LibFillMoved
import proofs.«177139_j56324201120475_2_alg».proof.Proof.LibArrAtCover
import Idealize.ShloMosaic.Lib.Pipeline.Value

set_option maxRecDepth 16384

noncomputable section

namespace Cert.KernelIdeal.Hand

open Cert.KernelIdeal Cert.KernelIdeal.Gen Cert.KernelIdeal.PayValue
open Idealize.ShloMosaic Idealize.ShloMosaic.TcCoe Idealize.ShloMosaic.ValueIdx
open Idealize.SL Idealize.SL.Sem
open Idealize.ShloMosaic.Pipeline (Dat RDat Cfg Window)

variable (m : (ℓ : Loc nD τ sig) → Buf (Elt Ideal) ℓ)

/-! ## Result window 8 (data window 2, weight window 5) -/

/-- The index maps and the cuts, decided over the grid: the data block and the result block at point t are block t of
    their arrays along the row axis, cut alike at the arrays' end; the other axes are whole. -/
theorem idx1_8 : ∀ t : Fin cfg1.N,
    win1_2.index t (0 : Fin 3) = t.val ∧ win1_2.index t (1 : Fin 3) = 0 ∧ win1_2.index t (2 : Fin 3) = 0
    ∧ win1_8.index t (0 : Fin 2) = 0 ∧ win1_8.index t (1 : Fin 2) = t.val
    ∧ win1_2.xsize (grid1.coords t) (0 : Fin 3) = win1_8.xsize (grid1.coords t) (1 : Fin 2)
    ∧ win1_2.xsize (grid1.coords t) (1 : Fin 3) = 3 ∧ win1_2.xsize (grid1.coords t) (2 : Fin 3) = 256
    ∧ win1_8.xsize (grid1.coords t) (0 : Fin 2) = 3
    ∧ t.val * 1024 + win1_8.xsize (grid1.coords t) (1 : Fin 2) = min ((t.val + 1) * 1024) 8000 :=
  (by decide +kernel : ∀ t : Fin grid1.N, _)

/-- The weight row's window is the whole row at every point. -/
theorem idxw1_5 : ∀ t : Fin cfg1.N,
    win1_5.index t (0 : Fin 2) = 0 ∧ win1_5.index t (1 : Fin 2) = 0
    ∧ win1_5.xsize (grid1.coords t) (0 : Fin 2) = 1 ∧ win1_5.xsize (grid1.coords t) (1 : Fin 2) = 256 :=
  (by decide +kernel : ∀ t : Fin grid1.N, _)

/-- The data array and the weight row of result window 8, as launched. -/
def dat1_8 (c : Dev nD) : FVec Ideal S8000x3x256 .f32 := A1 m c 2
def wt1_8 (c : Dev nD) : FVec Ideal S1x256 .f32 := A1 m c 5

/-- The array function the write-backs piece together: entry (c, s) is the weighted sum of the data array's row s,
    component c, against the weight row. -/
def G1_8 (c : Dev nD) : FVec Ideal S3x8000 .f32 :=
  fun i => ∑ p : Fin 256,
    dat1_8 m c (ix3 (⟨(i 1).val, (i 1).isLt⟩ : Fin 8000) (⟨(i 0).val, (i 0).isLt⟩ : Fin 3) p) * wt1_8 m c (ix2 (0 : Fin 1) p)

theorem G1_8_apply (c : Dev nD) (cc : Fin 3) (s : Fin 8000) :
    G1_8 m c (ix2 cc s) = ∑ p : Fin 256, dat1_8 m c (ix3 s cc p) * wt1_8 m c (ix2 (0 : Fin 1) p) := rfl

/-- The moved part of whatever the body may leave in the result's staging buffer at point t is block t of that array
    function: an entry of the moved part lies in a column inside the array, so the payload there reads the data block
    at a row the fetch moved, which is the data array's row, and the weight row as fetched, which is the weight array's. -/
theorem leaves1_8 (c : Dev nD) (t : Fin cfg1.N) (X : (cfg1.win 8).block.Idx → Elt Ideal (cfg1.win 8).elt)
    (hX : (rdat1 (F := Ideal) m c).Leaves 8 t X) :
    (cfg1.win 8).cut (cfg1.grid.coords t) X = ((cfg1.win 8).blk t).view.read (Elt Ideal) (G1_8 m c) := by
  obtain ⟨Y, -, d, d', rfl⟩ := hX
  obtain ⟨e0, e1, e2, e3, e4, e5, e6, e7, e8, e9⟩ := idx1_8 t
  obtain ⟨w0, w1, w2, w3⟩ := idxw1_5 tz1
  funext j
  have hj0 : (j 0).val < 3 := lt_of_lt_of_eq (j 0).isLt e8
  have hj1 : (j 1).val < win1_8.xsize (grid1.coords t) (1 : Fin 2) := (j 1).isLt
  have hx1 : win1_8.xsize (grid1.coords t) (1 : Fin 2) ≤ 1024 := win1_8.xsize_le _ _
  have hxi : (cfg1.win 8).xinj (cfg1.grid.coords t) j = ix2 (⟨(j 0).val, hj0⟩ : Fin 3) (⟨(j 1).val, by omega⟩ : Fin 1024) :=
    funext fun a => Fin.ext (by match a with | ⟨0, _⟩ => rfl | ⟨1, _⟩ => rfl)
  show k1_pay3 (F := Ideal) (fetched1 m c 2 t d) (fetched1 m c 5 tz1 d') ((cfg1.win 8).xinj (cfg1.grid.coords t) j)
    = G1_8 m c (((cfg1.win 8).blk t).view.emb j)
  rw [hxi, k1_pay3_eq]
  refine (pay1_apply _ _ _ _).trans ?_
  refine Finset.sum_congr rfl fun p _ => ?_
  congr 1
  · -- the data block at a row the fetch moved is the data array's row
    unfold fetched1
    refine (ArrAtCover.fill_apply_of_lt (cfg1.win 2) _ _ _ _ (fun a => by
      match a with
      | ⟨0, _⟩ => show (j 1).val < win1_2.xsize (grid1.coords t) (0 : Fin 3); omega
      | ⟨1, _⟩ => show (j 0).val < win1_2.xsize (grid1.coords t) (1 : Fin 3); omega
      | ⟨2, _⟩ => show p.val < win1_2.xsize (grid1.coords t) (2 : Fin 3); omega)).trans ?_
    show A1 m c 2 (((cfg1.win 2).blk t).view.emb _) = dat1_8 m c _
    unfold dat1_8
    refine congrArg _ (funext fun a => Fin.ext ?_)
    match a with
    | ⟨0, _⟩ =>
      show win1_2.index t (0 : Fin 3) * 1024 + 1 * (j 1).val = win1_8.index t (1 : Fin 2) * 1024 + 1 * (j 1).val
      omega
    | ⟨1, _⟩ =>
      show win1_2.index t (1 : Fin 3) * 3 + 1 * (j 0).val = win1_8.index t (0 : Fin 2) * 3 + 1 * (j 0).val
      omega
    | ⟨2, _⟩ =>
      show win1_2.index t (2 : Fin 3) * 256 + 1 * p.val = p.val
      omega
  · -- the weight row as fetched is the weight array's
    unfold fetched1
    refine (ArrAtCover.fill_apply_of_lt (cfg1.win 5) _ _ _ _ (fun a => by
      match a with
      | ⟨0, _⟩ => show (0 : Nat) < win1_5.xsize (grid1.coords tz1) (0 : Fin 2); omega
      | ⟨1, _⟩ => show p.val < win1_5.xsize (grid1.coords tz1) (1 : Fin 2); have := p.isLt; omega)).trans ?_
    show A1 m c 5 (((cfg1.win 5).blk tz1).view.emb _) = wt1_8 m c _
    unfold wt1_8
    refine congrArg _ (funext fun a => Fin.ext ?_)
    match a with
    | ⟨0, _⟩ =>
      show win1_5.index tz1 (0 : Fin 2) * 1 + 1 * 0 = 0
      omega
    | ⟨1, _⟩ =>
      show win1_5.index tz1 (1 : Fin 2) * 256 + 1 * p.val = p.val
      omega

/-- An index of the result array is in point t's block iff each coordinate is in the block's moved range on its axis. -/
theorem mem_blk1_8 (t : Fin cfg1.N) (i : S3x8000.Idx) :
    i ∈ ((cfg1.win 8).blk t).view.set ↔ ∀ a : Fin 2, win1_8.index t a * S3x1024.size a ≤ (i a).val
      ∧ (i a).val < win1_8.index t a * S3x1024.size a + win1_8.xsize (grid1.coords t) a := by
  show i ∈ ((View.whole main_call0_v7_2).slice (win1_8.rect t)).set ↔ _
  rw [View.set_slice_whole, Rect.mem_set_unit]
  exact Iff.rfl

/-- Every column s of the result array lies in the block of point s / 1024. -/
theorem cover1_8 (i : S3x8000.Idx) : ∃ t : Fin cfg1.N, (cfg1.win 8).flush t = true ∧ i ∈ ((cfg1.win 8).blk t).view.set := by
  have hi0 : (i 0).val < 3 := (i 0).isLt
  have hi1 : (i 1).val < 8000 := (i 1).isLt
  have hN : cfg1.N = 8 := N_1
  let t : Fin cfg1.N := ⟨(i 1).val / 1024, by omega⟩
  have ht : t.val = (i 1).val / 1024 := rfl
  obtain ⟨e0, e1, e2, e3, e4, e5, e6, e7, e8, e9⟩ := idx1_8 t
  refine ⟨t, flush1_8 t, ?_⟩
  rw [mem_blk1_8]
  intro a
  match a with
  | ⟨0, _⟩ =>
    show win1_8.index t (0 : Fin 2) * 3 ≤ (i 0).val ∧ (i 0).val < win1_8.index t (0 : Fin 2) * 3 + win1_8.xsize (grid1.coords t) (0 : Fin 2)
    omega
  | ⟨1, _⟩ =>
    show win1_8.index t (1 : Fin 2) * 1024 ≤ (i 1).val ∧ (i 1).val < win1_8.index t (1 : Fin 2) * 1024 + win1_8.xsize (grid1.coords t) (1 : Fin 2)
    omega

/-- Whatever result array 2 of region 1 may hold after the last write-back is that array function: -/
theorem arr1_8 (c : Dev nD) (B : Buf (Elt Ideal) ((cfg1.win 8).arr.view.loc (c.tc : Thread nD τ)))
    (h : (rdat1 (F := Ideal) m c).ArrAt 8 cfg1.N B) : B = G1_8 m c :=
  ArrAtCover.arrAt_eq_of_cover (rdat1 (F := Ideal) m c) 8 (G1_8 m c)
    (fun t X _ hX => leaves1_8 m c t X hX) (cover1_8) B h

/-- its entry (c, s) is the weighted sum over p of the data array's entry (s, c, p) against the weight row's entry (0, p). -/
theorem out1_8 (c : Dev nD) (B : Buf (Elt Ideal) ((cfg1.win 8).arr.view.loc (c.tc : Thread nD τ)))
    (h : (rdat1 (F := Ideal) m c).ArrAt 8 cfg1.N B) (cc : Fin 3) (s : Fin 8000) :
    @Eq (Ideal .f32) (B (ix2 cc s)) (∑ p : Fin 256, dat1_8 m c (ix3 s cc p) * wt1_8 m c (ix2 (0 : Fin 1) p)) :=
  (congrFun (arr1_8 m c B h) (ix2 cc s)).trans (G1_8_apply m c cc s)

end Cert.KernelIdeal.Hand

end
-- ==== Proof.IdealArr1.lean ====
/-
  Region 1: from the blocks the pipeline writes back to the three result arrays (one module per result window).
-/
import proofs.«177139_j56324201120475_2_alg».proof.Proof.IdealArr1_6
import proofs.«177139_j56324201120475_2_alg».proof.Proof.IdealArr1_7
import proofs.«177139_j56324201120475_2_alg».proof.Proof.IdealArr1_8
-- ==== Proof.IdealArr2_6.lean ====
/-
  Region 2, result window 6: from the blocks the pipeline writes back to the result arrays. Whatever a result array may hold after the
  last write-back, its entry (c, s) is the weighted sum over the last axis of the data array's row s, component c,
  against the weight row.
-/
import proofs.«177139_j56324201120475_2_alg».proof.Proof.IdealData2
import proofs.«177139_j56324201120475_2_alg».proof.Proof.PayValue
import proofs.«177139_j56324201120475_2_alg».proof.Proof.LibFillMoved
import proofs.«177139_j56324201120475_2_alg».proof.Proof.LibArrAtCover
import Idealize.ShloMosaic.Lib.Pipeline.Value

set_option maxRecDepth 16384

noncomputable section

namespace Cert.KernelIdeal.Hand

open Cert.KernelIdeal Cert.KernelIdeal.Gen Cert.KernelIdeal.PayValue
open Idealize.ShloMosaic Idealize.ShloMosaic.TcCoe Idealize.ShloMosaic.ValueIdx
open Idealize.SL Idealize.SL.Sem
open Idealize.ShloMosaic.Pipeline (Dat RDat Cfg Window)

variable (m : (ℓ : Loc nD τ sig) → Buf (Elt Ideal) ℓ)

/-! ## Result window 6 (data window 0, weight window 3) -/

/-- The index maps and the cuts, decided over the grid: the data block and the result block at point t are block t of
    their arrays along the row axis, cut alike at the arrays' end; the other axes are whole. -/
theorem idx2_6 : ∀ t : Fin cfg2.N,
    win2_0.index t (0 : Fin 3) = t.val ∧ win2_0.index t (1 : Fin 3) = 0 ∧ win2_0.index t (2 : Fin 3) = 0
    ∧ win2_6.index t (0 : Fin 2) = 0 ∧ win2_6.index t (1 : Fin 2) = t.val
    ∧ win2_0.xsize (grid2.coords t) (0 : Fin 3) = win2_6.xsize (grid2.coords t) (1 : Fin 2)
    ∧ win2_0.xsize (grid2.coords t) (1 : Fin 3) = 5 ∧ win2_0.xsize (grid2.coords t) (2 : Fin 3) = 512
    ∧ win2_6.xsize (grid2.coords t) (0 : Fin 2) = 5
    ∧ t.val * 512 + win2_6.xsize (grid2.coords t) (1 : Fin 2) = min ((t.val + 1) * 512) 8000 :=
  (by decide +kernel : ∀ t : Fin grid2.N, _)

/-- The weight row's window is the whole row at every point. -/
theorem idxw2_3 : ∀ t : Fin cfg2.N,
    win2_3.index t (0 : Fin 2) = 0 ∧ win2_3.index t (1 : Fin 2) = 0
    ∧ win2_3.xsize (grid2.coords t) (0 : Fin 2) = 1 ∧ win2_3.xsize (grid2.coords t) (1 : Fin 2) = 512 :=
  (by decide +kernel : ∀ t : Fin grid2.N, _)

/-- The data array and the weight row of result window 6, as launched. -/
def dat2_6 (c : Dev nD) : FVec Ideal S8000x5x512 .f32 := A2 m c 0
def wt2_6 (c : Dev nD) : FVec Ideal S1x512 .f32 := A2 m c 3

/-- The array function the write-backs piece together: entry (c, s) is the weighted sum of the data array's row s,
    component c, against the weight row. -/
def G2_6 (c : Dev nD) : FVec Ideal S5x8000 .f32 :=
  fun i => ∑ p : Fin 512,
    dat2_6 m c (ix3 (⟨(i 1).val, (i 1).isLt⟩ : Fin 8000) (⟨(i 0).val, (i 0).isLt⟩ : Fin 5) p) * wt2_6 m c (ix2 (0 : Fin 1) p)

theorem G2_6_apply (c : Dev nD) (cc : Fin 5) (s : Fin 8000) :
    G2_6 m c (ix2 cc s) = ∑ p : Fin 512, dat2_6 m c (ix3 s cc p) * wt2_6 m c (ix2 (0 : Fin 1) p) := rfl

/-- The moved part of whatever the body may leave in the result's staging buffer at point t is block t of that array
    function: an entry of the moved part lies in a column inside the array, so the payload there reads the data block
    at a row the fetch moved, which is the data array's row, and the weight row as fetched, which is the weight array's. -/
theorem leaves2_6 (c : Dev nD) (t : Fin cfg2.N) (X : (cfg2.win 6).block.Idx → Elt Ideal (cfg2.win 6).elt)
    (hX : (rdat2 (F := Ideal) m c).Leaves 6 t X) :
    (cfg2.win 6).cut (cfg2.grid.coords t) X = ((cfg2.win 6).blk t).view.read (Elt Ideal) (G2_6 m c) := by
  obtain ⟨Y, -, d, d', rfl⟩ := hX
  obtain ⟨e0, e1, e2, e3, e4, e5, e6, e7, e8, e9⟩ := idx2_6 t
  obtain ⟨w0, w1, w2, w3⟩ := idxw2_3 tz2
  funext j
  have hj0 : (j 0).val < 5 := lt_of_lt_of_eq (j 0).isLt e8
  have hj1 : (j 1).val < win2_6.xsize (grid2.coords t) (1 : Fin 2) := (j 1).isLt
  have hx1 : win2_6.xsize (grid2.coords t) (1 : Fin 2) ≤ 512 := win2_6.xsize_le _ _
  have hxi : (cfg2.win 6).xinj (cfg2.grid.coords t) j = ix2 (⟨(j 0).val, hj0⟩ : Fin 5) (⟨(j 1).val, by omega⟩ : Fin 512) :=
    funext fun a => Fin.ext (by match a with | ⟨0, _⟩ => rfl | ⟨1, _⟩ => rfl)
  show k2_pay1 (F := Ideal) (fetched2 m c 0 t d) (fetched2 m c 3 tz2 d') ((cfg2.win 6).xinj (cfg2.grid.coords t) j)
    = G2_6 m c (((cfg2.win 6).blk t).view.emb j)
  rw [hxi]
  refine (pay2_apply _ _ _ _).trans ?_
  refine Finset.sum_congr rfl fun p _ => ?_
  congr 1
  · -- the data block at a row the fetch moved is the data array's row
    unfold fetched2
    refine (ArrAtCover.fill_apply_of_lt (cfg2.win 0) _ _ _ _ (fun a => by
      match a with
      | ⟨0, _⟩ => show (j 1).val < win2_0.xsize (grid2.coords t) (0 : Fin 3); omega
      | ⟨1, _⟩ => show (j 0).val < win2_0.xsize (grid2.coords t) (1 : Fin 3); omega
      | ⟨2, _⟩ => show p.val < win2_0.xsize (grid2.coords t) (2 : Fin 3); omega)).trans ?_
    show A2 m c 0 (((cfg2.win 0).blk t).view.emb _) = dat2_6 m c _
    unfold dat2_6
    refine congrArg _ (funext fun a => Fin.ext ?_)
    match a with
    | ⟨0, _⟩ =>
      show win2_0.index t (0 : Fin 3) * 512 + 1 * (j 1).val = win2_6.index t (1 : Fin 2) * 512 + 1 * (j 1).val
      omega
    | ⟨1, _⟩ =>
      show win2_0.index t (1 : Fin 3) * 5 + 1 * (j 0).val = win2_6.index t (0 : Fin 2) * 5 + 1 * (j 0).val
      omega
    | ⟨2, _⟩ =>
      show win2_0.index t (2 : Fin 3) * 512 + 1 * p.val = p.val
      omega
  · -- the weight row as fetched is the weight array's
    unfold fetched2
    refine (ArrAtCover.fill_apply_of_lt (cfg2.win 3) _ _ _ _ (fun a => by
      match a with
      | ⟨0, _⟩ => show (0 : Nat) < win2_3.xsize (grid2.coords tz2) (0 : Fin 2); omega
      | ⟨1, _⟩ => show p.val < win2_3.xsize (grid2.coords tz2) (1 : Fin 2); have := p.isLt; omega)).trans ?_
    show A2 m c 3 (((cfg2.win 3).blk tz2).view.emb _) = wt2_6 m c _
    unfold wt2_6
    refine congrArg _ (funext fun a => Fin.ext ?_)
    match a with
    | ⟨0, _⟩ =>
      show win2_3.index tz2 (0 : Fin 2) * 1 + 1 * 0 = 0
      omega
    | ⟨1, _⟩ =>
      show win2_3.index tz2 (1 : Fin 2) * 512 + 1 * p.val = p.val
      omega

/-- An index of the result array is in point t's block iff each coordinate is in the block's moved range on its axis. -/
theorem mem_blk2_6 (t : Fin cfg2.N) (i : S5x8000.Idx) :
    i ∈ ((cfg2.win 6).blk t).view.set ↔ ∀ a : Fin 2, win2_6.index t a * S5x512.size a ≤ (i a).val
      ∧ (i a).val < win2_6.index t a * S5x512.size a + win2_6.xsize (grid2.coords t) a := by
  show i ∈ ((View.whole main_call0_v14_0).slice (win2_6.rect t)).set ↔ _
  rw [View.set_slice_whole, Rect.mem_set_unit]
  exact Iff.rfl

/-- Every column s of the result array lies in the block of point s / 512. -/
theorem cover2_6 (i : S5x8000.Idx) : ∃ t : Fin cfg2.N, (cfg2.win 6).flush t = true ∧ i ∈ ((cfg2.win 6).blk t).view.set := by
  have hi0 : (i 0).val < 5 := (i 0).isLt
  have hi1 : (i 1).val < 8000 := (i 1).isLt
  have hN : cfg2.N = 16 := N_2
  let t : Fin cfg2.N := ⟨(i 1).val / 512, by omega⟩
  have ht : t.val = (i 1).val / 512 := rfl
  obtain ⟨e0, e1, e2, e3, e4, e5, e6, e7, e8, e9⟩ := idx2_6 t
  refine ⟨t, flush2_6 t, ?_⟩
  rw [mem_blk2_6]
  intro a
  match a with
  | ⟨0, _⟩ =>
    show win2_6.index t (0 : Fin 2) * 5 ≤ (i 0).val ∧ (i 0).val < win2_6.index t (0 : Fin 2) * 5 + win2_6.xsize (grid2.coords t) (0 : Fin 2)
    omega
  | ⟨1, _⟩ =>
    show win2_6.index t (1 : Fin 2) * 512 ≤ (i 1).val ∧ (i 1).val < win2_6.index t (1 : Fin 2) * 512 + win2_6.xsize (grid2.coords t) (1 : Fin 2)
    omega

/-- Whatever result array 0 of region 2 may hold after the last write-back is that array function: -/
theorem arr2_6 (c : Dev nD) (B : Buf (Elt Ideal) ((cfg2.win 6).arr.view.loc (c.tc : Thread nD τ)))
    (h : (rdat2 (F := Ideal) m c).ArrAt 6 cfg2.N B) : B = G2_6 m c :=
  ArrAtCover.arrAt_eq_of_cover (rdat2 (F := Ideal) m c) 6 (G2_6 m c)
    (fun t X _ hX => leaves2_6 m c t X hX) (cover2_6) B h

/-- its entry (c, s) is the weighted sum over p of the data array's entry (s, c, p) against the weight row's entry (0, p). -/
theorem out2_6 (c : Dev nD) (B : Buf (Elt Ideal) ((cfg2.win 6).arr.view.loc (c.tc : Thread nD τ)))
    (h : (rdat2 (F := Ideal) m c).ArrAt 6 cfg2.N B) (cc : Fin 5) (s : Fin 8000) :
    @Eq (Ideal .f32) (B (ix2 cc s)) (∑ p : Fin 512, dat2_6 m c (ix3 s cc p) * wt2_6 m c (ix2 (0 : Fin 1) p)) :=
  (congrFun (arr2_6 m c B h) (ix2 cc s)).trans (G2_6_apply m c cc s)

end Cert.KernelIdeal.Hand

end
-- ==== Proof.IdealArr2_7.lean ====
/-
  Region 2, result window 7: from the blocks the pipeline writes back to the result arrays. Whatever a result array may hold after the
  last write-back, its entry (c, s) is the weighted sum over the last axis of the data array's row s, component c,
  against the weight row.
-/
import proofs.«177139_j56324201120475_2_alg».proof.Proof.IdealData2
import proofs.«177139_j56324201120475_2_alg».proof.Proof.PayValue
import proofs.«177139_j56324201120475_2_alg».proof.Proof.LibFillMoved
import proofs.«177139_j56324201120475_2_alg».proof.Proof.LibArrAtCover
import Idealize.ShloMosaic.Lib.Pipeline.Value

set_option maxRecDepth 16384

noncomputable section

namespace Cert.KernelIdeal.Hand

open Cert.KernelIdeal Cert.KernelIdeal.Gen Cert.KernelIdeal.PayValue
open Idealize.ShloMosaic Idealize.ShloMosaic.TcCoe Idealize.ShloMosaic.ValueIdx
open Idealize.SL Idealize.SL.Sem
open Idealize.ShloMosaic.Pipeline (Dat RDat Cfg Window)

variable (m : (ℓ : Loc nD τ sig) → Buf (Elt Ideal) ℓ)

/-! ## Result window 7 (data window 1, weight window 4) -/

/-- The index maps and the cuts, decided over the grid: the data block and the result block at point t are block t of
    their arrays along the row axis, cut alike at the arrays' end; the other axes are whole. -/
theorem idx2_7 : ∀ t : Fin cfg2.N,
    win2_1.index t (0 : Fin 3) = t.val ∧ win2_1.index t (1 : Fin 3) = 0 ∧ win2_1.index t (2 : Fin 3) = 0
    ∧ win2_7.index t (0 : Fin 2) = 0 ∧ win2_7.index t (1 : Fin 2) = t.val
    ∧ win2_1.xsize (grid2.coords t) (0 : Fin 3) = win2_7.xsize (grid2.coords t) (1 : Fin 2)
    ∧ win2_1.xsize (grid2.coords t) (1 : Fin 3) = 5 ∧ win2_1.xsize (grid2.coords t) (2 : Fin 3) = 512
    ∧ win2_7.xsize (grid2.coords t) (0 : Fin 2) = 5
    ∧ t.val * 512 + win2_7.xsize (grid2.coords t) (1 : Fin 2) = min ((t.val + 1) * 512) 8000 :=
  (by decide +kernel : ∀ t : Fin grid2.N, _)

/-- The weight row's window is the whole row at every point. -/
theorem idxw2_4 : ∀ t : Fin cfg2.N,
    win2_4.index t (0 : Fin 2) = 0 ∧ win2_4.index t (1 : Fin 2) = 0
    ∧ win2_4.xsize (grid2.coords t) (0 : Fin 2) = 1 ∧ win2_4.xsize (grid2.coords t) (1 : Fin 2) = 512 :=
  (by decide +kernel : ∀ t : Fin grid2.N, _)

/-- The data array and the weight row of result window 7, as launched. -/
def dat2_7 (c : Dev nD) : FVec Ideal S8000x5x512 .f32 := A2 m c 1
def wt2_7 (c : Dev nD) : FVec Ideal S1x512 .f32 := A2 m c 4

/-- The array function the write-backs piece together: entry (c, s) is the weighted sum of the data array's row s,
    component c, against the weight row. -/
def G2_7 (c : Dev nD) : FVec Ideal S5x8000 .f32 :=
  fun i => ∑ p : Fin 512,
    dat2_7 m c (ix3 (⟨(i 1).val, (i 1).isLt⟩ : Fin 8000) (⟨(i 0).val, (i 0).isLt⟩ : Fin 5) p) * wt2_7 m c (ix2 (0 : Fin 1) p)

theorem G2_7_apply (c : Dev nD) (cc : Fin 5) (s : Fin 8000) :
    G2_7 m c (ix2 cc s) = ∑ p : Fin 512, dat2_7 m c (ix3 s cc p) * wt2_7 m c (ix2 (0 : Fin 1) p) := rfl

/-- The moved part of whatever the body may leave in the result's staging buffer at point t is block t of that array
    function: an entry of the moved part lies in a column inside the array, so the payload there reads the data block
    at a row the fetch moved, which is the data array's row, and the weight row as fetched, which is the weight array's. -/
theorem leaves2_7 (c : Dev nD) (t : Fin cfg2.N) (X : (cfg2.win 7).block.Idx → Elt Ideal (cfg2.win 7).elt)
    (hX : (rdat2 (F := Ideal) m c).Leaves 7 t X) :
    (cfg2.win 7).cut (cfg2.grid.coords t) X = ((cfg2.win 7).blk t).view.read (Elt Ideal) (G2_7 m c) := by
  obtain ⟨Y, -, d, d', rfl⟩ := hX
  obtain ⟨e0, e1, e2, e3, e4, e5, e6, e7, e8, e9⟩ := idx2_7 t
  obtain ⟨w0, w1, w2, w3⟩ := idxw2_4 tz2
  funext j
  have hj0 : (j 0).val < 5 := lt_of_lt_of_eq (j 0).isLt e8
  have hj1 : (j 1).val < win2_7.xsize (grid2.coords t) (1 : Fin 2) := (j 1).isLt
  have hx1 : win2_7.xsize (grid2.coords t) (1 : Fin 2) ≤ 512 := win2_7.xsize_le _ _
  have hxi : (cfg2.win 7).xinj (cfg2.grid.coords t) j = ix2 (⟨(j 0).val, hj0⟩ : Fin 5) (⟨(j 1).val, by omega⟩ : Fin 512) :=
    funext fun a => Fin.ext (by match a with | ⟨0, _⟩ => rfl | ⟨1, _⟩ => rfl)
  show k2_pay2 (F := Ideal) (fetched2 m c 1 t d) (fetched2 m c 4 tz2 d') ((cfg2.win 7).xinj (cfg2.grid.coords t) j)
    = G2_7 m c (((cfg2.win 7).blk t).view.emb j)
  rw [hxi, k2_pay2_eq]
  refine (pay2_apply _ _ _ _).trans ?_
  refine Finset.sum_congr rfl fun p _ => ?_
  congr 1
  · -- the data block at a row the fetch moved is the data array's row
    unfold fetched2
    refine (ArrAtCover.fill_apply_of_lt (cfg2.win 1) _ _ _ _ (fun a => by
      match a with
      | ⟨0, _⟩ => show (j 1).val < win2_1.xsize (grid2.coords t) (0 : Fin 3); omega
      | ⟨1, _⟩ => show (j 0).val < win2_1.xsize (grid2.coords t) (1 : Fin 3); omega
      | ⟨2, _⟩ => show p.val < win2_1.xsize (grid2.coords t) (2 : Fin 3); omega)).trans ?_
    show A2 m c 1 (((cfg2.win 1).blk t).view.emb _) = dat2_7 m c _
    unfold dat2_7
    refine congrArg _ (funext fun a => Fin.ext ?_)
    match a with
    | ⟨0, _⟩ =>
      show win2_1.index t (0 : Fin 3) * 512 + 1 * (j 1).val = win2_7.index t (1 : Fin 2) * 512 + 1 * (j 1).val
      omega
    | ⟨1, _⟩ =>
      show win2_1.index t (1 : Fin 3) * 5 + 1 * (j 0).val = win2_7.index t (0 : Fin 2) * 5 + 1 * (j 0).val
      omega
    | ⟨2, _⟩ =>
      show win2_1.index t (2 : Fin 3) * 512 + 1 * p.val = p.val
      omega
  · -- the weight row as fetched is the weight array's
    unfold fetched2
    refine (ArrAtCover.fill_apply_of_lt (cfg2.win 4) _ _ _ _ (fun a => by
      match a with
      | ⟨0, _⟩ => show (0 : Nat) < win2_4.xsize (grid2.coords tz2) (0 : Fin 2); omega
      | ⟨1, _⟩ => show p.val < win2_4.xsize (grid2.coords tz2) (1 : Fin 2); have := p.isLt; omega)).trans ?_
    show A2 m c 4 (((cfg2.win 4).blk tz2).view.emb _) = wt2_7 m c _
    unfold wt2_7
    refine congrArg _ (funext fun a => Fin.ext ?_)
    match a with
    | ⟨0, _⟩ =>
      show win2_4.index tz2 (0 : Fin 2) * 1 + 1 * 0 = 0
      omega
    | ⟨1, _⟩ =>
      show win2_4.index tz2 (1 : Fin 2) * 512 + 1 * p.val = p.val
      omega

/-- An index of the result array is in point t's block iff each coordinate is in the block's moved range on its axis. -/
theorem mem_blk2_7 (t : Fin cfg2.N) (i : S5x8000.Idx) :
    i ∈ ((cfg2.win 7).blk t).view.set ↔ ∀ a : Fin 2, win2_7.index t a * S5x512.size a ≤ (i a).val
      ∧ (i a).val < win2_7.index t a * S5x512.size a + win2_7.xsize (grid2.coords t) a := by
  show i ∈ ((View.whole main_call0_v14_1).slice (win2_7.rect t)).set ↔ _
  rw [View.set_slice_whole, Rect.mem_set_unit]
  exact Iff.rfl

/-- Every column s of the result array lies in the block of point s / 512. -/
theorem cover2_7 (i : S5x8000.Idx) : ∃ t : Fin cfg2.N, (cfg2.win 7).flush t = true ∧ i ∈ ((cfg2.win 7).blk t).view.set := by
  have hi0 : (i 0).val < 5 := (i 0).isLt
  have hi1 : (i 1).val < 8000 := (i 1).isLt
  have hN : cfg2.N = 16 := N_2
  let t : Fin cfg2.N := ⟨(i 1).val / 512, by omega⟩
  have ht : t.val = (i 1).val / 512 := rfl
  obtain ⟨e0, e1, e2, e3, e4, e5, e6, e7, e8, e9⟩ := idx2_7 t
  refine ⟨t, flush2_7 t, ?_⟩
  rw [mem_blk2_7]
  intro a
  match a with
  | ⟨0, _⟩ =>
    show win2_7.index t (0 : Fin 2) * 5 ≤ (i 0).val ∧ (i 0).val < win2_7.index t (0 : Fin 2) * 5 + win2_7.xsize (grid2.coords t) (0 : Fin 2)
    omega
  | ⟨1, _⟩ =>
    show win2_7.index t (1 : Fin 2) * 512 ≤ (i 1).val ∧ (i 1).val < win2_7.index t (1 : Fin 2) * 512 + win2_7.xsize (grid2.coords t) (1 : Fin 2)
    omega

/-- Whatever result array 1 of region 2 may hold after the last write-back is that array function: -/
theorem arr2_7 (c : Dev nD) (B : Buf (Elt Ideal) ((cfg2.win 7).arr.view.loc (c.tc : Thread nD τ)))
    (h : (rdat2 (F := Ideal) m c).ArrAt 7 cfg2.N B) : B = G2_7 m c :=
  ArrAtCover.arrAt_eq_of_cover (rdat2 (F := Ideal) m c) 7 (G2_7 m c)
    (fun t X _ hX => leaves2_7 m c t X hX) (cover2_7) B h

/-- its entry (c, s) is the weighted sum over p of the data array's entry (s, c, p) against the weight row's entry (0, p). -/
theorem out2_7 (c : Dev nD) (B : Buf (Elt Ideal) ((cfg2.win 7).arr.view.loc (c.tc : Thread nD τ)))
    (h : (rdat2 (F := Ideal) m c).ArrAt 7 cfg2.N B) (cc : Fin 5) (s : Fin 8000) :
    @Eq (Ideal .f32) (B (ix2 cc s)) (∑ p : Fin 512, dat2_7 m c (ix3 s cc p) * wt2_7 m c (ix2 (0 : Fin 1) p)) :=
  (congrFun (arr2_7 m c B h) (ix2 cc s)).trans (G2_7_apply m c cc s)

end Cert.KernelIdeal.Hand

end
-- ==== Proof.IdealArr2_8.lean ====
/-
  Region 2, result window 8: from the blocks the pipeline writes back to the result arrays. Whatever a result array may hold after the
  last write-back, its entry (c, s) is the weighted sum over the last axis of the data array's row s, component c,
  against the weight row.
-/
import proofs.«177139_j56324201120475_2_alg».proof.Proof.IdealData2
import proofs.«177139_j56324201120475_2_alg».proof.Proof.PayValue
import proofs.«177139_j56324201120475_2_alg».proof.Proof.LibFillMoved
import proofs.«177139_j56324201120475_2_alg».proof.Proof.LibArrAtCover
import Idealize.ShloMosaic.Lib.Pipeline.Value

set_option maxRecDepth 16384

noncomputable section

namespace Cert.KernelIdeal.Hand

open Cert.KernelIdeal Cert.KernelIdeal.Gen Cert.KernelIdeal.PayValue
open Idealize.ShloMosaic Idealize.ShloMosaic.TcCoe Idealize.ShloMosaic.ValueIdx
open Idealize.SL Idealize.SL.Sem
open Idealize.ShloMosaic.Pipeline (Dat RDat Cfg Window)

variable (m : (ℓ : Loc nD τ sig) → Buf (Elt Ideal) ℓ)

/-! ## Result window 8 (data window 2, weight window 5) -/

/-- The index maps and the cuts, decided over the grid: the data block and the result block at point t are block t of
    their arrays along the row axis, cut alike at the arrays' end; the other axes are whole. -/
theorem idx2_8 : ∀ t : Fin cfg2.N,
    win2_2.index t (0 : Fin 3) = t.val ∧ win2_2.index t (1 : Fin 3) = 0 ∧ win2_2.index t (2 : Fin 3) = 0
    ∧ win2_8.index t (0 : Fin 2) = 0 ∧ win2_8.index t (1 : Fin 2) = t.val
    ∧ win2_2.xsize (grid2.coords t) (0 : Fin 3) = win2_8.xsize (grid2.coords t) (1 : Fin 2)
    ∧ win2_2.xsize (grid2.coords t) (1 : Fin 3) = 5 ∧ win2_2.xsize (grid2.coords t) (2 : Fin 3) = 512
    ∧ win2_8.xsize (grid2.coords t) (0 : Fin 2) = 5
    ∧ t.val * 512 + win2_8.xsize (grid2.coords t) (1 : Fin 2) = min ((t.val + 1) * 512) 8000 :=
  (by decide +kernel : ∀ t : Fin grid2.N, _)

/-- The weight row's window is the whole row at every point. -/
theorem idxw2_5 : ∀ t : Fin cfg2.N,
    win2_5.index t (0 : Fin 2) = 0 ∧ win2_5.index t (1 : Fin 2) = 0
    ∧ win2_5.xsize (grid2.coords t) (0 : Fin 2) = 1 ∧ win2_5.xsize (grid2.coords t) (1 : Fin 2) = 512 :=
  (by decide +kernel : ∀ t : Fin grid2.N, _)

/-- The data array and the weight row of result window 8, as launched. -/
def dat2_8 (c : Dev nD) : FVec Ideal S8000x5x512 .f32 := A2 m c 2
def wt2_8 (c : Dev nD) : FVec Ideal S1x512 .f32 := A2 m c 5

/-- The array function the write-backs piece together: entry (c, s) is the weighted sum of the data array's row s,
    component c, against the weight row. -/
def G2_8 (c : Dev nD) : FVec Ideal S5x8000 .f32 :=
  fun i => ∑ p : Fin 512,
    dat2_8 m c (ix3 (⟨(i 1).val, (i 1).isLt⟩ : Fin 8000) (⟨(i 0).val, (i 0).isLt⟩ : Fin 5) p) * wt2_8 m c (ix2 (0 : Fin 1) p)

theorem G2_8_apply (c : Dev nD) (cc : Fin 5) (s : Fin 8000) :
    G2_8 m c (ix2 cc s) = ∑ p : Fin 512, dat2_8 m c (ix3 s cc p) * wt2_8 m c (ix2 (0 : Fin 1) p) := rfl

/-- The moved part of whatever the body may leave in the result's staging buffer at point t is block t of that array
    function: an entry of the moved part lies in a column inside the array, so the payload there reads the data block
    at a row the fetch moved, which is the data array's row, and the weight row as fetched, which is the weight array's. -/
theorem leaves2_8 (c : Dev nD) (t : Fin cfg2.N) (X : (cfg2.win 8).block.Idx → Elt Ideal (cfg2.win 8).elt)
    (hX : (rdat2 (F := Ideal) m c).Leaves 8 t X) :
    (cfg2.win 8).cut (cfg2.grid.coords t) X = ((cfg2.win 8).blk t).view.read (Elt Ideal) (G2_8 m c) := by
  obtain ⟨Y, -, d, d', rfl⟩ := hX
  obtain ⟨e0, e1, e2, e3, e4, e5, e6, e7, e8, e9⟩ := idx2_8 t
  obtain ⟨w0, w1, w2, w3⟩ := idxw2_5 tz2
  funext j
  have hj0 : (j 0).val < 5 := lt_of_lt_of_eq (j 0).isLt e8
  have hj1 : (j 1).val < win2_8.xsize (grid2.coords t) (1 : Fin 2) := (j 1).isLt
  have hx1 : win2_8.xsize (grid2.coords t) (1 : Fin 2) ≤ 512 := win2_8.xsize_le _ _
  have hxi : (cfg2.win 8).xinj (cfg2.grid.coords t) j = ix2 (⟨(j 0).val, hj0⟩ : Fin 5) (⟨(j 1).val, by omega⟩ : Fin 512) :=
    funext fun a => Fin.ext (by match a with | ⟨0, _⟩ => rfl | ⟨1, _⟩ => rfl)
  show k2_pay3 (F := Ideal) (fetched2 m c 2 t d) (fetched2 m c 5 tz2 d') ((cfg2.win 8).xinj (cfg2.grid.coords t) j)
    = G2_8 m c (((cfg2.win 8).blk t).view.emb j)
  rw [hxi, k2_pay3_eq]
  refine (pay2_apply _ _ _ _).trans ?_
  refine Finset.sum_congr rfl fun p _ => ?_
  congr 1
  · -- the data block at a row the fetch moved is the data array's row
    unfold fetched2
    refine (ArrAtCover.fill_apply_of_lt (cfg2.win 2) _ _ _ _ (fun a => by
      match a with
      | ⟨0, _⟩ => show (j 1).val < win2_2.xsize (grid2.coords t) (0 : Fin 3); omega
      | ⟨1, _⟩ => show (j 0).val < win2_2.xsize (grid2.coords t) (1 : Fin 3); omega
      | ⟨2, _⟩ => show p.val < win2_2.xsize (grid2.coords t) (2 : Fin 3); omega)).trans ?_
    show A2 m c 2 (((cfg2.win 2).blk t).view.emb _) = dat2_8 m c _
    unfold dat2_8
    refine congrArg _ (funext fun a => Fin.ext ?_)
    match a with
    | ⟨0, _⟩ =>
      show win2_2.index t (0 : Fin 3) * 512 + 1 * (j 1).val = win2_8.index t (1 : Fin 2) * 512 + 1 * (j 1).val
      omega
    | ⟨1, _⟩ =>
      show win2_2.index t (1 : Fin 3) * 5 + 1 * (j 0).val = win2_8.index t (0 : Fin 2) * 5 + 1 * (j 0).val
      omega
    | ⟨2, _⟩ =>
      show win2_2.index t (2 : Fin 3) * 512 + 1 * p.val = p.val
      omega
  · -- the weight row as fetched is the weight array's
    unfold fetched2
    refine (ArrAtCover.fill_apply_of_lt (cfg2.win 5) _ _ _ _ (fun a => by
      match a with
      | ⟨0, _⟩ => show (0 : Nat) < win2_5.xsize (grid2.coords tz2) (0 : Fin 2); omega
      | ⟨1, _⟩ => show p.val < win2_5.xsize (grid2.coords tz2) (1 : Fin 2); have := p.isLt; omega)).trans ?_
    show A2 m c 5 (((cfg2.win 5).blk tz2).view.emb _) = wt2_8 m c _
    unfold wt2_8
    refine congrArg _ (funext fun a => Fin.ext ?_)
    match a with
    | ⟨0, _⟩ =>
      show win2_5.index tz2 (0 : Fin 2) * 1 + 1 * 0 = 0
      omega
    | ⟨1, _⟩ =>
      show win2_5.index tz2 (1 : Fin 2) * 512 + 1 * p.val = p.val
      omega

/-- An index of the result array is in point t's block iff each coordinate is in the block's moved range on its axis. -/
theorem mem_blk2_8 (t : Fin cfg2.N) (i : S5x8000.Idx) :
    i ∈ ((cfg2.win 8).blk t).view.set ↔ ∀ a : Fin 2, win2_8.index t a * S5x512.size a ≤ (i a).val
      ∧ (i a).val < win2_8.index t a * S5x512.size a + win2_8.xsize (grid2.coords t) a := by
  show i ∈ ((View.whole main_call0_v14_2).slice (win2_8.rect t)).set ↔ _
  rw [View.set_slice_whole, Rect.mem_set_unit]
  exact Iff.rfl

/-- Every column s of the result array lies in the block of point s / 512. -/
theorem cover2_8 (i : S5x8000.Idx) : ∃ t : Fin cfg2.N, (cfg2.win 8).flush t = true ∧ i ∈ ((cfg2.win 8).blk t).view.set := by
  have hi0 : (i 0).val < 5 := (i 0).isLt
  have hi1 : (i 1).val < 8000 := (i 1).isLt
  have hN : cfg2.N = 16 := N_2
  let t : Fin cfg2.N := ⟨(i 1).val / 512, by omega⟩
  have ht : t.val = (i 1).val / 512 := rfl
  obtain ⟨e0, e1, e2, e3, e4, e5, e6, e7, e8, e9⟩ := idx2_8 t
  refine ⟨t, flush2_8 t, ?_⟩
  rw [mem_blk2_8]
  intro a
  match a with
  | ⟨0, _⟩ =>
    show win2_8.index t (0 : Fin 2) * 5 ≤ (i 0).val ∧ (i 0).val < win2_8.index t (0 : Fin 2) * 5 + win2_8.xsize (grid2.coords t) (0 : Fin 2)
    omega
  | ⟨1, _⟩ =>
    show win2_8.index t (1 : Fin 2) * 512 ≤ (i 1).val ∧ (i 1).val < win2_8.index t (1 : Fin 2) * 512 + win2_8.xsize (grid2.coords t) (1 : Fin 2)
    omega

/-- Whatever result array 2 of region 2 may hold after the last write-back is that array function: -/
theorem arr2_8 (c : Dev nD) (B : Buf (Elt Ideal) ((cfg2.win 8).arr.view.loc (c.tc : Thread nD τ)))
    (h : (rdat2 (F := Ideal) m c).ArrAt 8 cfg2.N B) : B = G2_8 m c :=
  ArrAtCover.arrAt_eq_of_cover (rdat2 (F := Ideal) m c) 8 (G2_8 m c)
    (fun t X _ hX => leaves2_8 m c t X hX) (cover2_8) B h

/-- its entry (c, s) is the weighted sum over p of the data array's entry (s, c, p) against the weight row's entry (0, p). -/
theorem out2_8 (c : Dev nD) (B : Buf (Elt Ideal) ((cfg2.win 8).arr.view.loc (c.tc : Thread nD τ)))
    (h : (rdat2 (F := Ideal) m c).ArrAt 8 cfg2.N B) (cc : Fin 5) (s : Fin 8000) :
    @Eq (Ideal .f32) (B (ix2 cc s)) (∑ p : Fin 512, dat2_8 m c (ix3 s cc p) * wt2_8 m c (ix2 (0 : Fin 1) p)) :=
  (congrFun (arr2_8 m c B h) (ix2 cc s)).trans (G2_8_apply m c cc s)

end Cert.KernelIdeal.Hand

end
-- ==== Proof.IdealArr2.lean ====
/-
  Region 2: from the blocks the pipeline writes back to the three result arrays (one module per result window).
-/
import proofs.«177139_j56324201120475_2_alg».proof.Proof.IdealArr2_6
import proofs.«177139_j56324201120475_2_alg».proof.Proof.IdealArr2_7
import proofs.«177139_j56324201120475_2_alg».proof.Proof.IdealArr2_8
-- ==== Proof.IdealArr3_6.lean ====
/-
  Region 3, result window 6: from the blocks the pipeline writes back to the result arrays. Whatever a result array may hold after the
  last write-back, its entry (c, s) is the weighted sum over the last axis of the data array's row s, component c,
  against the weight row.
-/
import proofs.«177139_j56324201120475_2_alg».proof.Proof.IdealData3
import proofs.«177139_j56324201120475_2_alg».proof.Proof.PayValue
import proofs.«177139_j56324201120475_2_alg».proof.Proof.LibFillMoved
import proofs.«177139_j56324201120475_2_alg».proof.Proof.LibArrAtCover
import Idealize.ShloMosaic.Lib.Pipeline.Value

set_option maxRecDepth 16384

noncomputable section

namespace Cert.KernelIdeal.Hand

open Cert.KernelIdeal Cert.KernelIdeal.Gen Cert.KernelIdeal.PayValue
open Idealize.ShloMosaic Idealize.ShloMosaic.TcCoe Idealize.ShloMosaic.ValueIdx
open Idealize.SL Idealize.SL.Sem
open Idealize.ShloMosaic.Pipeline (Dat RDat Cfg Window)

variable (m : (ℓ : Loc nD τ sig) → Buf (Elt Ideal) ℓ)

/-! ## Result window 6 (data window 0, weight window 3) -/

/-- The index maps and the cuts, decided over the grid: the data block and the result block at point t are block t of
    their arrays along the row axis, cut alike at the arrays' end; the other axes are whole. -/
theorem idx3_6 : ∀ t : Fin cfg3.N,
    win3_0.index t (0 : Fin 3) = t.val ∧ win3_0.index t (1 : Fin 3) = 0 ∧ win3_0.index t (2 : Fin 3) = 0
    ∧ win3_6.index t (0 : Fin 2) = 0 ∧ win3_6.index t (1 : Fin 2) = t.val
    ∧ win3_0.xsize (grid3.coords t) (0 : Fin 3) = win3_6.xsize (grid3.coords t) (1 : Fin 2)
    ∧ win3_0.xsize (grid3.coords t) (1 : Fin 3) = 7 ∧ win3_0.xsize (grid3.coords t) (2 : Fin 3) = 1024
    ∧ win3_6.xsize (grid3.coords t) (0 : Fin 2) = 7
    ∧ t.val * 256 + win3_6.xsize (grid3.coords t) (1 : Fin 2) = min ((t.val + 1) * 256) 8000 :=
  (by decide +kernel : ∀ t : Fin grid3.N, _)

/-- The weight row's window is the whole row at every point. -/
theorem idxw3_3 : ∀ t : Fin cfg3.N,
    win3_3.index t (0 : Fin 2) = 0 ∧ win3_3.index t (1 : Fin 2) = 0
    ∧ win3_3.xsize (grid3.coords t) (0 : Fin 2) = 1 ∧ win3_3.xsize (grid3.coords t) (1 : Fin 2) = 1024 :=
  (by decide +kernel : ∀ t : Fin grid3.N, _)

/-- The data array and the weight row of result window 6, as launched. -/
def dat3_6 (c : Dev nD) : FVec Ideal S8000x7x1024 .f32 := A3 m c 0
def wt3_6 (c : Dev nD) : FVec Ideal S1x1024 .f32 := A3 m c 3

/-- The array function the write-backs piece together: entry (c, s) is the weighted sum of the data array's row s,
    component c, against the weight row. -/
def G3_6 (c : Dev nD) : FVec Ideal S7x8000 .f32 :=
  fun i => ∑ p : Fin 1024,
    dat3_6 m c (ix3 (⟨(i 1).val, (i 1).isLt⟩ : Fin 8000) (⟨(i 0).val, (i 0).isLt⟩ : Fin 7) p) * wt3_6 m c (ix2 (0 : Fin 1) p)

theorem G3_6_apply (c : Dev nD) (cc : Fin 7) (s : Fin 8000) :
    G3_6 m c (ix2 cc s) = ∑ p : Fin 1024, dat3_6 m c (ix3 s cc p) * wt3_6 m c (ix2 (0 : Fin 1) p) := rfl

/-- The moved part of whatever the body may leave in the result's staging buffer at point t is block t of that array
    function: an entry of the moved part lies in a column inside the array, so the payload there reads the data block
    at a row the fetch moved, which is the data array's row, and the weight row as fetched, which is the weight array's. -/
theorem leaves3_6 (c : Dev nD) (t : Fin cfg3.N) (X : (cfg3.win 6).block.Idx → Elt Ideal (cfg3.win 6).elt)
    (hX : (rdat3 (F := Ideal) m c).Leaves 6 t X) :
    (cfg3.win 6).cut (cfg3.grid.coords t) X = ((cfg3.win 6).blk t).view.read (Elt Ideal) (G3_6 m c) := by
  obtain ⟨Y, -, d, d', rfl⟩ := hX
  obtain ⟨e0, e1, e2, e3, e4, e5, e6, e7, e8, e9⟩ := idx3_6 t
  obtain ⟨w0, w1, w2, w3⟩ := idxw3_3 tz3
  funext j
  have hj0 : (j 0).val < 7 := lt_of_lt_of_eq (j 0).isLt e8
  have hj1 : (j 1).val < win3_6.xsize (grid3.coords t) (1 : Fin 2) := (j 1).isLt
  have hx1 : win3_6.xsize (grid3.coords t) (1 : Fin 2) ≤ 256 := win3_6.xsize_le _ _
  have hxi : (cfg3.win 6).xinj (cfg3.grid.coords t) j = ix2 (⟨(j 0).val, hj0⟩ : Fin 7) (⟨(j 1).val, by omega⟩ : Fin 256) :=
    funext fun a => Fin.ext (by match a with | ⟨0, _⟩ => rfl | ⟨1, _⟩ => rfl)
  show k3_pay1 (F := Ideal) (fetched3 m c 0 t d) (fetched3 m c 3 tz3 d') ((cfg3.win 6).xinj (cfg3.grid.coords t) j)
    = G3_6 m c (((cfg3.win 6).blk t).view.emb j)
  rw [hxi]
  refine (pay3_apply _ _ _ _).trans ?_
  refine Finset.sum_congr rfl fun p _ => ?_
  congr 1
  · -- the data block at a row the fetch moved is the data array's row
    unfold fetched3
    refine (ArrAtCover.fill_apply_of_lt (cfg3.win 0) _ _ _ _ (fun a => by
      match a with
      | ⟨0, _⟩ => show (j 1).val < win3_0.xsize (grid3.coords t) (0 : Fin 3); omega
      | ⟨1, _⟩ => show (j 0).val < win3_0.xsize (grid3.coords t) (1 : Fin 3); omega
      | ⟨2, _⟩ => show p.val < win3_0.xsize (grid3.coords t) (2 : Fin 3); omega)).trans ?_
    show A3 m c 0 (((cfg3.win 0).blk t).view.emb _) = dat3_6 m c _
    unfold dat3_6
    refine congrArg _ (funext fun a => Fin.ext ?_)
    match a with
    | ⟨0, _⟩ =>
      show win3_0.index t (0 : Fin 3) * 256 + 1 * (j 1).val = win3_6.index t (1 : Fin 2) * 256 + 1 * (j 1).val
      omega
    | ⟨1, _⟩ =>
      show win3_0.index t (1 : Fin 3) * 7 + 1 * (j 0).val = win3_6.index t (0 : Fin 2) * 7 + 1 * (j 0).val
      omega
    | ⟨2, _⟩ =>
      show win3_0.index t (2 : Fin 3) * 1024 + 1 * p.val = p.val
      omega
  · -- the weight row as fetched is the weight array's
    unfold fetched3
    refine (ArrAtCover.fill_apply_of_lt (cfg3.win 3) _ _ _ _ (fun a => by
      match a with
      | ⟨0, _⟩ => show (0 : Nat) < win3_3.xsize (grid3.coords tz3) (0 : Fin 2); omega
      | ⟨1, _⟩ => show p.val < win3_3.xsize (grid3.coords tz3) (1 : Fin 2); have := p.isLt; omega)).trans ?_
    show A3 m c 3 (((cfg3.win 3).blk tz3).view.emb _) = wt3_6 m c _
    unfold wt3_6
    refine congrArg _ (funext fun a => Fin.ext ?_)
    match a with
    | ⟨0, _⟩ =>
      show win3_3.index tz3 (0 : Fin 2) * 1 + 1 * 0 = 0
      omega
    | ⟨1, _⟩ =>
      show win3_3.index tz3 (1 : Fin 2) * 1024 + 1 * p.val = p.val
      omega

/-- An index of the result array is in point t's block iff each coordinate is in the block's moved range on its axis. -/
theorem mem_blk3_6 (t : Fin cfg3.N) (i : S7x8000.Idx) :
    i ∈ ((cfg3.win 6).blk t).view.set ↔ ∀ a : Fin 2, win3_6.index t a * S7x256.size a ≤ (i a).val
      ∧ (i a).val < win3_6.index t a * S7x256.size a + win3_6.xsize (grid3.coords t) a := by
  show i ∈ ((View.whole main_call0_v21_0).slice (win3_6.rect t)).set ↔ _
  rw [View.set_slice_whole, Rect.mem_set_unit]
  exact Iff.rfl

/-- Every column s of the result array lies in the block of point s / 256. -/
theorem cover3_6 (i : S7x8000.Idx) : ∃ t : Fin cfg3.N, (cfg3.win 6).flush t = true ∧ i ∈ ((cfg3.win 6).blk t).view.set := by
  have hi0 : (i 0).val < 7 := (i 0).isLt
  have hi1 : (i 1).val < 8000 := (i 1).isLt
  have hN : cfg3.N = 32 := N_3
  let t : Fin cfg3.N := ⟨(i 1).val / 256, by omega⟩
  have ht : t.val = (i 1).val / 256 := rfl
  obtain ⟨e0, e1, e2, e3, e4, e5, e6, e7, e8, e9⟩ := idx3_6 t
  refine ⟨t, flush3_6 t, ?_⟩
  rw [mem_blk3_6]
  intro a
  match a with
  | ⟨0, _⟩ =>
    show win3_6.index t (0 : Fin 2) * 7 ≤ (i 0).val ∧ (i 0).val < win3_6.index t (0 : Fin 2) * 7 + win3_6.xsize (grid3.coords t) (0 : Fin 2)
    omega
  | ⟨1, _⟩ =>
    show win3_6.index t (1 : Fin 2) * 256 ≤ (i 1).val ∧ (i 1).val < win3_6.index t (1 : Fin 2) * 256 + win3_6.xsize (grid3.coords t) (1 : Fin 2)
    omega

/-- Whatever result array 0 of region 3 may hold after the last write-back is that array function: -/
theorem arr3_6 (c : Dev nD) (B : Buf (Elt Ideal) ((cfg3.win 6).arr.view.loc (c.tc : Thread nD τ)))
    (h : (rdat3 (F := Ideal) m c).ArrAt 6 cfg3.N B) : B = G3_6 m c :=
  ArrAtCover.arrAt_eq_of_cover (rdat3 (F := Ideal) m c) 6 (G3_6 m c)
    (fun t X _ hX => leaves3_6 m c t X hX) (cover3_6) B h

/-- its entry (c, s) is the weighted sum over p of the data array's entry (s, c, p) against the weight row's entry (0, p). -/
theorem out3_6 (c : Dev nD) (B : Buf (Elt Ideal) ((cfg3.win 6).arr.view.loc (c.tc : Thread nD τ)))
    (h : (rdat3 (F := Ideal) m c).ArrAt 6 cfg3.N B) (cc : Fin 7) (s : Fin 8000) :
    @Eq (Ideal .f32) (B (ix2 cc s)) (∑ p : Fin 1024, dat3_6 m c (ix3 s cc p) * wt3_6 m c (ix2 (0 : Fin 1) p)) :=
  (congrFun (arr3_6 m c B h) (ix2 cc s)).trans (G3_6_apply m c cc s)

end Cert.KernelIdeal.Hand

end
-- ==== Proof.IdealArr3_7.lean ====
/-
  Region 3, result window 7: from the blocks the pipeline writes back to the result arrays. Whatever a result array may hold after the
  last write-back, its entry (c, s) is the weighted sum over the last axis of the data array's row s, component c,
  against the weight row.
-/
import proofs.«177139_j56324201120475_2_alg».proof.Proof.IdealData3
import proofs.«177139_j56324201120475_2_alg».proof.Proof.PayValue
import proofs.«177139_j56324201120475_2_alg».proof.Proof.LibFillMoved
import proofs.«177139_j56324201120475_2_alg».proof.Proof.LibArrAtCover
import Idealize.ShloMosaic.Lib.Pipeline.Value

set_option maxRecDepth 16384

noncomputable section

namespace Cert.KernelIdeal.Hand

open Cert.KernelIdeal Cert.KernelIdeal.Gen Cert.KernelIdeal.PayValue
open Idealize.ShloMosaic Idealize.ShloMosaic.TcCoe Idealize.ShloMosaic.ValueIdx
open Idealize.SL Idealize.SL.Sem
open Idealize.ShloMosaic.Pipeline (Dat RDat Cfg Window)

variable (m : (ℓ : Loc nD τ sig) → Buf (Elt Ideal) ℓ)

/-! ## Result window 7 (data window 1, weight window 4) -/

/-- The index maps and the cuts, decided over the grid: the data block and the result block at point t are block t of
    their arrays along the row axis, cut alike at the arrays' end; the other axes are whole. -/
theorem idx3_7 : ∀ t : Fin cfg3.N,
    win3_1.index t (0 : Fin 3) = t.val ∧ win3_1.index t (1 : Fin 3) = 0 ∧ win3_1.index t (2 : Fin 3) = 0
    ∧ win3_7.index t (0 : Fin 2) = 0 ∧ win3_7.index t (1 : Fin 2) = t.val
    ∧ win3_1.xsize (grid3.coords t) (0 : Fin 3) = win3_7.xsize (grid3.coords t) (1 : Fin 2)
    ∧ win3_1.xsize (grid3.coords t) (1 : Fin 3) = 7 ∧ win3_1.xsize (grid3.coords t) (2 : Fin 3) = 1024
    ∧ win3_7.xsize (grid3.coords t) (0 : Fin 2) = 7
    ∧ t.val * 256 + win3_7.xsize (grid3.coords t) (1 : Fin 2) = min ((t.val + 1) * 256) 8000 :=
  (by decide +kernel : ∀ t : Fin grid3.N, _)

/-- The weight row's window is the whole row at every point. -/
theorem idxw3_4 : ∀ t : Fin cfg3.N,
    win3_4.index t (0 : Fin 2) = 0 ∧ win3_4.index t (1 : Fin 2) = 0
    ∧ win3_4.xsize (grid3.coords t) (0 : Fin 2) = 1 ∧ win3_4.xsize (grid3.coords t) (1 : Fin 2) = 1024 :=
  (by decide +kernel : ∀ t : Fin grid3.N, _)

/-- The data array and the weight row of result window 7, as launched. -/
def dat3_7 (c : Dev nD) : FVec Ideal S8000x7x1024 .f32 := A3 m c 1
def wt3_7 (c : Dev nD) : FVec Ideal S1x1024 .f32 := A3 m c 4

/-- The array function the write-backs piece together: entry (c, s) is the weighted sum of the data array's row s,
    component c, against the weight row. -/
def G3_7 (c : Dev nD) : FVec Ideal S7x8000 .f32 :=
  fun i => ∑ p : Fin 1024,
    dat3_7 m c (ix3 (⟨(i 1).val, (i 1).isLt⟩ : Fin 8000) (⟨(i 0).val, (i 0).isLt⟩ : Fin 7) p) * wt3_7 m c (ix2 (0 : Fin 1) p)

theorem G3_7_apply (c : Dev nD) (cc : Fin 7) (s : Fin 8000) :
    G3_7 m c (ix2 cc s) = ∑ p : Fin 1024, dat3_7 m c (ix3 s cc p) * wt3_7 m c (ix2 (0 : Fin 1) p) := rfl

/-- The moved part of whatever the body may leave in the result's staging buffer at point t is block t of that array
    function: an entry of the moved part lies in a column inside the array, so the payload there reads the data block
    at a row the fetch moved, which is the data array's row, and the weight row as fetched, which is the weight array's. -/
theorem leaves3_7 (c : Dev nD) (t : Fin cfg3.N) (X : (cfg3.win 7).block.Idx → Elt Ideal (cfg3.win 7).elt)
    (hX : (rdat3 (F := Ideal) m c).Leaves 7 t X) :
    (cfg3.win 7).cut (cfg3.grid.coords t) X = ((cfg3.win 7).blk t).view.read (Elt Ideal) (G3_7 m c) := by
  obtain ⟨Y, -, d, d', rfl⟩ := hX
  obtain ⟨e0, e1, e2, e3, e4, e5, e6, e7, e8, e9⟩ := idx3_7 t
  obtain ⟨w0, w1, w2, w3⟩ := idxw3_4 tz3
  funext j
  have hj0 : (j 0).val < 7 := lt_of_lt_of_eq (j 0).isLt e8
  have hj1 : (j 1).val < win3_7.xsize (grid3.coords t) (1 : Fin 2) := (j 1).isLt
  have hx1 : win3_7.xsize (grid3.coords t) (1 : Fin 2) ≤ 256 := win3_7.xsize_le _ _
  have hxi : (cfg3.win 7).xinj (cfg3.grid.coords t) j = ix2 (⟨(j 0).val, hj0⟩ : Fin 7) (⟨(j 1).val, by omega⟩ : Fin 256) :=
    funext fun a => Fin.ext (by match a with | ⟨0, _⟩ => rfl | ⟨1, _⟩ => rfl)
  show k3_pay2 (F := Ideal) (fetched3 m c 1 t d) (fetched3 m c 4 tz3 d') ((cfg3.win 7).xinj (cfg3.grid.coords t) j)
    = G3_7 m c (((cfg3.win 7).blk t).view.emb j)
  rw [hxi, k3_pay2_eq]
  refine (pay3_apply _ _ _ _).trans ?_
  refine Finset.sum_congr rfl fun p _ => ?_
  congr 1
  · -- the data block at a row the fetch moved is the data array's row
    unfold fetched3
    refine (ArrAtCover.fill_apply_of_lt (cfg3.win 1) _ _ _ _ (fun a => by
      match a with
      | ⟨0, _⟩ => show (j 1).val < win3_1.xsize (grid3.coords t) (0 : Fin 3); omega
      | ⟨1, _⟩ => show (j 0).val < win3_1.xsize (grid3.coords t) (1 : Fin 3); omega
      | ⟨2, _⟩ => show p.val < win3_1.xsize (grid3.coords t) (2 : Fin 3); omega)).trans ?_
    show A3 m c 1 (((cfg3.win 1).blk t).view.emb _) = dat3_7 m c _
    unfold dat3_7
    refine congrArg _ (funext fun a => Fin.ext ?_)
    match a with
    | ⟨0, _⟩ =>
      show win3_1.index t (0 : Fin 3) * 256 + 1 * (j 1).val = win3_7.index t (1 : Fin 2) * 256 + 1 * (j 1).val
      omega
    | ⟨1, _⟩ =>
      show win3_1.index t (1 : Fin 3) * 7 + 1 * (j 0).val = win3_7.index t (0 : Fin 2) * 7 + 1 * (j 0).val
      omega
    | ⟨2, _⟩ =>
      show win3_1.index t (2 : Fin 3) * 1024 + 1 * p.val = p.val
      omega
  · -- the weight row as fetched is the weight array's
    unfold fetched3
    refine (ArrAtCover.fill_apply_of_lt (cfg3.win 4) _ _ _ _ (fun a => by
      match a with
      | ⟨0, _⟩ => show (0 : Nat) < win3_4.xsize (grid3.coords tz3) (0 : Fin 2); omega
      | ⟨1, _⟩ => show p.val < win3_4.xsize (grid3.coords tz3) (1 : Fin 2); have := p.isLt; omega)).trans ?_
    show A3 m c 4 (((cfg3.win 4).blk tz3).view.emb _) = wt3_7 m c _
    unfold wt3_7
    refine congrArg _ (funext fun a => Fin.ext ?_)
    match a with
    | ⟨0, _⟩ =>
      show win3_4.index tz3 (0 : Fin 2) * 1 + 1 * 0 = 0
      omega
    | ⟨1, _⟩ =>
      show win3_4.index tz3 (1 : Fin 2) * 1024 + 1 * p.val = p.val
      omega

/-- An index of the result array is in point t's block iff each coordinate is in the block's moved range on its axis. -/
theorem mem_blk3_7 (t : Fin cfg3.N) (i : S7x8000.Idx) :
    i ∈ ((cfg3.win 7).blk t).view.set ↔ ∀ a : Fin 2, win3_7.index t a * S7x256.size a ≤ (i a).val
      ∧ (i a).val < win3_7.index t a * S7x256.size a + win3_7.xsize (grid3.coords t) a := by
  show i ∈ ((View.whole main_call0_v21_1).slice (win3_7.rect t)).set ↔ _
  rw [View.set_slice_whole, Rect.mem_set_unit]
  exact Iff.rfl

/-- Every column s of the result array lies in the block of point s / 256. -/
theorem cover3_7 (i : S7x8000.Idx) : ∃ t : Fin cfg3.N, (cfg3.win 7).flush t = true ∧ i ∈ ((cfg3.win 7).blk t).view.set := by
  have hi0 : (i 0).val < 7 := (i 0).isLt
  have hi1 : (i 1).val < 8000 := (i 1).isLt
  have hN : cfg3.N = 32 := N_3
  let t : Fin cfg3.N := ⟨(i 1).val / 256, by omega⟩
  have ht : t.val = (i 1).val / 256 := rfl
  obtain ⟨e0, e1, e2, e3, e4, e5, e6, e7, e8, e9⟩ := idx3_7 t
  refine ⟨t, flush3_7 t, ?_⟩
  rw [mem_blk3_7]
  intro a
  match a with
  | ⟨0, _⟩ =>
    show win3_7.index t (0 : Fin 2) * 7 ≤ (i 0).val ∧ (i 0).val < win3_7.index t (0 : Fin 2) * 7 + win3_7.xsize (grid3.coords t) (0 : Fin 2)
    omega
  | ⟨1, _⟩ =>
    show win3_7.index t (1 : Fin 2) * 256 ≤ (i 1).val ∧ (i 1).val < win3_7.index t (1 : Fin 2) * 256 + win3_7.xsize (grid3.coords t) (1 : Fin 2)
    omega

/-- Whatever result array 1 of region 3 may hold after the last write-back is that array function: -/
theorem arr3_7 (c : Dev nD) (B : Buf (Elt Ideal) ((cfg3.win 7).arr.view.loc (c.tc : Thread nD τ)))
    (h : (rdat3 (F := Ideal) m c).ArrAt 7 cfg3.N B) : B = G3_7 m c :=
  ArrAtCover.arrAt_eq_of_cover (rdat3 (F := Ideal) m c) 7 (G3_7 m c)
    (fun t X _ hX => leaves3_7 m c t X hX) (cover3_7) B h

/-- its entry (c, s) is the weighted sum over p of the data array's entry (s, c, p) against the weight row's entry (0, p). -/
theorem out3_7 (c : Dev nD) (B : Buf (Elt Ideal) ((cfg3.win 7).arr.view.loc (c.tc : Thread nD τ)))
    (h : (rdat3 (F := Ideal) m c).ArrAt 7 cfg3.N B) (cc : Fin 7) (s : Fin 8000) :
    @Eq (Ideal .f32) (B (ix2 cc s)) (∑ p : Fin 1024, dat3_7 m c (ix3 s cc p) * wt3_7 m c (ix2 (0 : Fin 1) p)) :=
  (congrFun (arr3_7 m c B h) (ix2 cc s)).trans (G3_7_apply m c cc s)

end Cert.KernelIdeal.Hand

end
-- ==== Proof.IdealArr3_8.lean ====
/-
  Region 3, result window 8: from the blocks the pipeline writes back to the result arrays. Whatever a result array may hold after the
  last write-back, its entry (c, s) is the weighted sum over the last axis of the data array's row s, component c,
  against the weight row.
-/
import proofs.«177139_j56324201120475_2_alg».proof.Proof.IdealData3
import proofs.«177139_j56324201120475_2_alg».proof.Proof.PayValue
import proofs.«177139_j56324201120475_2_alg».proof.Proof.LibFillMoved
import proofs.«177139_j56324201120475_2_alg».proof.Proof.LibArrAtCover
import Idealize.ShloMosaic.Lib.Pipeline.Value

set_option maxRecDepth 16384

noncomputable section

namespace Cert.KernelIdeal.Hand

open Cert.KernelIdeal Cert.KernelIdeal.Gen Cert.KernelIdeal.PayValue
open Idealize.ShloMosaic Idealize.ShloMosaic.TcCoe Idealize.ShloMosaic.ValueIdx
open Idealize.SL Idealize.SL.Sem
open Idealize.ShloMosaic.Pipeline (Dat RDat Cfg Window)

variable (m : (ℓ : Loc nD τ sig) → Buf (Elt Ideal) ℓ)

/-! ## Result window 8 (data window 2, weight window 5) -/

/-- The index maps and the cuts, decided over the grid: the data block and the result block at point t are block t of
    their arrays along the row axis, cut alike at the arrays' end; the other axes are whole. -/
theorem idx3_8 : ∀ t : Fin cfg3.N,
    win3_2.index t (0 : Fin 3) = t.val ∧ win3_2.index t (1 : Fin 3) = 0 ∧ win3_2.index t (2 : Fin 3) = 0
    ∧ win3_8.index t (0 : Fin 2) = 0 ∧ win3_8.index t (1 : Fin 2) = t.val
    ∧ win3_2.xsize (grid3.coords t) (0 : Fin 3) = win3_8.xsize (grid3.coords t) (1 : Fin 2)
    ∧ win3_2.xsize (grid3.coords t) (1 : Fin 3) = 7 ∧ win3_2.xsize (grid3.coords t) (2 : Fin 3) = 1024
    ∧ win3_8.xsize (grid3.coords t) (0 : Fin 2) = 7
    ∧ t.val * 256 + win3_8.xsize (grid3.coords t) (1 : Fin 2) = min ((t.val + 1) * 256) 8000 :=
  (by decide +kernel : ∀ t : Fin grid3.N, _)

/-- The weight row's window is the whole row at every point. -/
theorem idxw3_5 : ∀ t : Fin cfg3.N,
    win3_5.index t (0 : Fin 2) = 0 ∧ win3_5.index t (1 : Fin 2) = 0
    ∧ win3_5.xsize (grid3.coords t) (0 : Fin 2) = 1 ∧ win3_5.xsize (grid3.coords t) (1 : Fin 2) = 1024 :=
  (by decide +kernel : ∀ t : Fin grid3.N, _)

/-- The data array and the weight row of result window 8, as launched. -/
def dat3_8 (c : Dev nD) : FVec Ideal S8000x7x1024 .f32 := A3 m c 2
def wt3_8 (c : Dev nD) : FVec Ideal S1x1024 .f32 := A3 m c 5

/-- The array function the write-backs piece together: entry (c, s) is the weighted sum of the data array's row s,
    component c, against the weight row. -/
def G3_8 (c : Dev nD) : FVec Ideal S7x8000 .f32 :=
  fun i => ∑ p : Fin 1024,
    dat3_8 m c (ix3 (⟨(i 1).val, (i 1).isLt⟩ : Fin 8000) (⟨(i 0).val, (i 0).isLt⟩ : Fin 7) p) * wt3_8 m c (ix2 (0 : Fin 1) p)

theorem G3_8_apply (c : Dev nD) (cc : Fin 7) (s : Fin 8000) :
    G3_8 m c (ix2 cc s) = ∑ p : Fin 1024, dat3_8 m c (ix3 s cc p) * wt3_8 m c (ix2 (0 : Fin 1) p) := rfl

/-- The moved part of whatever the body may leave in the result's staging buffer at point t is block t of that array
    function: an entry of the moved part lies in a column inside the array, so the payload there reads the data block
    at a row the fetch moved, which is the data array's row, and the weight row as fetched, which is the weight array's. -/
theorem leaves3_8 (c : Dev nD) (t : Fin cfg3.N) (X : (cfg3.win 8).block.Idx → Elt Ideal (cfg3.win 8).elt)
    (hX : (rdat3 (F := Ideal) m c).Leaves 8 t X) :
    (cfg3.win 8).cut (cfg3.grid.coords t) X = ((cfg3.win 8).blk t).view.read (Elt Ideal) (G3_8 m c) := by
  obtain ⟨Y, -, d, d', rfl⟩ := hX
  obtain ⟨e0, e1, e2, e3, e4, e5, e6, e7, e8, e9⟩ := idx3_8 t
  obtain ⟨w0, w1, w2, w3⟩ := idxw3_5 tz3
  funext j
  have hj0 : (j 0).val < 7 := lt_of_lt_of_eq (j 0).isLt e8
  have hj1 : (j 1).val < win3_8.xsize (grid3.coords t) (1 : Fin 2) := (j 1).isLt
  have hx1 : win3_8.xsize (grid3.coords t) (1 : Fin 2) ≤ 256 := win3_8.xsize_le _ _
  have hxi : (cfg3.win 8).xinj (cfg3.grid.coords t) j = ix2 (⟨(j 0).val, hj0⟩ : Fin 7) (⟨(j 1).val, by omega⟩ : Fin 256) :=
    funext fun a => Fin.ext (by match a with | ⟨0, _⟩ => rfl | ⟨1, _⟩ => rfl)
  show k3_pay3 (F := Ideal) (fetched3 m c 2 t d) (fetched3 m c 5 tz3 d') ((cfg3.win 8).xinj (cfg3.grid.coords t) j)
    = G3_8 m c (((cfg3.win 8).blk t).view.emb j)
  rw [hxi, k3_pay3_eq]
  refine (pay3_apply _ _ _ _).trans ?_
  refine Finset.sum_congr rfl fun p _ => ?_
  congr 1
  · -- the data block at a row the fetch moved is the data array's row
    unfold fetched3
    refine (ArrAtCover.fill_apply_of_lt (cfg3.win 2) _ _ _ _ (fun a => by
      match a with
      | ⟨0, _⟩ => show (j 1).val < win3_2.xsize (grid3.coords t) (0 : Fin 3); omega
      | ⟨1, _⟩ => show (j 0).val < win3_2.xsize (grid3.coords t) (1 : Fin 3); omega
      | ⟨2, _⟩ => show p.val < win3_2.xsize (grid3.coords t) (2 : Fin 3); omega)).trans ?_
    show A3 m c 2 (((cfg3.win 2).blk t).view.emb _) = dat3_8 m c _
    unfold dat3_8
    refine congrArg _ (funext fun a => Fin.ext ?_)
    match a with
    | ⟨0, _⟩ =>
      show win3_2.index t (0 : Fin 3) * 256 + 1 * (j 1).val = win3_8.index t (1 : Fin 2) * 256 + 1 * (j 1).val
      omega
    | ⟨1, _⟩ =>
      show win3_2.index t (1 : Fin 3) * 7 + 1 * (j 0).val = win3_8.index t (0 : Fin 2) * 7 + 1 * (j 0).val
      omega
    | ⟨2, _⟩ =>
      show win3_2.index t (2 : Fin 3) * 1024 + 1 * p.val = p.val
      omega
  · -- the weight row as fetched is the weight array's
    unfold fetched3
    refine (ArrAtCover.fill_apply_of_lt (cfg3.win 5) _ _ _ _ (fun a => by
      match a with
      | ⟨0, _⟩ => show (0 : Nat) < win3_5.xsize (grid3.coords tz3) (0 : Fin 2); omega
      | ⟨1, _⟩ => show p.val < win3_5.xsize (grid3.coords tz3) (1 : Fin 2); have := p.isLt; omega)).trans ?_
    show A3 m c 5 (((cfg3.win 5).blk tz3).view.emb _) = wt3_8 m c _
    unfold wt3_8
    refine congrArg _ (funext fun a => Fin.ext ?_)
    match a with
    | ⟨0, _⟩ =>
      show win3_5.index tz3 (0 : Fin 2) * 1 + 1 * 0 = 0
      omega
    | ⟨1, _⟩ =>
      show win3_5.index tz3 (1 : Fin 2) * 1024 + 1 * p.val = p.val
      omega

/-- An index of the result array is in point t's block iff each coordinate is in the block's moved range on its axis. -/
theorem mem_blk3_8 (t : Fin cfg3.N) (i : S7x8000.Idx) :
    i ∈ ((cfg3.win 8).blk t).view.set ↔ ∀ a : Fin 2, win3_8.index t a * S7x256.size a ≤ (i a).val
      ∧ (i a).val < win3_8.index t a * S7x256.size a + win3_8.xsize (grid3.coords t) a := by
  show i ∈ ((View.whole main_call0_v21_2).slice (win3_8.rect t)).set ↔ _
  rw [View.set_slice_whole, Rect.mem_set_unit]
  exact Iff.rfl

/-- Every column s of the result array lies in the block of point s / 256. -/
theorem cover3_8 (i : S7x8000.Idx) : ∃ t : Fin cfg3.N, (cfg3.win 8).flush t = true ∧ i ∈ ((cfg3.win 8).blk t).view.set := by
  have hi0 : (i 0).val < 7 := (i 0).isLt
  have hi1 : (i 1).val < 8000 := (i 1).isLt
  have hN : cfg3.N = 32 := N_3
  let t : Fin cfg3.N := ⟨(i 1).val / 256, by omega⟩
  have ht : t.val = (i 1).val / 256 := rfl
  obtain ⟨e0, e1, e2, e3, e4, e5, e6, e7, e8, e9⟩ := idx3_8 t
  refine ⟨t, flush3_8 t, ?_⟩
  rw [mem_blk3_8]
  intro a
  match a with
  | ⟨0, _⟩ =>
    show win3_8.index t (0 : Fin 2) * 7 ≤ (i 0).val ∧ (i 0).val < win3_8.index t (0 : Fin 2) * 7 + win3_8.xsize (grid3.coords t) (0 : Fin 2)
    omega
  | ⟨1, _⟩ =>
    show win3_8.index t (1 : Fin 2) * 256 ≤ (i 1).val ∧ (i 1).val < win3_8.index t (1 : Fin 2) * 256 + win3_8.xsize (grid3.coords t) (1 : Fin 2)
    omega

/-- Whatever result array 2 of region 3 may hold after the last write-back is that array function: -/
theorem arr3_8 (c : Dev nD) (B : Buf (Elt Ideal) ((cfg3.win 8).arr.view.loc (c.tc : Thread nD τ)))
    (h : (rdat3 (F := Ideal) m c).ArrAt 8 cfg3.N B) : B = G3_8 m c :=
  ArrAtCover.arrAt_eq_of_cover (rdat3 (F := Ideal) m c) 8 (G3_8 m c)
    (fun t X _ hX => leaves3_8 m c t X hX) (cover3_8) B h

/-- its entry (c, s) is the weighted sum over p of the data array's entry (s, c, p) against the weight row's entry (0, p). -/
theorem out3_8 (c : Dev nD) (B : Buf (Elt Ideal) ((cfg3.win 8).arr.view.loc (c.tc : Thread nD τ)))
    (h : (rdat3 (F := Ideal) m c).ArrAt 8 cfg3.N B) (cc : Fin 7) (s : Fin 8000) :
    @Eq (Ideal .f32) (B (ix2 cc s)) (∑ p : Fin 1024, dat3_8 m c (ix3 s cc p) * wt3_8 m c (ix2 (0 : Fin 1) p)) :=
  (congrFun (arr3_8 m c B h) (ix2 cc s)).trans (G3_8_apply m c cc s)

end Cert.KernelIdeal.Hand

end
-- ==== Proof.IdealArr3.lean ====
/-
  Region 3: from the blocks the pipeline writes back to the three result arrays (one module per result window).
-/
import proofs.«177139_j56324201120475_2_alg».proof.Proof.IdealArr3_6
import proofs.«177139_j56324201120475_2_alg».proof.Proof.IdealArr3_7
import proofs.«177139_j56324201120475_2_alg».proof.Proof.IdealArr3_8
-- ==== Proof.IdealValue.lean ====
/-
  The results of the idealized kernel program: each of its twelve results is, entry by entry, the weighted sum along
  the last axis of its data array against its weight row. A result is the transposed, reshaped contents of a result
  array of a kernel region; those contents are forced, block by block, by what the body may leave in the staging buffer,
  whose entry (c, s) is the sum over p of the data block's entry (s, c, p) times the weight row's entry p.
-/
import proofs.«177139_j56324201120475_2_alg».proof.Proof.Gen.KernelIdeal.Launch
import proofs.«177139_j56324201120475_2_alg».proof.Proof.Gen.KernelIdeal.Skeleton
import proofs.«177139_j56324201120475_2_alg».proof.Proof.Gen.KernelIdeal.Points
import proofs.«177139_j56324201120475_2_alg».proof.Proof.IdealFrame
import proofs.«177139_j56324201120475_2_alg».proof.Proof.IdealArr0
import proofs.«177139_j56324201120475_2_alg».proof.Proof.IdealArr1
import proofs.«177139_j56324201120475_2_alg».proof.Proof.IdealArr2
import proofs.«177139_j56324201120475_2_alg».proof.Proof.IdealArr3
import proofs.«177139_j56324201120475_2_alg».proof.Proof.PayValue
import proofs.«177139_j56324201120475_2_alg».proof.Proof.Spec
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx Cert.KernelIdeal.PayValue

variable (m : (ℓ : Loc nD τ sig) → Buf (Elt Ideal) ℓ) (ρ : Dev nD → PrngReg)

/-- Result 0: the transposed, reshaped contents of region 0's result array 0. -/
theorem res0 (c : Dev nD) (V : Valuation τ sig (Elt Ideal))
    (h : ∃ B, (rdat0 (F := Ideal) m c).ArrAt 6 cfg0.N B ∧ V main_v0_0 = tail0 B) :
    (V main_v0_0 : S8000x1x1.Idx → EReal)
      = Cert.Spec.lin 8000 1 128 (m ((c.tc : Thread nD τ).loc main_arg0)) (m ((c.tc : Thread nD τ).loc main_arg12)) := by
  obtain ⟨B, hB, e⟩ := h
  rw [e]
  funext i
  obtain ⟨s, cc, z, rfl⟩ : ∃ (s : Fin 8000) (cc : Fin 1) (z : Fin 1), i = ix3 s cc z := ⟨i 0, i 1, i 2, eq_ix3 i⟩
  unfold tail0
  rw [tail1_apply, out0_6 m c B hB, Cert.Spec.lin_apply]
  rfl

/-- Result 4: the transposed, reshaped contents of region 0's result array 1. -/
theorem res4 (c : Dev nD) (V : Valuation τ sig (Elt Ideal))
    (h : ∃ B, (rdat0 (F := Ideal) m c).ArrAt 7 cfg0.N B ∧ V main_v0_4 = tail0 B) :
    (V main_v0_4 : S8000x1x1.Idx → EReal)
      = Cert.Spec.lin 8000 1 128 (m ((c.tc : Thread nD τ).loc main_arg4)) (m ((c.tc : Thread nD τ).loc main_arg16)) := by
  obtain ⟨B, hB, e⟩ := h
  rw [e]
  funext i
  obtain ⟨s, cc, z, rfl⟩ : ∃ (s : Fin 8000) (cc : Fin 1) (z : Fin 1), i = ix3 s cc z := ⟨i 0, i 1, i 2, eq_ix3 i⟩
  unfold tail0
  rw [tail1_apply, out0_7 m c B hB, Cert.Spec.lin_apply]
  rfl

/-- Result 8: the transposed, reshaped contents of region 0's result array 2. -/
theorem res8 (c : Dev nD) (V : Valuation τ sig (Elt Ideal))
    (h : ∃ B, (rdat0 (F := Ideal) m c).ArrAt 8 cfg0.N B ∧ V main_v0_8 = tail0 B) :
    (V main_v0_8 : S8000x1x1.Idx → EReal)
      = Cert.Spec.lin 8000 1 128 (m ((c.tc : Thread nD τ).loc main_arg8)) (m ((c.tc : Thread nD τ).loc main_arg20)) := by
  obtain ⟨B, hB, e⟩ := h
  rw [e]
  funext i
  obtain ⟨s, cc, z, rfl⟩ : ∃ (s : Fin 8000) (cc : Fin 1) (z : Fin 1), i = ix3 s cc z := ⟨i 0, i 1, i 2, eq_ix3 i⟩
  unfold tail0
  rw [tail1_apply, out0_8 m c B hB, Cert.Spec.lin_apply]
  rfl

/-- Result 1: the transposed, reshaped contents of region 1's result array 0. -/
theorem res1 (c : Dev nD) (V : Valuation τ sig (Elt Ideal))
    (h : ∃ B, (rdat1 (F := Ideal) m c).ArrAt 6 cfg1.N B ∧ V main_v0_1 = tail1 B) :
    (V main_v0_1 : S8000x3x1.Idx → EReal)
      = Cert.Spec.lin 8000 3 256 (m ((c.tc : Thread nD τ).loc main_arg1)) (m ((c.tc : Thread nD τ).loc main_arg13)) := by
  obtain ⟨B, hB, e⟩ := h
  rw [e]
  funext i
  obtain ⟨s, cc, z, rfl⟩ : ∃ (s : Fin 8000) (cc : Fin 3) (z : Fin 1), i = ix3 s cc z := ⟨i 0, i 1, i 2, eq_ix3 i⟩
  unfold tail1
  rw [tail3_apply, out1_6 m c B hB, Cert.Spec.lin_apply]
  rfl

/-- Result 5: the transposed, reshaped contents of region 1's result array 1. -/
theorem res5 (c : Dev nD) (V : Valuation τ sig (Elt Ideal))
    (h : ∃ B, (rdat1 (F := Ideal) m c).ArrAt 7 cfg1.N B ∧ V main_v0_5 = tail1 B) :
    (V main_v0_5 : S8000x3x1.Idx → EReal)
      = Cert.Spec.lin 8000 3 256 (m ((c.tc : Thread nD τ).loc main_arg5)) (m ((c.tc : Thread nD τ).loc main_arg17)) := by
  obtain ⟨B, hB, e⟩ := h
  rw [e]
  funext i
  obtain ⟨s, cc, z, rfl⟩ : ∃ (s : Fin 8000) (cc : Fin 3) (z : Fin 1), i = ix3 s cc z := ⟨i 0, i 1, i 2, eq_ix3 i⟩
  unfold tail1
  rw [tail3_apply, out1_7 m c B hB, Cert.Spec.lin_apply]
  rfl

/-- Result 9: the transposed, reshaped contents of region 1's result array 2. -/
theorem res9 (c : Dev nD) (V : Valuation τ sig (Elt Ideal))
    (h : ∃ B, (rdat1 (F := Ideal) m c).ArrAt 8 cfg1.N B ∧ V main_v0_9 = tail1 B) :
    (V main_v0_9 : S8000x3x1.Idx → EReal)
      = Cert.Spec.lin 8000 3 256 (m ((c.tc : Thread nD τ).loc main_arg9)) (m ((c.tc : Thread nD τ).loc main_arg21)) := by
  obtain ⟨B, hB, e⟩ := h
  rw [e]
  funext i
  obtain ⟨s, cc, z, rfl⟩ : ∃ (s : Fin 8000) (cc : Fin 3) (z : Fin 1), i = ix3 s cc z := ⟨i 0, i 1, i 2, eq_ix3 i⟩
  unfold tail1
  rw [tail3_apply, out1_8 m c B hB, Cert.Spec.lin_apply]
  rfl

/-- Result 2: the transposed, reshaped contents of region 2's result array 0. -/
theorem res2 (c : Dev nD) (V : Valuation τ sig (Elt Ideal))
    (h : ∃ B, (rdat2 (F := Ideal) m c).ArrAt 6 cfg2.N B ∧ V main_v0_2 = tail2 B) :
    (V main_v0_2 : S8000x5x1.Idx → EReal)
      = Cert.Spec.lin 8000 5 512 (m ((c.tc : Thread nD τ).loc main_arg2)) (m ((c.tc : Thread nD τ).loc main_arg14)) := by
  obtain ⟨B, hB, e⟩ := h
  rw [e]
  funext i
  obtain ⟨s, cc, z, rfl⟩ : ∃ (s : Fin 8000) (cc : Fin 5) (z : Fin 1), i = ix3 s cc z := ⟨i 0, i 1, i 2, eq_ix3 i⟩
  unfold tail2
  rw [tail5_apply, out2_6 m c B hB, Cert.Spec.lin_apply]
  rfl

/-- Result 6: the transposed, reshaped contents of region 2's result array 1. -/
theorem res6 (c : Dev nD) (V : Valuation τ sig (Elt Ideal))
    (h : ∃ B, (rdat2 (F := Ideal) m c).ArrAt 7 cfg2.N B ∧ V main_v0_6 = tail2 B) :
    (V main_v0_6 : S8000x5x1.Idx → EReal)
      = Cert.Spec.lin 8000 5 512 (m ((c.tc : Thread nD τ).loc main_arg6)) (m ((c.tc : Thread nD τ).loc main_arg18)) := by
  obtain ⟨B, hB, e⟩ := h
  rw [e]
  funext i
  obtain ⟨s, cc, z, rfl⟩ : ∃ (s : Fin 8000) (cc : Fin 5) (z : Fin 1), i = ix3 s cc z := ⟨i 0, i 1, i 2, eq_ix3 i⟩
  unfold tail2
  rw [tail5_apply, out2_7 m c B hB, Cert.Spec.lin_apply]
  rfl

/-- Result 10: the transposed, reshaped contents of region 2's result array 2. -/
theorem res10 (c : Dev nD) (V : Valuation τ sig (Elt Ideal))
    (h : ∃ B, (rdat2 (F := Ideal) m c).ArrAt 8 cfg2.N B ∧ V main_v0_10 = tail2 B) :
    (V main_v0_10 : S8000x5x1.Idx → EReal)
      = Cert.Spec.lin 8000 5 512 (m ((c.tc : Thread nD τ).loc main_arg10)) (m ((c.tc : Thread nD τ).loc main_arg22)) := by
  obtain ⟨B, hB, e⟩ := h
  rw [e]
  funext i
  obtain ⟨s, cc, z, rfl⟩ : ∃ (s : Fin 8000) (cc : Fin 5) (z : Fin 1), i = ix3 s cc z := ⟨i 0, i 1, i 2, eq_ix3 i⟩
  unfold tail2
  rw [tail5_apply, out2_8 m c B hB, Cert.Spec.lin_apply]
  rfl

/-- Result 3: the transposed, reshaped contents of region 3's result array 0. -/
theorem res3 (c : Dev nD) (V : Valuation τ sig (Elt Ideal))
    (h : ∃ B, (rdat3 (F := Ideal) m c).ArrAt 6 cfg3.N B ∧ V main_v0_3 = tail3 B) :
    (V main_v0_3 : S8000x7x1.Idx → EReal)
      = Cert.Spec.lin 8000 7 1024 (m ((c.tc : Thread nD τ).loc main_arg3)) (m ((c.tc : Thread nD τ).loc main_arg15)) := by
  obtain ⟨B, hB, e⟩ := h
  rw [e]
  funext i
  obtain ⟨s, cc, z, rfl⟩ : ∃ (s : Fin 8000) (cc : Fin 7) (z : Fin 1), i = ix3 s cc z := ⟨i 0, i 1, i 2, eq_ix3 i⟩
  unfold tail3
  rw [tail7_apply, out3_6 m c B hB, Cert.Spec.lin_apply]
  rfl

/-- Result 7: the transposed, reshaped contents of region 3's result array 1. -/
theorem res7 (c : Dev nD) (V : Valuation τ sig (Elt Ideal))
    (h : ∃ B, (rdat3 (F := Ideal) m c).ArrAt 7 cfg3.N B ∧ V main_v0_7 = tail3 B) :
    (V main_v0_7 : S8000x7x1.Idx → EReal)
      = Cert.Spec.lin 8000 7 1024 (m ((c.tc : Thread nD τ).loc main_arg7)) (m ((c.tc : Thread nD τ).loc main_arg19)) := by
  obtain ⟨B, hB, e⟩ := h
  rw [e]
  funext i
  obtain ⟨s, cc, z, rfl⟩ : ∃ (s : Fin 8000) (cc : Fin 7) (z : Fin 1), i = ix3 s cc z := ⟨i 0, i 1, i 2, eq_ix3 i⟩
  unfold tail3
  rw [tail7_apply, out3_7 m c B hB, Cert.Spec.lin_apply]
  rfl

/-- Result 11: the transposed, reshaped contents of region 3's result array 2. -/
theorem res11 (c : Dev nD) (V : Valuation τ sig (Elt Ideal))
    (h : ∃ B, (rdat3 (F := Ideal) m c).ArrAt 8 cfg3.N B ∧ V main_v0_11 = tail3 B) :
    (V main_v0_11 : S8000x7x1.Idx → EReal)
      = Cert.Spec.lin 8000 7 1024 (m ((c.tc : Thread nD τ).loc main_arg11)) (m ((c.tc : Thread nD τ).loc main_arg23)) := by
  obtain ⟨B, hB, e⟩ := h
  rw [e]
  funext i
  obtain ⟨s, cc, z, rfl⟩ : ∃ (s : Fin 8000) (cc : Fin 7) (z : Fin 1), i = ix3 s cc z := ⟨i 0, i 1, i 2, eq_ix3 i⟩
  unfold tail3
  rw [tail7_apply, out3_8 m c B hB, Cert.Spec.lin_apply]
  rfl

/-- A final memory holds every argument array as launched. -/
theorem final_args {c : Dev nD} {s : MemSt nD τ sig (Elt Ideal)} (h : Final m c s) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19)
      ∧ s.mem ((c.tc : Thread nD τ).loc main_arg20) = m ((c.tc : Thread nD τ).loc main_arg20)
      ∧ s.mem ((c.tc : Thread nD τ).loc main_arg21) = m ((c.tc : Thread nD τ).loc main_arg21)
      ∧ s.mem ((c.tc : Thread nD τ).loc main_arg22) = m ((c.tc : Thread nD τ).loc main_arg22)
      ∧ s.mem ((c.tc : Thread nD τ).loc main_arg23) = m ((c.tc : Thread nD τ).loc main_arg23) := by
  obtain ⟨V, hI, hm⟩ := h
  have hU := final_untouched m hI
  exact ⟨(hm (Proc.devRef .tc main_arg0) (Finset.mem_filter.mpr ⟨StableHlo.devRef_mem_tcRefs main_arg0, by decide⟩)).trans (hU main_arg0 (by decide)),
    (hm (Proc.devRef .tc main_arg1) (Finset.mem_filter.mpr ⟨StableHlo.devRef_mem_tcRefs main_arg1, by decide⟩)).trans (hU main_arg1 (by decide)),
    (hm (Proc.devRef .tc main_arg2) (Finset.mem_filter.mpr ⟨StableHlo.devRef_mem_tcRefs main_arg2, by decide⟩)).trans (hU main_arg2 (by decide)),
    (hm (Proc.devRef .tc main_arg3) (Finset.mem_filter.mpr ⟨StableHlo.devRef_mem_tcRefs main_arg3, by decide⟩)).trans (hU main_arg3 (by decide)),
    (hm (Proc.devRef .tc main_arg4) (Finset.mem_filter.mpr ⟨StableHlo.devRef_mem_tcRefs main_arg4, by decide⟩)).trans (hU main_arg4 (by decide)),
    (hm (Proc.devRef .tc main_arg5) (Finset.mem_filter.mpr ⟨StableHlo.devRef_mem_tcRefs main_arg5, by decide⟩)).trans (hU main_arg5 (by decide)),
    (hm (Proc.devRef .tc main_arg6) (Finset.mem_filter.mpr ⟨StableHlo.devRef_mem_tcRefs main_arg6, by decide⟩)).trans (hU main_arg6 (by decide)),
    (hm (Proc.devRef .tc main_arg7) (Finset.mem_filter.mpr ⟨StableHlo.devRef_mem_tcRefs main_arg7, by decide⟩)).trans (hU main_arg7 (by decide)),
    (hm (Proc.devRef .tc main_arg8) (Finset.mem_filter.mpr ⟨StableHlo.devRef_mem_tcRefs main_arg8, by decide⟩)).trans (hU main_arg8 (by decide)),
    (hm (Proc.devRef .tc main_arg9) (Finset.mem_filter.mpr ⟨StableHlo.devRef_mem_tcRefs main_arg9, by decide⟩)).trans (hU main_arg9 (by decide)),
    (hm (Proc.devRef .tc main_arg10) (Finset.mem_filter.mpr ⟨StableHlo.devRef_mem_tcRefs main_arg10, by decide⟩)).trans (hU main_arg10 (by decide)),
    (hm (Proc.devRef .tc main_arg11) (Finset.mem_filter.mpr ⟨StableHlo.devRef_mem_tcRefs main_arg11, by decide⟩)).trans (hU main_arg11 (by decide)),
    (hm (Proc.devRef .tc main_arg12) (Finset.mem_filter.mpr ⟨StableHlo.devRef_mem_tcRefs main_arg12, by decide⟩)).trans (hU main_arg12 (by decide)),
    (hm (Proc.devRef .tc main_arg13) (Finset.mem_filter.mpr ⟨StableHlo.devRef_mem_tcRefs main_arg13, by decide⟩)).trans (hU main_arg13 (by decide)),
    (hm (Proc.devRef .tc main_arg14) (Finset.mem_filter.mpr ⟨StableHlo.devRef_mem_tcRefs main_arg14, by decide⟩)).trans (hU main_arg14 (by decide)),
    (hm (Proc.devRef .tc main_arg15) (Finset.mem_filter.mpr ⟨StableHlo.devRef_mem_tcRefs main_arg15, by decide⟩)).trans (hU main_arg15 (by decide)),
    (hm (Proc.devRef .tc main_arg16) (Finset.mem_filter.mpr ⟨StableHlo.devRef_mem_tcRefs main_arg16, by decide⟩)).trans (hU main_arg16 (by decide)),
    (hm (Proc.devRef .tc main_arg17) (Finset.mem_filter.mpr ⟨StableHlo.devRef_mem_tcRefs main_arg17, by decide⟩)).trans (hU main_arg17 (by decide)),
    (hm (Proc.devRef .tc main_arg18) (Finset.mem_filter.mpr ⟨StableHlo.devRef_mem_tcRefs main_arg18, by decide⟩)).trans (hU main_arg18 (by decide)),
    (hm (Proc.devRef .tc main_arg19) (Finset.mem_filter.mpr ⟨StableHlo.devRef_mem_tcRefs main_arg19, by decide⟩)).trans (hU main_arg19 (by decide)),
    (hm (Proc.devRef .tc main_arg20) (Finset.mem_filter.mpr ⟨StableHlo.devRef_mem_tcRefs main_arg20, by decide⟩)).trans (hU main_arg20 (by decide)),
    (hm (Proc.devRef .tc main_arg21) (Finset.mem_filter.mpr ⟨StableHlo.devRef_mem_tcRefs main_arg21, by decide⟩)).trans (hU main_arg21 (by decide)),
    (hm (Proc.devRef .tc main_arg22) (Finset.mem_filter.mpr ⟨StableHlo.devRef_mem_tcRefs main_arg22, by decide⟩)).trans (hU main_arg22 (by decide)),
    (hm (Proc.devRef .tc main_arg23) (Finset.mem_filter.mpr ⟨StableHlo.devRef_mem_tcRefs main_arg23, by decide⟩)).trans (hU main_arg23 (by decide))⟩

/-- A final memory holds result 0 at the weighted sums. -/
theorem final_res0 {c : Dev nD} {s : MemSt nD τ sig (Elt Ideal)} (h : Final m c s) :
    s.mem ((c.tc : Thread nD τ).loc main_v0_0) = Cert.Spec.lin 8000 1 128 (m ((c.tc : Thread nD τ).loc main_arg0)) (m ((c.tc : Thread nD τ).loc main_arg12)) := by
  obtain ⟨V, hI, hm⟩ := h
  obtain ⟨hU, hH0, hH1, hH2, hH3⟩ := hI
  exact (hm (Proc.devRef .tc main_v0_0) (Finset.mem_filter.mpr ⟨StableHlo.devRef_mem_tcRefs main_v0_0, by decide⟩)).trans (res0 m c V hH0.1)

/-- A final memory holds result 1 at the weighted sums. -/
theorem final_res1 {c : Dev nD} {s : MemSt nD τ sig (Elt Ideal)} (h : Final m c s) :
    s.mem ((c.tc : Thread nD τ).loc main_v0_1) = Cert.Spec.lin 8000 3 256 (m ((c.tc : Thread nD τ).loc main_arg1)) (m ((c.tc : Thread nD τ).loc main_arg13)) := by
  obtain ⟨V, hI, hm⟩ := h
  obtain ⟨hU, hH0, hH1, hH2, hH3⟩ := hI
  exact (hm (Proc.devRef .tc main_v0_1) (Finset.mem_filter.mpr ⟨StableHlo.devRef_mem_tcRefs main_v0_1, by decide⟩)).trans (res1 m c V hH1.1)

/-- A final memory holds result 2 at the weighted sums. -/
theorem final_res2 {c : Dev nD} {s : MemSt nD τ sig (Elt Ideal)} (h : Final m c s) :
    s.mem ((c.tc : Thread nD τ).loc main_v0_2) = Cert.Spec.lin 8000 5 512 (m ((c.tc : Thread nD τ).loc main_arg2)) (m ((c.tc : Thread nD τ).loc main_arg14)) := by
  obtain ⟨V, hI, hm⟩ := h
  obtain ⟨hU, hH0, hH1, hH2, hH3⟩ := hI
  exact (hm (Proc.devRef .tc main_v0_2) (Finset.mem_filter.mpr ⟨StableHlo.devRef_mem_tcRefs main_v0_2, by decide⟩)).trans (res2 m c V hH2.1)

/-- A final memory holds result 3 at the weighted sums. -/
theorem final_res3 {c : Dev nD} {s : MemSt nD τ sig (Elt Ideal)} (h : Final m c s) :
    s.mem ((c.tc : Thread nD τ).loc main_v0_3) = Cert.Spec.lin 8000 7 1024 (m ((c.tc : Thread nD τ).loc main_arg3)) (m ((c.tc : Thread nD τ).loc main_arg15)) := by
  obtain ⟨V, hI, hm⟩ := h
  obtain ⟨hU, hH0, hH1, hH2, hH3⟩ := hI
  exact (hm (Proc.devRef .tc main_v0_3) (Finset.mem_filter.mpr ⟨StableHlo.devRef_mem_tcRefs main_v0_3, by decide⟩)).trans (res3 m c V hH3.1)

/-- A final memory holds result 4 at the weighted sums. -/
theorem final_res4 {c : Dev nD} {s : MemSt nD τ sig (Elt Ideal)} (h : Final m c s) :
    s.mem ((c.tc : Thread nD τ).loc main_v0_4) = Cert.Spec.lin 8000 1 128 (m ((c.tc : Thread nD τ).loc main_arg4)) (m ((c.tc : Thread nD τ).loc main_arg16)) := by
  obtain ⟨V, hI, hm⟩ := h
  obtain ⟨hU, hH0, hH1, hH2, hH3⟩ := hI
  exact (hm (Proc.devRef .tc main_v0_4) (Finset.mem_filter.mpr ⟨StableHlo.devRef_mem_tcRefs main_v0_4, by decide⟩)).trans (res4 m c V hH0.2.1)

/-- A final memory holds result 5 at the weighted sums. -/
theorem final_res5 {c : Dev nD} {s : MemSt nD τ sig (Elt Ideal)} (h : Final m c s) :
    s.mem ((c.tc : Thread nD τ).loc main_v0_5) = Cert.Spec.lin 8000 3 256 (m ((c.tc : Thread nD τ).loc main_arg5)) (m ((c.tc : Thread nD τ).loc main_arg17)) := by
  obtain ⟨V, hI, hm⟩ := h
  obtain ⟨hU, hH0, hH1, hH2, hH3⟩ := hI
  exact (hm (Proc.devRef .tc main_v0_5) (Finset.mem_filter.mpr ⟨StableHlo.devRef_mem_tcRefs main_v0_5, by decide⟩)).trans (res5 m c V hH1.2.1)

/-- A final memory holds result 6 at the weighted sums. -/
theorem final_res6 {c : Dev nD} {s : MemSt nD τ sig (Elt Ideal)} (h : Final m c s) :
    s.mem ((c.tc : Thread nD τ).loc main_v0_6) = Cert.Spec.lin 8000 5 512 (m ((c.tc : Thread nD τ).loc main_arg6)) (m ((c.tc : Thread nD τ).loc main_arg18)) := by
  obtain ⟨V, hI, hm⟩ := h
  obtain ⟨hU, hH0, hH1, hH2, hH3⟩ := hI
  exact (hm (Proc.devRef .tc main_v0_6) (Finset.mem_filter.mpr ⟨StableHlo.devRef_mem_tcRefs main_v0_6, by decide⟩)).trans (res6 m c V hH2.2.1)

/-- A final memory holds result 7 at the weighted sums. -/
theorem final_res7 {c : Dev nD} {s : MemSt nD τ sig (Elt Ideal)} (h : Final m c s) :
    s.mem ((c.tc : Thread nD τ).loc main_v0_7) = Cert.Spec.lin 8000 7 1024 (m ((c.tc : Thread nD τ).loc main_arg7)) (m ((c.tc : Thread nD τ).loc main_arg19)) := by
  obtain ⟨V, hI, hm⟩ := h
  obtain ⟨hU, hH0, hH1, hH2, hH3⟩ := hI
  exact (hm (Proc.devRef .tc main_v0_7) (Finset.mem_filter.mpr ⟨StableHlo.devRef_mem_tcRefs main_v0_7, by decide⟩)).trans (res7 m c V hH3.2.1)

/-- A final memory holds result 8 at the weighted sums. -/
theorem final_res8 {c : Dev nD} {s : MemSt nD τ sig (Elt Ideal)} (h : Final m c s) :
    s.mem ((c.tc : Thread nD τ).loc main_v0_8) = Cert.Spec.lin 8000 1 128 (m ((c.tc : Thread nD τ).loc main_arg8)) (m ((c.tc : Thread nD τ).loc main_arg20)) := by
  obtain ⟨V, hI, hm⟩ := h
  obtain ⟨hU, hH0, hH1, hH2, hH3⟩ := hI
  exact (hm (Proc.devRef .tc main_v0_8) (Finset.mem_filter.mpr ⟨StableHlo.devRef_mem_tcRefs main_v0_8, by decide⟩)).trans (res8 m c V hH0.2.2)

/-- A final memory holds result 9 at the weighted sums. -/
theorem final_res9 {c : Dev nD} {s : MemSt nD τ sig (Elt Ideal)} (h : Final m c s) :
    s.mem ((c.tc : Thread nD τ).loc main_v0_9) = Cert.Spec.lin 8000 3 256 (m ((c.tc : Thread nD τ).loc main_arg9)) (m ((c.tc : Thread nD τ).loc main_arg21)) := by
  obtain ⟨V, hI, hm⟩ := h
  obtain ⟨hU, hH0, hH1, hH2, hH3⟩ := hI
  exact (hm (Proc.devRef .tc main_v0_9) (Finset.mem_filter.mpr ⟨StableHlo.devRef_mem_tcRefs main_v0_9, by decide⟩)).trans (res9 m c V hH1.2.2)

/-- A final memory holds result 10 at the weighted sums. -/
theorem final_res10 {c : Dev nD} {s : MemSt nD τ sig (Elt Ideal)} (h : Final m c s) :
    s.mem ((c.tc : Thread nD τ).loc main_v0_10) = Cert.Spec.lin 8000 5 512 (m ((c.tc : Thread nD τ).loc main_arg10)) (m ((c.tc : Thread nD τ).loc main_arg22)) := by
  obtain ⟨V, hI, hm⟩ := h
  obtain ⟨hU, hH0, hH1, hH2, hH3⟩ := hI
  exact (hm (Proc.devRef .tc main_v0_10) (Finset.mem_filter.mpr ⟨StableHlo.devRef_mem_tcRefs main_v0_10, by decide⟩)).trans (res10 m c V hH2.2.2)

/-- A final memory holds result 11 at the weighted sums. -/
theorem final_res11 {c : Dev nD} {s : MemSt nD τ sig (Elt Ideal)} (h : Final m c s) :
    s.mem ((c.tc : Thread nD τ).loc main_v0_11) = Cert.Spec.lin 8000 7 1024 (m ((c.tc : Thread nD τ).loc main_arg11)) (m ((c.tc : Thread nD τ).loc main_arg23)) := by
  obtain ⟨V, hI, hm⟩ := h
  obtain ⟨hU, hH0, hH1, hH2, hH3⟩ := hI
  exact (hm (Proc.devRef .tc main_v0_11) (Finset.mem_filter.mpr ⟨StableHlo.devRef_mem_tcRefs main_v0_11, by decide⟩)).trans (res11 m c V hH3.2.2)

/-- Every weakly fair execution of the idealized kernel program terminates, nothing faulting, with each result the
    weighted sums of its data array against its weight row, and every argument array as launched. -/
theorem results : θ_run defs (onTc (τ := τ) (main (F := Ideal))) ⟨m, fun _ => 0, ρ⟩ (fun r => ∀ c : Dev nD,
      r.2.mem ((c.tc : Thread nD τ).loc main_v0_0) = Cert.Spec.lin 8000 1 128 (m ((c.tc : Thread nD τ).loc main_arg0)) (m ((c.tc : Thread nD τ).loc main_arg12))
      ∧ r.2.mem ((c.tc : Thread nD τ).loc main_v0_1) = Cert.Spec.lin 8000 3 256 (m ((c.tc : Thread nD τ).loc main_arg1)) (m ((c.tc : Thread nD τ).loc main_arg13))
      ∧ r.2.mem ((c.tc : Thread nD τ).loc main_v0_2) = Cert.Spec.lin 8000 5 512 (m ((c.tc : Thread nD τ).loc main_arg2)) (m ((c.tc : Thread nD τ).loc main_arg14))
      ∧ r.2.mem ((c.tc : Thread nD τ).loc main_v0_3) = Cert.Spec.lin 8000 7 1024 (m ((c.tc : Thread nD τ).loc main_arg3)) (m ((c.tc : Thread nD τ).loc main_arg15))
      ∧ r.2.mem ((c.tc : Thread nD τ).loc main_v0_4) = Cert.Spec.lin 8000 1 128 (m ((c.tc : Thread nD τ).loc main_arg4)) (m ((c.tc : Thread nD τ).loc main_arg16))
      ∧ r.2.mem ((c.tc : Thread nD τ).loc main_v0_5) = Cert.Spec.lin 8000 3 256 (m ((c.tc : Thread nD τ).loc main_arg5)) (m ((c.tc : Thread nD τ).loc main_arg17))
      ∧ r.2.mem ((c.tc : Thread nD τ).loc main_v0_6) = Cert.Spec.lin 8000 5 512 (m ((c.tc : Thread nD τ).loc main_arg6)) (m ((c.tc : Thread nD τ).loc main_arg18))
      ∧ r.2.mem ((c.tc : Thread nD τ).loc main_v0_7) = Cert.Spec.lin 8000 7 1024 (m ((c.tc : Thread nD τ).loc main_arg7)) (m ((c.tc : Thread nD τ).loc main_arg19))
      ∧ r.2.mem ((c.tc : Thread nD τ).loc main_v0_8) = Cert.Spec.lin 8000 1 128 (m ((c.tc : Thread nD τ).loc main_arg8)) (m ((c.tc : Thread nD τ).loc main_arg20))
      ∧ r.2.mem ((c.tc : Thread nD τ).loc main_v0_9) = Cert.Spec.lin 8000 3 256 (m ((c.tc : Thread nD τ).loc main_arg9)) (m ((c.tc : Thread nD τ).loc main_arg21))
      ∧ r.2.mem ((c.tc : Thread nD τ).loc main_v0_10) = Cert.Spec.lin 8000 5 512 (m ((c.tc : Thread nD τ).loc main_arg10)) (m ((c.tc : Thread nD τ).loc main_arg22))
      ∧ r.2.mem ((c.tc : Thread nD τ).loc main_v0_11) = Cert.Spec.lin 8000 7 1024 (m ((c.tc : Thread nD τ).loc main_arg11)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨final_res0 m (h c), final_res1 m (h c), final_res2 m (h c), final_res3 m (h c), final_res4 m (h c), final_res5 m (h c), final_res6 m (h c), final_res7 m (h c), final_res8 m (h c), final_res9 m (h c), final_res10 m (h c), final_res11 m (h c), final_args m (h c)⟩) (run_main m ρ)

end Cert.KernelIdeal.Hand

end
-- ==== Proof.RefValueLin.lean ====
/-
  Each result of the reference program, as a function of its two arguments, is the weighted sum along the last
  axis: the contraction's element at (s, c, 0) is the sum over p of x(s, c, p) * w(0, p), and the one coordinate of
  the size-one output axis is 0.
-/
import proofs.«177139_j56324201120475_2_alg».proof.Proof.Gen.ReferenceIdeal.Read
import proofs.«177139_j56324201120475_2_alg».proof.Proof.Spec

noncomputable section

namespace Cert.RefValue

open Cert.ReferenceIdeal Idealize.ShloMosaic Idealize.ShloMosaic.ValueIdx Idealize.SL.Sem

variable [Cert.ReferenceIdeal.Facts]

/-- Result 0: the contraction of an [8000, 1, 128] array with a [1, 128] row over the last axis is the weighted sum. -/
theorem lin_v0 (x : (⟨S8000x1x128, .f32⟩ : BufTy).Contents (Elt Ideal)) (w : (⟨S1x128, .f32⟩ : BufTy).Contents (Elt Ideal)) :
    Read.val_main_v0 (F := Ideal) x w = Cert.Spec.lin 8000 1 128 x w := by
  funext i
  rw [Read.val_main_v0_apply]
  show _ = ∑ p : Fin 128, x (ix3 (i 0) (i 1) p) * w (ix2 (0 : Fin 1) p)
  refine Finset.sum_congr rfl fun k _ => ?_
  have el : Read.lidx_main_v0 i k = ix3 (i 0) (i 1) k :=
    funext fun a => by match a with | ⟨0, _⟩ => rfl | ⟨1, _⟩ => rfl | ⟨2, _⟩ => rfl
  have er : Read.ridx_main_v0 i k = ix2 (0 : Fin 1) k :=
    funext fun a => by
      match a with
      | ⟨0, _⟩ => exact Fin.ext (Nat.lt_one_iff.mp (i 2).isLt)
      | ⟨1, _⟩ => rfl
  rw [el, er]
  rfl

/-- Result 1: the contraction of an [8000, 3, 256] array with a [1, 256] row over the last axis is the weighted sum. -/
theorem lin_v1 (x : (⟨S8000x3x256, .f32⟩ : BufTy).Contents (Elt Ideal)) (w : (⟨S1x256, .f32⟩ : BufTy).Contents (Elt Ideal)) :
    Read.val_main_v1 (F := Ideal) x w = Cert.Spec.lin 8000 3 256 x w := by
  funext i
  rw [Read.val_main_v1_apply]
  show _ = ∑ p : Fin 256, x (ix3 (i 0) (i 1) p) * w (ix2 (0 : Fin 1) p)
  refine Finset.sum_congr rfl fun k _ => ?_
  have el : Read.lidx_main_v1 i k = ix3 (i 0) (i 1) k :=
    funext fun a => by match a with | ⟨0, _⟩ => rfl | ⟨1, _⟩ => rfl | ⟨2, _⟩ => rfl
  have er : Read.ridx_main_v1 i k = ix2 (0 : Fin 1) k :=
    funext fun a => by
      match a with
      | ⟨0, _⟩ => exact Fin.ext (Nat.lt_one_iff.mp (i 2).isLt)
      | ⟨1, _⟩ => rfl
  rw [el, er]
  rfl

/-- Result 2: the contraction of an [8000, 5, 512] array with a [1, 512] row over the last axis is the weighted sum. -/
theorem lin_v2 (x : (⟨S8000x5x512, .f32⟩ : BufTy).Contents (Elt Ideal)) (w : (⟨S1x512, .f32⟩ : BufTy).Contents (Elt Ideal)) :
    Read.val_main_v2 (F := Ideal) x w = Cert.Spec.lin 8000 5 512 x w := by
  funext i
  rw [Read.val_main_v2_apply]
  show _ = ∑ p : Fin 512, x (ix3 (i 0) (i 1) p) * w (ix2 (0 : Fin 1) p)
  refine Finset.sum_congr rfl fun k _ => ?_
  have el : Read.lidx_main_v2 i k = ix3 (i 0) (i 1) k :=
    funext fun a => by match a with | ⟨0, _⟩ => rfl | ⟨1, _⟩ => rfl | ⟨2, _⟩ => rfl
  have er : Read.ridx_main_v2 i k = ix2 (0 : Fin 1) k :=
    funext fun a => by
      match a with
      | ⟨0, _⟩ => exact Fin.ext (Nat.lt_one_iff.mp (i 2).isLt)
      | ⟨1, _⟩ => rfl
  rw [el, er]
  rfl

/-- Result 3: the contraction of an [8000, 7, 1024] array with a [1, 1024] row over the last axis is the weighted sum. -/
theorem lin_v3 (x : (⟨S8000x7x1024, .f32⟩ : BufTy).Contents (Elt Ideal)) (w : (⟨S1x1024, .f32⟩ : BufTy).Contents (Elt Ideal)) :
    Read.val_main_v3 (F := Ideal) x w = Cert.Spec.lin 8000 7 1024 x w := by
  funext i
  rw [Read.val_main_v3_apply]
  show _ = ∑ p : Fin 1024, x (ix3 (i 0) (i 1) p) * w (ix2 (0 : Fin 1) p)
  refine Finset.sum_congr rfl fun k _ => ?_
  have el : Read.lidx_main_v3 i k = ix3 (i 0) (i 1) k :=
    funext fun a => by match a with | ⟨0, _⟩ => rfl | ⟨1, _⟩ => rfl | ⟨2, _⟩ => rfl
  have er : Read.ridx_main_v3 i k = ix2 (0 : Fin 1) k :=
    funext fun a => by
      match a with
      | ⟨0, _⟩ => exact Fin.ext (Nat.lt_one_iff.mp (i 2).isLt)
      | ⟨1, _⟩ => rfl
  rw [el, er]
  rfl

/-- Result 4: the contraction of an [8000, 1, 128] array with a [1, 128] row over the last axis is the weighted sum. -/
theorem lin_v4 (x : (⟨S8000x1x128, .f32⟩ : BufTy).Contents (Elt Ideal)) (w : (⟨S1x128, .f32⟩ : BufTy).Contents (Elt Ideal)) :
    Read.val_main_v4 (F := Ideal) x w = Cert.Spec.lin 8000 1 128 x w := by
  funext i
  rw [Read.val_main_v4_apply]
  show _ = ∑ p : Fin 128, x (ix3 (i 0) (i 1) p) * w (ix2 (0 : Fin 1) p)
  refine Finset.sum_congr rfl fun k _ => ?_
  have el : Read.lidx_main_v4 i k = ix3 (i 0) (i 1) k :=
    funext fun a => by match a with | ⟨0, _⟩ => rfl | ⟨1, _⟩ => rfl | ⟨2, _⟩ => rfl
  have er : Read.ridx_main_v4 i k = ix2 (0 : Fin 1) k :=
    funext fun a => by
      match a with
      | ⟨0, _⟩ => exact Fin.ext (Nat.lt_one_iff.mp (i 2).isLt)
      | ⟨1, _⟩ => rfl
  rw [el, er]
  rfl

/-- Result 5: the contraction of an [8000, 3, 256] array with a [1, 256] row over the last axis is the weighted sum. -/
theorem lin_v5 (x : (⟨S8000x3x256, .f32⟩ : BufTy).Contents (Elt Ideal)) (w : (⟨S1x256, .f32⟩ : BufTy).Contents (Elt Ideal)) :
    Read.val_main_v5 (F := Ideal) x w = Cert.Spec.lin 8000 3 256 x w := by
  funext i
  rw [Read.val_main_v5_apply]
  show _ = ∑ p : Fin 256, x (ix3 (i 0) (i 1) p) * w (ix2 (0 : Fin 1) p)
  refine Finset.sum_congr rfl fun k _ => ?_
  have el : Read.lidx_main_v5 i k = ix3 (i 0) (i 1) k :=
    funext fun a => by match a with | ⟨0, _⟩ => rfl | ⟨1, _⟩ => rfl | ⟨2, _⟩ => rfl
  have er : Read.ridx_main_v5 i k = ix2 (0 : Fin 1) k :=
    funext fun a => by
      match a with
      | ⟨0, _⟩ => exact Fin.ext (Nat.lt_one_iff.mp (i 2).isLt)
      | ⟨1, _⟩ => rfl
  rw [el, er]
  rfl

/-- Result 6: the contraction of an [8000, 5, 512] array with a [1, 512] row over the last axis is the weighted sum. -/
theorem lin_v6 (x : (⟨S8000x5x512, .f32⟩ : BufTy).Contents (Elt Ideal)) (w : (⟨S1x512, .f32⟩ : BufTy).Contents (Elt Ideal)) :
    Read.val_main_v6 (F := Ideal) x w = Cert.Spec.lin 8000 5 512 x w := by
  funext i
  rw [Read.val_main_v6_apply]
  show _ = ∑ p : Fin 512, x (ix3 (i 0) (i 1) p) * w (ix2 (0 : Fin 1) p)
  refine Finset.sum_congr rfl fun k _ => ?_
  have el : Read.lidx_main_v6 i k = ix3 (i 0) (i 1) k :=
    funext fun a => by match a with | ⟨0, _⟩ => rfl | ⟨1, _⟩ => rfl | ⟨2, _⟩ => rfl
  have er : Read.ridx_main_v6 i k = ix2 (0 : Fin 1) k :=
    funext fun a => by
      match a with
      | ⟨0, _⟩ => exact Fin.ext (Nat.lt_one_iff.mp (i 2).isLt)
      | ⟨1, _⟩ => rfl
  rw [el, er]
  rfl

/-- Result 7: the contraction of an [8000, 7, 1024] array with a [1, 1024] row over the last axis is the weighted sum. -/
theorem lin_v7 (x : (⟨S8000x7x1024, .f32⟩ : BufTy).Contents (Elt Ideal)) (w : (⟨S1x1024, .f32⟩ : BufTy).Contents (Elt Ideal)) :
    Read.val_main_v7 (F := Ideal) x w = Cert.Spec.lin 8000 7 1024 x w := by
  funext i
  rw [Read.val_main_v7_apply]
  show _ = ∑ p : Fin 1024, x (ix3 (i 0) (i 1) p) * w (ix2 (0 : Fin 1) p)
  refine Finset.sum_congr rfl fun k _ => ?_
  have el : Read.lidx_main_v7 i k = ix3 (i 0) (i 1) k :=
    funext fun a => by match a with | ⟨0, _⟩ => rfl | ⟨1, _⟩ => rfl | ⟨2, _⟩ => rfl
  have er : Read.ridx_main_v7 i k = ix2 (0 : Fin 1) k :=
    funext fun a => by
      match a with
      | ⟨0, _⟩ => exact Fin.ext (Nat.lt_one_iff.mp (i 2).isLt)
      | ⟨1, _⟩ => rfl
  rw [el, er]
  rfl

/-- Result 8: the contraction of an [8000, 1, 128] array with a [1, 128] row over the last axis is the weighted sum. -/
theorem lin_v8 (x : (⟨S8000x1x128, .f32⟩ : BufTy).Contents (Elt Ideal)) (w : (⟨S1x128, .f32⟩ : BufTy).Contents (Elt Ideal)) :
    Read.val_main_v8 (F := Ideal) x w = Cert.Spec.lin 8000 1 128 x w := by
  funext i
  rw [Read.val_main_v8_apply]
  show _ = ∑ p : Fin 128, x (ix3 (i 0) (i 1) p) * w (ix2 (0 : Fin 1) p)
  refine Finset.sum_congr rfl fun k _ => ?_
  have el : Read.lidx_main_v8 i k = ix3 (i 0) (i 1) k :=
    funext fun a => by match a with | ⟨0, _⟩ => rfl | ⟨1, _⟩ => rfl | ⟨2, _⟩ => rfl
  have er : Read.ridx_main_v8 i k = ix2 (0 : Fin 1) k :=
    funext fun a => by
      match a with
      | ⟨0, _⟩ => exact Fin.ext (Nat.lt_one_iff.mp (i 2).isLt)
      | ⟨1, _⟩ => rfl
  rw [el, er]
  rfl

/-- Result 9: the contraction of an [8000, 3, 256] array with a [1, 256] row over the last axis is the weighted sum. -/
theorem lin_v9 (x : (⟨S8000x3x256, .f32⟩ : BufTy).Contents (Elt Ideal)) (w : (⟨S1x256, .f32⟩ : BufTy).Contents (Elt Ideal)) :
    Read.val_main_v9 (F := Ideal) x w = Cert.Spec.lin 8000 3 256 x w := by
  funext i
  rw [Read.val_main_v9_apply]
  show _ = ∑ p : Fin 256, x (ix3 (i 0) (i 1) p) * w (ix2 (0 : Fin 1) p)
  refine Finset.sum_congr rfl fun k _ => ?_
  have el : Read.lidx_main_v9 i k = ix3 (i 0) (i 1) k :=
    funext fun a => by match a with | ⟨0, _⟩ => rfl | ⟨1, _⟩ => rfl | ⟨2, _⟩ => rfl
  have er : Read.ridx_main_v9 i k = ix2 (0 : Fin 1) k :=
    funext fun a => by
      match a with
      | ⟨0, _⟩ => exact Fin.ext (Nat.lt_one_iff.mp (i 2).isLt)
      | ⟨1, _⟩ => rfl
  rw [el, er]
  rfl

/-- Result 10: the contraction of an [8000, 5, 512] array with a [1, 512] row over the last axis is the weighted sum. -/
theorem lin_v10 (x : (⟨S8000x5x512, .f32⟩ : BufTy).Contents (Elt Ideal)) (w : (⟨S1x512, .f32⟩ : BufTy).Contents (Elt Ideal)) :
    Read.val_main_v10 (F := Ideal) x w = Cert.Spec.lin 8000 5 512 x w := by
  funext i
  rw [Read.val_main_v10_apply]
  show _ = ∑ p : Fin 512, x (ix3 (i 0) (i 1) p) * w (ix2 (0 : Fin 1) p)
  refine Finset.sum_congr rfl fun k _ => ?_
  have el : Read.lidx_main_v10 i k = ix3 (i 0) (i 1) k :=
    funext fun a => by match a with | ⟨0, _⟩ => rfl | ⟨1, _⟩ => rfl | ⟨2, _⟩ => rfl
  have er : Read.ridx_main_v10 i k = ix2 (0 : Fin 1) k :=
    funext fun a => by
      match a with
      | ⟨0, _⟩ => exact Fin.ext (Nat.lt_one_iff.mp (i 2).isLt)
      | ⟨1, _⟩ => rfl
  rw [el, er]
  rfl

/-- Result 11: the contraction of an [8000, 7, 1024] array with a [1, 1024] row over the last axis is the weighted sum. -/
theorem lin_v11 (x : (⟨S8000x7x1024, .f32⟩ : BufTy).Contents (Elt Ideal)) (w : (⟨S1x1024, .f32⟩ : BufTy).Contents (Elt Ideal)) :
    Read.val_main_v11 (F := Ideal) x w = Cert.Spec.lin 8000 7 1024 x w := by
  funext i
  rw [Read.val_main_v11_apply]
  show _ = ∑ p : Fin 1024, x (ix3 (i 0) (i 1) p) * w (ix2 (0 : Fin 1) p)
  refine Finset.sum_congr rfl fun k _ => ?_
  have el : Read.lidx_main_v11 i k = ix3 (i 0) (i 1) k :=
    funext fun a => by match a with | ⟨0, _⟩ => rfl | ⟨1, _⟩ => rfl | ⟨2, _⟩ => rfl
  have er : Read.ridx_main_v11 i k = ix2 (0 : Fin 1) k :=
    funext fun a => by
      match a with
      | ⟨0, _⟩ => exact Fin.ext (Nat.lt_one_iff.mp (i 2).isLt)
      | ⟨1, _⟩ => rfl
  rw [el, er]
  rfl

end Cert.RefValue

end
-- ==== Proof.RefValue.lean ====
/-
  The reference program's run, with each result stated as the weighted sum along the last axis.
-/
import proofs.«177139_j56324201120475_2_alg».proof.Proof.Gen.ReferenceIdeal.Read
import proofs.«177139_j56324201120475_2_alg».proof.Proof.Spec
import proofs.«177139_j56324201120475_2_alg».proof.Proof.RefValueLin

noncomputable section

namespace Cert.RefValue

open Cert.ReferenceIdeal Idealize.ShloMosaic.TcCoe Idealize.ShloMosaic Idealize.ShloMosaic.ValueIdx Idealize.SL.Sem

variable [Cert.ReferenceIdeal.Facts]

/-- On every device, from any memory with zero counters: every weakly fair execution of the reference program
    terminates with each result the weighted sum, along the last axis, of its array argument against its weight
    row, and the arguments unchanged. -/
theorem run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v0) = Cert.Spec.lin 8000 1 128 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg12))
      ∧ r.2.mem ((c.tc : Thread Cert.ReferenceIdeal.nD Cert.ReferenceIdeal.τ).loc Cert.ReferenceIdeal.main_v1) = Cert.Spec.lin 8000 3 256 (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v2) = Cert.Spec.lin 8000 5 512 (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg14))
      ∧ r.2.mem ((c.tc : Thread Cert.ReferenceIdeal.nD Cert.ReferenceIdeal.τ).loc Cert.ReferenceIdeal.main_v3) = Cert.Spec.lin 8000 7 1024 (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg15))
      ∧ r.2.mem ((c.tc : Thread Cert.ReferenceIdeal.nD Cert.ReferenceIdeal.τ).loc Cert.ReferenceIdeal.main_v4) = Cert.Spec.lin 8000 1 128 (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg16))
      ∧ r.2.mem ((c.tc : Thread Cert.ReferenceIdeal.nD Cert.ReferenceIdeal.τ).loc Cert.ReferenceIdeal.main_v5) = Cert.Spec.lin 8000 3 256 (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_v6) = Cert.Spec.lin 8000 5 512 (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg18))
      ∧ r.2.mem ((c.tc : Thread Cert.ReferenceIdeal.nD Cert.ReferenceIdeal.τ).loc Cert.ReferenceIdeal.main_v7) = Cert.Spec.lin 8000 7 1024 (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg19))
      ∧ r.2.mem ((c.tc : Thread Cert.ReferenceIdeal.nD Cert.ReferenceIdeal.τ).loc Cert.ReferenceIdeal.main_v8) = Cert.Spec.lin 8000 1 128 (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg20))
      ∧ r.2.mem ((c.tc : Thread Cert.ReferenceIdeal.nD Cert.ReferenceIdeal.τ).loc Cert.ReferenceIdeal.main_v9) = Cert.Spec.lin 8000 3 256 (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg21))
      ∧ r.2.mem ((c.tc : Thread Cert.ReferenceIdeal.nD Cert.ReferenceIdeal.τ).loc Cert.ReferenceIdeal.main_v10) = Cert.Spec.lin 8000 5 512 (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg22))
      ∧ r.2.mem ((c.tc : Thread Cert.ReferenceIdeal.nD Cert.ReferenceIdeal.τ).loc Cert.ReferenceIdeal.main_v11) = Cert.Spec.lin 8000 7 1024 (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg23))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)) :=
  (θ_run _ _ _).mono (fun _ h c => by
    obtain ⟨h0, h1, h2, h3, h4, h5, h6, h7, h8, h9, h10, h11, hargs⟩ := h c
    exact ⟨h0.trans ((Read.val_main_v0_eq _ _).trans (lin_v0 _ _)),
      h1.trans ((Read.val_main_v1_eq _ _).trans (lin_v1 _ _)),
      h2.trans ((Read.val_main_v2_eq _ _).trans (lin_v2 _ _)),
      h3.trans ((Read.val_main_v3_eq _ _).trans (lin_v3 _ _)),
      h4.trans ((Read.val_main_v4_eq _ _).trans (lin_v4 _ _)),
      h5.trans ((Read.val_main_v5_eq _ _).trans (lin_v5 _ _)),
      h6.trans ((Read.val_main_v6_eq _ _).trans (lin_v6 _ _)),
      h7.trans ((Read.val_main_v7_eq _ _).trans (lin_v7 _ _)),
      h8.trans ((Read.val_main_v8_eq _ _).trans (lin_v8 _ _)),
      h9.trans ((Read.val_main_v9_eq _ _).trans (lin_v9 _ _)),
      h10.trans ((Read.val_main_v10_eq _ _).trans (lin_v10 _ _)),
      h11.trans ((Read.val_main_v11_eq _ _).trans (lin_v11 _ _)),
      hargs⟩)
    (Cert.ReferenceIdeal.Value.run m g)

end Cert.RefValue

end
-- ==== Proof.lean ====
/-
  Twelve independent blocks, block i holding a data array x_i of shape [8000, C, P] and a weight row w_i of shape
  [1, P]; the result for block i has shape [8000, C, 1] and entry (s, c, 0) equal to the sum over p of
  x_i(s, c, p) * w_i(0, p).

  The kernel program computes them in four pipelined regions, three blocks of one shape at a time: a region walks the
  8000 samples in tiles of T (1024, 1024, 512 or 256), multiplies each tile by the broadcast weight row, sums along the
  last axis and stores the transposed [C, T] tile into a [C, 8000] result array; the host then transposes each result
  array back and gives it its trailing unit axis. The last tile of every region overhangs the arrays (T does not divide
  8000): its fetch fills only the columns inside the array and its write-back writes only those back, and since the
  weighted sum for sample s reads row s of the tile only, what lies past the array never reaches a result. The
  reference computes each block as one contraction over p.

  On the extended reals both are the same finite sum of products, entry by entry: no law beyond commutativity of the
  product and reindexing of the sum is used, so the precondition is never opened.

  The frames: each kernel program runs to the end as its four regions and four host stretches in order; no item writes
  an argument array. The body of a region leaves its three result tiles as functions of what the fetches left in the
  staging buffers, whatever filled them past the arrays, which is all the word-level program's frame needs (at words the
  lane sum is not known to read one row only). The reference's frame is its run with the results dropped.
-/
import proofs.«177139_j56324201120475_2_alg».proof.Defs
import proofs.«177139_j56324201120475_2_alg».proof.Proof.Gen.Kernel
import proofs.«177139_j56324201120475_2_alg».proof.Proof.Gen.KernelIdeal
import proofs.«177139_j56324201120475_2_alg».proof.Proof.Gen.ReferenceIdeal
import proofs.«177139_j56324201120475_2_alg».proof.Proof.Gen.Pre_finite_inputs
import proofs.«177139_j56324201120475_2_alg».proof.Proof.BitsFrame
import proofs.«177139_j56324201120475_2_alg».proof.Proof.IdealValue
import proofs.«177139_j56324201120475_2_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Hand.frame (F := Bits) m ρ

/-- The idealized kernel program runs and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference runs and leaves its arguments as launched: its run with the twelve results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2.2.2.2.2.2.2.2)
    (@Cert.RefValue.run Cert.ReferenceIdeal.Gen.facts m ρ)

/-- Run from memories that agree on the arguments, the two idealized programs end with equal results: both are the
    weighted sums of the same arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, _, _, _, _, _, _, _, _, Cert.KernelIdeal.Hand.results m ρ, ?_⟩
  refine (θ_run Cert.ReferenceIdeal.defs _ _).mono (fun r h c => ?_) (@Cert.RefValue.run Cert.ReferenceIdeal.Gen.facts m' ρ')
  obtain ⟨a0, a1, a2, a3, a4, a5, a6, a7, a8, a9, a10, a11, a12, a13, a14, a15, a16, a17, a18, a19, a20, a21, a22, a23⟩ := hagree c
  obtain ⟨r0, r1, r2, r3, r4, r5, r6, r7, r8, r9, r10, r11, hargs⟩ := h c
  exact ⟨r0.trans (congrArg₂ (Cert.Spec.lin 8000 1 128) a0 a12),
      r1.trans (congrArg₂ (Cert.Spec.lin 8000 3 256) a1 a13),
      r2.trans (congrArg₂ (Cert.Spec.lin 8000 5 512) a2 a14),
      r3.trans (congrArg₂ (Cert.Spec.lin 8000 7 1024) a3 a15),
      r4.trans (congrArg₂ (Cert.Spec.lin 8000 1 128) a4 a16),
      r5.trans (congrArg₂ (Cert.Spec.lin 8000 3 256) a5 a17),
      r6.trans (congrArg₂ (Cert.Spec.lin 8000 5 512) a6 a18),
      r7.trans (congrArg₂ (Cert.Spec.lin 8000 7 1024) a7 a19),
      r8.trans (congrArg₂ (Cert.Spec.lin 8000 1 128) a8 a20),
      r9.trans (congrArg₂ (Cert.Spec.lin 8000 3 256) a9 a21),
      r10.trans (congrArg₂ (Cert.Spec.lin 8000 5 512) a10 a22),
      r11.trans (congrArg₂ (Cert.Spec.lin 8000 7 1024) a11 a23),
      hargs⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
